-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512x8 : Shape := ⟨3, ![2048, 512, 8]⟩
abbrev S512x128 : Shape := ⟨2, ![512, 128]⟩
abbrev S128 : Shape := ⟨1, ![128]⟩
abbrev S128x3x8x8 : Shape := ⟨4, ![128, 3, 8, 8]⟩
abbrev S128x8 : Shape := ⟨2, ![128, 8]⟩
abbrev S_ : Shape := ⟨0, ![]⟩

class Facts : Prop where
  bcast_S_S2048x512x8 : S_.BroadcastsInDim S2048x512x8 (![] : Fin 0 → Fin S2048x512x8.rank)
  reducesTo_S2048x512x8_S_d0_1_2 : S2048x512x8.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x3x8x8 : S_.BroadcastsInDim S128x3x8x8 (![] : Fin 0 → Fin S128x3x8x8.rank)
  reducesTo_S128x3x8x8_S_d0_1_2_3 : S128x3x8x8.ReducesTo [0, 1, 2, 3] S_
  bcast_S_S128x8 : S_.BroadcastsInDim S128x8 (![] : Fin 0 → Fin S128x8.rank)
  reducesTo_S128x8_S_d0_1 : S128x8.ReducesTo [0, 1] S_

variable [Facts]

def fn_part1 {F : FTy → Type} [FloatOps F] (main_arg4 : FVec F S128x3x8x8 .f32) (main_arg5 : FVec F S128x8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x3x8x8 .f32 := Host.absf main_arg4
  let main_cst_6 : FVec F S_ .f32 := constant S_ .f32 0x7F800000#32
  let main_v20 : FVec F S128x3x8x8 .f32 := broadcastInDim S128x3x8x8 ![] bcast_S_S128x3x8x8 main_cst_6
  let main_v21 : IVec S128x3x8x8 1 := cmpf .olt main_v19 main_v20
  let main_c_7 : IVec S_ 1 := constantI S_ 1 1#1
  let main_v22 : IVec S_ 1 := (fun x v => Host.reduce IntOp.andi x v reducesTo_S128x3x8x8_S_d0_1_2_3 h_S_) main_v21 main_c_7
  let main_v23 : IVec S_ 1 := andi main_v18 main_v22
  let main_v24 : FVec F S128x8 .f32 := Host.absf main_arg5
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  main_v28

def fn {F : FTy → Type} [FloatOps F] (main_arg0 : FVec F S2048x512x8 .f32) (main_arg1 : FVec F S512x128 .f32) (main_arg2 : FVec F S128 .f32) (main_arg3 : FVec F S128 .f32) (main_arg4 : FVec F S128x3x8x8 .f32) (main_arg5 : FVec F S128x8 .f32) : IVec S_ 1 :=
  let main_v0 : FVec F S2048x512x8 .f32 := Host.absf main_arg0
  let main_cst : FVec F S_ .f32 := constant S_ .f32 0x7F800000#32
  let main_v1 : FVec F S2048x512x8 .f32 := broadcastInDim S2048x512x8 ![] bcast_S_S2048x512x8 main_cst
  let main_v2 : IVec S2048x512x8 1 := cmpf .olt main_v0 main_v1
  let main_c : IVec S_ 1 := constantI S_ 1 1#1
  let main_v3 : IVec S_ 1 := (fun x v => Host.reduce IntOp.andi x v reducesTo_S2048x512x8_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S2048x512x8 : Shape := ⟨3, ![2048, 512, 8]⟩
abbrev S512x128 : Shape := ⟨2, ![512, 128]⟩
abbrev S128 : Shape := ⟨1, ![128]⟩
abbrev S128x3x8x8 : Shape := ⟨4, ![128, 3, 8, 8]⟩
abbrev S128x8 : Shape := ⟨2, ![128, 8]⟩
abbrev S128x192 : Shape := ⟨2, ![128, 192]⟩
abbrev S128x200 : Shape := ⟨2, ![128, 200]⟩
abbrev S200x128 : Shape := ⟨2, ![200, 128]⟩
abbrev S1x128 : Shape := ⟨2, ![1, 128]⟩
abbrev S512x1024 : Shape := ⟨2, ![512, 1024]⟩
abbrev S200x512 : Shape := ⟨2, ![200, 512]⟩
abbrev S512 : Shape := ⟨1, ![512]⟩
abbrev S512x1 : Shape := ⟨2, ![512, 1]⟩
abbrev S512x512 : Shape := ⟨2, ![512, 512]⟩
abbrev S8x2048x512 : Shape := ⟨3, ![8, 2048, 512]⟩
abbrev S8x64x512 : Shape := ⟨3, ![8, 64, 512]⟩
abbrev S1x512 : Shape := ⟨2, ![1, 512]⟩
abbrev S1x64x512 : Shape := ⟨3, ![1, 64, 512]⟩
abbrev S64x512 : Shape := ⟨2, ![64, 512]⟩

abbrev nBuf : Space → Nat
  | .hbm => 16
  | .vmem => 12
  | .smem => 0
  | _ => 0

abbrev bufTy : (tb : Table) → Fin (tcTables nBuf tb) → BufTy
  | .hbm, ⟨0, _⟩ => ⟨S2048x512x8, .f32⟩
  | .hbm, ⟨1, _⟩ => ⟨S512x128, .f32⟩
  | .hbm, ⟨2, _⟩ => ⟨S128, .f32⟩
  | .hbm, ⟨3, _⟩ => ⟨S128, .f32⟩
  | .hbm, ⟨4, _⟩ => ⟨S128x3x8x8, .f32⟩
  | .hbm, ⟨5, _⟩ => ⟨S128x8, .f32⟩
  | .hbm, ⟨6, _⟩ => ⟨S128x192, .f32⟩
  | .hbm, ⟨7, _⟩ => ⟨S128x200, .f32⟩
  | .hbm, ⟨8, _⟩ => ⟨S200x128, .f32⟩
  | .hbm, ⟨9, _⟩ => ⟨S1x128, .f32⟩
  | .hbm, ⟨10, _⟩ => ⟨S1x128, .f32⟩
  | .hbm, ⟨11, _⟩ => ⟨S512x1024, .f32⟩
  | .hbm, ⟨12, _⟩ => ⟨S200x512, .f32⟩
  | .hbm, ⟨13, _⟩ => ⟨S8x2048x512, .f32⟩
  | .hbm, ⟨14, _⟩ => ⟨S8x2048x512, .f32⟩
  | .hbm, ⟨15, _⟩ => ⟨S2048x512x8, .f32⟩
  | .local _ .vmem, ⟨0, _⟩ => ⟨S512x128, .f32⟩
  | .local _ .vmem, ⟨1, _⟩ => ⟨S1x128, .f32⟩
  | .local _ .vmem, ⟨2, _⟩ => ⟨S1x128, .f32⟩
  | .local _ .vmem, ⟨3, _⟩ => ⟨S200x128, .f32⟩
  | .local _ .vmem, ⟨4, _⟩ => ⟨S512x1024, .f32⟩
  | .local _ .vmem, ⟨5, _⟩ => ⟨S200x512, .f32⟩
  | .local _ .vmem, ⟨6, _⟩ => ⟨S512x1024, .f32⟩
  | .local _ .vmem, ⟨7, _⟩ => ⟨S200x512, .f32⟩
  | .local _ .vmem, ⟨8, _⟩ => ⟨S8x64x512, .f32⟩
  | .local _ .vmem, ⟨9, _⟩ => ⟨S8x64x512, .f32⟩
  | .local _ .vmem, ⟨10, _⟩ => ⟨S8x64x512, .f32⟩
  | .local _ .vmem, ⟨11, _⟩ => ⟨S8x64x512, .f32⟩
  | _, _ => ⟨S2048x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S200x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128x3x8x8_S128x192 : S128x3x8x8.ShapeCasts S128x192
  concatenates_S128x192_S128x8_S128x200_d1 : Shape.Concatenates [S128x192, S128x8] S128x200 1
  transposes_S128x200_S200x128_1_0 : S128x200.Transposes [1, 0] S200x128
  shapeCasts_S128_S1x128 : S128.ShapeCasts S1x128
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x512_S512 : S512x512.Reduces [1] S512
  broadcasts_S512x1_S512x512 : S512x1.Broadcasts S512x512
  inb_S512x1024_S512x512_0_0 : ∀ a, (![0, 0] : Fin 2 → Nat) a + S512x512.size a ≤ S512x1024.size a
  h_S512x512 : 0 < S512x512.numel
  iota_S512x512_d0_w32 : S512x512.Iotas .tc 32 [0]
  iota_S512x512_d1_w32 : S512x512.Iotas .tc 32 [1]
  natLt_1_32 : 1 < 32
  inb_S512x1024_S512x512_0_512 : ∀ a, (![0, 512] : Fin 2 → Nat) a + S512x512.size a ≤ S512x1024.size a
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S200x512_S200x512_0_0 : ∀ a, (![0, 0] : Fin 2 → Nat) a + S200x512.size a ≤ S200x512.size a
  h_S200x512 : 0 < S200x512.numel
  transposes_S2048x512x8_S8x2048x512_2_0_1 : S2048x512x8.Transposes [2, 0, 1] S8x2048x512
  inb_S8x64x512_S8x64x512_0_0_0 : ∀ a, (![0, 0, 0] : Fin 3 → Nat) a + S8x64x512.size a ≤ S8x64x512.size a
  h_S8x64x512 : 0 < S8x64x512.numel
  shapeCasts_S8x64x512_S8x64x512 : S8x64x512.ShapeCasts S8x64x512
  shapeCasts_S8x64x512_S512x512 : S8x64x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S200x512_S1x512_192_0 : ∀ a, (![192, 0] : Fin 2 → Nat) a + S1x512.size a ≤ S200x512.size a
  h_S1x512 : 0 < S1x512.numel
  shapeCasts_S1x512_S1x512 : S1x512.ShapeCasts S1x512
  slices_S8x64x512_o0_0_0_S1x64x512 : S8x64x512.Slices ![0, 0, 0] S1x64x512
  shapeCasts_S1x64x512_S64x512 : S1x64x512.ShapeCasts S64x512
  inb_S200x512_S1x512_0_0 : ∀ a, (![0, 0] : Fin 2 → Nat) a + S1x512.size a ≤ S200x512.size a
  broadcasts_S1x512_S64x512 : S1x512.Broadcasts S64x512
  slices_S512x1024_o0_0_S64x512 : S512x1024.Slices ![0, 0] S64x512
  inb_S200x512_S1x512_64_0 : ∀ a, (![64, 0] : Fin 2 → Nat) a + S1x512.size a ≤ S200x512.size a
  slices_S512x1024_o0_512_S64x512 : S512x1024.Slices ![0, 512] S64x512
  inb_S200x512_S1x512_128_0 : ∀ a, (![128, 0] : Fin 2 → Nat) a + S1x512.size a ≤ S200x512.size a
  slices_S8x64x512_o1_0_0_S1x64x512 : S8x64x512.Slices ![1, 0, 0] S1x64x512
  inb_S200x512_S1x512_8_0 : ∀ a, (![8, 0] : Fin 2 → Nat) a + S1x512.size a ≤ S200x512.size a
  slices_S512x1024_o64_0_S64x512 : S512x1024.Slices ![64, 0] S64x512
  inb_S200x512_S1x512_72_0 : ∀ a, (![72, 0] : Fin 2 → Nat) a + S1x512.size a ≤ S200x512.size a
  slices_S512x1024_o64_512_S64x512 : S512x1024.Slices ![64, 512] S64x512
  inb_S200x512_S1x512_136_0 : ∀ a, (![136, 0] : Fin 2 → Nat) a + S1x512.size a ≤ S200x512.size a
  slices_S8x64x512_o2_0_0_S1x64x512 : S8x64x512.Slices ![2, 0, 0] S1x64x512
  inb_S200x512_S1x512_16_0 : ∀ a, (![16, 0] : Fin 2 → Nat) a + S1x512.size a ≤ S200x512.size a
  slices_S512x1024_o128_0_S64x512 : S512x1024.Slices ![128, 0] S64x512
  inb_S200x512_S1x512_80_0 : ∀ a, (![80, 0] : Fin 2 → Nat) a + S1x512.size a ≤ S200x512.size a
  slices_S512x1024_o128_512_S64x512 : S512x1024.Slices ![128, 512] S64x512
  inb_S200x512_S1x512_144_0 : ∀ a, (![144, 0] : Fin 2 → Nat) a + S1x512.size a ≤ S200x512.size a
  slices_S8x64x512_o3_0_0_S1x64x512 : S8x64x512.Slices ![3, 0, 0] S1x64x512
  inb_S200x512_S1x512_24_0 : ∀ a, (![24, 0] : Fin 2 → Nat) a + S1x512.size a ≤ S200x512.size a
  slices_S512x1024_o192_0_S64x512 : S512x1024.Slices ![192, 0] S64x512
  inb_S200x512_S1x512_88_0 : ∀ a, (![88, 0] : Fin 2 → Nat) a + S1x512.size a ≤ S200x512.size a
  slices_S512x1024_o192_512_S64x512 : S512x1024.Slices ![192, 512] S64x512
  inb_S200x512_S1x512_152_0 : ∀ a, (![152, 0] : Fin 2 → Nat) a + S1x512.size a ≤ S200x512.size a
  slices_S8x64x512_o4_0_0_S1x64x512 : S8x64x512.Slices ![4, 0, 0] S1x64x512
  inb_S200x512_S1x512_32_0 : ∀ a, (![32, 0] : Fin 2 → Nat) a + S1x512.size a ≤ S200x512.size a
  slices_S512x1024_o256_0_S64x512 : S512x1024.Slices ![256, 0] S64x512
  inb_S200x512_S1x512_96_0 : ∀ a, (![96, 0] : Fin 2 → Nat) a + S1x512.size a ≤ S200x512.size a
  slices_S512x1024_o256_512_S64x512 : S512x1024.Slices ![256, 512] S64x512
  inb_S200x512_S1x512_160_0 : ∀ a, (![160, 0] : Fin 2 → Nat) a + S1x512.size a ≤ S200x512.size a
  slices_S8x64x512_o5_0_0_S1x64x512 : S8x64x512.Slices ![5, 0, 0] S1x64x512
  inb_S200x512_S1x512_40_0 : ∀ a, (![40, 0] : Fin 2 → Nat) a + S1x512.size a ≤ S200x512.size a
  slices_S512x1024_o320_0_S64x512 : S512x1024.Slices ![320, 0] S64x512
  inb_S200x512_S1x512_104_0 : ∀ a, (![104, 0] : Fin 2 → Nat) a + S1x512.size a ≤ S200x512.size a
  slices_S512x1024_o320_512_S64x512 : S512x1024.Slices ![320, 512] S64x512
  inb_S200x512_S1x512_168_0 : ∀ a, (![168, 0] : Fin 2 → Nat) a + S1x512.size a ≤ S200x512.size a
  slices_S8x64x512_o6_0_0_S1x64x512 : S8x64x512.Slices ![6, 0, 0] S1x64x512
  inb_S200x512_S1x512_48_0 : ∀ a, (![48, 0] : Fin 2 → Nat) a + S1x512.size a ≤ S200x512.size a
  slices_S512x1024_o384_0_S64x512 : S512x1024.Slices ![384, 0] S64x512
  inb_S200x512_S1x512_112_0 : ∀ a, (![112, 0] : Fin 2 → Nat) a + S1x512.size a ≤ S200x512.size a
  slices_S512x1024_o384_512_S64x512 : S512x1024.Slices ![384, 512] S64x512
  inb_S200x512_S1x512_176_0 : ∀ a, (![176, 0] : Fin 2 → Nat) a + S1x512.size a ≤ S200x512.size a
  slices_S8x64x512_o7_0_0_S1x64x512 : S8x64x512.Slices ![7, 0, 0] S1x64x512
  inb_S200x512_S1x512_56_0 : ∀ a, (![56, 0] : Fin 2 → Nat) a + S1x512.size a ≤ S200x512.size a
  slices_S512x1024_o448_0_S64x512 : S512x1024.Slices ![448, 0] S64x512
  inb_S200x512_S1x512_120_0 : ∀ a, (![120, 0] : Fin 2 → Nat) a + S1x512.size a ≤ S200x512.size a
  slices_S512x1024_o448_512_S64x512 : S512x1024.Slices ![448, 512] S64x512
  inb_S200x512_S1x512_184_0 : ∀ a, (![184, 0] : Fin 2 → Nat) a + S1x512.size a ≤ S200x512.size a
  inb_S8x64x512_S1x64x512_0_0_0 : ∀ a, (![0, 0, 0] : Fin 3 → Nat) a + S1x64x512.size a ≤ S8x64x512.size a
  h_S1x64x512 : 0 < S1x64x512.numel
  shapeCasts_S64x512_S1x64x512 : S64x512.ShapeCasts S1x64x512
  inb_S200x512_S1x512_193_0 : ∀ a, (![193, 0] : Fin 2 → Nat) a + S1x512.size a ≤ S200x512.size a
  inb_S200x512_S1x512_1_0 : ∀ a, (![1, 0] : Fin 2 → Nat) a + S1x512.size a ≤ S200x512.size a
  inb_S200x512_S1x512_65_0 : ∀ a, (![65, 0] : Fin 2 → Nat) a + S1x512.size a ≤ S200x512.size a
  inb_S200x512_S1x512_129_0 : ∀ a, (![129, 0] : Fin 2 → Nat) a + S1x512.size a ≤ S200x512.size a
  inb_S200x512_S1x512_9_0 : ∀ a, (![9, 0] : Fin 2 → Nat) a + S1x512.size a ≤ S200x512.size a
  inb_S200x512_S1x512_73_0 : ∀ a, (![73, 0] : Fin 2 → Nat) a + S1x512.size a ≤ S200x512.size a
  inb_S200x512_S1x512_137_0 : ∀ a, (![137, 0] : Fin 2 → Nat) a + S1x512.size a ≤ S200x512.size a
  inb_S200x512_S1x512_17_0 : ∀ a, (![17, 0] : Fin 2 → Nat) a + S1x512.size a ≤ S200x512.size a
  inb_S200x512_S1x512_81_0 : ∀ a, (![81, 0] : Fin 2 → Nat) a + S1x512.size a ≤ S200x512.size a
  inb_S200x512_S1x512_145_0 : ∀ a, (![145, 0] : Fin 2 → Nat) a + S1x512.size a ≤ S200x512.size a
  inb_S200x512_S1x512_25_0 : ∀ a, (![25, 0] : Fin 2 → Nat) a + S1x512.size a ≤ S200x512.size a
  inb_S200x512_S1x512_89_0 : ∀ a, (![89, 0] : Fin 2 → Nat) a + S1x512.size a ≤ S200x512.size a
  inb_S200x512_S1x512_153_0 : ∀ a, (![153, 0] : Fin 2 → Nat) a + S1x512.size a ≤ S200x512.size a
  inb_S200x512_S1x512_33_0 : ∀ a, (![33, 0] : Fin 2 → Nat) a + S1x512.size a ≤ S200x512.size a
  inb_S200x512_S1x512_97_0 : ∀ a, (![97, 0] : Fin 2 → Nat) a + S1x512.size a ≤ S200x512.size a
  inb_S200x512_S1x512_161_0 : ∀ a, (![161, 0] : Fin 2 → Nat) a + S1x512.size a ≤ S200x512.size a
  inb_S200x512_S1x512_41_0 : ∀ a, (![41, 0] : Fin 2 → Nat) a + S1x512.size a ≤ S200x512.size a
  inb_S200x512_S1x512_105_0 : ∀ a, (![105, 0] : Fin 2 → Nat) a + S1x512.size a ≤ S200x512.size a
  inb_S200x512_S1x512_169_0 : ∀ a, (![169, 0] : Fin 2 → Nat) a + S1x512.size a ≤ S200x512.size a
  inb_S200x512_S1x512_49_0 : ∀ a, (![49, 0] : Fin 2 → Nat) a + S1x512.size a ≤ S200x512.size a
  inb_S200x512_S1x512_113_0 : ∀ a, (![113, 0] : Fin 2 → Nat) a + S1x512.size a ≤ S200x512.size a
  inb_S200x512_S1x512_177_0 : ∀ a, (![177, 0] : Fin 2 → Nat) a + S1x512.size a ≤ S200x512.size a
  inb_S200x512_S1x512_57_0 : ∀ a, (![57, 0] : Fin 2 → Nat) a + S1x512.size a ≤ S200x512.size a
  inb_S200x512_S1x512_121_0 : ∀ a, (![121, 0] : Fin 2 → Nat) a + S1x512.size a ≤ S200x512.size a
  inb_S200x512_S1x512_185_0 : ∀ a, (![185, 0] : Fin 2 → Nat) a + S1x512.size a ≤ S200x512.size a
  inb_S8x64x512_S1x64x512_1_0_0 : ∀ a, (![1, 0, 0] : Fin 3 → Nat) a + S1x64x512.size a ≤ S8x64x512.size a
  inb_S200x512_S1x512_194_0 : ∀ a, (![194, 0] : Fin 2 → Nat) a + S1x512.size a ≤ S200x512.size a
  inb_S200x512_S1x512_2_0 : ∀ a, (![2, 0] : Fin 2 → Nat) a + S1x512.size a ≤ S200x512.size a
  inb_S200x512_S1x512_66_0 : ∀ a, (![66, 0] : Fin 2 → Nat) a + S1x512.size a ≤ S200x512.size a
  inb_S200x512_S1x512_130_0 : ∀ a, (![130, 0] : Fin 2 → Nat) a + S1x512.size a ≤ S200x512.size a
  inb_S200x512_S1x512_10_0 : ∀ a, (![10, 0] : Fin 2 → Nat) a + S1x512.size a ≤ S200x512.size a
  inb_S200x512_S1x512_74_0 : ∀ a, (![74, 0] : Fin 2 → Nat) a + S1x512.size a ≤ S200x512.size a
  inb_S200x512_S1x512_138_0 : ∀ a, (![138, 0] : Fin 2 → Nat) a + S1x512.size a ≤ S200x512.size a
  inb_S200x512_S1x512_18_0 : ∀ a, (![18, 0] : Fin 2 → Nat) a + S1x512.size a ≤ S200x512.size a
  inb_S200x512_S1x512_82_0 : ∀ a, (![82, 0] : Fin 2 → Nat) a + S1x512.size a ≤ S200x512.size a
  inb_S200x512_S1x512_146_0 : ∀ a, (![146, 0] : Fin 2 → Nat) a + S1x512.size a ≤ S200x512.size a
  inb_S200x512_S1x512_26_0 : ∀ a, (![26, 0] : Fin 2 → Nat) a + S1x512.size a ≤ S200x512.size a
  inb_S200x512_S1x512_90_0 : ∀ a, (![90, 0] : Fin 2 → Nat) a + S1x512.size a ≤ S200x512.size a
  inb_S200x512_S1x512_154_0 : ∀ a, (![154, 0] : Fin 2 → Nat) a + S1x512.size a ≤ S200x512.size a
  inb_S200x512_S1x512_34_0 : ∀ a, (![34, 0] : Fin 2 → Nat) a + S1x512.size a ≤ S200x512.size a
  inb_S200x512_S1x512_98_0 : ∀ a, (![98, 0] : Fin 2 → Nat) a + S1x512.size a ≤ S200x512.size a
  inb_S200x512_S1x512_162_0 : ∀ a, (![162, 0] : Fin 2 → Nat) a + S1x512.size a ≤ S200x512.size a
  inb_S200x512_S1x512_42_0 : ∀ a, (![42, 0] : Fin 2 → Nat) a + S1x512.size a ≤ S200x512.size a
  inb_S200x512_S1x512_106_0 : ∀ a, (![106, 0] : Fin 2 → Nat) a + S1x512.size a ≤ S200x512.size a
  inb_S200x512_S1x512_170_0 : ∀ a, (![170, 0] : Fin 2 → Nat) a + S1x512.size a ≤ S200x512.size a
  inb_S200x512_S1x512_50_0 : ∀ a, (![50, 0] : Fin 2 → Nat) a + S1x512.size a ≤ S200x512.size a
  inb_S200x512_S1x512_114_0 : ∀ a, (![114, 0] : Fin 2 → Nat) a + S1x512.size a ≤ S200x512.size a
  inb_S200x512_S1x512_178_0 : ∀ a, (![178, 0] : Fin 2 → Nat) a + S1x512.size a ≤ S200x512.size a
  inb_S200x512_S1x512_58_0 : ∀ a, (![58, 0] : Fin 2 → Nat) a + S1x512.size a ≤ S200x512.size a
  inb_S200x512_S1x512_122_0 : ∀ a, (![122, 0] : Fin 2 → Nat) a + S1x512.size a ≤ S200x512.size a
  inb_S200x512_S1x512_186_0 : ∀ a, (![186, 0] : Fin 2 → Nat) a + S1x512.size a ≤ S200x512.size a
  inb_S8x64x512_S1x64x512_2_0_0 : ∀ a, (![2, 0, 0] : Fin 3 → Nat) a + S1x64x512.size a ≤ S8x64x512.size a
  inb_S200x512_S1x512_195_0 : ∀ a, (![195, 0] : Fin 2 → Nat) a + S1x512.size a ≤ S200x512.size a
  inb_S200x512_S1x512_3_0 : ∀ a, (![3, 0] : Fin 2 → Nat) a + S1x512.size a ≤ S200x512.size a
  inb_S200x512_S1x512_67_0 : ∀ a, (![67, 0] : Fin 2 → Nat) a + S1x512.size a ≤ S200x512.size a
  inb_S200x512_S1x512_131_0 : ∀ a, (![131, 0] : Fin 2 → Nat) a + S1x512.size a ≤ S200x512.size a
  inb_S200x512_S1x512_11_0 : ∀ a, (![11, 0] : Fin 2 → Nat) a + S1x512.size a ≤ S200x512.size a
  inb_S200x512_S1x512_75_0 : ∀ a, (![75, 0] : Fin 2 → Nat) a + S1x512.size a ≤ S200x512.size a
  inb_S200x512_S1x512_139_0 : ∀ a, (![139, 0] : Fin 2 → Nat) a + S1x512.size a ≤ S200x512.size a
  inb_S200x512_S1x512_19_0 : ∀ a, (![19, 0] : Fin 2 → Nat) a + S1x512.size a ≤ S200x512.size a
  inb_S200x512_S1x512_83_0 : ∀ a, (![83, 0] : Fin 2 → Nat) a + S1x512.size a ≤ S200x512.size a
  inb_S200x512_S1x512_147_0 : ∀ a, (![147, 0] : Fin 2 → Nat) a + S1x512.size a ≤ S200x512.size a
  inb_S200x512_S1x512_27_0 : ∀ a, (![27, 0] : Fin 2 → Nat) a + S1x512.size a ≤ S200x512.size a
  inb_S200x512_S1x512_91_0 : ∀ a, (![91, 0] : Fin 2 → Nat) a + S1x512.size a ≤ S200x512.size a
  inb_S200x512_S1x512_155_0 : ∀ a, (![155, 0] : Fin 2 → Nat) a + S1x512.size a ≤ S200x512.size a
  inb_S200x512_S1x512_35_0 : ∀ a, (![35, 0] : Fin 2 → Nat) a + S1x512.size a ≤ S200x512.size a
  inb_S200x512_S1x512_99_0 : ∀ a, (![99, 0] : Fin 2 → Nat) a + S1x512.size a ≤ S200x512.size a
  inb_S200x512_S1x512_163_0 : ∀ a, (![163, 0] : Fin 2 → Nat) a + S1x512.size a ≤ S200x512.size a
  inb_S200x512_S1x512_43_0 : ∀ a, (![43, 0] : Fin 2 → Nat) a + S1x512.size a ≤ S200x512.size a
  inb_S200x512_S1x512_107_0 : ∀ a, (![107, 0] : Fin 2 → Nat) a + S1x512.size a ≤ S200x512.size a
  inb_S200x512_S1x512_171_0 : ∀ a, (![171, 0] : Fin 2 → Nat) a + S1x512.size a ≤ S200x512.size a
  inb_S200x512_S1x512_51_0 : ∀ a, (![51, 0] : Fin 2 → Nat) a + S1x512.size a ≤ S200x512.size a
  inb_S200x512_S1x512_115_0 : ∀ a, (![115, 0] : Fin 2 → Nat) a + S1x512.size a ≤ S200x512.size a
  inb_S200x512_S1x512_179_0 : ∀ a, (![179, 0] : Fin 2 → Nat) a + S1x512.size a ≤ S200x512.size a
  inb_S200x512_S1x512_59_0 : ∀ a, (![59, 0] : Fin 2 → Nat) a + S1x512.size a ≤ S200x512.size a
  inb_S200x512_S1x512_123_0 : ∀ a, (![123, 0] : Fin 2 → Nat) a + S1x512.size a ≤ S200x512.size a
  inb_S200x512_S1x512_187_0 : ∀ a, (![187, 0] : Fin 2 → Nat) a + S1x512.size a ≤ S200x512.size a
  inb_S8x64x512_S1x64x512_3_0_0 : ∀ a, (![3, 0, 0] : Fin 3 → Nat) a + S1x64x512.size a ≤ S8x64x512.size a
  inb_S200x512_S1x512_196_0 : ∀ a, (![196, 0] : Fin 2 → Nat) a + S1x512.size a ≤ S200x512.size a
  inb_S200x512_S1x512_4_0 : ∀ a, (![4, 0] : Fin 2 → Nat) a + S1x512.size a ≤ S200x512.size a
  inb_S200x512_S1x512_68_0 : ∀ a, (![68, 0] : Fin 2 → Nat) a + S1x512.size a ≤ S200x512.size a
  inb_S200x512_S1x512_132_0 : ∀ a, (![132, 0] : Fin 2 → Nat) a + S1x512.size a ≤ S200x512.size a
  inb_S200x512_S1x512_12_0 : ∀ a, (![12, 0] : Fin 2 → Nat) a + S1x512.size a ≤ S200x512.size a
  inb_S200x512_S1x512_76_0 : ∀ a, (![76, 0] : Fin 2 → Nat) a + S1x512.size a ≤ S200x512.size a
  inb_S200x512_S1x512_140_0 : ∀ a, (![140, 0] : Fin 2 → Nat) a + S1x512.size a ≤ S200x512.size a
  inb_S200x512_S1x512_20_0 : ∀ a, (![20, 0] : Fin 2 → Nat) a + S1x512.size a ≤ S200x512.size a
  inb_S200x512_S1x512_84_0 : ∀ a, (![84, 0] : Fin 2 → Nat) a + S1x512.size a ≤ S200x512.size a
  inb_S200x512_S1x512_148_0 : ∀ a, (![148, 0] : Fin 2 → Nat) a + S1x512.size a ≤ S200x512.size a
  inb_S200x512_S1x512_28_0 : ∀ a, (![28, 0] : Fin 2 → Nat) a + S1x512.size a ≤ S200x512.size a
  inb_S200x512_S1x512_92_0 : ∀ a, (![92, 0] : Fin 2 → Nat) a + S1x512.size a ≤ S200x512.size a
  inb_S200x512_S1x512_156_0 : ∀ a, (![156, 0] : Fin 2 → Nat) a + S1x512.size a ≤ S200x512.size a
  inb_S200x512_S1x512_36_0 : ∀ a, (![36, 0] : Fin 2 → Nat) a + S1x512.size a ≤ S200x512.size a
  inb_S200x512_S1x512_100_0 : ∀ a, (![100, 0] : Fin 2 → Nat) a + S1x512.size a ≤ S200x512.size a
  inb_S200x512_S1x512_164_0 : ∀ a, (![164, 0] : Fin 2 → Nat) a + S1x512.size a ≤ S200x512.size a
  inb_S200x512_S1x512_44_0 : ∀ a, (![44, 0] : Fin 2 → Nat) a + S1x512.size a ≤ S200x512.size a
  inb_S200x512_S1x512_108_0 : ∀ a, (![108, 0] : Fin 2 → Nat) a + S1x512.size a ≤ S200x512.size a
  inb_S200x512_S1x512_172_0 : ∀ a, (![172, 0] : Fin 2 → Nat) a + S1x512.size a ≤ S200x512.size a
  inb_S200x512_S1x512_52_0 : ∀ a, (![52, 0] : Fin 2 → Nat) a + S1x512.size a ≤ S200x512.size a
  inb_S200x512_S1x512_116_0 : ∀ a, (![116, 0] : Fin 2 → Nat) a + S1x512.size a ≤ S200x512.size a
  inb_S200x512_S1x512_180_0 : ∀ a, (![180, 0] : Fin 2 → Nat) a + S1x512.size a ≤ S200x512.size a
  inb_S200x512_S1x512_60_0 : ∀ a, (![60, 0] : Fin 2 → Nat) a + S1x512.size a ≤ S200x512.size a
  inb_S200x512_S1x512_124_0 : ∀ a, (![124, 0] : Fin 2 → Nat) a + S1x512.size a ≤ S200x512.size a
  inb_S200x512_S1x512_188_0 : ∀ a, (![188, 0] : Fin 2 → Nat) a + S1x512.size a ≤ S200x512.size a
  inb_S8x64x512_S1x64x512_4_0_0 : ∀ a, (![4, 0, 0] : Fin 3 → Nat) a + S1x64x512.size a ≤ S8x64x512.size a
  inb_S200x512_S1x512_197_0 : ∀ a, (![197, 0] : Fin 2 → Nat) a + S1x512.size a ≤ S200x512.size a
  inb_S200x512_S1x512_5_0 : ∀ a, (![5, 0] : Fin 2 → Nat) a + S1x512.size a ≤ S200x512.size a
  inb_S200x512_S1x512_69_0 : ∀ a, (![69, 0] : Fin 2 → Nat) a + S1x512.size a ≤ S200x512.size a
  inb_S200x512_S1x512_133_0 : ∀ a, (![133, 0] : Fin 2 → Nat) a + S1x512.size a ≤ S200x512.size a
  inb_S200x512_S1x512_13_0 : ∀ a, (![13, 0] : Fin 2 → Nat) a + S1x512.size a ≤ S200x512.size a
  inb_S200x512_S1x512_77_0 : ∀ a, (![77, 0] : Fin 2 → Nat) a + S1x512.size a ≤ S200x512.size a
  inb_S200x512_S1x512_141_0 : ∀ a, (![141, 0] : Fin 2 → Nat) a + S1x512.size a ≤ S200x512.size a
  inb_S200x512_S1x512_21_0 : ∀ a, (![21, 0] : Fin 2 → Nat) a + S1x512.size a ≤ S200x512.size a
  inb_S200x512_S1x512_85_0 : ∀ a, (![85, 0] : Fin 2 → Nat) a + S1x512.size a ≤ S200x512.size a
  inb_S200x512_S1x512_149_0 : ∀ a, (![149, 0] : Fin 2 → Nat) a + S1x512.size a ≤ S200x512.size a
  inb_S200x512_S1x512_29_0 : ∀ a, (![29, 0] : Fin 2 → Nat) a + S1x512.size a ≤ S200x512.size a
  inb_S200x512_S1x512_93_0 : ∀ a, (![93, 0] : Fin 2 → Nat) a + S1x512.size a ≤ S200x512.size a
  inb_S200x512_S1x512_157_0 : ∀ a, (![157, 0] : Fin 2 → Nat) a + S1x512.size a ≤ S200x512.size a
  inb_S200x512_S1x512_37_0 : ∀ a, (![37, 0] : Fin 2 → Nat) a + S1x512.size a ≤ S200x512.size a
  inb_S200x512_S1x512_101_0 : ∀ a, (![101, 0] : Fin 2 → Nat) a + S1x512.size a ≤ S200x512.size a
  inb_S200x512_S1x512_165_0 : ∀ a, (![165, 0] : Fin 2 → Nat) a + S1x512.size a ≤ S200x512.size a
  inb_S200x512_S1x512_45_0 : ∀ a, (![45, 0] : Fin 2 → Nat) a + S1x512.size a ≤ S200x512.size a
  inb_S200x512_S1x512_109_0 : ∀ a, (![109, 0] : Fin 2 → Nat) a + S1x512.size a ≤ S200x512.size a
  inb_S200x512_S1x512_173_0 : ∀ a, (![173, 0] : Fin 2 → Nat) a + S1x512.size a ≤ S200x512.size a
  inb_S200x512_S1x512_53_0 : ∀ a, (![53, 0] : Fin 2 → Nat) a + S1x512.size a ≤ S200x512.size a
  inb_S200x512_S1x512_117_0 : ∀ a, (![117, 0] : Fin 2 → Nat) a + S1x512.size a ≤ S200x512.size a
  inb_S200x512_S1x512_181_0 : ∀ a, (![181, 0] : Fin 2 → Nat) a + S1x512.size a ≤ S200x512.size a
  inb_S200x512_S1x512_61_0 : ∀ a, (![61, 0] : Fin 2 → Nat) a + S1x512.size a ≤ S200x512.size a
  inb_S200x512_S1x512_125_0 : ∀ a, (![125, 0] : Fin 2 → Nat) a + S1x512.size a ≤ S200x512.size a
  inb_S200x512_S1x512_189_0 : ∀ a, (![189, 0] : Fin 2 → Nat) a + S1x512.size a ≤ S200x512.size a
  inb_S8x64x512_S1x64x512_5_0_0 : ∀ a, (![5, 0, 0] : Fin 3 → Nat) a + S1x64x512.size a ≤ S8x64x512.size a
  inb_S200x512_S1x512_198_0 : ∀ a, (![198, 0] : Fin 2 → Nat) a + S1x512.size a ≤ S200x512.size a
  inb_S200x512_S1x512_6_0 : ∀ a, (![6, 0] : Fin 2 → Nat) a + S1x512.size a ≤ S200x512.size a
  inb_S200x512_S1x512_70_0 : ∀ a, (![70, 0] : Fin 2 → Nat) a + S1x512.size a ≤ S200x512.size a
  inb_S200x512_S1x512_134_0 : ∀ a, (![134, 0] : Fin 2 → Nat) a + S1x512.size a ≤ S200x512.size a
  inb_S200x512_S1x512_14_0 : ∀ a, (![14, 0] : Fin 2 → Nat) a + S1x512.size a ≤ S200x512.size a
  inb_S200x512_S1x512_78_0 : ∀ a, (![78, 0] : Fin 2 → Nat) a + S1x512.size a ≤ S200x512.size a
  inb_S200x512_S1x512_142_0 : ∀ a, (![142, 0] : Fin 2 → Nat) a + S1x512.size a ≤ S200x512.size a
  inb_S200x512_S1x512_22_0 : ∀ a, (![22, 0] : Fin 2 → Nat) a + S1x512.size a ≤ S200x512.size a
  inb_S200x512_S1x512_86_0 : ∀ a, (![86, 0] : Fin 2 → Nat) a + S1x512.size a ≤ S200x512.size a
  inb_S200x512_S1x512_150_0 : ∀ a, (![150, 0] : Fin 2 → Nat) a + S1x512.size a ≤ S200x512.size a
  inb_S200x512_S1x512_30_0 : ∀ a, (![30, 0] : Fin 2 → Nat) a + S1x512.size a ≤ S200x512.size a
  inb_S200x512_S1x512_94_0 : ∀ a, (![94, 0] : Fin 2 → Nat) a + S1x512.size a ≤ S200x512.size a
  inb_S200x512_S1x512_158_0 : ∀ a, (![158, 0] : Fin 2 → Nat) a + S1x512.size a ≤ S200x512.size a
  inb_S200x512_S1x512_38_0 : ∀ a, (![38, 0] : Fin 2 → Nat) a + S1x512.size a ≤ S200x512.size a
  inb_S200x512_S1x512_102_0 : ∀ a, (![102, 0] : Fin 2 → Nat) a + S1x512.size a ≤ S200x512.size a
  inb_S200x512_S1x512_166_0 : ∀ a, (![166, 0] : Fin 2 → Nat) a + S1x512.size a ≤ S200x512.size a
  inb_S200x512_S1x512_46_0 : ∀ a, (![46, 0] : Fin 2 → Nat) a + S1x512.size a ≤ S200x512.size a
  inb_S200x512_S1x512_110_0 : ∀ a, (![110, 0] : Fin 2 → Nat) a + S1x512.size a ≤ S200x512.size a
  inb_S200x512_S1x512_174_0 : ∀ a, (![174, 0] : Fin 2 → Nat) a + S1x512.size a ≤ S200x512.size a
  inb_S200x512_S1x512_54_0 : ∀ a, (![54, 0] : Fin 2 → Nat) a + S1x512.size a ≤ S200x512.size a
  inb_S200x512_S1x512_118_0 : ∀ a, (![118, 0] : Fin 2 → Nat) a + S1x512.size a ≤ S200x512.size a
  inb_S200x512_S1x512_182_0 : ∀ a, (![182, 0] : Fin 2 → Nat) a + S1x512.size a ≤ S200x512.size a
  inb_S200x512_S1x512_62_0 : ∀ a, (![62, 0] : Fin 2 → Nat) a + S1x512.size a ≤ S200x512.size a
  inb_S200x512_S1x512_126_0 : ∀ a, (![126, 0] : Fin 2 → Nat) a + S1x512.size a ≤ S200x512.size a
  inb_S200x512_S1x512_190_0 : ∀ a, (![190, 0] : Fin 2 → Nat) a + S1x512.size a ≤ S200x512.size a
  inb_S8x64x512_S1x64x512_6_0_0 : ∀ a, (![6, 0, 0] : Fin 3 → Nat) a + S1x64x512.size a ≤ S8x64x512.size a
  inb_S200x512_S1x512_199_0 : ∀ a, (![199, 0] : Fin 2 → Nat) a + S1x512.size a ≤ S200x512.size a
  inb_S200x512_S1x512_7_0 : ∀ a, (![7, 0] : Fin 2 → Nat) a + S1x512.size a ≤ S200x512.size a
  inb_S200x512_S1x512_71_0 : ∀ a, (![71, 0] : Fin 2 → Nat) a + S1x512.size a ≤ S200x512.size a
  inb_S200x512_S1x512_135_0 : ∀ a, (![135, 0] : Fin 2 → Nat) a + S1x512.size a ≤ S200x512.size a
  inb_S200x512_S1x512_15_0 : ∀ a, (![15, 0] : Fin 2 → Nat) a + S1x512.size a ≤ S200x512.size a
  inb_S200x512_S1x512_79_0 : ∀ a, (![79, 0] : Fin 2 → Nat) a + S1x512.size a ≤ S200x512.size a
  inb_S200x512_S1x512_143_0 : ∀ a, (![143, 0] : Fin 2 → Nat) a + S1x512.size a ≤ S200x512.size a
  inb_S200x512_S1x512_23_0 : ∀ a, (![23, 0] : Fin 2 → Nat) a + S1x512.size a ≤ S200x512.size a
  inb_S200x512_S1x512_87_0 : ∀ a, (![87, 0] : Fin 2 → Nat) a + S1x512.size a ≤ S200x512.size a
  inb_S200x512_S1x512_151_0 : ∀ a, (![151, 0] : Fin 2 → Nat) a + S1x512.size a ≤ S200x512.size a
  inb_S200x512_S1x512_31_0 : ∀ a, (![31, 0] : Fin 2 → Nat) a + S1x512.size a ≤ S200x512.size a
  inb_S200x512_S1x512_95_0 : ∀ a, (![95, 0] : Fin 2 → Nat) a + S1x512.size a ≤ S200x512.size a
  inb_S200x512_S1x512_159_0 : ∀ a, (![159, 0] : Fin 2 → Nat) a + S1x512.size a ≤ S200x512.size a
  inb_S200x512_S1x512_39_0 : ∀ a, (![39, 0] : Fin 2 → Nat) a + S1x512.size a ≤ S200x512.size a
  inb_S200x512_S1x512_103_0 : ∀ a, (![103, 0] : Fin 2 → Nat) a + S1x512.size a ≤ S200x512.size a
  inb_S200x512_S1x512_167_0 : ∀ a, (![167, 0] : Fin 2 → Nat) a + S1x512.size a ≤ S200x512.size a
  inb_S200x512_S1x512_47_0 : ∀ a, (![47, 0] : Fin 2 → Nat) a + S1x512.size a ≤ S200x512.size a
  inb_S200x512_S1x512_111_0 : ∀ a, (![111, 0] : Fin 2 → Nat) a + S1x512.size a ≤ S200x512.size a
  inb_S200x512_S1x512_175_0 : ∀ a, (![175, 0] : Fin 2 → Nat) a + S1x512.size a ≤ S200x512.size a
  inb_S200x512_S1x512_55_0 : ∀ a, (![55, 0] : Fin 2 → Nat) a + S1x512.size a ≤ S200x512.size a
  inb_S200x512_S1x512_119_0 : ∀ a, (![119, 0] : Fin 2 → Nat) a + S1x512.size a ≤ S200x512.size a
  inb_S200x512_S1x512_183_0 : ∀ a, (![183, 0] : Fin 2 → Nat) a + S1x512.size a ≤ S200x512.size a
  inb_S200x512_S1x512_63_0 : ∀ a, (![63, 0] : Fin 2 → Nat) a + S1x512.size a ≤ S200x512.size a
  inb_S200x512_S1x512_127_0 : ∀ a, (![127, 0] : Fin 2 → Nat) a + S1x512.size a ≤ S200x512.size a
  inb_S200x512_S1x512_191_0 : ∀ a, (![191, 0] : Fin 2 → Nat) a + S1x512.size a ≤ S200x512.size a
  inb_S8x64x512_S1x64x512_7_0_0 : ∀ a, (![7, 0, 0] : Fin 3 → Nat) a + S1x64x512.size a ≤ S8x64x512.size a
  transposes_S8x2048x512_S2048x512x8_1_2_0 : S8x2048x512.Transposes [1, 2, 0] S2048x512x8
  dot_S512x128_S512x128_S512x512_1_1_0_0_n_n_wf : DotDims.WF S512x128 S512x128 S512x512 [1] [1] [0] [0] [] []
  dot_S512x512_S512x512_S512x512_1_0_0_1_n_n_wf : DotDims.WF S512x512 S512x512 S512x512 [1] [0] [0] [1] [] []
  dot_S200x128_S512x128_S200x512_1_1_0_0_n_n_wf : DotDims.WF S200x128 S512x128 S200x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S200x128.size a
  hwx0_3 : ∀ i : grid0.Coords, EltTy.bits .f32 = 32 ∨ (Rect.block (s := S200x128) S200x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x512.size a ≤ S200x512.size a
  hwx0_5 : ∀ i : grid0.Coords, EltTy.bits .f32 = 32 ∨ (Rect.block (s := S200x512) S200x512.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .f32 = 32 ∨ (Rect.block (s := S512x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x512.size a ≤ S200x512.size a
  hwx1_1 : ∀ i : grid1.Coords, EltTy.bits .f32 = 32 ∨ (Rect.block (s := S200x512) S200x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x64x512.size a ≤ S8x2048x512.size a
  hwx1_2 : ∀ i : grid1.Coords, EltTy.bits .f32 = 32 ∨ (Rect.block (s := S8x2048x512) S8x64x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x64x512.size a ≤ S8x2048x512.size a
  hwx1_3 : ∀ i : grid1.Coords, EltTy.bits .f32 = 32 ∨ (Rect.block (s := S8x2048x512) S8x64x512.size (cc1_transform_3 i) (hinb1_3 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S200x128_S512x128_S200x512_1_1_0_0_n_n : DotDims S200x128 S512x128 S200x512 where
  lhsContracting := [1]
  rhsContracting := [1]
  lhsNonContracting := [0]
  rhsNonContracting := [0]
  lhsBatch := []
  rhsBatch := []
  wf := dot_S200x128_S512x128_S200x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg1) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S200x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S512x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S200x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S200x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8x64x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8x64x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x512x8 : Shape := ⟨3, ![2048, 512, 8]⟩
abbrev S512x128 : Shape := ⟨2, ![512, 128]⟩
abbrev S128 : Shape := ⟨1, ![128]⟩
abbrev S128x3x8x8 : Shape := ⟨4, ![128, 3, 8, 8]⟩
abbrev S128x8 : Shape := ⟨2, ![128, 8]⟩
abbrev S128x192 : Shape := ⟨2, ![128, 192]⟩
abbrev S128x200 : Shape := ⟨2, ![128, 200]⟩
abbrev S1x128 : Shape := ⟨2, ![1, 128]⟩
abbrev S512x512 : Shape := ⟨2, ![512, 512]⟩
abbrev S512x200 : Shape := ⟨2, ![512, 200]⟩
abbrev S512 : Shape := ⟨1, ![512]⟩
abbrev S512x1 : Shape := ⟨2, ![512, 1]⟩
abbrev S1x512 : Shape := ⟨2, ![1, 512]⟩
abbrev S512x2048x8 : Shape := ⟨3, ![512, 2048, 8]⟩
abbrev S512x16384 : Shape := ⟨2, ![512, 16384]⟩
abbrev S384 : Shape := ⟨1, ![384]⟩
abbrev S_ : Shape := ⟨0, ![]⟩
abbrev S3072 : Shape := ⟨1, ![3072]⟩
abbrev S384x1 : Shape := ⟨2, ![384, 1]⟩
abbrev S1x3072 : Shape := ⟨2, ![1, 3072]⟩
abbrev S384x3072 : Shape := ⟨2, ![384, 3072]⟩
abbrev S3072x1 : Shape := ⟨2, ![3072, 1]⟩
abbrev S3072x128 : Shape := ⟨2, ![3072, 128]⟩
abbrev S512x384 : Shape := ⟨2, ![512, 384]⟩
abbrev S512x192 : Shape := ⟨2, ![512, 192]⟩
abbrev S512x8 : Shape := ⟨2, ![512, 8]⟩
abbrev S512x3072 : Shape := ⟨2, ![512, 3072]⟩

abbrev nBuf : Space → Nat
  | .hbm => 248
  | .vmem => 15
  | .smem => 0
  | _ => 0

abbrev hbmTy0_0 (i : Nat) : BufTy := match i % 128 with
  | 0 => ⟨S2048x512x8, .f32⟩
  | 1 => ⟨S512x128, .f32⟩
  | 2 => ⟨S128, .f32⟩
  | 3 => ⟨S128, .f32⟩
  | 4 => ⟨S128x3x8x8, .f32⟩
  | 5 => ⟨S128x8, .f32⟩
  | 6 => ⟨S128x192, .f32⟩
  | 7 => ⟨S128x200, .f32⟩
  | 8 => ⟨S1x128, .f32⟩
  | 9 => ⟨S1x128, .f32⟩
  | 10 => ⟨S512x512, .f32⟩
  | 11 => ⟨S512x200, .f32⟩
  | 12 => ⟨S512x2048x8, .f32⟩
  | 13 => ⟨S512x16384, .f32⟩
  | 14 => ⟨S384, .i32⟩
  | 15 => ⟨S_, .i32⟩
  | 16 => ⟨S_, .i32⟩
  | 17 => ⟨S384, .i32⟩
  | 18 => ⟨S384, .i32⟩
  | 19 => ⟨S384, .i32⟩
  | 20 => ⟨S_, .i32⟩
  | 21 => ⟨S384, .i32⟩
  | 22 => ⟨S384, .i1⟩
  | 23 => ⟨S384, .i32⟩
  | 24 => ⟨S384, .i32⟩
  | 25 => ⟨S_, .i32⟩
  | 26 => ⟨S384, .i32⟩
  | 27 => ⟨S384, .i1⟩
  | 28 => ⟨S384, .i1⟩
  | 29 => ⟨S_, .i32⟩
  | 30 => ⟨S384, .i32⟩
  | 31 => ⟨S384, .i32⟩
  | 32 => ⟨S384, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S384, .i32⟩
  | 40 => ⟨S384, .i32⟩
  | 41 => ⟨S_, .i32⟩
  | 42 => ⟨S384, .i32⟩
  | 43 => ⟨S384, .i1⟩
  | 44 => ⟨S_, .i32⟩
  | 45 => ⟨S384, .i32⟩
  | 46 => ⟨S384, .i1⟩
  | 47 => ⟨S_, .i32⟩
  | 48 => ⟨S_, .i1⟩
  | 49 => ⟨S384, .i1⟩
  | 50 => ⟨S384, .i1⟩
  | 51 => ⟨S384, .i1⟩
  | 52 => ⟨S384, .i32⟩
  | 53 => ⟨S384, .i32⟩
  | 54 => ⟨S384, .i32⟩
  | 55 => ⟨S_, .i32⟩
  | 56 => ⟨S_, .i32⟩
  | 57 => ⟨S384, .i32⟩
  | 58 => ⟨S384, .i32⟩
  | 59 => ⟨S384, .i32⟩
  | 60 => ⟨S_, .i32⟩
  | 61 => ⟨S384, .i32⟩
  | 62 => ⟨S384, .i1⟩
  | 63 => ⟨S384, .i32⟩
  | 64 => ⟨S384, .i32⟩
  | 65 => ⟨S_, .i32⟩
  | 66 => ⟨S384, .i32⟩
  | 67 => ⟨S384, .i1⟩
  | 68 => ⟨S384, .i1⟩
  | 69 => ⟨S_, .i32⟩
  | 70 => ⟨S384, .i32⟩
  | 71 => ⟨S384, .i32⟩
  | 72 => ⟨S384, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S384, .i32⟩
  | 80 => ⟨S384, .i32⟩
  | 81 => ⟨S_, .i32⟩
  | 82 => ⟨S384, .i32⟩
  | 83 => ⟨S384, .i1⟩
  | 84 => ⟨S_, .i32⟩
  | 85 => ⟨S384, .i32⟩
  | 86 => ⟨S384, .i1⟩
  | 87 => ⟨S_, .i32⟩
  | 88 => ⟨S_, .i1⟩
  | 89 => ⟨S384, .i1⟩
  | 90 => ⟨S384, .i1⟩
  | 91 => ⟨S384, .i1⟩
  | 92 => ⟨S384, .i32⟩
  | 93 => ⟨S384, .i32⟩
  | 94 => ⟨S384, .i32⟩
  | 95 => ⟨S3072, .i32⟩
  | 96 => ⟨S_, .i32⟩
  | 97 => ⟨S_, .i32⟩
  | 98 => ⟨S3072, .i32⟩
  | 99 => ⟨S3072, .i32⟩
  | 100 => ⟨S3072, .i32⟩
  | 101 => ⟨S_, .i32⟩
  | 102 => ⟨S3072, .i32⟩
  | 103 => ⟨S3072, .i1⟩
  | 104 => ⟨S3072, .i32⟩
  | 105 => ⟨S3072, .i32⟩
  | 106 => ⟨S_, .i32⟩
  | 107 => ⟨S3072, .i32⟩
  | 108 => ⟨S3072, .i1⟩
  | 109 => ⟨S3072, .i1⟩
  | 110 => ⟨S_, .i32⟩
  | 111 => ⟨S3072, .i32⟩
  | 112 => ⟨S3072, .i32⟩
  | 113 => ⟨S3072, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S3072, .i32⟩
  | 121 => ⟨S3072, .i32⟩
  | 122 => ⟨S_, .i32⟩
  | 123 => ⟨S3072, .i32⟩
  | 124 => ⟨S3072, .i1⟩
  | 125 => ⟨S_, .i32⟩
  | 126 => ⟨S3072, .i32⟩
  | 127 => ⟨S3072, .i1⟩
  | _ => ⟨S2048x512x8, .f32⟩

abbrev hbmTy0_1 (i : Nat) : BufTy := match i % 128 with
  | 0 => ⟨S_, .i32⟩
  | 1 => ⟨S_, .i1⟩
  | 2 => ⟨S3072, .i1⟩
  | 3 => ⟨S3072, .i1⟩
  | 4 => ⟨S3072, .i1⟩
  | 5 => ⟨S3072, .i32⟩
  | 6 => ⟨S3072, .i32⟩
  | 7 => ⟨S3072, .i32⟩
  | 8 => ⟨S_, .i32⟩
  | 9 => ⟨S_, .i32⟩
  | 10 => ⟨S3072, .i32⟩
  | 11 => ⟨S3072, .i32⟩
  | 12 => ⟨S3072, .i32⟩
  | 13 => ⟨S_, .i32⟩
  | 14 => ⟨S3072, .i32⟩
  | 15 => ⟨S3072, .i1⟩
  | 16 => ⟨S3072, .i32⟩
  | 17 => ⟨S3072, .i32⟩
  | 18 => ⟨S_, .i32⟩
  | 19 => ⟨S3072, .i32⟩
  | 20 => ⟨S3072, .i1⟩
  | 21 => ⟨S3072, .i1⟩
  | 22 => ⟨S_, .i32⟩
  | 23 => ⟨S3072, .i32⟩
  | 24 => ⟨S3072, .i32⟩
  | 25 => ⟨S3072, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S3072, .i32⟩
  | 33 => ⟨S3072, .i32⟩
  | 34 => ⟨S_, .i32⟩
  | 35 => ⟨S3072, .i32⟩
  | 36 => ⟨S3072, .i1⟩
  | 37 => ⟨S_, .i32⟩
  | 38 => ⟨S3072, .i32⟩
  | 39 => ⟨S3072, .i1⟩
  | 40 => ⟨S_, .i32⟩
  | 41 => ⟨S_, .i1⟩
  | 42 => ⟨S3072, .i1⟩
  | 43 => ⟨S3072, .i1⟩
  | 44 => ⟨S3072, .i1⟩
  | 45 => ⟨S3072, .i32⟩
  | 46 => ⟨S3072, .i32⟩
  | 47 => ⟨S3072, .i32⟩
  | 48 => ⟨S_, .i32⟩
  | 49 => ⟨S_, .i32⟩
  | 50 => ⟨S3072, .i32⟩
  | 51 => ⟨S3072, .i32⟩
  | 52 => ⟨S3072, .i32⟩
  | 53 => ⟨S_, .i32⟩
  | 54 => ⟨S3072, .i32⟩
  | 55 => ⟨S3072, .i1⟩
  | 56 => ⟨S3072, .i32⟩
  | 57 => ⟨S3072, .i32⟩
  | 58 => ⟨S_, .i32⟩
  | 59 => ⟨S3072, .i32⟩
  | 60 => ⟨S3072, .i1⟩
  | 61 => ⟨S3072, .i1⟩
  | 62 => ⟨S_, .i32⟩
  | 63 => ⟨S3072, .i32⟩
  | 64 => ⟨S3072, .i32⟩
  | 65 => ⟨S3072, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S3072, .i32⟩
  | 73 => ⟨S3072, .i32⟩
  | 74 => ⟨S_, .i32⟩
  | 75 => ⟨S3072, .i32⟩
  | 76 => ⟨S3072, .i1⟩
  | 77 => ⟨S_, .i32⟩
  | 78 => ⟨S3072, .i32⟩
  | 79 => ⟨S3072, .i1⟩
  | 80 => ⟨S_, .i32⟩
  | 81 => ⟨S_, .i1⟩
  | 82 => ⟨S3072, .i1⟩
  | 83 => ⟨S3072, .i1⟩
  | 84 => ⟨S3072, .i1⟩
  | 85 => ⟨S3072, .i32⟩
  | 86 => ⟨S3072, .i32⟩
  | 87 => ⟨S3072, .i32⟩
  | 88 => ⟨S384x1, .i32⟩
  | 89 => ⟨S1x3072, .i32⟩
  | 90 => ⟨S384x3072, .i32⟩
  | 91 => ⟨S384x3072, .i32⟩
  | 92 => ⟨S384x3072, .i1⟩
  | 93 => ⟨S384x1, .i32⟩
  | 94 => ⟨S1x3072, .i32⟩
  | 95 => ⟨S384x3072, .i32⟩
  | 96 => ⟨S384x3072, .i32⟩
  | 97 => ⟨S384x3072, .i1⟩
  | 98 => ⟨S384x3072, .i1⟩
  | 99 => ⟨S384x1, .i32⟩
  | 100 => ⟨S1x3072, .i32⟩
  | 101 => ⟨S384x3072, .i32⟩
  | 102 => ⟨S384x3072, .i32⟩
  | 103 => ⟨S384x3072, .i1⟩
  | 104 => ⟨S384x3072, .i1⟩
  | 105 => ⟨S384x3072, .f32⟩
  | 106 => ⟨S_, .i32⟩
  | 107 => ⟨S3072, .i32⟩
  | 108 => ⟨S3072, .i32⟩
  | 109 => ⟨S3072, .i32⟩
  | 110 => ⟨S3072x1, .i32⟩
  | 111 => ⟨S128, .i32⟩
  | 112 => ⟨S1x128, .i32⟩
  | 113 => ⟨S3072x128, .i32⟩
  | 114 => ⟨S3072x128, .i32⟩
  | 115 => ⟨S3072x128, .i1⟩
  | 116 => ⟨S3072x128, .f32⟩
  | 117 => ⟨S512x16384, .f32⟩
  | 118 => ⟨S512x2048x8, .f32⟩
  | 119 => ⟨S2048x512x8, .f32⟩
  | _ => ⟨S2048x512x8, .f32⟩

abbrev hbmTy (i : Nat) : BufTy := match i / 128 with
  | 0 => hbmTy0_0 i
  | 1 => hbmTy0_1 i
  | _ => ⟨S2048x512x8, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S1x128, .f32⟩
  | .local _ .vmem, ⟨2, _⟩ => ⟨S1x128, .f32⟩
  | .local _ .vmem, ⟨3, _⟩ => ⟨S128x200, .f32⟩
  | .local _ .vmem, ⟨4, _⟩ => ⟨S512x512, .f32⟩
  | .local _ .vmem, ⟨5, _⟩ => ⟨S512x200, .f32⟩
  | .local _ .vmem, ⟨6, _⟩ => ⟨S512x512, .f32⟩
  | .local _ .vmem, ⟨7, _⟩ => ⟨S512x200, .f32⟩
  | .local _ .vmem, ⟨8, _⟩ => ⟨S384x3072, .f32⟩
  | .local _ .vmem, ⟨9, _⟩ => ⟨S3072x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x384, .f32⟩
  | _, _ => ⟨S2048x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v9 : Ref sig .tc := ⟨.hbm, 54, rfl⟩
abbrev main_c_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v10 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v11 : Ref sig .tc := ⟨.hbm, 94, rfl⟩
abbrev main_v12 : Ref sig .tc := ⟨.hbm, 95, rfl⟩
abbrev main_c_3 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_c : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_c_0 : Ref sig .tc := ⟨.hbm, 110, rfl⟩
abbrev main_call4_v12 : Ref sig .tc := ⟨.hbm, 111, rfl⟩
abbrev main_call4_v13 : Ref sig .tc := ⟨.hbm, 112, rfl⟩
abbrev main_v13 : Ref sig .tc := ⟨.hbm, 113, rfl⟩
abbrev main_c_4 : Ref sig .tc := ⟨.hbm, 114, rfl⟩
abbrev main_call5_v0 : Ref sig .tc := ⟨.hbm, 115, rfl⟩
abbrev main_call5_c : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_c_1 : Ref sig .tc := ⟨.hbm, 122, rfl⟩
abbrev main_call5_v5 : Ref sig .tc := ⟨.hbm, 123, rfl⟩
abbrev main_call5_v6 : Ref sig .tc := ⟨.hbm, 124, rfl⟩
abbrev main_call5_c_2 : Ref sig .tc := ⟨.hbm, 125, rfl⟩
abbrev main_call5_v7 : Ref sig .tc := ⟨.hbm, 126, rfl⟩
abbrev main_call5_v8 : Ref sig .tc := ⟨.hbm, 127, rfl⟩
abbrev main_call5_c_3 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_v12 : Ref sig .tc := ⟨.hbm, 132, rfl⟩
abbrev main_call5_v13 : Ref sig .tc := ⟨.hbm, 133, rfl⟩
abbrev main_call5_v14 : Ref sig .tc := ⟨.hbm, 134, rfl⟩
abbrev main_v14 : Ref sig .tc := ⟨.hbm, 135, rfl⟩
abbrev main_c_5 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_call6_v5 : Ref sig .tc := ⟨.hbm, 142, rfl⟩
abbrev main_call6_v6 : Ref sig .tc := ⟨.hbm, 143, rfl⟩
abbrev main_call6_v7 : Ref sig .tc := ⟨.hbm, 144, rfl⟩
abbrev main_call6_v8 : Ref sig .tc := ⟨.hbm, 145, rfl⟩
abbrev main_call6_c : Ref sig .tc := ⟨.hbm, 146, rfl⟩
abbrev main_call6_v9 : Ref sig .tc := ⟨.hbm, 147, rfl⟩
abbrev main_call6_v10 : Ref sig .tc := ⟨.hbm, 148, rfl⟩
abbrev main_call6_v11 : Ref sig .tc := ⟨.hbm, 149, rfl⟩
abbrev main_call6_c_0 : Ref sig .tc := ⟨.hbm, 150, rfl⟩
abbrev main_call6_v12 : Ref sig .tc := ⟨.hbm, 151, rfl⟩
abbrev main_call6_v13 : Ref sig .tc := ⟨.hbm, 152, rfl⟩
abbrev main_v15 : Ref sig .tc := ⟨.hbm, 153, rfl⟩
abbrev main_c_6 : Ref sig .tc := ⟨.hbm, 154, rfl⟩
abbrev main_call7_v0 : Ref sig .tc := ⟨.hbm, 155, rfl⟩
abbrev main_call7_c : Ref sig .tc := ⟨.hbm, 156, rfl⟩
abbrev main_call7_v1 : Ref sig .tc := ⟨.hbm, 157, rfl⟩
abbrev main_call7_c_0 : Ref sig .tc := ⟨.hbm, 158, rfl⟩
abbrev main_call7_v2 : Ref sig .tc := ⟨.hbm, 159, rfl⟩
abbrev main_call7_v3 : Ref sig .tc := ⟨.hbm, 160, rfl⟩
abbrev main_call7_v4 : Ref sig .tc := ⟨.hbm, 161, rfl⟩
abbrev main_call7_c_1 : Ref sig .tc := ⟨.hbm, 162, rfl⟩
abbrev main_call7_v5 : Ref sig .tc := ⟨.hbm, 163, rfl⟩
abbrev main_call7_v6 : Ref sig .tc := ⟨.hbm, 164, rfl⟩
abbrev main_call7_c_2 : Ref sig .tc := ⟨.hbm, 165, rfl⟩
abbrev main_call7_v7 : Ref sig .tc := ⟨.hbm, 166, rfl⟩
abbrev main_call7_v8 : Ref sig .tc := ⟨.hbm, 167, rfl⟩
abbrev main_call7_c_3 : Ref sig .tc := ⟨.hbm, 168, rfl⟩
abbrev main_call7_v9 : Ref sig .tc := ⟨.hbm, 169, rfl⟩
abbrev main_call7_v10 : Ref sig .tc := ⟨.hbm, 170, rfl⟩
abbrev main_call7_v11 : Ref sig .tc := ⟨.hbm, 171, rfl⟩
abbrev main_call7_v12 : Ref sig .tc := ⟨.hbm, 172, rfl⟩
abbrev main_call7_v13 : Ref sig .tc := ⟨.hbm, 173, rfl⟩
abbrev main_call7_v14 : Ref sig .tc := ⟨.hbm, 174, rfl⟩
abbrev main_v16 : Ref sig .tc := ⟨.hbm, 175, rfl⟩
abbrev main_c_7 : Ref sig .tc := ⟨.hbm, 176, rfl⟩
abbrev main_call8_v0 : Ref sig .tc := ⟨.hbm, 177, rfl⟩
abbrev main_call8_v1 : Ref sig .tc := ⟨.hbm, 178, rfl⟩
abbrev main_call8_v2 : Ref sig .tc := ⟨.hbm, 179, rfl⟩
abbrev main_call8_v3 : Ref sig .tc := ⟨.hbm, 180, rfl⟩
abbrev main_call8_v4 : Ref sig .tc := ⟨.hbm, 181, rfl⟩
abbrev main_call8_v5 : Ref sig .tc := ⟨.hbm, 182, rfl⟩
abbrev main_call8_v6 : Ref sig .tc := ⟨.hbm, 183, rfl⟩
abbrev main_call8_v7 : Ref sig .tc := ⟨.hbm, 184, rfl⟩
abbrev main_call8_v8 : Ref sig .tc := ⟨.hbm, 185, rfl⟩
abbrev main_call8_c : Ref sig .tc := ⟨.hbm, 186, rfl⟩
abbrev main_call8_v9 : Ref sig .tc := ⟨.hbm, 187, rfl⟩
abbrev main_call8_v10 : Ref sig .tc := ⟨.hbm, 188, rfl⟩
abbrev main_call8_v11 : Ref sig .tc := ⟨.hbm, 189, rfl⟩
abbrev main_call8_c_0 : Ref sig .tc := ⟨.hbm, 190, rfl⟩
abbrev main_call8_v12 : Ref sig .tc := ⟨.hbm, 191, rfl⟩
abbrev main_call8_v13 : Ref sig .tc := ⟨.hbm, 192, rfl⟩
abbrev main_v17 : Ref sig .tc := ⟨.hbm, 193, rfl⟩
abbrev main_c_8 : Ref sig .tc := ⟨.hbm, 194, rfl⟩
abbrev main_call9_v0 : Ref sig .tc := ⟨.hbm, 195, rfl⟩
abbrev main_call9_c : Ref sig .tc := ⟨.hbm, 196, rfl⟩
abbrev main_call9_v1 : Ref sig .tc := ⟨.hbm, 197, rfl⟩
abbrev main_call9_c_0 : Ref sig .tc := ⟨.hbm, 198, rfl⟩
abbrev main_call9_v2 : Ref sig .tc := ⟨.hbm, 199, rfl⟩
abbrev main_call9_v3 : Ref sig .tc := ⟨.hbm, 200, rfl⟩
abbrev main_call9_v4 : Ref sig .tc := ⟨.hbm, 201, rfl⟩
abbrev main_call9_c_1 : Ref sig .tc := ⟨.hbm, 202, rfl⟩
abbrev main_call9_v5 : Ref sig .tc := ⟨.hbm, 203, rfl⟩
abbrev main_call9_v6 : Ref sig .tc := ⟨.hbm, 204, rfl⟩
abbrev main_call9_c_2 : Ref sig .tc := ⟨.hbm, 205, rfl⟩
abbrev main_call9_v7 : Ref sig .tc := ⟨.hbm, 206, rfl⟩
abbrev main_call9_v8 : Ref sig .tc := ⟨.hbm, 207, rfl⟩
abbrev main_call9_c_3 : Ref sig .tc := ⟨.hbm, 208, rfl⟩
abbrev main_call9_v9 : Ref sig .tc := ⟨.hbm, 209, rfl⟩
abbrev main_call9_v10 : Ref sig .tc := ⟨.hbm, 210, rfl⟩
abbrev main_call9_v11 : Ref sig .tc := ⟨.hbm, 211, rfl⟩
abbrev main_call9_v12 : Ref sig .tc := ⟨.hbm, 212, rfl⟩
abbrev main_call9_v13 : Ref sig .tc := ⟨.hbm, 213, rfl⟩
abbrev main_call9_v14 : Ref sig .tc := ⟨.hbm, 214, rfl⟩
abbrev main_v18 : Ref sig .tc := ⟨.hbm, 215, rfl⟩
abbrev main_v19 : Ref sig .tc := ⟨.hbm, 216, rfl⟩
abbrev main_v20 : Ref sig .tc := ⟨.hbm, 217, rfl⟩
abbrev main_v21 : Ref sig .tc := ⟨.hbm, 218, rfl⟩
abbrev main_v22 : Ref sig .tc := ⟨.hbm, 219, rfl⟩
abbrev main_v23 : Ref sig .tc := ⟨.hbm, 220, rfl⟩
abbrev main_v24 : Ref sig .tc := ⟨.hbm, 221, rfl⟩
abbrev main_v25 : Ref sig .tc := ⟨.hbm, 222, rfl⟩
abbrev main_v26 : Ref sig .tc := ⟨.hbm, 223, rfl⟩
abbrev main_v27 : Ref sig .tc := ⟨.hbm, 224, rfl⟩
abbrev main_v28 : Ref sig .tc := ⟨.hbm, 225, rfl⟩
abbrev main_v29 : Ref sig .tc := ⟨.hbm, 226, rfl⟩
abbrev main_v30 : Ref sig .tc := ⟨.hbm, 227, rfl⟩
abbrev main_v31 : Ref sig .tc := ⟨.hbm, 228, rfl⟩
abbrev main_v32 : Ref sig .tc := ⟨.hbm, 229, rfl⟩
abbrev main_v33 : Ref sig .tc := ⟨.hbm, 230, rfl⟩
abbrev main_v34 : Ref sig .tc := ⟨.hbm, 231, rfl⟩
abbrev main_v35 : Ref sig .tc := ⟨.hbm, 232, rfl⟩
abbrev main_v36 : Ref sig .tc := ⟨.hbm, 233, rfl⟩
abbrev main_c_9 : Ref sig .tc := ⟨.hbm, 234, rfl⟩
abbrev main_v37 : Ref sig .tc := ⟨.hbm, 235, rfl⟩
abbrev main_v38 : Ref sig .tc := ⟨.hbm, 236, rfl⟩
abbrev main_v39 : Ref sig .tc := ⟨.hbm, 237, rfl⟩
abbrev main_v40 : Ref sig .tc := ⟨.hbm, 238, rfl⟩
abbrev main_v41 : Ref sig .tc := ⟨.hbm, 239, rfl⟩
abbrev main_v42 : Ref sig .tc := ⟨.hbm, 240, rfl⟩
abbrev main_v43 : Ref sig .tc := ⟨.hbm, 241, rfl⟩
abbrev main_v44 : Ref sig .tc := ⟨.hbm, 242, rfl⟩
abbrev main_v45 : Ref sig .tc := ⟨.hbm, 243, rfl⟩
abbrev main_v46 : Ref sig .tc := ⟨.hbm, 244, rfl⟩
abbrev main_v47 : Ref sig .tc := ⟨.hbm, 245, rfl⟩
abbrev main_v48 : Ref sig .tc := ⟨.hbm, 246, rfl⟩
abbrev main_v49 : Ref sig .tc := ⟨.hbm, 247, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3072x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128x3x8x8_S128x192 : S128x3x8x8.ShapeCasts S128x192
  concatenates_S128x192_S128x8_S128x200_d1 : Shape.Concatenates [S128x192, S128x8] S128x200 1
  shapeCasts_S128_S1x128 : S128.ShapeCasts S1x128
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x512_S512 : S512x512.Reduces [0] S512
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S128x200_S128x200_0_0 : ∀ a, (![0, 0] : Fin 2 → Nat) a + S128x200.size a ≤ S128x200.size a
  h_S128x200 : 0 < S128x200.numel
  shapeCasts_S128x200_S128x200 : S128x200.ShapeCasts S128x200
  inb_S512x200_S512x200_0_0 : ∀ a, (![0, 0] : Fin 2 → Nat) a + S512x200.size a ≤ S512x200.size a
  h_S512x200 : 0 < S512x200.numel
  transposes_S2048x512x8_S512x2048x8_1_0_2 : S2048x512x8.Transposes [1, 0, 2] S512x2048x8
  shapeCasts_S512x2048x8_S512x16384 : S512x2048x8.ShapeCasts S512x16384
  bcast_S_S384 : S_.BroadcastsInDim S384 (![] : Fin 0 → Fin S384.rank)
  bcast_S_S3072 : S_.BroadcastsInDim S3072 (![] : Fin 0 → Fin S3072.rank)
  bcast_S384_S384x1_0 : S384.BroadcastsInDim S384x1 (![0] : Fin 1 → Fin S384x1.rank)
  bcast_S3072_S1x3072_1 : S3072.BroadcastsInDim S1x3072 (![1] : Fin 1 → Fin S1x3072.rank)
  bcast_S384x1_S384x3072_0_1 : S384x1.BroadcastsInDim S384x3072 (![0, 1] : Fin 2 → Fin S384x3072.rank)
  bcast_S1x3072_S384x3072_0_1 : S1x3072.BroadcastsInDim S384x3072 (![0, 1] : Fin 2 → Fin S384x3072.rank)
  bcast_S3072_S3072x1_0 : S3072.BroadcastsInDim S3072x1 (![0] : Fin 1 → Fin S3072x1.rank)
  bcast_S128_S1x128_1 : S128.BroadcastsInDim S1x128 (![1] : Fin 1 → Fin S1x128.rank)
  bcast_S3072x1_S3072x128_0_1 : S3072x1.BroadcastsInDim S3072x128 (![0, 1] : Fin 2 → Fin S3072x128.rank)
  bcast_S1x128_S3072x128_0_1 : S1x128.BroadcastsInDim S3072x128 (![0, 1] : Fin 2 → Fin S3072x128.rank)
  shapeCasts_S512x512_S512x512 : S512x512.ShapeCasts S512x512
  shapeCasts_S512x128_S512x128 : S512x128.ShapeCasts S512x128
  inb_S512x384_S512x128_0_0 : ∀ a, (![0, 0] : Fin 2 → Nat) a + S512x128.size a ≤ S512x384.size a
  inb_S512x384_S512x128_0_128 : ∀ a, (![0, 128] : Fin 2 → Nat) a + S512x128.size a ≤ S512x384.size a
  inb_S512x384_S512x128_0_256 : ∀ a, (![0, 256] : Fin 2 → Nat) a + S512x128.size a ≤ S512x384.size a
  inb_S512x384_S512x384_0_0 : ∀ a, (![0, 0] : Fin 2 → Nat) a + S512x384.size a ≤ S512x384.size a
  h_S512x384 : 0 < S512x384.numel
  inb_S512x200_S512x192_0_0 : ∀ a, (![0, 0] : Fin 2 → Nat) a + S512x192.size a ≤ S512x200.size a
  h_S512x192 : 0 < S512x192.numel
  shapeCasts_S512x192_S512x192 : S512x192.ShapeCasts S512x192
  inb_S512x200_S512x8_0_192 : ∀ a, (![0, 192] : Fin 2 → Nat) a + S512x8.size a ≤ S512x200.size a
  h_S512x8 : 0 < S512x8.numel
  shapeCasts_S512x8_S512x8 : S512x8.ShapeCasts S512x8
  concatenates_S512x192_S512x192_S512x192_S512x192_S512x192_S512x192_S512x192_S512x192_S512x192_S512x192_S512x192_S512x192_S512x192_S512x192_S512x192_S512x192_S512x3072_d1 : Shape.Concatenates [S512x192, S512x192, S512x192, S512x192, S512x192, S512x192, S512x192, S512x192, S512x192, S512x192, S512x192, S512x192, S512x192, S512x192, S512x192, S512x192] S512x3072 1
  concatenates_S512x8_S512x8_S512x8_S512x8_S512x8_S512x8_S512x8_S512x8_S512x8_S512x8_S512x8_S512x8_S512x8_S512x8_S512x8_S512x8_S512x128_d1 : Shape.Concatenates [S512x8, S512x8, S512x8, S512x8, S512x8, S512x8, S512x8, S512x8, S512x8, S512x8, S512x8, S512x8, S512x8, S512x8, S512x8, S512x8] S512x128 1
  inb_S384x3072_S384x3072_0_0 : ∀ a, (![0, 0] : Fin 2 → Nat) a + S384x3072.size a ≤ S384x3072.size a
  h_S384x3072 : 0 < S384x3072.numel
  shapeCasts_S384x3072_S384x3072 : S384x3072.ShapeCasts S384x3072
  inb_S3072x128_S3072x128_0_0 : ∀ a, (![0, 0] : Fin 2 → Nat) a + S3072x128.size a ≤ S3072x128.size a
  h_S3072x128 : 0 < S3072x128.numel
  shapeCasts_S3072x128_S3072x128 : S3072x128.ShapeCasts S3072x128
  shapeCasts_S512x16384_S512x2048x8 : S512x16384.ShapeCasts S512x2048x8
  transposes_S512x2048x8_S2048x512x8_1_0_2 : S512x2048x8.Transposes [1, 0, 2] S2048x512x8
  dot_S512x128_S512x128_S512x512_1_1_0_0_n_n_wf : DotDims.WF S512x128 S512x128 S512x512 [1] [1] [0] [0] [] []
  dot_S512x128_S128x200_S512x200_1_0_0_1_n_n_wf : DotDims.WF S512x128 S128x200 S512x200 [1] [0] [0] [1] [] []
  dot_S512x512_S512x128_S512x128_1_0_0_1_n_n_wf : DotDims.WF S512x512 S512x128 S512x128 [1] [0] [0] [1] [] []
  dot_S512x384_S384x3072_S512x3072_1_0_0_1_n_n_wf : DotDims.WF S512x384 S384x3072 S512x3072 [1] [0] [0] [1] [] []
  dot_S512x3072_S3072x128_S512x128_1_0_0_1_n_n_wf : DotDims.WF S512x3072 S3072x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x200.size a ≤ S128x200.size a
  hwx0_3 : ∀ i : grid0.Coords, EltTy.bits .f32 = 32 ∨ (Rect.block (s := S128x200) S128x200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x200.size a ≤ S512x200.size a
  hwx0_5 : ∀ i : grid0.Coords, EltTy.bits .f32 = 32 ∨ (Rect.block (s := S512x200) S512x200.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x200.size a ≤ S512x200.size a
  hwx1_1 : ∀ i : grid1.Coords, EltTy.bits .f32 = 32 ∨ (Rect.block (s := S512x200) S512x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x3072.size a ≤ S384x3072.size a
  hwx1_2 : ∀ i : grid1.Coords, EltTy.bits .f32 = 32 ∨ (Rect.block (s := S384x3072) S384x3072.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3072x128.size a ≤ S3072x128.size a
  hwx1_3 : ∀ i : grid1.Coords, EltTy.bits .f32 = 32 ∨ (Rect.block (s := S3072x128) S3072x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x16384.size a
  hwx1_4 : ∀ i : grid1.Coords, EltTy.bits .f32 = 32 ∨ (Rect.block (s := S512x16384) S512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x16384.size a
  hwx1_5 : ∀ i : grid1.Coords, EltTy.bits .f32 = 32 ∨ (Rect.block (s := S512x16384) S512x128.size (cc1_transform_5 i) (hinb1_5 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x128_S128x200_S512x200_1_0_0_1_n_n : DotDims S512x128 S128x200 S512x200 where
  lhsContracting := [1]
  rhsContracting := [0]
  lhsNonContracting := [0]
  rhsNonContracting := [1]
  lhsBatch := []
  rhsBatch := []
  wf := dot_S512x128_S128x200_S512x200_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x384_S384x3072_S512x3072_1_0_0_1_n_n : DotDims S512x384 S384x3072 S512x3072 where
  lhsContracting := [1]
  rhsContracting := [0]
  lhsNonContracting := [0]
  rhsNonContracting := [1]
  lhsBatch := []
  rhsBatch := []
  wf := dot_S512x384_S384x3072_S512x3072_1_0_0_1_n_n_wf
def dot_S512x3072_S3072x128_S512x128_1_0_0_1_n_n : DotDims S512x3072 S3072x128 S512x128 where
  lhsContracting := [1]
  rhsContracting := [0]
  lhsNonContracting := [0]
  rhsNonContracting := [1]
  lhsBatch := []
  rhsBatch := []
  wf := dot_S512x3072_S3072x128_S512x128_1_0_0_1_n_n_wf

abbrev win0_0 : Pipeline.Window sig grid0 :=
  Pipeline.Window.ofSpec (Memref.whole main_arg1) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x200.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S512x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S384x3072.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S3072x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v47) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.KRun.lean ====
/-
  The run of the idealized kernel program with its result array named: every weakly fair execution of
  @main terminates without a fault, the arguments end as launched, and the result buffer ends at the
  last boundary's contents — the fold of the host stretches and the two regions' write-backs over the
  launch memory.
-/
import proofs.«177386_g2000605918393418_pallasbulk_489_2_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution terminates, nothing faulting; the result buffer ends at the contents of the
    last segment boundary and each argument as launched. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KRun

end
-- ==== Proof.RRun.lean ====
/-
  The run of the idealized reference program with its result array named: every weakly fair execution of
  @main terminates without a fault, the arguments end as launched, and the result buffer ends at the
  last boundary's contents — the fold of the host stretches and the two regions' write-backs over the
  launch memory.
-/
import proofs.«177386_g2000605918393418_pallasbulk_489_2_alg».proof.Proof.Gen.ReferenceIdeal.Frame

set_option maxRecDepth 16384

noncomputable section

namespace Cert.RRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution terminates, nothing faulting; the result buffer ends at the contents of the
    last segment boundary and each argument as launched. -/
theorem run : θ_run defs (onTc (τ := τ) (main (F := F))) ⟨m, fun _ => 0, ρ⟩ (fun r => ∀ c : Dev nD,
      r.2.mem ((c.tc : Thread nD τ).loc main_v49) = W25 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v49 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c)⟩)

end Cert.RRun

end
-- ==== Proof.KHost.lean ====
/-
  The host stretches of the idealized kernel program, read at an index.  Before the first region the pool
  is reshaped to [128,192], the bias pool appended along axis 1 and the result transposed to [200,128];
  the two LayerNorm vectors become rows [1,128].  Between the regions x[b,n,i] is transposed to
  xl[i,b,n]; after the second region the result (o,b,n) is transposed back to (b,n,o).
-/
import proofs.«177386_g2000605918393418_pallasbulk_489_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KHost

open Idealize.ShloMosaic Idealize.ShloMosaic.TcCoe Idealize.ShloMosaic.ValueIdx Idealize.ShloMosaic.StableHlo
open Idealize.SL.Sem
open Cert.KernelIdeal Cert.KernelIdeal.Gen

variable {F : FTy → Type} [FloatOps F]
variable (m : (ℓ : Loc nD τ sig) → Buf (Elt F) ℓ) (ρ : Dev nD → PrngReg)

/-! ## After the second region -/

/-- The result is the second region's output array with its axes permuted. -/
theorem result_eq (c : Dev nD) :
    (W5 m ρ c (Proc.devRef .tc main_v8) : S2048x512x8.Idx → Elt F .f32)
      = transpose S2048x512x8 [1, 2, 0] (W4 m ρ c (Proc.devRef .tc main_v7)) transposes_S8x2048x512_S2048x512x8_1_2_0 := by
  dsimp only [W5, hostOps2]; after_results

/-- Entry (b,n,o) of the result is entry (o,b,n) of the second region's output array. -/
theorem result_apply (c : Dev nD) (b : Fin 2048) (n : Fin 512) (o : Fin 8) :
    (W5 m ρ c (Proc.devRef .tc main_v8) : S2048x512x8.Idx → Elt F .f32) (ix3 b n o)
      = (W4 m ρ c (Proc.devRef .tc main_v7) : S8x2048x512.Idx → Elt F .f32) (ix3 o b n) := by
  rw [result_eq]
  exact transpose_apply _ _ _ _ (ix3 o b n) (fun a => by match a with | ⟨0, _⟩ => rfl | ⟨1, _⟩ => rfl | ⟨2, _⟩ => rfl)

/-! ## Before the first region -/

/-- A buffer no host operation before the first region writes holds its launch contents there. -/
theorem emb_eq (c : Dev nD) :
    (V1 m ρ c main_arg1 : S512x128.Idx → Elt F .f32) = m ((c : Thread nD τ).loc main_arg1) := by
  dsimp only [V1, W1, hostOps0]; after_results; try rfl

/-- The LayerNorm weight as a row. -/
theorem lnw_eq (c : Dev nD) :
    (V1 m ρ c main_v3 : S1x128.Idx → Elt F .f32)
      = shapeCast S1x128 (m ((c : Thread nD τ).loc main_arg2)) shapeCasts_S128_S1x128 := by
  dsimp only [V1, W1, hostOps0]; after_results; try rfl

/-- The LayerNorm bias as a row. -/
theorem lnb_eq (c : Dev nD) :
    (V1 m ρ c main_v4 : S1x128.Idx → Elt F .f32)
      = shapeCast S1x128 (m ((c : Thread nD τ).loc main_arg3)) shapeCasts_S128_S1x128 := by
  dsimp only [V1, W1, hostOps0]; after_results; try rfl

/-- The fused pool: the weights pool flattened to [128,192] with the bias pool appended along axis 1. -/
def poolCat (wp : S128x3x8x8.Idx → Elt F .f32) (bp : S128x8.Idx → Elt F .f32) : S128x200.Idx → Elt F .f32 :=
  concatenate S128x200 1 [⟨S128x192, shapeCast S128x192 wp shapeCasts_S128x3x8x8_S128x192⟩, ⟨S128x8, bp⟩]
    concatenates_S128x192_S128x8_S128x200_d1

/-- The first region's fourth input is the fused pool transposed. -/
theorem poolt_eq (c : Dev nD) :
    (V1 m ρ c main_v2 : S200x128.Idx → Elt F .f32)
      = transpose S200x128 [1, 0] (poolCat (m ((c : Thread nD τ).loc main_arg4)) (m ((c : Thread nD τ).loc main_arg5)))
          transposes_S128x200_S200x128_1_0 := by
  dsimp only [V1, W1, hostOps0, poolCat]; after_results; try rfl

theorem poolt_apply (c : Dev nD) (q : Fin 200) (d : Fin 128) :
    (V1 m ρ c main_v2 : S200x128.Idx → Elt F .f32) (ix2 q d)
      = poolCat (m ((c : Thread nD τ).loc main_arg4)) (m ((c : Thread nD τ).loc main_arg5)) (ix2 d q) := by
  rw [poolt_eq]
  exact transpose_apply _ _ _ _ (ix2 d q) (fun a => by match a with | ⟨0, _⟩ => rfl | ⟨1, _⟩ => rfl)

/-- A row [1,128] made of a vector [128] holds the vector's entries. -/
theorem row_apply (v : S128.Idx → Elt F .f32) (d : Fin 128) :
    shapeCast S1x128 v shapeCasts_S128_S1x128 (ix2 0 d) = v (ix1 d) := by
  refine shapeCast_apply _ _ _ (ix1 d) ?_
  rw [Shape.rowMajor_val_one, Shape.rowMajor_val_two]
  show d.val = 0 * 128 + d.val
  omega

/-! ## Between the regions -/

/-- The batch input is untouched by the first region and by the host stretch before it. -/
theorem x_kept (c : Dev nD) :
    (W2 m ρ c (Proc.devRef .tc main_arg0) : S2048x512x8.Idx → Elt F .f32) = m ((c : Thread nD τ).loc main_arg0) :=
  (W2_of_ne m ρ c main_arg0 (by decide)).trans (by dsimp only [W1, hostOps0]; after_results; try rfl)

/-- The second region's third input is the batch input with its axes permuted. -/
theorem xl_eq (c : Dev nD) :
    (V3 m ρ c main_v6 : S8x2048x512.Idx → Elt F .f32)
      = transpose S8x2048x512 [2, 0, 1] (m ((c : Thread nD τ).loc main_arg0)) transposes_S2048x512x8_S8x2048x512_2_0_1 := by
  dsimp only [V3, W3, hostOps1]; after_results
  rw [x_kept]

/-- Entry (i,b,n) of the permuted batch input is x[b,n,i]. -/
theorem xl_apply (c : Dev nD) (i : Fin 8) (b : Fin 2048) (n : Fin 512) :
    (V3 m ρ c main_v6 : S8x2048x512.Idx → Elt F .f32) (ix3 i b n) = m ((c : Thread nD τ).loc main_arg0) (ix3 b n i) := by
  rw [xl_eq]
  exact transpose_apply _ _ _ _ (ix3 b n i) (fun a => by match a with | ⟨0, _⟩ => rfl | ⟨1, _⟩ => rfl | ⟨2, _⟩ => rfl)

/-- The second region finds the first region's two output arrays as the first region left them. -/
theorem st_eq (c : Dev nD) :
    (V3 m ρ c main_v5_0 : S512x1024.Idx → Elt F .f32) = (dat0 (V1 m ρ) c).arrAt 4 cfg0.N := by
  dsimp only [V3, W3, hostOps1]; after_results
  exact W2_arr m ρ c 4

theorem wbt_eq (c : Dev nD) :
    (V3 m ρ c main_v5_1 : S200x512.Idx → Elt F .f32) = (dat0 (V1 m ρ) c).arrAt 5 cfg0.N := by
  dsimp only [V3, W3, hostOps1]; after_results
  exact W2_arr m ρ c 5

/-- The second region's output array, as the last host stretch finds it. -/
theorem out_eq (c : Dev nD) :
    (W4 m ρ c (Proc.devRef .tc main_v7) : S8x2048x512.Idx → Elt F .f32) = (dat1 (V3 m ρ) c).arrAt 3 cfg1.N :=
  W4_arr m ρ c 3

/-! ## Which buffers the windows are -/

example : Pipeline.arrRef spec0 0 = main_arg1 := rfl
example : Pipeline.arrRef spec0 1 = main_v3 := rfl
example : Pipeline.arrRef spec0 2 = main_v4 := rfl
example : Pipeline.arrRef spec0 3 = main_v2 := rfl
example : Pipeline.arrRef spec1 2 = main_v6 := rfl
example : Pipeline.arrRef spec1 3 = main_v7 := rfl

end Cert.KHost

end
-- ==== Proof.KBlocks0.lean ====
/-
  The first region of the idealized kernel program has a single grid point and every window's block is
  its whole array, so each output array ends holding the body's result of the input arrays as the region
  finds them.
-/
import proofs.«177386_g2000605918393418_pallasbulk_489_2_alg».proof.Proof.Gen.KernelIdeal.Frame
import Idealize.ShloMosaic.Lib.Pipeline.Value

set_option maxRecDepth 16384

noncomputable section

namespace Cert.KBlocks0

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Every window's block index is zero at the one grid point. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem iblk_0 (c : Dev nD) (t : Fin cfg0.N) : iblk0 V c 0 t = (V c main_arg1 : S512x128.Idx → Elt F .f32) := by
  obtain ⟨e0, e1, -⟩ := idx_zero t
  funext y
  show V c main_arg1 (((cfg0.win 0).blk t).view.emb y) = V c main_arg1 y
  refine congrArg _ (funext fun a => Fin.ext ?_)
  match a with
  | ⟨0, _⟩ => show win0_0.index t (0 : Fin 2) * 512 + 1 * (y 0).val = (y 0).val; omega
  | ⟨1, _⟩ => show win0_0.index t (1 : Fin 2) * 128 + 1 * (y 1).val = (y 1).val; omega

theorem iblk_1 (c : Dev nD) (t : Fin cfg0.N) : iblk0 V c 1 t = (V c main_v3 : S1x128.Idx → Elt F .f32) := by
  obtain ⟨-, -, e0, e1, -⟩ := idx_zero t
  funext y
  show V c main_v3 (((cfg0.win 1).blk t).view.emb y) = V c main_v3 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega

theorem iblk_2 (c : Dev nD) (t : Fin cfg0.N) : iblk0 V c 2 t = (V c main_v4 : S1x128.Idx → Elt F .f32) := by
  obtain ⟨-, -, -, -, e0, e1, -⟩ := idx_zero t
  funext y
  show V c main_v4 (((cfg0.win 2).blk t).view.emb y) = V c main_v4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem iblk_3 (c : Dev nD) (t : Fin cfg0.N) : iblk0 V c 3 t = (V c main_v2 : S200x128.Idx → Elt F .f32) := by
  obtain ⟨-, -, -, -, -, -, e0, e1, -⟩ := idx_zero t
  funext y
  show V c main_v2 (((cfg0.win 3).blk t).view.emb y) = V c main_v2 y
  refine congrArg _ (funext fun a => Fin.ext ?_)
  match a with
  | ⟨0, _⟩ => show win0_3.index t (0 : Fin 2) * 200 + 1 * (y 0).val = (y 0).val; omega
  | ⟨1, _⟩ => show win0_3.index t (1 : Fin 2) * 128 + 1 * (y 1).val = (y 1).val; omega

/-- At the one grid point the write-back of an output buffer holding `G` is `G` read through the whole-array block. -/
theorem cut_read4 (t : Fin cfg0.N) (G : S512x1024.Idx → Elt F .f32) :
    (cfg0.win 4).cut (grid0.coords t) G = ((cfg0.win 4).blk t).view.read (Elt F) G := by
  obtain ⟨-, -, -, -, -, -, -, -, e0, e1, -⟩ := idx_zero t
  funext y
  show G y = G (((cfg0.win 4).blk t).view.emb y)
  refine congrArg _ (funext fun a => Fin.ext ?_)
  match a with
  | ⟨0, _⟩ => show (y 0).val = win0_4.index t (0 : Fin 2) * 512 + 1 * (y 0).val; omega
  | ⟨1, _⟩ => show (y 1).val = win0_4.index t (1 : Fin 2) * 1024 + 1 * (y 1).val; omega

theorem cut_read5 (t : Fin cfg0.N) (G : S200x512.Idx → Elt F .f32) :
    (cfg0.win 5).cut (grid0.coords t) G = ((cfg0.win 5).blk t).view.read (Elt F) G := by
  obtain ⟨-, -, -, -, -, -, -, -, -, -, e0, e1⟩ := idx_zero t
  funext y
  show G y = G (((cfg0.win 5).blk t).view.emb y)
  refine congrArg _ (funext fun a => Fin.ext ?_)
  match a with
  | ⟨0, _⟩ => show (y 0).val = win0_5.index t (0 : Fin 2) * 200 + 1 * (y 0).val; omega
  | ⟨1, _⟩ => show (y 1).val = win0_5.index t (1 : Fin 2) * 512 + 1 * (y 1).val; omega

/-- An index is in a point's block of the Chebyshev array iff each coordinate is in the block's range. -/
theorem mem_blk4 (t : Fin cfg0.N) (i : S512x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5_0).slice (win0_4.rect t)).set ↔ _
  rw [View.set_slice_whole, Rect.mem_set_unit]
  exact Iff.rfl

theorem mem_blk5 (t : Fin cfg0.N) (i : S200x512.Idx) :
    i ∈ ((cfg0.win 5).blk t).view.set ↔ ∀ a : Fin 2, win0_5.index t a * S200x512.size a ≤ (i a).val
      ∧ (i a).val < win0_5.index t a * S200x512.size a + S200x512.size a := by
  show i ∈ ((View.whole main_v5_1).slice (win0_5.rect t)).set ↔ _
  rw [View.set_slice_whole, Rect.mem_set_unit]
  exact Iff.rfl

/-- The one grid point's block of an output window is the whole array. -/
theorem cover4 (i : S512x1024.Idx) : ∃ t : Fin cfg0.N, (cfg0.win 4).flush t = true ∧ i ∈ ((cfg0.win 4).blk t).view.set := by
  have hN : 0 < cfg0.N := by decide
  refine ⟨⟨0, hN⟩, flush0_4 _, ?_⟩
  obtain ⟨-, -, -, -, -, -, -, -, e0, e1, -⟩ := idx_zero ⟨0, hN⟩
  rw [mem_blk4]
  intro a
  match a with
  | ⟨0, _⟩ =>
    show win0_4.index ⟨0, hN⟩ (0 : Fin 2) * 512 ≤ (i 0).val ∧ (i 0).val < win0_4.index ⟨0, hN⟩ (0 : Fin 2) * 512 + 512
    have h : (i 0).val < 512 := (i 0).isLt
    omega
  | ⟨1, _⟩ =>
    show win0_4.index ⟨0, hN⟩ (1 : Fin 2) * 1024 ≤ (i 1).val ∧ (i 1).val < win0_4.index ⟨0, hN⟩ (1 : Fin 2) * 1024 + 1024
    have h : (i 1).val < 1024 := (i 1).isLt
    omega

theorem cover5 (i : S200x512.Idx) : ∃ t : Fin cfg0.N, (cfg0.win 5).flush t = true ∧ i ∈ ((cfg0.win 5).blk t).view.set := by
  have hN : 0 < cfg0.N := by decide
  refine ⟨⟨0, hN⟩, flush0_5 _, ?_⟩
  obtain ⟨-, -, -, -, -, -, -, -, -, -, e0, e1⟩ := idx_zero ⟨0, hN⟩
  rw [mem_blk5]
  intro a
  match a with
  | ⟨0, _⟩ =>
    show win0_5.index ⟨0, hN⟩ (0 : Fin 2) * 200 ≤ (i 0).val ∧ (i 0).val < win0_5.index ⟨0, hN⟩ (0 : Fin 2) * 200 + 200
    have h : (i 0).val < 200 := (i 0).isLt
    omega
  | ⟨1, _⟩ =>
    show win0_5.index ⟨0, hN⟩ (1 : Fin 2) * 512 ≤ (i 1).val ∧ (i 1).val < win0_5.index ⟨0, hN⟩ (1 : Fin 2) * 512 + 512
    have h : (i 1).val < 512 := (i 1).isLt
    omega

/-- The Chebyshev array after the region: the body's result of the four input arrays. -/
theorem st_final (c : Dev nD) :
    (dat0 V c).arrAt 4 cfg0.N
      = (out0_4 (V c main_arg1) (V c main_v3) (V c main_v4) (V c main_v2) : S512x1024.Idx → Elt F .f32) := by
  refine (dat0 V c).arrAt_eq_of_cover 4 _ (fun t _ => ?_) cover4
  show (cfg0.win 4).cut (grid0.coords t) ((dat0 V c).after 4 t) = _
  rw [after0_4, iblk_0, iblk_1, iblk_2, iblk_3]
  exact cut_read4 t _

/-- The per-node weights array after the region. -/
theorem wbt_final (c : Dev nD) :
    (dat0 V c).arrAt 5 cfg0.N
      = (out0_5 (V c main_arg1) (V c main_v3) (V c main_v4) (V c main_v2) : S200x512.Idx → Elt F .f32) := by
  refine (dat0 V c).arrAt_eq_of_cover 5 _ (fun t _ => ?_) cover5
  show (cfg0.win 5).cut (grid0.coords t) ((dat0 V c).after 5 t) = _
  rw [after0_5, iblk_0, iblk_1, iblk_2, iblk_3]
  exact cut_read5 t _

end Cert.KBlocks0

end
-- ==== Proof.LibLogSoftmaxLaw.lean ====
/-
  The last step of a log-softmax taken of a softmax, on the extended reals.

  Write v for one row of softmax values, M for their maximum and c = log (∑ₖ exp (vₖ - M)).  One program
  subtracts the whole log-sum-exp at once, vⱼ - (M + c); the other shifts first and subtracts the logarithm
  afterwards, (vⱼ - M) - c.  Over the reals these agree.  On the extended reals -(M + c) = -M - c can fail
  when M and c are opposite infinities, so the two spellings need an argument: no entry of the row is +∞.
  Then M ≠ +∞, every vₖ - M is not +∞, so every exp (vₖ - M) and their finite sum stay below +∞ and c ≠ +∞;
  with M ≠ +∞ and c ≠ +∞ the negation distributes, and associativity of + does the rest.

  That no entry is +∞ holds for every softmax row whatever its logits are: an entry is e / s with
  0 ≤ e ≤ s (a term of a sum of non-negative terms), and such a quotient is never +∞ — by zero it is the
  junk value ⊥ (then e = 0 too), by +∞ it is 0, by a positive real it is a real.
-/
import Mathlib
import Idealize.ShloMosaic.PureOps.Ideal

noncomputable section

namespace Cert.LogSoftmaxLaw

open Idealize.ShloMosaic

/-- The exponential of an extended real is non-negative. -/
theorem exp_nonneg (x : EReal) : 0 ≤ Ideal.exp x := by
  induction x using EReal.rec with
  | bot => exact le_refl _
  | top => exact le_top
  | coe r => exact EReal.coe_nonneg.mpr (Real.exp_nonneg r)

/-- Off +∞ the exponential is not +∞. -/
theorem exp_ne_top {x : EReal} (h : x ≠ ⊤) : Ideal.exp x ≠ ⊤ := by
  induction x using EReal.rec with
  | bot => exact EReal.zero_ne_top
  | top => exact absurd rfl h
  | coe r => exact EReal.coe_ne_top _

/-- Off +∞ the logarithm is not +∞. -/
theorem log_ne_top {x : EReal} (h : x ≠ ⊤) : Ideal.log x ≠ ⊤ := by
  induction x using EReal.rec with
  | bot => exact bot_ne_top
  | top => exact absurd rfl h
  | coe r =>
    show (if r ≤ 0 then (⊥ : EReal) else (Real.log r : EReal)) ≠ ⊤
    split
    · exact bot_ne_top
    · exact EReal.coe_ne_top _

/-- A finite sum of extended reals none of which is +∞ is not +∞. -/
theorem sum_ne_top {ι : Type*} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact (EReal.add_lt_top (h a (Finset.mem_insert_self a s))
      (ih fun i hi => h i (Finset.mem_insert_of_mem hi))).ne

/-- A quotient of a non-negative numerator by something at least as large is never +∞. -/
theorem div_ne_top {x y : EReal} (hx : 0 ≤ x) (hxy : x ≤ y) : Ideal.div x y ≠ ⊤ := by
  unfold Ideal.div
  split
  · rename_i hy
    have hn : ¬ (0 < x) := not_lt.mpr (hy ▸ hxy)
    rw [if_neg hn]; exact bot_ne_top
  · induction y using EReal.rec with
    | bot => exact absurd (le_trans hx hxy) (by simp)
    | top => rw [EReal.inv_top, mul_zero]; exact EReal.zero_ne_top
    | coe r =>
      induction x using EReal.rec with
      | bot => exact absurd hx (by simp)
      | top => exact absurd hxy (by simp)
      | coe s => rw [← EReal.coe_inv, ← EReal.coe_mul]; exact EReal.coe_ne_top _

/-- Below a bound that is not +∞, a value that is not +∞ minus the bound is not +∞. -/
theorem sub_ne_top_of_le {a M : EReal} (ha : a ≠ ⊤) (hM : M ≠ ⊤) (h : a ≤ M) : a - M ≠ ⊤ := by
  induction M using EReal.rec with
  | bot =>
    have : a = ⊥ := le_bot_iff.mp h
    subst this
    rw [sub_eq_add_neg, EReal.bot_add]; exact bot_ne_top
  | top => exact absurd rfl hM
  | coe r =>
    induction a using EReal.rec with
    | bot => rw [sub_eq_add_neg, EReal.bot_add]; exact bot_ne_top
    | top => exact absurd rfl ha
    | coe s => rw [← EReal.coe_sub]; exact EReal.coe_ne_top _

/-- THE LAW: for a row with no entry +∞ and a bound M ≠ +∞ above all of it, subtracting M + log ∑ exp (v - M) at once
    and subtracting M first, the logarithm afterwards, give the same extended real. -/
theorem sub_add_log_sum {ι : Type*} [Fintype ι] (v : ι → EReal) (M : EReal) (hv : ∀ k, v k ≠ ⊤) (hM : M ≠ ⊤)
    (hle : ∀ k, v k ≤ M) (j : ι) :
    v j - (M + Ideal.log (∑ k, Ideal.exp (v k - M))) = (v j - M) - Ideal.log (∑ k, Ideal.exp (v k - M)) := by
  have hc : Ideal.log (∑ k, Ideal.exp (v k - M)) ≠ ⊤ :=
    log_ne_top (sum_ne_top _ _ fun k _ => exp_ne_top (sub_ne_top_of_le (hv k) hM (hle k)))
  rw [sub_eq_add_neg (v j) (M + _), EReal.neg_add (Or.inr hc) (Or.inl hM), sub_eq_add_neg (-M) _, ← add_assoc,
    ← sub_eq_add_neg, ← sub_eq_add_neg]

/-- Every entry of a softmax row — exp (zₖ - m) over the sum of those exponentials, for ANY logits z and shift m — is
    not +∞. -/
theorem softmax_ne_top {ι : Type*} [Fintype ι] (z : ι → EReal) (m : EReal) (k : ι) :
    Ideal.div (Ideal.exp (z k - m)) (∑ l, Ideal.exp (z l - m)) ≠ ⊤ :=
  div_ne_top (exp_nonneg _)
    (Finset.single_le_sum (f := fun l => Ideal.exp (z l - m)) (fun l _ => exp_nonneg _) (Finset.mem_univ k))

/-! ## Rows -/

/-- The maximum of a row, folded from a start value b (a reduction's initial value). -/
def rowMax {n : ℕ} (b : EReal) (z : Fin n → EReal) : EReal := (Finset.univ : Finset (Fin n)).fold max b z

theorem le_rowMax {n : ℕ} (b : EReal) (z : Fin n → EReal) (k : Fin n) : z k ≤ rowMax b z :=
  (Finset.le_fold_max (z k)).mpr (Or.inr ⟨k, Finset.mem_univ k, le_refl _⟩)

theorem rowMax_ne_top {n : ℕ} {b : EReal} {z : Fin n → EReal} (hb : b ≠ ⊤) (hz : ∀ k, z k ≠ ⊤) : rowMax b z ≠ ⊤ :=
  ((Finset.fold_max_lt ⊤).mpr ⟨lt_top_iff_ne_top.mpr hb, fun k _ => lt_top_iff_ne_top.mpr (hz k)⟩).ne

/-- One more maximum with the start value changes nothing: the fold is already above its start. -/
theorem max_start_rowMax {n : ℕ} (b : EReal) (z : Fin n → EReal) : max b (rowMax b z) = rowMax b z :=
  max_eq_right ((Finset.le_fold_max b).mpr (Or.inl (le_refl b)))

/-- The softmax of a row: exp (zₖ - max z) over the sum of those exponentials. -/
def softmaxRow {n : ℕ} (b : EReal) (z : Fin n → EReal) : Fin n → EReal :=
  fun k => Ideal.div (Ideal.exp (z k - rowMax b z)) (∑ l, Ideal.exp (z l - rowMax b z))

theorem softmaxRow_ne_top {n : ℕ} (b : EReal) (z : Fin n → EReal) (k : Fin n) : softmaxRow b z k ≠ ⊤ :=
  softmax_ne_top z (rowMax b z) k

/-- The log-softmax of a row v with the whole log-sum-exp subtracted at once: v - (max v + log ∑ exp (v - max v)). -/
def logSoftmaxOnce {n : ℕ} (b : EReal) (v : Fin n → EReal) (q : Fin n) : EReal :=
  v q - (rowMax b v + Ideal.log (∑ l, Ideal.exp (v l - rowMax b v)))

/-- The log-softmax of a row v shifted first: (v - max v) - log ∑ exp (v - max v). -/
def logSoftmaxShift {n : ℕ} (b : EReal) (v : Fin n → EReal) (q : Fin n) : EReal :=
  (v q - rowMax b v) - Ideal.log (∑ l, Ideal.exp (v l - rowMax b v))

/-- The two spellings agree on a row with no entry +∞, from a start value that is not +∞. -/
theorem once_eq_shift {n : ℕ} {b : EReal} (hb : b ≠ ⊤) (v : Fin n → EReal) (hv : ∀ k, v k ≠ ⊤) (q : Fin n) :
    logSoftmaxOnce b v q = logSoftmaxShift b v q :=
  sub_add_log_sum v (rowMax b v) hv (rowMax_ne_top hb hv) (le_rowMax b v) q

/-- So they agree on every softmax row, whatever the logits. -/
theorem once_eq_shift_softmax {n : ℕ} {b : EReal} (hb : b ≠ ⊤) (z : Fin n → EReal) (q : Fin n) :
    logSoftmaxOnce b (softmaxRow b z) q = logSoftmaxShift b (softmaxRow b z) q :=
  once_eq_shift hb _ (softmaxRow_ne_top b z) q

end Cert.LogSoftmaxLaw

end
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMaxFold.lean ====
/-
  Maxima folded over a finite index set, as both programs' softmax takes them: the fold of `max` over the set,
  starting from some value `b` (for the programs, −∞).  Such a fold lies above its starting value and above
  every entry, and nothing smaller does: it is the least upper bound of `b` and the family.  Two consequences are
  used: taking one more maximum with the starting value changes nothing, whatever that value is; and the fold
  only depends on the family through its values, so it may be re-indexed along a bijection.
-/
import Mathlib.Data.EReal.Basic
import Mathlib.Data.Finset.Fold

namespace Cert.LibMaxFold

variable {α : Type*} [LinearOrder α] {ι : Type*}

/-- A fold of `max` lies above the value it starts from. -/
theorem start_le_fold (s : Finset ι) (b : α) (f : ι → α) : b ≤ s.fold max b f :=
  (Finset.le_fold_max b).mpr (Or.inl le_rfl)

/-- One more maximum with the starting value changes nothing. -/
theorem max_start_fold (s : Finset ι) (b : α) (f : ι → α) : max b (s.fold max b f) = s.fold max b f :=
  max_eq_right (start_le_fold s b f)

/-- The same with the operands in the other order. -/
theorem max_fold_start (s : Finset ι) (b : α) (f : ι → α) : max (s.fold max b f) b = s.fold max b f :=
  max_eq_left (start_le_fold s b f)

/-- Two families with the same values have the same fold. -/
theorem fold_congr (s : Finset ι) (b : α) {f g : ι → α} (h : ∀ i ∈ s, f i = g i) :
    s.fold max b f = s.fold max b g :=
  Finset.fold_congr h

end Cert.LibMaxFold
-- ==== Proof.LibRowSoftmax.lean ====
/-
  The softmax and the log-softmax of every row of an [a, K] array, spelt as a vector unit spells them — a maximum
  and a sum along the lanes (multi_reduction), each kept as a column [a, 1] and broadcast back along the row — read
  at an entry (p, q):

    rowMaxVec z (p)        = the fold of max over k of z (p, k), from the accumulator's value (the word 0xFF800000, -∞);
    expShift z (p, l)      = exp (z (p, l) - that maximum);
    softmaxVec z (p, l)    = expShift z (p, l) / ∑ₖ expShift z (p, k);
    logSoftmaxVec v (p, q) = v (p, q) - (max of row p of v + log ∑ₖ exp (v (p, k) - that maximum)).

  Each is the row function of the same name (LibLogSoftmaxLaw) applied to row p.  The shape facts the operations carry
  are whatever proofs the printed operations have: they are propositions.
-/
import Idealize.ShloMosaic.PureOps.Ideal.Laws
import Idealize.ShloMosaic.Lib.Pipeline.Value
import Idealize.ShloMosaic.Lib.ValueIdx
import proofs.«177386_g2000605918393418_pallasbulk_489_2_alg».proof.Proof.LibRowSum
import proofs.«177386_g2000605918393418_pallasbulk_489_2_alg».proof.Proof.LibColumn
import proofs.«177386_g2000605918393418_pallasbulk_489_2_alg».proof.Proof.LibMaxFold
import proofs.«177386_g2000605918393418_pallasbulk_489_2_alg».proof.Proof.LibLogSoftmaxLaw

noncomputable section

namespace Cert.LibRowSoftmax

open Idealize.ShloMosaic Idealize.ShloMosaic.ValueIdx Cert.LogSoftmaxLaw

variable {a K : ℕ}

/-- The value of the maximum's accumulator word: -∞. -/
abbrev negInf : EReal := Ideal.ofBits .f32 0xFF800000#32

theorem negInf_eq_bot : negInf = ⊥ := by simp [negInf, Ideal.ofBits, Ideal.ieee]

theorem negInf_ne_top : negInf ≠ ⊤ := by rw [negInf_eq_bot]; exact bot_ne_top

/-- The shape facts of a reduction along the lanes kept as a column and broadcast back. -/
structure Side (a K : ℕ) : Prop where
  hr : (⟨2, ![a, K]⟩ : Shape).Reduces [1] ⟨1, ![a]⟩
  hc : (⟨1, ![a]⟩ : Shape).ShapeCasts ⟨2, ![a, 1]⟩
  hb : (⟨2, ![a, 1]⟩ : Shape).Broadcasts ⟨2, ![a, K]⟩

/-- A maximum along the second axis of an [a, K] array, from the word 0xFF800000, read at row r. -/
theorem max_rows (src : FVec Ideal ⟨2, ![a, K]⟩ .f32) (hr : (⟨2, ![a, K]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 hr hφ hacc (ix1 r) = rowMax negInf (fun k => src (ix2 r k)) :=
  (Ideal.multiReduction_maximumf_single src _ hr hφ hacc (ix1 r)).trans
    (Cert.LibMaxFold.fold_congr _ _ fun k _ => congrArg src (idx2_ext _ r k rfl rfl))

/-- The row maxima. -/
def rowMaxVec (s : Side a K) (z : FVec Ideal ⟨2, ![a, K]⟩ .f32) : FVec Ideal ⟨1, ![a]⟩ .f32 :=
  multiReduction .maximumf [1] ⟨1, ![a]⟩ z 0xFF800000#32 s.hr (.inl rfl) rfl

/-- A row statistic kept as a column and broadcast along the rows. -/
def keep (s : Side a K) (m : FVec Ideal ⟨1, ![a]⟩ .f32) : FVec Ideal ⟨2, ![a, K]⟩ .f32 :=
  broadcastTo ⟨2, ![a, K]⟩ (shapeCast ⟨2, ![a, 1]⟩ m s.hc) s.hb

/-- exp (z - row maximum). -/
def expShift (s : Side a K) (z : FVec Ideal ⟨2, ![a, K]⟩ .f32) : FVec Ideal ⟨2, ![a, K]⟩ .f32 :=
  Idealize.ShloMosaic.exp (subf z (keep s (rowMaxVec s z)))

/-- The row sums. -/
def rowSumVec (s : Side a K) (e : FVec Ideal ⟨2, ![a, K]⟩ .f32) : FVec Ideal ⟨1, ![a]⟩ .f32 :=
  multiReduction .add [1] ⟨1, ![a]⟩ e 0x00000000#32 s.hr (.inl rfl) rfl

/-- The softmax of every row. -/
def softmaxVec (s : Side a K) (z : FVec Ideal ⟨2, ![a, K]⟩ .f32) : FVec Ideal ⟨2, ![a, K]⟩ .f32 :=
  divf (expShift s z) (keep s (rowSumVec s (expShift s z)))

/-- The log-softmax of every row, the whole log-sum-exp (a column) subtracted at once. -/
def logSoftmaxVec (s : Side a K) (v : FVec Ideal ⟨2, ![a, K]⟩ .f32) : FVec Ideal ⟨2, ![a, K]⟩ .f32 :=
  subf v (broadcastTo ⟨2, ![a, K]⟩
    (addf (shapeCast ⟨2, ![a, 1]⟩ (rowMaxVec s v) s.hc)
      (Idealize.ShloMosaic.log (shapeCast ⟨2, ![a, 1]⟩ (rowSumVec s (expShift s v)) s.hc))) s.hb)

theorem rowMaxVec_apply (s : Side a K) (z : FVec Ideal ⟨2, ![a, K]⟩ .f32) (p : Fin a) :
    rowMaxVec s z (ix1 p) = rowMax negInf (fun k => z (ix2 p k)) :=
  max_rows z s.hr (.inl rfl) rfl p

theorem keep_apply (s : Side a K) (m : FVec Ideal ⟨1, ![a]⟩ .f32) (p : Fin a) (l : Fin K) :
    keep s m (ix2 p l) = m (ix1 p) :=
  (broadcastTo_a1_ab_apply (shapeCast ⟨2, ![a, 1]⟩ m s.hc) s.hb p l).trans (shapeCast_a_a1_apply m s.hc p 0)

theorem expShift_apply (s : Side a K) (z : FVec Ideal ⟨2, ![a, K]⟩ .f32) (p : Fin a) (l : Fin K) :
    expShift s z (ix2 p l) = Ideal.exp (z (ix2 p l) - rowMax negInf (fun k => z (ix2 p k))) :=
  congrArg (fun t : EReal => Ideal.exp (z (ix2 p l) - t)) ((keep_apply s (rowMaxVec s z) p l).trans (rowMaxVec_apply s z p))

theorem rowSumVec_apply (s : Side a K) (e : FVec Ideal ⟨2, ![a, K]⟩ .f32) (p : Fin a) :
    rowSumVec s e (ix1 p) = ∑ k : Fin K, e (ix2 p k) :=
  multiReduction_add_rows_apply e s.hr (.inl rfl) rfl p

theorem sum_expShift (s : Side a K) (z : FVec Ideal ⟨2, ![a, K]⟩ .f32) (p : Fin a) :
    rowSumVec s (expShift s z) (ix1 p) = ∑ k : Fin K, Ideal.exp (z (ix2 p k) - rowMax negInf (fun k => z (ix2 p k))) :=
  (rowSumVec_apply s (expShift s z) p).trans (Finset.sum_congr rfl fun k _ => expShift_apply s z p k)

/-- The softmax vector at (p, l) is the softmax of row p at l. -/
theorem softmaxVec_apply (s : Side a K) (z : FVec Ideal ⟨2, ![a, K]⟩ .f32) (p : Fin a) (l : Fin K) :
    softmaxVec s z (ix2 p l) = softmaxRow negInf (fun k => z (ix2 p k)) l :=
  congrArg₂ Ideal.div (expShift_apply s z p l) ((keep_apply s (rowSumVec s (expShift s z)) p l).trans (sum_expShift s z p))

/-- The log-softmax vector at (p, q) is the log-softmax (log-sum-exp subtracted at once) of row p at q. -/
theorem logSoftmaxVec_apply (s : Side a K) (v : FVec Ideal ⟨2, ![a, K]⟩ .f32) (p : Fin a) (q : Fin K) :
    logSoftmaxVec s v (ix2 p q) = logSoftmaxOnce negInf (fun k => v (ix2 p k)) q := by
  have h1 : (addf (shapeCast ⟨2, ![a, 1]⟩ (rowMaxVec s v) s.hc)
        (Idealize.ShloMosaic.log (shapeCast ⟨2, ![a, 1]⟩ (rowSumVec s (expShift s v)) s.hc))) (ix2 p (0 : Fin 1))
      = rowMax negInf (fun k => v (ix2 p k))
        + Ideal.log (∑ k : Fin K, Ideal.exp (v (ix2 p k) - rowMax negInf (fun k => v (ix2 p k)))) :=
    congrArg₂ (fun x y : EReal => x + Ideal.log y)
      ((shapeCast_a_a1_apply (rowMaxVec s v) s.hc p 0).trans (rowMaxVec_apply s v p))
      ((shapeCast_a_a1_apply (rowSumVec s (expShift s v)) s.hc p 0).trans (sum_expShift s v p))
  exact congrArg (fun t : EReal => v (ix2 p q) - t) ((broadcastTo_a1_ab_apply _ s.hb p q).trans h1)

end Cert.LibRowSoftmax

end
-- ==== Proof.SpecPro.lean ====
/-
  The prologue of the graph convolution, index by index over the extended reals.

  From the node embeddings emb (512 nodes, 128 features), a weight row w and a bias row b:

    mean n        = (∑_d emb n d) / 128
    cen n d       = emb n d - mean n
    var n         = (∑_d cen n d * cen n d) / 128
    E n d         = cen n d * rsqrt (var n + eps) * w d + b d          (the layer normalization)
    Logits e r c  = ∑_d e r d * e c d                                   (e · eᵀ)
    Elu z         = z if 0 < z, else exp (min z 0) - 1
    Z r c         = Elu (Logits E r c)

  and the two softmaxes of Z: along each row (SRow) and along each column (SCol).  The float literals are kept as the
  words the programs print (128, 1e-12, 0, 1, 2): both programs print the same words, so they are never evaluated.
-/
import Mathlib
import Idealize.ShloMosaic.PureOps.Ideal
import Idealize.ShloMosaic.Lib.ValueIdx
import proofs.«177386_g2000605918393418_pallasbulk_489_2_alg».proof.Proof.LibLogSoftmaxLaw
import proofs.«177386_g2000605918393418_pallasbulk_489_2_alg».proof.Proof.LibRowSoftmax

noncomputable section

namespace Cert.SpecPro

open Idealize.ShloMosaic Cert.LogSoftmaxLaw Cert.LibRowSoftmax

/-- The word 0x43000000: 128. -/
abbrev c128 : EReal := Ideal.ofBits .f32 0x43000000#32
/-- The word 0x2B8CBCCC: the layer normalization's epsilon. -/
abbrev eps : EReal := Ideal.ofBits .f32 0x2B8CBCCC#32
/-- The word 0x00000000: 0. -/
abbrev zero : EReal := Ideal.ofBits .f32 0x00000000#32
/-- The word 0x3F800000: 1. -/
abbrev one : EReal := Ideal.ofBits .f32 0x3F800000#32
/-- The word 0x40000000: 2. -/
abbrev two : EReal := Ideal.ofBits .f32 0x40000000#32

/-- The mean of a node's features. -/
def mean (emb : Fin 512 → Fin 128 → EReal) (n : Fin 512) : EReal := Ideal.div (∑ d : Fin 128, emb n d) c128

/-- A feature minus its node's mean. -/
def cen (emb : Fin 512 → Fin 128 → EReal) (n : Fin 512) (d : Fin 128) : EReal := emb n d - mean emb n

/-- The variance of a node's features. -/
def var (emb : Fin 512 → Fin 128 → EReal) (n : Fin 512) : EReal :=
  Ideal.div (∑ d : Fin 128, cen emb n d * cen emb n d) c128

/-- The layer normalization of the embeddings. -/
def E (emb : Fin 512 → Fin 128 → EReal) (w b : Fin 128 → EReal) (n : Fin 512) (d : Fin 128) : EReal :=
  cen emb n d * Ideal.rsqrt (var emb n + eps) * w d + b d

/-- The products of the rows of e with each other. -/
def Logits (e : Fin 512 → Fin 128 → EReal) (r c : Fin 512) : EReal := ∑ d : Fin 128, e r d * e c d

/-- The exponential linear unit. -/
def Elu (z : EReal) : EReal := if zero < z then z else Ideal.exp (min z zero) - one

/-- The activated logits of the normalized embeddings. -/
def Z (emb : Fin 512 → Fin 128 → EReal) (w b : Fin 128 → EReal) (r c : Fin 512) : EReal :=
  Elu (Logits (E emb w b) r c)

/-- The softmax of each ROW of Z, at (r, c). -/
def SRow (emb : Fin 512 → Fin 128 → EReal) (w b : Fin 128 → EReal) (r c : Fin 512) : EReal :=
  softmaxRow negInf (fun c' => Z emb w b r c') c

/-- The softmax of each COLUMN of Z, at (r, c). -/
def SCol (emb : Fin 512 → Fin 128 → EReal) (w b : Fin 128 → EReal) (r c : Fin 512) : EReal :=
  softmaxRow negInf (fun r' => Z emb w b r' c) r

/-- A [512,128] block as a function of (node, feature). -/
abbrev embK (x0 : Vec Ideal ⟨2, ![512, 128]⟩ .f32) : Fin 512 → Fin 128 → EReal := fun n d => x0 (ValueIdx.ix2 n d)

/-- A [1,128] row block as a function of the feature. -/
abbrev rowK (x : Vec Ideal ⟨2, ![1, 128]⟩ .f32) : Fin 128 → EReal := fun d => x (ValueIdx.ix2 (0 : Fin 1) d)

/-- The identity matrix. -/
def delta (r c : Fin 512) : EReal := if r = c then 1 else 0

end Cert.SpecPro

end
-- ==== Proof.LibColSum.lean ====
/-
  A sum along the FIRST axis of a matrix read at a column.

  A sublane reduction `multi_reduction <add>` of a [K, b] array along its first axis, from the zero word, read at
  column j over the extended reals, is the sum over k of the entries (k, j).
-/
import proofs.«177386_g2000605918393418_pallasbulk_489_2_alg».proof.Proof.LibRowSum

namespace Idealize.ShloMosaic.ValueIdx

open Idealize.ShloMosaic

/-- A sum along the first axis of a [K, b] array, from the zero word, read at column `j`: `∑ k, src (k, j)`. The shape
    fact, the format fact and the accumulator's neutrality are whatever proofs the printed operation carries. -/
theorem multiReduction_add_cols_apply {K b : ℕ} (src : FVec Ideal ⟨2, ![K, b]⟩ .f32)
    (hr : (⟨2, ![K, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 hr hφ hacc (ix1 j) = ∑ k : Fin K, src (ix2 k j) :=
  (Ideal.multiReduction_add_single src _ hr hφ hacc (ix1 j)).trans
    (Finset.sum_congr rfl fun k _ => congrArg src (idx2_ext _ k j rfl rfl))

end Idealize.ShloMosaic.ValueIdx
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibRealMask.lean ====
/-
  Masks as Booleans, and comparisons and roots of real numbers, on the extended reals.
  A one-bit mask built from comparisons is the bit of a Boolean: "and" of two such bits is the bit of the conjunction, "not" the bit
  of the negation, and a select on such a bit is an if on the Boolean. A comparison of two real numbers read on the extended reals is
  the bit of the real comparison. The square root of a non-negative real is its real square root; the inverse square root of a
  positive real is the inverse of its real square root, so a positive real times its inverse square root is its square root.
  Two natural numbers below 2^32, as 32-bit words, are equal exactly when the numbers are.
-/
import Mathlib
import Idealize.ShloMosaic.Lib.ValueIdx
import Idealize.ShloMosaic.PureOps.Ideal.Laws

noncomputable section

namespace Cert.LibRealMask

open Idealize.ShloMosaic

/-- A select on the bit of a Boolean is an if on the Boolean. -/
theorem sel_bool {α : Type} (a : Bool) (u v : α) : Scalar.select (BitVec.ofBool a) u v = if a = true then u else v := by
  cases a <;> rfl

/-- The "and" of two Booleans' bits is the bit of their conjunction. -/
theorem and_bool (a b : Bool) : IntOp.andi (BitVec.ofBool a) (BitVec.ofBool b) = BitVec.ofBool (a && b) := by
  cases a <;> cases b <;> rfl

/-- The complement of a Boolean's bit is the bit of its negation. -/
theorem not_bool (a : Bool) : ~~~(BitVec.ofBool a) = BitVec.ofBool (!a) := by cases a <;> rfl

/-- "Less than" between two reals, read on the extended reals. -/
theorem cmp_olt_coe (a b : ℝ) : Ideal.cmp .olt (a : EReal) (b : EReal) = BitVec.ofBool (decide (a < b)) := by
  simp only [Ideal.cmp, EReal.coe_lt_coe_iff]

/-- "Greater than" between two reals, read on the extended reals. -/
theorem cmp_ogt_coe (a b : ℝ) : Ideal.cmp .ogt (a : EReal) (b : EReal) = BitVec.ofBool (decide (b < a)) := by
  simp only [Ideal.cmp, EReal.coe_lt_coe_iff]

/-- The square root of a non-negative real. -/
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

/-- The inverse square root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its inverse square root is its square root. -/
theorem mul_rsqrt_coe (r : ℝ) (h : 0 < r) : ((r : ℝ) : EReal) * Ideal.rsqrt (r : EReal) = ((Real.sqrt r : ℝ) : EReal) := by
  rw [rsqrt_coe r h, ← EReal.coe_mul]
  congr 1
  have hpos : 0 < Real.sqrt r := Real.sqrt_pos.mpr h
  rw [mul_inv_eq_iff_eq_mul₀ hpos.ne']
  exact (Real.mul_self_sqrt h.le).symm

/-- Two naturals below 2^32, as 32-bit words, are equal exactly when the numbers are. -/
theorem word_eq_of_lt (i j : ℕ) (hi : i < 2 ^ 32) (hj : j < 2 ^ 32) :
    IntOp.cmpi .eq (BitVec.ofNat 32 i) (BitVec.ofNat 32 j) = BitVec.ofBool (decide (i = j)) := by
  simp only [IntOp.cmpi]
  congr 1
  rw [Bool.eq_iff_iff, beq_iff_eq, decide_eq_true_iff]
  constructor
  · intro h
    have := congrArg BitVec.toNat h
    simp only [BitVec.toNat_ofNat] at this
    omega
  · intro h; rw [h]

end Cert.LibRealMask

end
-- ==== Proof.KPVec.lean ====
/-
  The prologue's vector operations, read at an index over the extended reals.

  Both programs spell the same chain of vector operations on literal shapes: a layer normalization of a [512,128]
  array (two lane sums kept as columns and broadcast back), a product of the normalized array with its own transpose,
  the exponential linear unit, and a softmax of the [512,512] result — along each row in one program, along each
  column in the other.  Each chain is named here once, over whatever shape facts the printed operations carry (they are
  propositions), and read at an entry as the function of the same name of the specification.
-/
import Idealize.ShloMosaic.PureOps.Ideal.Laws
import Idealize.ShloMosaic.Lib.Pipeline.Value
import Idealize.ShloMosaic.Lib.ValueIdx
import Idealize.ShloMosaic.Lib.ValueLayout
import proofs.«177386_g2000605918393418_pallasbulk_489_2_alg».proof.Proof.SpecPro
import proofs.«177386_g2000605918393418_pallasbulk_489_2_alg».proof.Proof.LibRowSum
import proofs.«177386_g2000605918393418_pallasbulk_489_2_alg».proof.Proof.LibColSum
import proofs.«177386_g2000605918393418_pallasbulk_489_2_alg».proof.Proof.LibColumn
import proofs.«177386_g2000605918393418_pallasbulk_489_2_alg».proof.Proof.LibDotNT
import proofs.«177386_g2000605918393418_pallasbulk_489_2_alg».proof.Proof.LibDot
import proofs.«177386_g2000605918393418_pallasbulk_489_2_alg».proof.Proof.LibMaxFold
import proofs.«177386_g2000605918393418_pallasbulk_489_2_alg».proof.Proof.LibRealMask
import proofs.«177386_g2000605918393418_pallasbulk_489_2_alg».proof.Proof.LibRowSoftmax

noncomputable section

namespace Cert.UC

open Idealize.ShloMosaic Idealize.ShloMosaic.ValueIdx Cert.SpecPro Cert.LogSoftmaxLaw Cert.LibRowSoftmax

/-! ## The layer normalization -/

/-- The shape facts the layer normalization's operations carry. -/
structure LNSide : Prop where
  hr : (⟨2, ![512, 128]⟩ : Shape).Reduces [1] ⟨1, ![512]⟩
  hc : (⟨1, ![512]⟩ : Shape).ShapeCasts ⟨2, ![512, 1]⟩
  hb : (⟨2, ![512, 1]⟩ : Shape).Broadcasts ⟨2, ![512, 128]⟩
  hc1 : (⟨2, ![1, 128]⟩ : Shape).ShapeCasts ⟨2, ![1, 128]⟩
  hb1 : (⟨2, ![1, 128]⟩ : Shape).Broadcasts ⟨2, ![512, 128]⟩

/-- The means, a column. -/
def lnMean (s : LNSide) (v0 : FVec Ideal ⟨2, ![512, 128]⟩ .f32) : FVec Ideal ⟨2, ![512, 1]⟩ .f32 :=
  divf (shapeCast ⟨2, ![512, 1]⟩ (multiReduction .add [1] ⟨1, ![512]⟩ v0 0x00000000#32 s.hr (.inl rfl) rfl) s.hc)
    (broadcast ⟨2, ![512, 1]⟩ (Scalar.ofBits .f32 0x43000000#32))

/-- The centred array. -/
def lnCen (s : LNSide) (v0 : FVec Ideal ⟨2, ![512, 128]⟩ .f32) : FVec Ideal ⟨2, ![512, 128]⟩ .f32 :=
  subf v0 (broadcastTo ⟨2, ![512, 128]⟩ (lnMean s v0) s.hb)

/-- The inverse standard deviations, a column. -/
def lnRstd (s : LNSide) (v0 : FVec Ideal ⟨2, ![512, 128]⟩ .f32) : FVec Ideal ⟨2, ![512, 1]⟩ .f32 :=
  rsqrt (addf
    (divf (shapeCast ⟨2, ![512, 1]⟩
        (multiReduction .add [1] ⟨1, ![512]⟩ (mulf (lnCen s v0) (lnCen s v0)) 0x00000000#32 s.hr (.inl rfl) rfl) s.hc)
      (broadcast ⟨2, ![512, 1]⟩ (Scalar.ofBits .f32 0x43000000#32)))
    (broadcast ⟨2, ![512, 1]⟩ (Scalar.ofBits .f32 0x2B8CBCCC#32)))

/-- The normalized array, scaled by the weight row and shifted by the bias row. -/
def lnVec (s : LNSide) (v0 : FVec Ideal ⟨2, ![512, 128]⟩ .f32) (v17 v21 : FVec Ideal ⟨2, ![1, 128]⟩ .f32) :
    FVec Ideal ⟨2, ![512, 128]⟩ .f32 :=
  addf (mulf (mulf (lnCen s v0) (broadcastTo ⟨2, ![512, 128]⟩ (lnRstd s v0) s.hb))
      (broadcastTo ⟨2, ![512, 128]⟩ (shapeCast ⟨2, ![1, 128]⟩ v17 s.hc1) s.hb1))
    (broadcastTo ⟨2, ![512, 128]⟩ (shapeCast ⟨2, ![1, 128]⟩ v21 s.hc1) s.hb1)

theorem lnMean_apply (s : LNSide) (v0 : FVec Ideal ⟨2, ![512, 128]⟩ .f32) (n : Fin 512) (u : Fin 1) :
    lnMean s v0 (ix2 n u) = mean (embK v0) n :=
  congrArg (fun t : EReal => Ideal.div t c128)
    ((shapeCast_a_a1_apply _ s.hc n u).trans (multiReduction_add_rows_apply v0 s.hr (.inl rfl) rfl n))

theorem lnCen_apply (s : LNSide) (v0 : FVec Ideal ⟨2, ![512, 128]⟩ .f32) (n : Fin 512) (d : Fin 128) :
    lnCen s v0 (ix2 n d) = cen (embK v0) n d :=
  congrArg (fun t : EReal => v0 (ix2 n d) - t) ((broadcastTo_a1_ab_apply _ s.hb n d).trans (lnMean_apply s v0 n 0))

theorem lnRstd_apply (s : LNSide) (v0 : FVec Ideal ⟨2, ![512, 128]⟩ .f32) (n : Fin 512) (u : Fin 1) :
    lnRstd s v0 (ix2 n u) = Ideal.rsqrt (var (embK v0) n + eps) :=
  congrArg (fun t : EReal => Ideal.rsqrt (Ideal.div t c128 + eps))
    ((shapeCast_a_a1_apply _ s.hc n u).trans
      ((multiReduction_add_rows_apply (mulf (lnCen s v0) (lnCen s v0)) s.hr (.inl rfl) rfl n).trans
        (Finset.sum_congr rfl fun d _ => congrArg₂ (fun a b : EReal => a * b) (lnCen_apply s v0 n d) (lnCen_apply s v0 n d))))

/-- A [1,128] row broadcast down the 512 rows. -/
theorem lnRow_apply (s : LNSide) (v : FVec Ideal ⟨2, ![1, 128]⟩ .f32) (n : Fin 512) (d : Fin 128) :
    broadcastTo ⟨2, ![512, 128]⟩ (shapeCast ⟨2, ![1, 128]⟩ v s.hc1) s.hb1 (ix2 n d) = rowK v d :=
  (broadcastTo_1b_ab_apply _ s.hb1 n d).trans (congrFun (shapeCast_self v s.hc1) _)

/-- The layer normalization at (n, d). -/
theorem lnVec_apply (s : LNSide) (v0 : FVec Ideal ⟨2, ![512, 128]⟩ .f32) (v17 v21 : FVec Ideal ⟨2, ![1, 128]⟩ .f32)
    (n : Fin 512) (d : Fin 128) :
    lnVec s v0 v17 v21 (ix2 n d) = E (embK v0) (rowK v17) (rowK v21) n d :=
  congrArg₂ (fun a b : EReal => a + b)
    (congrArg₂ (fun a b : EReal => a * b)
      (congrArg₂ (fun a b : EReal => a * b) (lnCen_apply s v0 n d)
        ((broadcastTo_a1_ab_apply _ s.hb n d).trans (lnRstd_apply s v0 n 0)))
      (lnRow_apply s v17 n d))
    (lnRow_apply s v21 n d)

/-! ## The exponential linear unit -/

/-- The exponential linear unit of every entry. -/
def eluVec (z : FVec Ideal ⟨2, ![512, 512]⟩ .f32) : FVec Ideal ⟨2, ![512, 512]⟩ .f32 :=
  select (cmpf .ogt z (broadcast ⟨2, ![512, 512]⟩ (Scalar.ofBits .f32 0x00000000#32))) z
    (subf (Idealize.ShloMosaic.exp (minimumf z (broadcast ⟨2, ![512, 512]⟩ (Scalar.ofBits .f32 0x00000000#32))))
      (broadcast ⟨2, ![512, 512]⟩ (Scalar.ofBits .f32 0x3F800000#32)))

theorem elu_scalar (x : EReal) :
    Scalar.select (Ideal.cmp .ogt x zero) x (Ideal.exp (min x zero) - one) = Elu x := by
  show Scalar.select (BitVec.ofBool (decide (zero < x))) x (Ideal.exp (min x zero) - one) = _
  rw [Cert.LibRealMask.sel_bool]
  unfold Elu
  simp only [decide_eq_true_eq]

theorem eluVec_apply (z : FVec Ideal ⟨2, ![512, 512]⟩ .f32) (i : (⟨2, ![512, 512]⟩ : Shape).Idx) :
    eluVec z i = Elu (z i) := elu_scalar (z i)

/-! ## The activated logits -/

/-- The facts of a product that contracts the last axis of both operands. -/
structure NTDims {M N K : ℕ} (D : DotDims (⟨2, ![M, K]⟩ : Shape) ⟨2, ![N, K]⟩ ⟨2, ![M, N]⟩) : Prop where
  hlc : D.lhsContracting = [1]
  hrc : D.rhsContracting = [1]
  hln : D.lhsNonContracting = [0]
  hrn : D.rhsNonContracting = [0]
  hlb : D.lhsBatch = []
  hrb : D.rhsBatch = []
  hr : D.contr.rank = 1
  hs : D.contr.size ⟨0, by omega⟩ = K

/-- The exponential linear unit of e · eᵀ. -/
def zVec (D : DotDims (⟨2, ![512, 128]⟩ : Shape) ⟨2, ![512, 128]⟩ ⟨2, ![512, 512]⟩)
    (e : FVec Ideal ⟨2, ![512, 128]⟩ .f32) : FVec Ideal ⟨2, ![512, 512]⟩ .f32 :=
  eluVec (matmul D none e e (constant ⟨2, ![512, 512]⟩ .f32 0x00000000#32))

theorem zVec_apply (D : DotDims (⟨2, ![512, 128]⟩ : Shape) ⟨2, ![512, 128]⟩ ⟨2, ![512, 512]⟩) (hD : NTDims D)
    (e : FVec Ideal ⟨2, ![512, 128]⟩ .f32) (r c : Fin 512) :
    zVec D e (ix2 r c) = Elu (∑ d : Fin 128, e (ix2 r d) * e (ix2 c d)) :=
  (eluVec_apply _ (ix2 r c)).trans
    (congrArg Elu (matmul_nt_zero_apply D hD.hlc hD.hrc hD.hln hD.hrn hD.hlb hD.hrb hD.hr hD.hs none e e r c))

/-- The activated logits of the layer normalization at (r, c). -/
theorem zVec_ln_apply (D : DotDims (⟨2, ![512, 128]⟩ : Shape) ⟨2, ![512, 128]⟩ ⟨2, ![512, 512]⟩) (hD : NTDims D)
    (s : LNSide) (v0 : FVec Ideal ⟨2, ![512, 128]⟩ .f32) (v17 v21 : FVec Ideal ⟨2, ![1, 128]⟩ .f32) (r c : Fin 512) :
    zVec D (lnVec s v0 v17 v21) (ix2 r c) = Z (embK v0) (rowK v17) (rowK v21) r c :=
  (zVec_apply D hD _ r c).trans
    (congrArg Elu (Finset.sum_congr rfl fun d _ =>
      congrArg₂ (fun a b : EReal => a * b) (lnVec_apply s v0 v17 v21 r d) (lnVec_apply s v0 v17 v21 c d)))

/-! ## The softmax along the columns -/

variable {K b : ℕ}

/-- The shape facts of a reduction along the first axis kept as a row and broadcast back. -/
structure CSide (K b : ℕ) : Prop where
  hr : (⟨2, ![K, b]⟩ : Shape).Reduces [0] ⟨1, ![b]⟩
  hc : (⟨1, ![b]⟩ : Shape).ShapeCasts ⟨2, ![1, b]⟩
  hb : (⟨2, ![1, b]⟩ : Shape).Broadcasts ⟨2, ![K, b]⟩

/-- A maximum along the first axis of a [K, b] array, from the word 0xFF800000, read at column j. -/
theorem max_cols (src : FVec Ideal ⟨2, ![K, b]⟩ .f32) (hr : (⟨2, ![K, b]⟩ : Shape).Reduces [0] ⟨1, ![b]⟩)
    (hφ : FKind.Formats .f32) (hacc : (0xFF800000#32 : BitVec 32) = FKind.maximumf.neutral .f32 hφ) (j : Fin b) :
    multiReduction .maximumf [0] ⟨1, ![b]⟩ src 0xFF800000#32 hr hφ hacc (ix1 j) = rowMax negInf (fun k => src (ix2 k j)) :=
  (Ideal.multiReduction_maximumf_single src _ hr hφ hacc (ix1 j)).trans
    (Cert.LibMaxFold.fold_congr _ _ fun k _ => congrArg src (idx2_ext _ k j rfl rfl))

/-- The column maxima. -/
def colMaxVec (s : CSide K b) (z : FVec Ideal ⟨2, ![K, b]⟩ .f32) : FVec Ideal ⟨1, ![b]⟩ .f32 :=
  multiReduction .maximumf [0] ⟨1, ![b]⟩ z 0xFF800000#32 s.hr (.inl rfl) rfl

/-- A column statistic kept as a row and broadcast down the columns. -/
def keepC (s : CSide K b) (m : FVec Ideal ⟨1, ![b]⟩ .f32) : FVec Ideal ⟨2, ![K, b]⟩ .f32 :=
  broadcastTo ⟨2, ![K, b]⟩ (shapeCast ⟨2, ![1, b]⟩ m s.hc) s.hb

/-- exp (z - column maximum). -/
def expShiftC (s : CSide K b) (z : FVec Ideal ⟨2, ![K, b]⟩ .f32) : FVec Ideal ⟨2, ![K, b]⟩ .f32 :=
  Idealize.ShloMosaic.exp (subf z (keepC s (colMaxVec s z)))

/-- The column sums. -/
def colSumVec (s : CSide K b) (e : FVec Ideal ⟨2, ![K, b]⟩ .f32) : FVec Ideal ⟨1, ![b]⟩ .f32 :=
  multiReduction .add [0] ⟨1, ![b]⟩ e 0x00000000#32 s.hr (.inl rfl) rfl

/-- The softmax of every column. -/
def softmaxVecC (s : CSide K b) (z : FVec Ideal ⟨2, ![K, b]⟩ .f32) : FVec Ideal ⟨2, ![K, b]⟩ .f32 :=
  divf (expShiftC s z) (keepC s (colSumVec s (expShiftC s z)))

theorem colMaxVec_apply (s : CSide K b) (z : FVec Ideal ⟨2, ![K, b]⟩ .f32) (q : Fin b) :
    colMaxVec s z (ix1 q) = rowMax negInf (fun k => z (ix2 k q)) :=
  max_cols z s.hr (.inl rfl) rfl q

theorem keepC_apply (s : CSide K b) (m : FVec Ideal ⟨1, ![b]⟩ .f32) (p : Fin K) (q : Fin b) :
    keepC s m (ix2 p q) = m (ix1 q) :=
  (broadcastTo_1b_ab_apply (shapeCast ⟨2, ![1, b]⟩ m s.hc) s.hb p q).trans (shapeCast_a_1a_apply m s.hc 0 q)

theorem expShiftC_apply (s : CSide K b) (z : FVec Ideal ⟨2, ![K, b]⟩ .f32) (p : Fin K) (q : Fin b) :
    expShiftC s z (ix2 p q) = Ideal.exp (z (ix2 p q) - rowMax negInf (fun k => z (ix2 k q))) :=
  congrArg (fun t : EReal => Ideal.exp (z (ix2 p q) - t)) ((keepC_apply s (colMaxVec s z) p q).trans (colMaxVec_apply s z q))

theorem colSumVec_apply (s : CSide K b) (e : FVec Ideal ⟨2, ![K, b]⟩ .f32) (q : Fin b) :
    colSumVec s e (ix1 q) = ∑ k : Fin K, e (ix2 k q) :=
  multiReduction_add_cols_apply e s.hr (.inl rfl) rfl q

theorem sum_expShiftC (s : CSide K b) (z : FVec Ideal ⟨2, ![K, b]⟩ .f32) (q : Fin b) :
    colSumVec s (expShiftC s z) (ix1 q) = ∑ k : Fin K, Ideal.exp (z (ix2 k q) - rowMax negInf (fun k => z (ix2 k q))) :=
  (colSumVec_apply s (expShiftC s z) q).trans (Finset.sum_congr rfl fun k _ => expShiftC_apply s z k q)

/-- The column softmax vector at (p, q) is the softmax of column q at p. -/
theorem softmaxVecC_apply (s : CSide K b) (z : FVec Ideal ⟨2, ![K, b]⟩ .f32) (p : Fin K) (q : Fin b) :
    softmaxVecC s z (ix2 p q) = softmaxRow negInf (fun k => z (ix2 k q)) p :=
  congrArg₂ Ideal.div (expShiftC_apply s z p q) ((keepC_apply s (colSumVec s (expShiftC s z)) p q).trans (sum_expShiftC s z q))

/-! ## The identity matrix from two iotas -/

/-- The word of "row number = column number", widened and converted, is the identity matrix's entry. -/
theorem delta_word (r c : Fin 512) :
    (FloatOps.sitofp (F := Ideal) .f32 ((IntOp.cmpi .eq (BitVec.ofNat 32 r.val) (BitVec.ofNat 32 c.val)).setWidth 32) : EReal)
      = delta r c := by
  rw [Cert.LibRealMask.word_eq_of_lt r.val c.val (by have := r.isLt; omega) (by have := c.isLt; omega)]
  unfold delta
  by_cases h : r = c
  · subst h
    rw [if_pos rfl, decide_eq_true rfl]
    show ((((BitVec.ofBool true).setWidth 32).toInt : ℝ) : EReal) = 1
    have e : ((BitVec.ofBool true).setWidth 32).toInt = 1 := by decide
    rw [e, Int.cast_one, EReal.coe_one]
  · have h' : ¬ r.val = c.val := fun e => h (Fin.ext e)
    rw [if_neg h, decide_eq_false h']
    show ((((BitVec.ofBool false).setWidth 32).toInt : ℝ) : EReal) = 0
    have e : ((BitVec.ofBool false).setWidth 32).toInt = 0 := by decide
    rw [e, Int.cast_zero, EReal.coe_zero]

end Cert.UC

end
-- ==== Proof.KP1.lean ====
/-
  The first program's prologue payloads as the named vector chains: each payload unfolds, operation for operation,
  to the layer normalization, the activated logits, the row softmax, the product of the softmax with itself and the
  product of the transposed pool with the normalized embeddings.
-/
import proofs.«177386_g2000605918393418_pallasbulk_489_2_alg».proof.Proof.KPVec
import proofs.«177386_g2000605918393418_pallasbulk_489_2_alg».proof.Proof.Gen.KernelIdeal.Skeleton

noncomputable section

namespace Cert.UC.K

open Idealize.ShloMosaic Idealize.ShloMosaic.ValueIdx Cert.SpecPro Cert.LogSoftmaxLaw Cert.LibRowSoftmax
open Cert.KernelIdeal Cert.KernelIdeal.Gen Cert.UC

theorem lnSide : LNSide :=
  ⟨reduces_S512x128_S512, shapeCasts_S512_S512x1, broadcasts_S512x1_S512x128, shapeCasts_S1x128_S1x128,
    broadcasts_S1x128_S512x128⟩

theorem side : Side 512 512 := ⟨reduces_S512x512_S512, shapeCasts_S512_S512x1, broadcasts_S512x1_S512x512⟩

theorem ntD : NTDims dot_S512x128_S512x128_S512x512_1_1_0_0_n_n := ⟨rfl, rfl, rfl, rfl, rfl, rfl, rfl, rfl⟩

theorem ntD3 : NTDims dot_S200x128_S512x128_S200x512_1_1_0_0_n_n := ⟨rfl, rfl, rfl, rfl, rfl, rfl, rfl, rfl⟩

variable (x0 : Vec Ideal S512x128 .f32) (x1 x2 : Vec Ideal S1x128 .f32)

/-- The layer normalization. -/
theorem pay4_eq : k0_pay4 (F := Ideal) x0 x1 x2 = lnVec lnSide x0 x1 x2 := rfl

/-- The activated logits of the layer normalization. -/
abbrev zK : FVec Ideal S512x512 .f32 := zVec dot_S512x128_S512x128_S512x512_1_1_0_0_n_n (lnVec lnSide x0 x1 x2)

/-- exp (Z - row maximum). -/
theorem pay5_eq : k0_pay5 (F := Ideal) x0 x1 x2 = expShift side (zK x0 x1 x2) := rfl

/-- The row sums of that, broadcast along the rows. -/
theorem pay6_eq : k0_pay6 (F := Ideal) x0 x1 x2 = keep side (rowSumVec side (expShift side (zK x0 x1 x2))) := rfl

/-- The row softmax. -/
theorem pay1_eq : k0_pay1 (F := Ideal) (k0_pay5 x0 x1 x2) (k0_pay6 x0 x1 x2) = softmaxVec side (zK x0 x1 x2) := rfl

end Cert.UC.K

end
-- ==== Proof.KP2.lean ====
/-
  What the first program's prologue leaves in its two output blocks, entry by entry: the left half of the wide block
  is the row softmax of the activated logits, its right half twice the softmax's product with itself minus the
  identity, and the second block the transposed pool times the transposed normalized embeddings.
-/
import proofs.«177386_g2000605918393418_pallasbulk_489_2_alg».proof.Proof.KP1
import proofs.«177386_g2000605918393418_pallasbulk_489_2_alg».proof.Proof.Gen.KernelIdeal.Frame

noncomputable section

namespace Cert.UC.K

open Idealize.ShloMosaic Idealize.ShloMosaic.ValueIdx Cert.SpecPro Cert.LogSoftmaxLaw Cert.LibRowSoftmax
open Cert.KernelIdeal Cert.KernelIdeal.Gen Cert.UC

/-! ## The second Chebyshev term -/

/-- The dimension numbers of the plain rows-by-columns product. -/
theorem plainD : Cert.LibDot.Plain dot_S512x512_S512x512_S512x512_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-- Twice the square of a [512,512] array minus the identity built from two iotas. -/
def cheb2Vec (s : FVec Ideal S512x512 .f32) : FVec Ideal S512x512 .f32 :=
  subf (mulf (broadcast S512x512 (Scalar.ofBits .f32 0x40000000#32))
      (matmul dot_S512x512_S512x512_S512x512_1_0_0_1_n_n none s s (constant S512x512 .f32 0x00000000#32)))
    (sitofp .f32 (extui 32 (cmpi .eq (iota .tc S512x512 32 [0] iota_S512x512_d0_w32)
      (iota .tc S512x512 32 [1] iota_S512x512_d1_w32)) natLt_1_32))

/-- The identity built from two iotas, at (r, c). -/
theorem iotaEye_apply (r c : Fin 512) :
    (sitofp .f32 (extui 32 (cmpi .eq (iota .tc S512x512 32 [0] iota_S512x512_d0_w32)
      (iota .tc S512x512 32 [1] iota_S512x512_d1_w32)) natLt_1_32) : FVec Ideal S512x512 .f32) (ix2 r c) = delta r c := by
  show FloatOps.sitofp (F := Ideal) .f32
    ((IntOp.cmpi .eq (iota .tc S512x512 32 [0] iota_S512x512_d0_w32 (ix2 r c))
      (iota .tc S512x512 32 [1] iota_S512x512_d1_w32 (ix2 r c))).setWidth 32) = _
  rw [iota_single_apply, iota_single_apply]
  exact delta_word r c

theorem cheb2Vec_apply (s : FVec Ideal S512x512 .f32) (r c : Fin 512) :
    cheb2Vec s (ix2 r c) = two * (∑ k : Fin 512, s (ix2 r k) * s (ix2 k c)) - delta r c :=
  congrArg₂ (fun a b : EReal => two * a - b) (Cert.LibDot.matmul_ix2 plainD none s s r c) (iotaEye_apply r c)

theorem pay2_eq (v38 v41 : FVec Ideal S512x512 .f32) : k0_pay2 (F := Ideal) v38 v41 = cheb2Vec (k0_pay1 v38 v41) := rfl

/-! ## The pool times the normalized embeddings -/

theorem pay3_apply (e : FVec Ideal S512x128 .f32) (x3 : Vec Ideal S200x128 .f32) (q : Fin 200) (n : Fin 512) :
    k0_pay3 (F := Ideal) e x3 (ix2 q n) = ∑ d : Fin 128, x3 (ix2 q d) * e (ix2 n d) :=
  (matmul_nt_zero_apply dot_S200x128_S512x128_S200x512_1_1_0_0_n_n rfl rfl rfl rfl rfl rfl rfl rfl none
      (shapeCast S200x128 x3 shapeCasts_S200x128_S200x128) e q n).trans
    (Finset.sum_congr rfl fun d _ =>
      congrArg (fun t : EReal => t * e (ix2 n d)) (congrFun (shapeCast_self x3 shapeCasts_S200x128_S200x128) _))

/-! ## The blocks -/

theorem hz2 : (![0, 0] : Fin 2 → Nat) = fun _ => 0 := funext fun a => by fin_cases a <;> rfl

variable (x0 : Vec Ideal S512x128 .f32) (x1 x2 : Vec Ideal S1x128 .f32) (x3 : Vec Ideal S200x128 .f32)

/-- The row softmax at (p, q). -/
theorem S_apply (p q : Fin 512) :
    softmaxVec side (zK x0 x1 x2) (ix2 p q) = SRow (embK x0) (rowK x1) (rowK x2) p q :=
  (softmaxVec_apply side (zK x0 x1 x2) p q).trans
    (congrArg (fun f : Fin 512 → EReal => softmaxRow negInf f q)
      (funext fun k => zVec_ln_apply dot_S512x128_S512x128_S512x512_1_1_0_0_n_n ntD lnSide x0 x1 x2 p k))

/-- The wide block with the loads of the whole input blocks read through. -/
theorem out0_4_eq : out0_4 (F := Ideal) x0 x1 x2 x3
    = View.canon [⟨r0_3, k0_pay2 (k0_pay5 x0 x1 x2) (k0_pay6 x0 x1 x2)⟩,
        ⟨r0_2, k0_pay1 (k0_pay5 x0 x1 x2) (k0_pay6 x0 x1 x2)⟩] := by
  unfold out0_4
  simp only [View.ld_unit_zero (S := S512x128) hz2, View.ld_unit_zero (S := S1x128) hz2]

/-- The left half's index as the first rectangle's. -/
theorem left_idx (r c : Fin 512) : (ix2 r (⟨c.val, by omega⟩ : Fin 1024) : S512x1024.Idx) = r0_2.emb (ix2 r c) :=
  funext fun a => Fin.ext (by
    match a with
    | ⟨0, _⟩ => show r.val = 0 + 1 * r.val; omega
    | ⟨1, _⟩ => show c.val = 0 + 1 * c.val; omega)

/-- The right half's index as the second rectangle's. -/
theorem right_idx (r c : Fin 512) : (ix2 r (⟨512 + c.val, by omega⟩ : Fin 1024) : S512x1024.Idx) = r0_3.emb (ix2 r c) :=
  funext fun a => Fin.ext (by
    match a with
    | ⟨0, _⟩ => show r.val = 0 + 1 * r.val; omega
    | ⟨1, _⟩ => show 512 + c.val = 512 + 1 * c.val; omega)

/-- The left half lies outside the second rectangle. -/
theorem left_not_mem (r c : Fin 512) : (ix2 r (⟨c.val, by omega⟩ : Fin 1024) : S512x1024.Idx) ∉ r0_3.set := by
  intro h
  have h1 := (Rect.mem_set_unit.mp h) ⟨1, by decide⟩
  have h2 : (512 : ℕ) ≤ c.val := h1.1
  omega

theorem K1 (r c : Fin 512) :
    out0_4 (F := Ideal) x0 x1 x2 x3 (ix2 r (⟨c.val, by omega⟩ : Fin 1024)) = SRow (embK x0) (rowK x1) (rowK x2) r c := by
  rw [out0_4_eq]
  refine (View.canon_cons_of_not_mem (Val := Elt Ideal)
    (⟨r0_3, k0_pay2 (k0_pay5 x0 x1 x2) (k0_pay6 x0 x1 x2)⟩ : View.Piece (Elt Ideal) S512x1024 .f32)
    [⟨r0_2, k0_pay1 (k0_pay5 x0 x1 x2) (k0_pay6 x0 x1 x2)⟩] (left_not_mem r c)).trans ?_
  rw [left_idx]
  refine (View.canon_cons_emb (Val := Elt Ideal) (e := .f32) r0_2 (k0_pay1 (k0_pay5 x0 x1 x2) (k0_pay6 x0 x1 x2)) [] (ix2 r c)).trans ?_
  rw [pay1_eq]
  exact S_apply x0 x1 x2 r c

theorem K2 (r c : Fin 512) :
    out0_4 (F := Ideal) x0 x1 x2 x3 (ix2 r (⟨512 + c.val, by omega⟩ : Fin 1024))
      = two * (∑ k : Fin 512, SRow (embK x0) (rowK x1) (rowK x2) r k * SRow (embK x0) (rowK x1) (rowK x2) k c)
        - delta r c := by
  rw [out0_4_eq, right_idx]
  refine (View.canon_cons_emb (Val := Elt Ideal) (e := .f32) r0_3 (k0_pay2 (k0_pay5 x0 x1 x2) (k0_pay6 x0 x1 x2))
    [(⟨r0_2, k0_pay1 (k0_pay5 x0 x1 x2) (k0_pay6 x0 x1 x2)⟩ : View.Piece (Elt Ideal) S512x1024 .f32)] (ix2 r c)).trans ?_
  rw [pay2_eq, pay1_eq, cheb2Vec_apply]
  refine congrArg (fun t : EReal => two * t - delta r c) (Finset.sum_congr rfl fun k _ => ?_)
  rw [S_apply, S_apply]

theorem K3 (q : Fin 200) (n : Fin 512) :
    out0_5 (F := Ideal) x0 x1 x2 x3 (ix2 q n) = ∑ d : Fin 128, x3 (ix2 q d) * E (embK x0) (rowK x1) (rowK x2) n d := by
  unfold out0_5
  rw [View.canon_unit_zero hz2]
  simp only [View.ld_unit_zero (S := S512x128) hz2, View.ld_unit_zero (S := S1x128) hz2,
    View.ld_unit_zero (S := S200x128) hz2]
  rw [pay3_apply, pay4_eq]
  exact Finset.sum_congr rfl fun d _ => congrArg (fun t : EReal => x3 (ix2 q d) * t) (lnVec_apply lnSide x0 x1 x2 n d)

end Cert.UC.K

namespace Cert.UC
export Cert.UC.K (K1 K2 K3)
end Cert.UC

end
-- ==== Proof.LibReal.lean ====
/-
  Extended reals that are real numbers.
-/
import Mathlib.Data.EReal.Inv
import Mathlib.Algebra.BigOperators.Group.Finset.Basic

namespace Cert.LibReal

/-- An extended real that is (the coercion of) a real number: neither infinity. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_iff (x : EReal) : IsReal x ↔ x ≠ ⊤ ∧ x ≠ ⊥ := by
  constructor
  · rintro ⟨r, rfl⟩; exact ⟨EReal.coe_ne_top r, EReal.coe_ne_bot r⟩
  · rintro ⟨h1, h2⟩; exact ⟨x.toReal, (EReal.coe_toReal h1 h2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of real numbers, computed in the extended reals, is the real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Real-valued data has a real-valued representative. -/
theorem exists_real_fun {ι : Type*} (f : ι → EReal) (h : ∀ i, IsReal (f i)) :
    ∃ g : ι → ℝ, ∀ i, f i = (g i : EReal) :=
  ⟨fun i => (h i).choose, fun i => (h i).choose_spec⟩

end Cert.LibReal
-- ==== Proof.LibMoments.lean ====
/-
  First and second moments of a finite family of real numbers, computed in the extended reals
  with the exact division and reciprocal square root.

  * Dividing a real number by a nonzero real number gives the real quotient, so a quotient of
    real data by a nonzero real number is real.
  * The reciprocal square root of a positive real number is a positive real number.
  * For real numbers z_0, ..., z_{n-1} with n > 0 and mean m = (1/n) Σ z_i, the raw second moment
    minus the squared mean equals the centred second moment,
        (1/n) Σ z_i² − m² = (1/n) Σ (z_i − m)²,
    which is a nonnegative real number; so clamping the left-hand side below at zero changes
    nothing.
-/
import proofs.«177386_g2000605918393418_pallasbulk_489_2_alg».proof.Proof.LibReal
import Idealize.ShloMosaic.PureOps.Ideal

namespace Cert.LibMoments

open Cert.LibReal Idealize.ShloMosaic

/-- A real number divided by a nonzero real number is the real quotient. -/
theorem div_coe_real (a c : ℝ) (hc : c ≠ 0) :
    Ideal.div (a : EReal) (c : EReal) = ((a / c : ℝ) : EReal) := by
  rw [Ideal.div_coe hc, ← EReal.coe_mul, mul_one_div]

/-- A real value divided by a nonzero real value is real. -/
theorem isReal_div {x c : EReal} (hx : IsReal x) (hc : IsReal c) (h0 : c ≠ 0) :
    IsReal (Ideal.div x c) := by
  obtain ⟨a, rfl⟩ := hx
  obtain ⟨b, rfl⟩ := hc
  have hb : b ≠ 0 := by
    intro h
    exact h0 (by rw [h, EReal.coe_zero])
  rw [div_coe_real a b hb]
  exact isReal_coe _

/-- The reciprocal square root of a positive real number is a positive real number. -/
theorem rsqrt_coe_pos (a : ℝ) (ha : 0 < a) :
    ∃ r : ℝ, 0 < r ∧ Ideal.rsqrt (a : EReal) = (r : EReal) := by
  refine ⟨(Real.sqrt a)⁻¹, inv_pos.mpr (Real.sqrt_pos.mpr ha), ?_⟩
  rw [Ideal.rsqrt_coe, if_neg (not_lt.mpr ha.le), if_neg ha.ne']

/-- Over the reals: the sum of squared deviations from the mean is the sum of squares minus
    n times the squared mean. -/
theorem sum_sq_dev {n : ℕ} (hn : 0 < n) (z : Fin n → ℝ) :
    (∑ i, (z i - (∑ i', z i') / (n : ℝ)) * (z i - (∑ i', z i') / (n : ℝ)))
      = (∑ i, z i * z i) - (n : ℝ) * ((∑ i', z i') / (n : ℝ)) * ((∑ i', z i') / (n : ℝ)) := by
  have hn' : (n : ℝ) ≠ 0 := Nat.cast_ne_zero.mpr hn.ne'
  set m : ℝ := (∑ i', z i') / (n : ℝ) with hm
  have hS : ∑ i, z i = (n : ℝ) * m := by rw [hm]; field_simp
  have hexp : ∀ i, (z i - m) * (z i - m) = z i * z i - 2 * m * z i + m * m := fun i => by ring
  rw [Finset.sum_congr rfl (fun i _ => hexp i), Finset.sum_add_distrib, Finset.sum_sub_distrib,
    ← Finset.mul_sum, Finset.sum_const, Finset.card_univ, Fintype.card_fin, nsmul_eq_mul, hS]
  ring

/-- Over the reals: the raw second moment minus the squared mean is the centred second moment. -/
theorem raw_eq_centred_real {n : ℕ} (hn : 0 < n) (z : Fin n → ℝ) :
    (∑ i, z i * z i) / (n : ℝ) - (∑ i', z i') / (n : ℝ) * ((∑ i', z i') / (n : ℝ))
      = (∑ i, (z i - (∑ i', z i') / (n : ℝ)) * (z i - (∑ i', z i') / (n : ℝ))) / (n : ℝ) := by
  have hn' : (n : ℝ) ≠ 0 := Nat.cast_ne_zero.mpr hn.ne'
  rw [sum_sq_dev hn z]
  field_simp

/-- The mean of real data, computed in the extended reals, is the real mean. -/
theorem mean_coe {n : ℕ} (hn : 0 < n) (z : Fin n → ℝ) :
    Ideal.div (∑ i, (z i : EReal)) (((n : ℕ) : ℝ) : EReal) = (((∑ i, z i) / (n : ℝ) : ℝ) : EReal) := by
  have hn' : (n : ℝ) ≠ 0 := Nat.cast_ne_zero.mpr hn.ne'
  rw [← coe_sum, div_coe_real _ _ hn']

/-- The centred second moment of real data, computed in the extended reals, is the real one. -/
theorem centred_coe_eq {n : ℕ} (hn : 0 < n) (z : Fin n → ℝ) :
    Ideal.div (∑ i, ((z i : EReal) - Ideal.div (∑ i', (z i' : EReal)) (((n : ℕ) : ℝ) : EReal))
                    * ((z i : EReal) - Ideal.div (∑ i', (z i' : EReal)) (((n : ℕ) : ℝ) : EReal)))
        (((n : ℕ) : ℝ) : EReal)
      = (((∑ i, (z i - (∑ i', z i') / (n : ℝ)) * (z i - (∑ i', z i') / (n : ℝ))) / (n : ℝ) : ℝ) : EReal) := by
  have hn' : (n : ℝ) ≠ 0 := Nat.cast_ne_zero.mpr hn.ne'
  rw [mean_coe hn z]
  have h : (∑ i, ((z i : EReal) - (((∑ i', z i') / (n : ℝ) : ℝ) : EReal))
                    * ((z i : EReal) - (((∑ i', z i') / (n : ℝ) : ℝ) : EReal)))
      = (((∑ i, (z i - (∑ i', z i') / (n : ℝ)) * (z i - (∑ i', z i') / (n : ℝ))) : ℝ) : EReal) := by
    rw [coe_sum]
    exact Finset.sum_congr rfl (fun i _ => by rw [EReal.coe_mul, EReal.coe_sub])
  rw [h, div_coe_real _ _ hn']

/-- For real data, the raw second moment minus the squared mean, clamped below at zero, equals
    the centred second moment. -/
theorem raw_eq_centred {n : ℕ} (hn : 0 < n) (z : Fin n → ℝ) :
    max (Ideal.div (∑ i, (z i : EReal) * (z i : EReal)) (((n : ℕ) : ℝ) : EReal)
          - Ideal.div (∑ i, (z i : EReal)) (((n : ℕ) : ℝ) : EReal)
            * Ideal.div (∑ i, (z i : EReal)) (((n : ℕ) : ℝ) : EReal)) 0
      = Ideal.div (∑ i, ((z i : EReal) - Ideal.div (∑ i', (z i' : EReal)) (((n : ℕ) : ℝ) : EReal))
                      * ((z i : EReal) - Ideal.div (∑ i', (z i' : EReal)) (((n : ℕ) : ℝ) : EReal)))
          (((n : ℕ) : ℝ) : EReal) := by
  have hn' : (n : ℝ) ≠ 0 := Nat.cast_ne_zero.mpr hn.ne'
  have hsq : (∑ i, (z i : EReal) * (z i : EReal)) = (((∑ i, z i * z i) : ℝ) : EReal) := by
    rw [coe_sum]
    exact Finset.sum_congr rfl (fun i _ => by rw [EReal.coe_mul])
  rw [centred_coe_eq hn z, mean_coe hn z, hsq, div_coe_real _ _ hn', ← EReal.coe_mul,
    ← EReal.coe_sub, raw_eq_centred_real hn z]
  apply max_eq_left
  rw [← EReal.coe_zero, EReal.coe_le_coe_iff]
  exact div_nonneg (Finset.sum_nonneg fun i _ => mul_self_nonneg _) (Nat.cast_nonneg n)

/-- The centred second moment of real data is a nonnegative real number. -/
theorem centred_coe {n : ℕ} (hn : 0 < n) (z : Fin n → ℝ) :
    ∃ v : ℝ, 0 ≤ v ∧
      Ideal.div (∑ i, ((z i : EReal) - Ideal.div (∑ i', (z i' : EReal)) (((n : ℕ) : ℝ) : EReal))
                      * ((z i : EReal) - Ideal.div (∑ i', (z i' : EReal)) (((n : ℕ) : ℝ) : EReal)))
          (((n : ℕ) : ℝ) : EReal) = (v : EReal) :=
  ⟨_, div_nonneg (Finset.sum_nonneg fun i _ => mul_self_nonneg _) (Nat.cast_nonneg n),
    centred_coe_eq hn z⟩

end Cert.LibMoments
-- ==== Proof.Law.lean ====
/-
  Laws of the prologue over the extended reals.  The logits e·eᵀ are symmetric, so the softmax of the
  activated logits along columns is the transpose of the softmax along rows.  For real (finite) embeddings
  and LayerNorm rows every intermediate value is a real number: the variance is non-negative, the epsilon
  positive, so the reciprocal square root is real; exponentials of reals are positive reals, so each
  softmax denominator is a positive real and every softmax entry is real.
-/
import Mathlib
import Idealize.ShloMosaic.PureOps.Ideal
import Idealize.ShloMosaic.PureOps.Ideal.Laws
import proofs.«177386_g2000605918393418_pallasbulk_489_2_alg».proof.Proof.SpecPro
import proofs.«177386_g2000605918393418_pallasbulk_489_2_alg».proof.Proof.LibReal
import proofs.«177386_g2000605918393418_pallasbulk_489_2_alg».proof.Proof.LibMoments
import proofs.«177386_g2000605918393418_pallasbulk_489_2_alg».proof.Proof.LibLogSoftmaxLaw

noncomputable section

namespace Cert.Law

open Idealize.ShloMosaic Cert.SpecPro Cert.LibReal Cert.LibMoments Cert.LogSoftmaxLaw Cert.LibRowSoftmax

/-! ## The literals -/

theorem c128_eq : c128 = ((128 : ℝ) : EReal) := by
  simp [c128, Ideal.ofBits, Ideal.ieee, -EReal.coe_mul]; norm_num

theorem one_eq : one = ((1 : ℝ) : EReal) := by
  simp [one, Ideal.ofBits, Ideal.ieee, -EReal.coe_mul]; norm_num

theorem zero_eq : zero = ((0 : ℝ) : EReal) := by
  rw [EReal.coe_zero]; exact Ideal.ofBits_zero_f32

theorem two_eq : two = ((2 : ℝ) : EReal) := by
  simp [two, Ideal.ofBits, Ideal.ieee, -EReal.coe_mul]; norm_num

/-- The epsilon is a positive real number. -/
theorem eps_eq : eps = (((9223372 : ℝ) * (2 : ℝ) ^ (-63 : ℤ) : ℝ) : EReal) := by
  simp [eps, Ideal.ofBits, Ideal.ieee, -EReal.coe_mul]

theorem eps_pos : ∃ e : ℝ, 0 < e ∧ eps = (e : EReal) := ⟨_, by positivity, eps_eq⟩

/-! ## Symmetry -/

theorem Logits_symm (e : Fin 512 → Fin 128 → EReal) (r c : Fin 512) : Logits e r c = Logits e c r := by
  unfold Logits
  exact Finset.sum_congr rfl fun d _ => mul_comm _ _

theorem Z_symm (emb : Fin 512 → Fin 128 → EReal) (w b : Fin 128 → EReal) (r c : Fin 512) :
    Z emb w b r c = Z emb w b c r := by
  unfold Z; rw [Logits_symm]

/-- The column softmax is the transpose of the row softmax. -/
theorem SCol_eq_SRow (emb : Fin 512 → Fin 128 → EReal) (w b : Fin 128 → EReal) (r c : Fin 512) :
    SCol emb w b c r = SRow emb w b r c := by
  unfold SCol SRow
  have h : (fun r' => Z emb w b r' r) = (fun c' => Z emb w b r c') := funext fun k => Z_symm emb w b k r
  rw [h]

/-! ## Real values -/

theorem isReal_c128 : IsReal c128 := c128_eq ▸ isReal_coe _
theorem c128_ne_zero : c128 ≠ 0 := by
  rw [c128_eq]; exact_mod_cast (by norm_num : (128 : ℝ) ≠ 0)

/-- The exponential of a real number is a positive real number. -/
theorem exp_real (r : ℝ) : Ideal.exp (r : EReal) = ((Real.exp r : ℝ) : EReal) := rfl

theorem isReal_exp {x : EReal} (hx : IsReal x) : IsReal (Ideal.exp x) := by
  obtain ⟨r, rfl⟩ := hx; exact ⟨_, exp_real r⟩

theorem isReal_min {x y : EReal} (hx : IsReal x) (hy : IsReal y) : IsReal (min x y) := by
  rcases min_choice x y with h | h <;> rw [h] <;> assumption

theorem isReal_Elu {z : EReal} (hz : IsReal z) : IsReal (Elu z) := by
  unfold Elu
  split
  · exact hz
  · exact (isReal_exp (isReal_min hz (zero_eq ▸ isReal_coe _))).sub (one_eq ▸ isReal_coe _)

section
variable {emb : Fin 512 → Fin 128 → EReal} {w b : Fin 128 → EReal}
variable (hemb : ∀ n d, IsReal (emb n d)) (hw : ∀ d, IsReal (w d)) (hb : ∀ d, IsReal (b d))
include hemb

theorem isReal_mean (n : Fin 512) : IsReal (mean emb n) :=
  isReal_div (isReal_sum _ _ fun d _ => hemb n d) isReal_c128 c128_ne_zero

theorem isReal_cen (n : Fin 512) (d : Fin 128) : IsReal (cen emb n d) := (hemb n d).sub (isReal_mean hemb n)

/-- The variance is a non-negative real number. -/
theorem var_nonneg (n : Fin 512) : ∃ v : ℝ, 0 ≤ v ∧ var emb n = (v : EReal) := by
  obtain ⟨f, hf⟩ := exists_real_fun (fun d => cen emb n d) (fun d => isReal_cen hemb n d)
  refine ⟨(∑ d : Fin 128, f d * f d) / 128,
    div_nonneg (Finset.sum_nonneg fun d _ => mul_self_nonneg (f d)) (by norm_num), ?_⟩
  unfold var
  have h : (∑ d : Fin 128, cen emb n d * cen emb n d) = ((∑ d : Fin 128, f d * f d : ℝ) : EReal) := by
    rw [coe_sum]
    exact Finset.sum_congr rfl fun d _ => by rw [hf d, EReal.coe_mul]
  rw [h, c128_eq, div_coe_real _ _ (by norm_num)]

theorem isReal_rsqrt (n : Fin 512) : IsReal (Ideal.rsqrt (var emb n + eps)) := by
  obtain ⟨v, hv, hve⟩ := var_nonneg hemb n
  obtain ⟨e, he, hee⟩ := eps_pos
  rw [hve, hee, ← EReal.coe_add]
  obtain ⟨r, -, hr⟩ := rsqrt_coe_pos (v + e) (by linarith)
  exact ⟨r, hr⟩

include hw hb

theorem isReal_E (n : Fin 512) (d : Fin 128) : IsReal (E emb w b n d) := by
  unfold E
  exact (((isReal_cen hemb n d).mul (isReal_rsqrt hemb n)).mul (hw d)).add (hb d)

theorem isReal_Logits (r c : Fin 512) : IsReal (Logits (E emb w b) r c) :=
  isReal_sum _ _ fun d _ => (isReal_E hemb hw hb r d).mul (isReal_E hemb hw hb c d)

theorem isReal_Z (r c : Fin 512) : IsReal (Z emb w b r c) := isReal_Elu (isReal_Logits hemb hw hb r c)

end

/-! ## The softmax of a real row is real -/

theorem isReal_softmaxRow {n : ℕ} (hn : 0 < n) (z : Fin n → EReal) (hz : ∀ k, IsReal (z k)) (k : Fin n) :
    IsReal (softmaxRow negInf z k) := by
  have hM : IsReal (rowMax negInf z) := by
    rw [isReal_iff]
    refine ⟨rowMax_ne_top negInf_ne_top fun k => ((isReal_iff _).mp (hz k)).1, fun h => ?_⟩
    have h0 := le_rowMax negInf z ⟨0, hn⟩
    rw [h] at h0
    exact ((isReal_iff _).mp (hz ⟨0, hn⟩)).2 (le_bot_iff.mp h0)
  obtain ⟨g, hg⟩ := exists_real_fun (fun l => z l - rowMax negInf z) fun l => (hz l).sub hM
  have hg' : ∀ l, z l - rowMax negInf z = (g l : EReal) := hg
  unfold softmaxRow
  have hs : (∑ l, Ideal.exp (z l - rowMax negInf z)) = ((∑ l, Real.exp (g l) : ℝ) : EReal) := by
    rw [coe_sum]
    exact Finset.sum_congr rfl fun l _ => by rw [hg' l]; rfl
  have hpos : (∑ l, Real.exp (g l)) ≠ 0 :=
    ne_of_gt (Finset.sum_pos (fun l _ => Real.exp_pos _) ⟨⟨0, hn⟩, Finset.mem_univ _⟩)
  rw [hs, hg' k, exp_real, div_coe_real _ _ hpos]
  exact isReal_coe _

theorem isReal_SRow {emb : Fin 512 → Fin 128 → EReal} {w b : Fin 128 → EReal}
    (hemb : ∀ n d, IsReal (emb n d)) (hw : ∀ d, IsReal (w d)) (hb : ∀ d, IsReal (b d)) (r c : Fin 512) :
    IsReal (SRow emb w b r c) :=
  isReal_softmaxRow (by norm_num) _ (fun c' => isReal_Z hemb hw hb r c') c

/-! ## The second Chebyshev term -/

/-- For a real matrix T and a real vector X: the vector times (2·T·T − identity), entry n, is twice the
    product with T applied twice, minus X n.  Distributing X over the difference and moving it across the
    inner sums is where real (finite) values are used. -/
theorem cheb_law (T : Fin 512 → Fin 512 → EReal) (X : Fin 512 → EReal) (hT : ∀ a b, IsReal (T a b))
    (hX : ∀ a, IsReal (X a)) (n : Fin 512) :
    (∑ m, X m * (two * (∑ k, T m k * T k n) - delta m n))
      = two * (∑ k, T k n * (∑ m, T m k * X m)) - X n := by
  obtain ⟨t, ht⟩ : ∃ t : Fin 512 → Fin 512 → ℝ, ∀ a b, T a b = (t a b : EReal) :=
    ⟨fun a b => (hT a b).choose, fun a b => (hT a b).choose_spec⟩
  obtain ⟨x, hx⟩ := exists_real_fun X hX
  have hd : ∀ m, delta m n = ((if m = n then (1 : ℝ) else 0 : ℝ) : EReal) := fun m => by
    unfold delta; split <;> simp
  have hL : (∑ m, X m * (two * (∑ k, T m k * T k n) - delta m n))
      = ((∑ m, x m * (2 * (∑ k, t m k * t k n) - (if m = n then (1 : ℝ) else 0)) : ℝ) : EReal) := by
    simp only [coe_sum, EReal.coe_mul, EReal.coe_sub, ← ht, ← hx, ← hd, ← two_eq]
  have hR : two * (∑ k, T k n * (∑ m, T m k * X m)) - X n
      = ((2 * (∑ k, t k n * (∑ m, t m k * x m)) - x n : ℝ) : EReal) := by
    simp only [coe_sum, EReal.coe_mul, EReal.coe_sub, ← ht, ← hx, ← two_eq]
  rw [hL, hR]
  congr 1
  have h1 : ∑ m, x m * (2 * ∑ k, t m k * t k n) = 2 * ∑ k, t k n * ∑ m, t m k * x m := by
    simp only [Finset.mul_sum]
    rw [Finset.sum_comm]
    exact Finset.sum_congr rfl fun k _ => Finset.sum_congr rfl fun m _ => by ring
  have h2 : ∑ m, x m * (if m = n then (1 : ℝ) else 0) = x n := by
    simp [Finset.sum_ite_eq']
  simp only [mul_sub, Finset.sum_sub_distrib]
  rw [h1, h2]

end Cert.Law

end
-- ==== Proof.SpecOut.lean ====
/-
  The graph convolution's result in one closed form, and the reference's form of it.

  For a batch entry b, node n and output channel o, with X the input, T the (row-softmax) support and
  Wt the per-node weights (row 192+o the bias; row k·64+i·8+o the weight of Chebyshev order k, input i):

    Out = Wt[192+o] + ∑_i ( X[b,n,i]·Wt[i·8+o] + (∑_m X[b,m,i]·T[m,n])·Wt[64+i·8+o]
                             + (∑_m X[b,m,i]·(2·(T·T)[m,n] − δ[m,n]))·Wt[128+i·8+o] ).

  The reference applies the support (transposed) to X first and then once more; for a real support and a
  real input the two second-order terms agree (Law.cheb_law), the first-order ones by commutativity, and
  the rest is a rearrangement of a finite sum.
-/
import Mathlib
import proofs.«177386_g2000605918393418_pallasbulk_489_2_alg».proof.Proof.SpecPro
import proofs.«177386_g2000605918393418_pallasbulk_489_2_alg».proof.Proof.Law
import Idealize.ShloMosaic.Lib.ValueIdx

noncomputable section

namespace Cert.SpecOut

open Cert.SpecPro Cert.LibReal Cert.Law

/-- The result entry (b, n, o). -/
def Out (X : Fin 2048 → Fin 512 → Fin 8 → EReal) (T : Fin 512 → Fin 512 → EReal) (Wt : Fin 200 → Fin 512 → EReal)
    (b : Fin 2048) (n : Fin 512) (o : Fin 8) : EReal :=
  Wt ⟨192 + o.val, by omega⟩ n + ∑ i : Fin 8,
    ((X b n i * Wt ⟨i.val * 8 + o.val, by omega⟩ n
        + (∑ m, X b m i * T m n) * Wt ⟨64 + i.val * 8 + o.val, by omega⟩ n)
      + (∑ m, X b m i * (two * (∑ k, T m k * T k n) - delta m n)) * Wt ⟨128 + i.val * 8 + o.val, by omega⟩ n)

/-- The three Chebyshev terms as the reference computes them: the input, the transposed support applied to it,
    and twice the support applied again minus the input. -/
def G (X : Fin 2048 → Fin 512 → Fin 8 → EReal) (T : Fin 512 → Fin 512 → EReal) (b : Fin 2048) (n : Fin 512)
    (k : Fin 3) (i : Fin 8) : EReal :=
  if k.val = 0 then X b n i
  else if k.val = 1 then ∑ m, T m n * X b m i
  else two * (∑ m, T m n * (∑ m', T m' m * X b m' i)) - X b n i

theorem ref_eq_out (X : Fin 2048 → Fin 512 → Fin 8 → EReal) (T : Fin 512 → Fin 512 → EReal)
    (Wt : Fin 200 → Fin 512 → EReal) (hT : ∀ a c, IsReal (T a c)) (hX : ∀ b m i, IsReal (X b m i))
    (b : Fin 2048) (n : Fin 512) (o : Fin 8) :
    (∑ k : Fin 3, ∑ i : Fin 8, G X T b n k i * Wt ⟨k.val * 64 + i.val * 8 + o.val, by omega⟩ n)
        + Wt ⟨192 + o.val, by omega⟩ n
      = Out X T Wt b n o := by
  unfold Out
  have hC : ∀ i, (∑ m, X b m i * (two * (∑ k, T m k * T k n) - delta m n))
      = two * (∑ k, T k n * (∑ m, T m k * X b m i)) - X b n i :=
    fun i => cheb_law T (fun m => X b m i) hT (fun m => hX b m i) n
  have hB : ∀ i, (∑ m, X b m i * T m n) = ∑ m, T m n * X b m i :=
    fun i => Finset.sum_congr rfl fun m _ => mul_comm _ _
  simp only [hC, hB]
  rw [Fin.sum_univ_three]
  have e0 : ∀ i : Fin 8, G X T b n 0 i * Wt ⟨(0 : Fin 3).val * 64 + i.val * 8 + o.val, by omega⟩ n
      = X b n i * Wt ⟨i.val * 8 + o.val, by omega⟩ n := fun i => by
    unfold G; rw [if_pos (by decide)]; congr 2 <;> exact Fin.ext (by simp)
  have e1 : ∀ i : Fin 8, G X T b n 1 i * Wt ⟨(1 : Fin 3).val * 64 + i.val * 8 + o.val, by omega⟩ n
      = (∑ m, T m n * X b m i) * Wt ⟨64 + i.val * 8 + o.val, by omega⟩ n := fun i => by
    unfold G; rw [if_neg (by decide), if_pos (by decide)]; congr 2 <;> exact Fin.ext (by simp)
  have e2 : ∀ i : Fin 8, G X T b n 2 i * Wt ⟨(2 : Fin 3).val * 64 + i.val * 8 + o.val, by omega⟩ n
      = (two * (∑ k, T k n * (∑ m, T m k * X b m i)) - X b n i) * Wt ⟨128 + i.val * 8 + o.val, by omega⟩ n :=
    fun i => by
      unfold G; rw [if_neg (by decide), if_neg (by decide)]; congr 2 <;> exact Fin.ext (by simp)
  simp only [e0, e1, e2, Finset.sum_add_distrib]
  ac_rfl

/-! ## The result as a function of the argument arrays -/

open Idealize.ShloMosaic Idealize.ShloMosaic.ValueIdx

/-- The batch input by (batch, node, channel). -/
def Xof (a0 : (⟨3, ![2048, 512, 8]⟩ : Shape).Idx → EReal) : Fin 2048 → Fin 512 → Fin 8 → EReal :=
  fun b n i => a0 (ix3 b n i)

/-- The embeddings by (node, feature). -/
def EmbOf (a1 : (⟨2, ![512, 128]⟩ : Shape).Idx → EReal) : Fin 512 → Fin 128 → EReal := fun n d => a1 (ix2 n d)

/-- A LayerNorm vector by feature. -/
def VecOf (a : (⟨1, ![128]⟩ : Shape).Idx → EReal) : Fin 128 → EReal := fun d => a (ix1 d)

/-- The support: the row softmax of the activated logits of the normalized embeddings. -/
def Tof (a1 : (⟨2, ![512, 128]⟩ : Shape).Idx → EReal) (a2 a3 : (⟨1, ![128]⟩ : Shape).Idx → EReal) :
    Fin 512 → Fin 512 → EReal := SRow (EmbOf a1) (VecOf a2) (VecOf a3)

/-- The per-node weights: the fused pool contracted with the normalized embeddings. -/
def WtOf (a1 : (⟨2, ![512, 128]⟩ : Shape).Idx → EReal) (a2 a3 : (⟨1, ![128]⟩ : Shape).Idx → EReal)
    (P : (⟨2, ![128, 200]⟩ : Shape).Idx → EReal) : Fin 200 → Fin 512 → EReal :=
  fun q n => ∑ d : Fin 128, P (ix2 d q) * E (EmbOf a1) (VecOf a2) (VecOf a3) n d

/-- The result array of the graph convolution, entry (b, n, o). -/
def Final (a0 : (⟨3, ![2048, 512, 8]⟩ : Shape).Idx → EReal) (a1 : (⟨2, ![512, 128]⟩ : Shape).Idx → EReal)
    (a2 a3 : (⟨1, ![128]⟩ : Shape).Idx → EReal) (P : (⟨2, ![128, 200]⟩ : Shape).Idx → EReal)
    (b : Fin 2048) (n : Fin 512) (o : Fin 8) : EReal :=
  Out (Xof a0) (Tof a1 a2 a3) (WtOf a1 a2 a3 P) b n o

end Cert.SpecOut

end
-- ==== Proof.KValue0.lean ====
/-
  The first region's two output arrays of the idealized kernel program, entry by entry, as functions of the
  program's arguments: the Chebyshev array holds the support T in its first 512 columns and 2·T·T − identity
  in the last 512; the weights array holds the fused pool contracted with the normalized embeddings.
-/
import proofs.«177386_g2000605918393418_pallasbulk_489_2_alg».proof.Proof.KHost
import proofs.«177386_g2000605918393418_pallasbulk_489_2_alg».proof.Proof.KBlocks0
import proofs.«177386_g2000605918393418_pallasbulk_489_2_alg».proof.Proof.KP2
import proofs.«177386_g2000605918393418_pallasbulk_489_2_alg».proof.Proof.SpecOut

set_option maxRecDepth 16384

noncomputable section

namespace Cert.KValue

open Idealize.ShloMosaic Idealize.ShloMosaic.TcCoe Idealize.ShloMosaic.ValueIdx
open Idealize.SL.Sem
open Cert.KernelIdeal Cert.KernelIdeal.Gen Cert.SpecPro Cert.SpecOut

variable (m : (ℓ : Loc nD τ sig) → Buf (Elt Ideal) ℓ) (ρ : Dev nD → PrngReg)

/-- The five argument arrays the result depends on, on core c. -/
abbrev A0 (c : Dev nD) : S2048x512x8.Idx → EReal := m ((c : Thread nD τ).loc main_arg0)
abbrev A1 (c : Dev nD) : S512x128.Idx → EReal := m ((c : Thread nD τ).loc main_arg1)
abbrev A2 (c : Dev nD) : S128.Idx → EReal := m ((c : Thread nD τ).loc main_arg2)
abbrev A3 (c : Dev nD) : S128.Idx → EReal := m ((c : Thread nD τ).loc main_arg3)
abbrev PC (c : Dev nD) : S128x200.Idx → EReal :=
  KHost.poolCat (F := Ideal) (m ((c : Thread nD τ).loc main_arg4)) (m ((c : Thread nD τ).loc main_arg5))

theorem embK_eq (c : Dev nD) : embK (V1 m ρ c main_arg1) = EmbOf (A1 m c) := by
  unfold EmbOf; rw [KHost.emb_eq]

theorem rowK_w (c : Dev nD) : rowK (V1 m ρ c main_v3) = VecOf (A2 m c) := by
  funext d
  show (V1 m ρ c main_v3 : S1x128.Idx → EReal) (ix2 0 d) = _
  rw [KHost.lnw_eq, KHost.row_apply]; rfl

theorem rowK_b (c : Dev nD) : rowK (V1 m ρ c main_v4) = VecOf (A3 m c) := by
  funext d
  show (V1 m ρ c main_v4 : S1x128.Idx → EReal) (ix2 0 d) = _
  rw [KHost.lnb_eq, KHost.row_apply]; rfl

/-- The support's columns of the Chebyshev array. -/
theorem st_lo (c : Dev nD) (r n : Fin 512) :
    (V3 m ρ c main_v5_0 : S512x1024.Idx → EReal) (ix2 r ⟨n.val, by omega⟩) = Tof (A1 m c) (A2 m c) (A3 m c) r n := by
  rw [KHost.st_eq, KBlocks0.st_final, Cert.UC.K1, embK_eq, rowK_w, rowK_b]; rfl

/-- The second-order columns of the Chebyshev array. -/
theorem st_hi (c : Dev nD) (r n : Fin 512) :
    (V3 m ρ c main_v5_0 : S512x1024.Idx → EReal) (ix2 r ⟨512 + n.val, by omega⟩)
      = two * (∑ k : Fin 512, Tof (A1 m c) (A2 m c) (A3 m c) r k * Tof (A1 m c) (A2 m c) (A3 m c) k n) - delta r n := by
  rw [KHost.st_eq, KBlocks0.st_final, Cert.UC.K2, embK_eq, rowK_w, rowK_b]; rfl

/-- The per-node weights array. -/
theorem wbt_at (c : Dev nD) (q : Fin 200) (n : Fin 512) :
    (V3 m ρ c main_v5_1 : S200x512.Idx → EReal) (ix2 q n) = WtOf (A1 m c) (A2 m c) (A3 m c) (PC m c) q n := by
  have h := Cert.UC.K3 (V1 m ρ c main_arg1) (V1 m ρ c main_v3) (V1 m ρ c main_v4) (V1 m ρ c main_v2) q n
  rw [KHost.wbt_eq, KBlocks0.wbt_final]
  refine h.trans ?_
  unfold WtOf
  rw [embK_eq, rowK_w, rowK_b]
  exact Finset.sum_congr rfl fun d _ => by rw [KHost.poolt_apply]

end Cert.KValue

end
-- ==== Proof.KGSpec.lean ====
/-
  The closed form of one output channel of the unrolled graph-convolution body at one entry: starting from the bias
  row, eight accumulation steps, each adding the input's entry times its weight row and then the two higher-order
  products' entries times theirs, associated to the left exactly as the body's additions are.
-/
import Idealize.ShloMosaic.Lib.ValueIdx

noncomputable section

namespace Cert.KG

open Idealize.ShloMosaic Idealize.ShloMosaic.ValueIdx

/-- One accumulation step for input feature `i` of output channel `o` at batch row `b` and node `n`: with `Z` the
    [512, 1024] product (rows `i * 64 + b`, columns `n` and `512 + n` for the two higher orders), `W` the [200, 512]
    weight rows (row `(k * 8 + i) * 8 + o` for order `k`) and `X` the [8, 64, 512] input. -/
def step (Z : (⟨2, ![512, 1024]⟩ : Shape).Idx → EReal) (W : (⟨2, ![200, 512]⟩ : Shape).Idx → EReal)
    (X : (⟨3, ![8, 64, 512]⟩ : Shape).Idx → EReal) (o : Fin 8) (b : Fin 64) (n : Fin 512) (i : Fin 8) (a : EReal) : EReal :=
  ((a + X (ix3 i b n) * W (ix2 (⟨i.val * 8 + o.val, by omega⟩ : Fin 200) n))
      + Z (ix2 (⟨i.val * 64 + b.val, by omega⟩ : Fin 512) (⟨n.val, by omega⟩ : Fin 1024))
        * W (ix2 (⟨64 + i.val * 8 + o.val, by omega⟩ : Fin 200) n))
    + Z (ix2 (⟨i.val * 64 + b.val, by omega⟩ : Fin 512) (⟨512 + n.val, by omega⟩ : Fin 1024))
      * W (ix2 (⟨128 + i.val * 8 + o.val, by omega⟩ : Fin 200) n)

/-- The eight steps from the bias row `192 + o`. -/
def chain (Z : (⟨2, ![512, 1024]⟩ : Shape).Idx → EReal) (W : (⟨2, ![200, 512]⟩ : Shape).Idx → EReal)
    (X : (⟨3, ![8, 64, 512]⟩ : Shape).Idx → EReal) (o : Fin 8) (b : Fin 64) (n : Fin 512) : EReal :=
  step Z W X o b n 7 (step Z W X o b n 6 (step Z W X o b n 5 (step Z W X o b n 4 (step Z W X o b n 3
    (step Z W X o b n 2 (step Z W X o b n 1 (step Z W X o b n 0
      (W (ix2 (⟨192 + o.val, by omega⟩ : Fin 200) n)))))))))

end Cert.KG

end
-- ==== Proof.KGLayout.lean ====
/-
  Layout reads used by an unrolled multiply-accumulate body, stated by coordinates so that they rewrite under
  `simp only`: a two-axis slice at any offsets, a one-slab slice along the leading axis of a rank-3 array, and a
  one-row load of a matrix through a unit-stride rectangle.
-/
import Idealize.ShloMosaic.Lib.Pipeline.Value
import Idealize.ShloMosaic.Lib.ValueIdx
import Idealize.ShloMosaic.Lib.ValueLayout

namespace Cert.KG

open Idealize.ShloMosaic Idealize.ShloMosaic.ValueIdx

variable {α : Type}

/-- A matrix cut from row `o0` and column `o1` reads, at `(j, e)`, the source at `(o0 + j, o1 + e)`. -/
theorem slice2_apply {n0 n1 m0 m1 : Nat} (o0 o1 : Nat) (X : (⟨2, ![n0, n1]⟩ : Shape).Idx → α)
    (h : (⟨2, ![n0, n1]⟩ : Shape).Slices ![o0, o1] ⟨2, ![m0, m1]⟩) (j : Fin m0) (e : Fin m1) :
    extractStridedSlice ⟨2, ![m0, m1]⟩ ![o0, o1] X h (ix2 j e)
      = X (ix2 (⟨o0 + j.val, by have h0 := h.2 (0 : Fin 2); have := j.isLt; change o0 + m0 ≤ n0 at h0; omega⟩ : Fin n0)
               (⟨o1 + e.val, by have h1 := h.2 (1 : Fin 2); have := e.isLt; change o1 + m1 ≤ n1 at h1; omega⟩ : Fin n1)) :=
  extractStridedSlice_apply _ _ _ _ _ (fun ax => by
    match ax with
    | ⟨0, _⟩ => rfl
    | ⟨1, _⟩ => rfl)

/-- A rank-3 array cut to its slab `o` along the leading axis reads, at `(u, j, e)`, the source at `(o, j, e)`. -/
theorem slice3_lead_apply {n0 m1 m2 : Nat} (o : Nat) (X : (⟨3, ![n0, m1, m2]⟩ : Shape).Idx → α)
    (h : (⟨3, ![n0, m1, m2]⟩ : Shape).Slices ![o, 0, 0] ⟨3, ![1, m1, m2]⟩) (u : Fin 1) (j : Fin m1) (e : Fin m2) :
    extractStridedSlice ⟨3, ![1, m1, m2]⟩ ![o, 0, 0] X h (ix3 u j e)
      = X (ix3 (⟨o, by have h0 := h.2 (0 : Fin 3); change o + 1 ≤ n0 at h0; omega⟩ : Fin n0) j e) :=
  extractStridedSlice_apply _ _ _ _ _ (fun ax => by
    match ax with
    | ⟨0, _⟩ => show o = o + u.val; omega
    | ⟨1, _⟩ => exact (Nat.zero_add _).symm
    | ⟨2, _⟩ => exact (Nat.zero_add _).symm)

/-- A load of the one row `r` of a matrix through a unit-stride rectangle reads, at `(u, n)`, the matrix at `(r, n)`. -/
theorem ld_row_apply {Val : EltTy → Type} {e : EltTy} {n0 n1 : Nat} (r : Nat) (X : (⟨2, ![n0, n1]⟩ : Shape).Idx → Val e)
    (inb : ∀ a, (![r, 0] : Fin 2 → Nat) a + (⟨2, ![1, n1]⟩ : Shape).size a ≤ (⟨2, ![n0, n1]⟩ : Shape).size a)
    (u : Fin 1) (n : Fin n1) :
    View.ld X (Rect.unit (s := ⟨2, ![n0, n1]⟩) ![r, 0] (⟨2, ![1, n1]⟩ : Shape).size inb) (ix2 u n)
      = X (ix2 (⟨r, by have h0 := inb (0 : Fin 2); change r + 1 ≤ n0 at h0; omega⟩ : Fin n0) n) := by
  refine congrArg X (funext fun a => Fin.ext ?_)
  match a with
  | ⟨0, _⟩ => show r + 1 * u.val = r; omega
  | ⟨1, _⟩ => show 0 + 1 * n.val = n.val; omega

/-- A one-slab rectangle of a rank-3 array at slab `o` places its index `(u, j, e)` at `(o, j, e)`. -/
theorem emb_slab_apply {n0 m1 m2 : Nat} (o : Nat)
    (inb : ∀ a, (![o, 0, 0] : Fin 3 → Nat) a + (⟨3, ![1, m1, m2]⟩ : Shape).size a ≤ (⟨3, ![n0, m1, m2]⟩ : Shape).size a)
    (u : Fin 1) (j : Fin m1) (e : Fin m2) :
    (Rect.unit (s := ⟨3, ![n0, m1, m2]⟩) ![o, 0, 0] (⟨3, ![1, m1, m2]⟩ : Shape).size inb).emb (ix3 u j e)
      = ix3 (⟨o, by have h0 := inb (0 : Fin 3); change o + 1 ≤ n0 at h0; omega⟩ : Fin n0) j e := by
  refine funext fun a => Fin.ext ?_
  match a with
  | ⟨0, _⟩ => show o + 1 * u.val = o; omega
  | ⟨1, _⟩ => show 0 + 1 * j.val = j.val; omega
  | ⟨2, _⟩ => show 0 + 1 * e.val = e.val; omega

/-- The zero offsets of a whole-buffer rectangle, at rank three and two. -/
theorem hz3 : (![0, 0, 0] : Fin 3 → Nat) = fun _ => 0 := by funext a; fin_cases a <;> rfl
theorem hz2 : (![0, 0] : Fin 2 → Nat) = fun _ => 0 := by funext a; fin_cases a <;> rfl

end Cert.KG
-- ==== Proof.KGCh0.lean ====
/-
  Output channel 0 of the unrolled graph-convolution body, read at an entry: the chain of the body's payloads for this
  channel is the eight accumulation steps from the bias row, with the [512, 1024] product left as it is.
-/
import proofs.«177386_g2000605918393418_pallasbulk_489_2_alg».proof.Proof.Gen.KernelIdeal.Frame
import proofs.«177386_g2000605918393418_pallasbulk_489_2_alg».proof.Proof.KGSpec
import proofs.«177386_g2000605918393418_pallasbulk_489_2_alg».proof.Proof.KGLayout

set_option maxRecDepth 16384

noncomputable section

namespace Cert.KG

open Idealize.ShloMosaic Idealize.ShloMosaic.ValueIdx Cert.KernelIdeal Cert.KernelIdeal.Gen

set_option maxHeartbeats 400000 in
/-- Channel 0's stored slab at `(u, b, n)` is the closed chain at output channel 0. -/
theorem chan0 (x0 : Vec Ideal S512x1024 .f32) (x1 : Vec Ideal S200x512 .f32) (x2 : Vec Ideal S8x64x512 .f32)
    (u : Fin 1) (b : Fin 64) (n : Fin 512) :
    (k1_pay9 (k1_pay2 (View.ld x2 r1_0)) (k1_pay3 (View.ld x2 r1_0) (View.ld x0 r1_1)) (k1_pay7 (k1_pay2 (View.ld x2 r1_0)) (k1_pay3 (View.ld x2 r1_0) (View.ld x0 r1_1)) (k1_pay5 (k1_pay2 (View.ld x2 r1_0)) (k1_pay3 (View.ld x2 r1_0) (View.ld x0 r1_1)) (k1_pay4 (View.ld x2 r1_0) (View.ld x0 r1_1) (View.ld x1 r1_2) (View.ld x1 r1_3) (View.ld x1 r1_4) (View.ld x1 r1_5) (View.ld x1 r1_6) (View.ld x1 r1_7)) (View.ld x1 r1_8) (View.ld x1 r1_9) (View.ld x1 r1_10) (View.ld x1 r1_11) (View.ld x1 r1_12) (View.ld x1 r1_13) (View.ld x1 r1_14)) (k1_pay6 (k1_pay2 (View.ld x2 r1_0))) (View.ld x1 r1_15) (View.ld x1 r1_16) (View.ld x1 r1_17) (View.ld x1 r1_18) (View.ld x1 r1_19) (View.ld x1 r1_20) (View.ld x1 r1_21)) (k1_pay8 (k1_pay3 (View.ld x2 r1_0) (View.ld x0 r1_1))) (View.ld x1 r1_22) (View.ld x1 r1_23) (View.ld x1 r1_24) (View.ld x1 r1_25) (View.ld x1 r1_26)) (ix3 u b n)
      = chain (k1_pay3 x2 x0) x1 x2 0 b n := by
  rw [View.ld_unit_zero (S := S8x64x512) hz3, View.ld_unit_zero (S := S512x1024) hz2]
  simp only [k1_pay4]
  generalize k1_pay3 x2 x0 = Z
  simp only [k1_pay9, k1_pay2, k1_pay7, k1_pay5, k1_pay6, k1_pay8, addf_apply, mulf_apply,
    shapeCast_self, broadcastTo_1b_ab_apply, shapeCast_1ab_ab_apply, shapeCast_ab_1ab_apply,
    slice2_apply, slice3_lead_apply, ld_row_apply _ x1, Nat.zero_add,
    chain, step, Fin.val_zero, Nat.zero_mul]
  rfl

end Cert.KG

end
-- ==== Proof.KGCh1.lean ====
/-
  Output channel 1 of the unrolled graph-convolution body, read at an entry: the chain of the body's payloads for this
  channel is the eight accumulation steps from the bias row, with the [512, 1024] product left as it is.
-/
import proofs.«177386_g2000605918393418_pallasbulk_489_2_alg».proof.Proof.Gen.KernelIdeal.Frame
import proofs.«177386_g2000605918393418_pallasbulk_489_2_alg».proof.Proof.KGSpec
import proofs.«177386_g2000605918393418_pallasbulk_489_2_alg».proof.Proof.KGLayout

set_option maxRecDepth 16384

noncomputable section

namespace Cert.KG

open Idealize.ShloMosaic Idealize.ShloMosaic.ValueIdx Cert.KernelIdeal Cert.KernelIdeal.Gen

set_option maxHeartbeats 400000 in
/-- Channel 1's stored slab at `(u, b, n)` is the closed chain at output channel 1. -/
theorem chan1 (x0 : Vec Ideal S512x1024 .f32) (x1 : Vec Ideal S200x512 .f32) (x2 : Vec Ideal S8x64x512 .f32)
    (u : Fin 1) (b : Fin 64) (n : Fin 512) :
    (k1_pay19 (k1_pay3 (View.ld x2 r1_0) (View.ld x0 r1_1)) (k1_pay16 (k1_pay2 (View.ld x2 r1_0)) (k1_pay3 (View.ld x2 r1_0) (View.ld x0 r1_1)) (k1_pay14 (k1_pay2 (View.ld x2 r1_0)) (k1_pay3 (View.ld x2 r1_0) (View.ld x0 r1_1)) (k1_pay12 (k1_pay2 (View.ld x2 r1_0)) (k1_pay3 (View.ld x2 r1_0) (View.ld x0 r1_1)) (k1_pay10 (k1_pay2 (View.ld x2 r1_0)) (View.ld x1 r1_28) (View.ld x1 r1_29)) (k1_pay11 (k1_pay3 (View.ld x2 r1_0) (View.ld x0 r1_1))) (View.ld x1 r1_30) (View.ld x1 r1_31) (View.ld x1 r1_32) (View.ld x1 r1_33) (View.ld x1 r1_34) (View.ld x1 r1_35) (View.ld x1 r1_36)) (k1_pay13 (k1_pay3 (View.ld x2 r1_0) (View.ld x0 r1_1))) (View.ld x1 r1_37) (View.ld x1 r1_38) (View.ld x1 r1_39) (View.ld x1 r1_40) (View.ld x1 r1_41) (View.ld x1 r1_42) (View.ld x1 r1_43)) (k1_pay15 (k1_pay2 (View.ld x2 r1_0))) (View.ld x1 r1_44) (View.ld x1 r1_45) (View.ld x1 r1_46) (View.ld x1 r1_47) (View.ld x1 r1_48) (View.ld x1 r1_49) (View.ld x1 r1_50)) (k1_pay17 (k1_pay3 (View.ld x2 r1_0) (View.ld x0 r1_1))) (k1_pay18 (View.ld x1 r1_51)) (View.ld x1 r1_52)) (ix3 u b n)
      = chain (k1_pay3 x2 x0) x1 x2 1 b n := by
  rw [View.ld_unit_zero (S := S8x64x512) hz3, View.ld_unit_zero (S := S512x1024) hz2]
  generalize k1_pay3 x2 x0 = Z
  simp only [k1_pay19, k1_pay16, k1_pay2, k1_pay14, k1_pay12, k1_pay10, k1_pay11, k1_pay13, k1_pay15, k1_pay17, k1_pay18, addf_apply, mulf_apply,
    shapeCast_self, broadcastTo_1b_ab_apply, shapeCast_1ab_ab_apply, shapeCast_ab_1ab_apply,
    slice2_apply, slice3_lead_apply, ld_row_apply _ x1, Nat.zero_add,
    chain, step, Fin.val_zero, Nat.zero_mul]
  rfl

end Cert.KG

end
-- ==== Proof.KGCh2.lean ====
/-
  Output channel 2 of the unrolled graph-convolution body, read at an entry: the chain of the body's payloads for this
  channel is the eight accumulation steps from the bias row, with the [512, 1024] product left as it is.
-/
import proofs.«177386_g2000605918393418_pallasbulk_489_2_alg».proof.Proof.Gen.KernelIdeal.Frame
import proofs.«177386_g2000605918393418_pallasbulk_489_2_alg».proof.Proof.KGSpec
import proofs.«177386_g2000605918393418_pallasbulk_489_2_alg».proof.Proof.KGLayout

set_option maxRecDepth 16384

noncomputable section

namespace Cert.KG

open Idealize.ShloMosaic Idealize.ShloMosaic.ValueIdx Cert.KernelIdeal Cert.KernelIdeal.Gen

set_option maxHeartbeats 400000 in
/-- Channel 2's stored slab at `(u, b, n)` is the closed chain at output channel 2. -/
theorem chan2 (x0 : Vec Ideal S512x1024 .f32) (x1 : Vec Ideal S200x512 .f32) (x2 : Vec Ideal S8x64x512 .f32)
    (u : Fin 1) (b : Fin 64) (n : Fin 512) :
    (k1_pay27 (k1_pay2 (View.ld x2 r1_0)) (k1_pay3 (View.ld x2 r1_0) (View.ld x0 r1_1)) (k1_pay25 (k1_pay2 (View.ld x2 r1_0)) (k1_pay3 (View.ld x2 r1_0) (View.ld x0 r1_1)) (k1_pay22 (k1_pay2 (View.ld x2 r1_0)) (k1_pay3 (View.ld x2 r1_0) (View.ld x0 r1_1)) (k1_pay20 (k1_pay2 (View.ld x2 r1_0)) (k1_pay3 (View.ld x2 r1_0) (View.ld x0 r1_1)) (View.ld x1 r1_54) (View.ld x1 r1_55) (View.ld x1 r1_56) (View.ld x1 r1_57) (View.ld x1 r1_58)) (k1_pay21 (k1_pay3 (View.ld x2 r1_0) (View.ld x0 r1_1))) (View.ld x1 r1_59) (View.ld x1 r1_60) (View.ld x1 r1_61) (View.ld x1 r1_62) (View.ld x1 r1_63) (View.ld x1 r1_64) (View.ld x1 r1_65)) (k1_pay23 (k1_pay3 (View.ld x2 r1_0) (View.ld x0 r1_1))) (k1_pay24 (View.ld x1 r1_66)) (View.ld x1 r1_67) (View.ld x1 r1_68) (View.ld x1 r1_69) (View.ld x1 r1_70) (View.ld x1 r1_71) (View.ld x1 r1_72)) (k1_pay26 (k1_pay2 (View.ld x2 r1_0)) (View.ld x1 r1_73)) (View.ld x1 r1_74) (View.ld x1 r1_75) (View.ld x1 r1_76) (View.ld x1 r1_77) (View.ld x1 r1_78)) (ix3 u b n)
      = chain (k1_pay3 x2 x0) x1 x2 2 b n := by
  rw [View.ld_unit_zero (S := S8x64x512) hz3, View.ld_unit_zero (S := S512x1024) hz2]
  generalize k1_pay3 x2 x0 = Z
  simp only [k1_pay27, k1_pay2, k1_pay25, k1_pay22, k1_pay20, k1_pay21, k1_pay23, k1_pay24, k1_pay26, addf_apply, mulf_apply,
    shapeCast_self, broadcastTo_1b_ab_apply, shapeCast_1ab_ab_apply, shapeCast_ab_1ab_apply,
    slice2_apply, slice3_lead_apply, ld_row_apply _ x1, Nat.zero_add,
    chain, step, Fin.val_zero, Nat.zero_mul]
  rfl

end Cert.KG

end
-- ==== Proof.KGCh3.lean ====
/-
  Output channel 3 of the unrolled graph-convolution body, read at an entry: the chain of the body's payloads for this
  channel is the eight accumulation steps from the bias row, with the [512, 1024] product left as it is.
-/
import proofs.«177386_g2000605918393418_pallasbulk_489_2_alg».proof.Proof.Gen.KernelIdeal.Frame
import proofs.«177386_g2000605918393418_pallasbulk_489_2_alg».proof.Proof.KGSpec
import proofs.«177386_g2000605918393418_pallasbulk_489_2_alg».proof.Proof.KGLayout

set_option maxRecDepth 16384

noncomputable section

namespace Cert.KG

open Idealize.ShloMosaic Idealize.ShloMosaic.ValueIdx Cert.KernelIdeal Cert.KernelIdeal.Gen

set_option maxHeartbeats 400000 in
/-- Channel 3's stored slab at `(u, b, n)` is the closed chain at output channel 3. -/
theorem chan3 (x0 : Vec Ideal S512x1024 .f32) (x1 : Vec Ideal S200x512 .f32) (x2 : Vec Ideal S8x64x512 .f32)
    (u : Fin 1) (b : Fin 64) (n : Fin 512) :
    (k1_pay37 (k1_pay3 (View.ld x2 r1_0) (View.ld x0 r1_1)) (k1_pay35 (k1_pay2 (View.ld x2 r1_0)) (k1_pay3 (View.ld x2 r1_0) (View.ld x0 r1_1)) (k1_pay33 (k1_pay2 (View.ld x2 r1_0)) (k1_pay3 (View.ld x2 r1_0) (View.ld x0 r1_1)) (k1_pay31 (k1_pay2 (View.ld x2 r1_0)) (k1_pay3 (View.ld x2 r1_0) (View.ld x0 r1_1)) (k1_pay28 (View.ld x1 r1_80)) (k1_pay29 (k1_pay2 (View.ld x2 r1_0))) (k1_pay30 (View.ld x1 r1_81)) (View.ld x1 r1_82) (View.ld x1 r1_83) (View.ld x1 r1_84) (View.ld x1 r1_85) (View.ld x1 r1_86) (View.ld x1 r1_87)) (k1_pay32 (k1_pay3 (View.ld x2 r1_0) (View.ld x0 r1_1)) (View.ld x1 r1_88)) (View.ld x1 r1_89) (View.ld x1 r1_90) (View.ld x1 r1_91) (View.ld x1 r1_92) (View.ld x1 r1_93) (View.ld x1 r1_94) (View.ld x1 r1_95)) (k1_pay34 (k1_pay2 (View.ld x2 r1_0))) (View.ld x1 r1_96) (View.ld x1 r1_97) (View.ld x1 r1_98) (View.ld x1 r1_99) (View.ld x1 r1_100) (View.ld x1 r1_101) (View.ld x1 r1_102)) (k1_pay36 (k1_pay3 (View.ld x2 r1_0) (View.ld x0 r1_1))) (View.ld x1 r1_103) (View.ld x1 r1_104)) (ix3 u b n)
      = chain (k1_pay3 x2 x0) x1 x2 3 b n := by
  rw [View.ld_unit_zero (S := S8x64x512) hz3, View.ld_unit_zero (S := S512x1024) hz2]
  generalize k1_pay3 x2 x0 = Z
  simp only [k1_pay37, k1_pay35, k1_pay2, k1_pay33, k1_pay31, k1_pay28, k1_pay29, k1_pay30, k1_pay32, k1_pay34, k1_pay36, addf_apply, mulf_apply,
    shapeCast_self, broadcastTo_1b_ab_apply, shapeCast_1ab_ab_apply, shapeCast_ab_1ab_apply,
    slice2_apply, slice3_lead_apply, ld_row_apply _ x1, Nat.zero_add,
    chain, step, Fin.val_zero, Nat.zero_mul]
  rfl

end Cert.KG

end
-- ==== Proof.KGCh4.lean ====
/-
  Output channel 4 of the unrolled graph-convolution body, read at an entry: the chain of the body's payloads for this
  channel is the eight accumulation steps from the bias row, with the [512, 1024] product left as it is.
-/
import proofs.«177386_g2000605918393418_pallasbulk_489_2_alg».proof.Proof.Gen.KernelIdeal.Frame
import proofs.«177386_g2000605918393418_pallasbulk_489_2_alg».proof.Proof.KGSpec
import proofs.«177386_g2000605918393418_pallasbulk_489_2_alg».proof.Proof.KGLayout

set_option maxRecDepth 16384

noncomputable section

namespace Cert.KG

open Idealize.ShloMosaic Idealize.ShloMosaic.ValueIdx Cert.KernelIdeal Cert.KernelIdeal.Gen

set_option maxHeartbeats 400000 in
/-- Channel 4's stored slab at `(u, b, n)` is the closed chain at output channel 4. -/
theorem chan4 (x0 : Vec Ideal S512x1024 .f32) (x1 : Vec Ideal S200x512 .f32) (x2 : Vec Ideal S8x64x512 .f32)
    (u : Fin 1) (b : Fin 64) (n : Fin 512) :
    (k1_pay43 (k1_pay2 (View.ld x2 r1_0)) (k1_pay3 (View.ld x2 r1_0) (View.ld x0 r1_1)) (k1_pay41 (k1_pay2 (View.ld x2 r1_0)) (k1_pay3 (View.ld x2 r1_0) (View.ld x0 r1_1)) (k1_pay39 (k1_pay2 (View.ld x2 r1_0)) (k1_pay3 (View.ld x2 r1_0) (View.ld x0 r1_1)) (k1_pay38 (k1_pay2 (View.ld x2 r1_0)) (k1_pay3 (View.ld x2 r1_0) (View.ld x0 r1_1)) (View.ld x1 r1_106) (View.ld x1 r1_107) (View.ld x1 r1_108) (View.ld x1 r1_109) (View.ld x1 r1_110)) (View.ld x1 r1_111) (View.ld x1 r1_112) (View.ld x1 r1_113) (View.ld x1 r1_114) (View.ld x1 r1_115) (View.ld x1 r1_116) (View.ld x1 r1_117)) (k1_pay40 (k1_pay3 (View.ld x2 r1_0) (View.ld x0 r1_1))) (View.ld x1 r1_118) (View.ld x1 r1_119) (View.ld x1 r1_120) (View.ld x1 r1_121) (View.ld x1 r1_122) (View.ld x1 r1_123) (View.ld x1 r1_124)) (k1_pay42 (k1_pay2 (View.ld x2 r1_0))) (View.ld x1 r1_125) (View.ld x1 r1_126) (View.ld x1 r1_127) (View.ld x1 r1_128) (View.ld x1 r1_129) (View.ld x1 r1_130)) (ix3 u b n)
      = chain (k1_pay3 x2 x0) x1 x2 4 b n := by
  rw [View.ld_unit_zero (S := S8x64x512) hz3, View.ld_unit_zero (S := S512x1024) hz2]
  generalize k1_pay3 x2 x0 = Z
  simp only [k1_pay43, k1_pay2, k1_pay41, k1_pay39, k1_pay38, k1_pay40, k1_pay42, addf_apply, mulf_apply,
    shapeCast_self, broadcastTo_1b_ab_apply, shapeCast_1ab_ab_apply, shapeCast_ab_1ab_apply,
    slice2_apply, slice3_lead_apply, ld_row_apply _ x1, Nat.zero_add,
    chain, step, Fin.val_zero, Nat.zero_mul]
  rfl

end Cert.KG

end
-- ==== Proof.KGCh5.lean ====
/-
  Output channel 5 of the unrolled graph-convolution body, read at an entry: the chain of the body's payloads for this
  channel is the eight accumulation steps from the bias row, with the [512, 1024] product left as it is.
-/
import proofs.«177386_g2000605918393418_pallasbulk_489_2_alg».proof.Proof.Gen.KernelIdeal.Frame
import proofs.«177386_g2000605918393418_pallasbulk_489_2_alg».proof.Proof.KGSpec
import proofs.«177386_g2000605918393418_pallasbulk_489_2_alg».proof.Proof.KGLayout

set_option maxRecDepth 16384

noncomputable section

namespace Cert.KG

open Idealize.ShloMosaic Idealize.ShloMosaic.ValueIdx Cert.KernelIdeal Cert.KernelIdeal.Gen

set_option maxHeartbeats 400000 in
/-- Channel 5's stored slab at `(u, b, n)` is the closed chain at output channel 5. -/
theorem chan5 (x0 : Vec Ideal S512x1024 .f32) (x1 : Vec Ideal S200x512 .f32) (x2 : Vec Ideal S8x64x512 .f32)
    (u : Fin 1) (b : Fin 64) (n : Fin 512) :
    (k1_pay54 (k1_pay3 (View.ld x2 r1_0) (View.ld x0 r1_1)) (k1_pay51 (k1_pay2 (View.ld x2 r1_0)) (k1_pay3 (View.ld x2 r1_0) (View.ld x0 r1_1)) (k1_pay48 (k1_pay2 (View.ld x2 r1_0)) (k1_pay3 (View.ld x2 r1_0) (View.ld x0 r1_1)) (k1_pay46 (k1_pay2 (View.ld x2 r1_0)) (k1_pay3 (View.ld x2 r1_0) (View.ld x0 r1_1)) (k1_pay44 (View.ld x1 r1_132)) (k1_pay45 (k1_pay2 (View.ld x2 r1_0))) (View.ld x1 r1_133) (View.ld x1 r1_134) (View.ld x1 r1_135) (View.ld x1 r1_136) (View.ld x1 r1_137) (View.ld x1 r1_138) (View.ld x1 r1_139)) (k1_pay47 (k1_pay3 (View.ld x2 r1_0) (View.ld x0 r1_1))) (View.ld x1 r1_140) (View.ld x1 r1_141) (View.ld x1 r1_142) (View.ld x1 r1_143) (View.ld x1 r1_144) (View.ld x1 r1_145) (View.ld x1 r1_146)) (k1_pay49 (k1_pay3 (View.ld x2 r1_0) (View.ld x0 r1_1))) (k1_pay50 (View.ld x1 r1_147)) (View.ld x1 r1_148) (View.ld x1 r1_149) (View.ld x1 r1_150) (View.ld x1 r1_151) (View.ld x1 r1_152) (View.ld x1 r1_153)) (k1_pay52 (k1_pay2 (View.ld x2 r1_0))) (k1_pay53 (View.ld x1 r1_154)) (View.ld x1 r1_155) (View.ld x1 r1_156)) (ix3 u b n)
      = chain (k1_pay3 x2 x0) x1 x2 5 b n := by
  rw [View.ld_unit_zero (S := S8x64x512) hz3, View.ld_unit_zero (S := S512x1024) hz2]
  generalize k1_pay3 x2 x0 = Z
  simp only [k1_pay54, k1_pay51, k1_pay2, k1_pay48, k1_pay46, k1_pay44, k1_pay45, k1_pay47, k1_pay49, k1_pay50, k1_pay52, k1_pay53, addf_apply, mulf_apply,
    shapeCast_self, broadcastTo_1b_ab_apply, shapeCast_1ab_ab_apply, shapeCast_ab_1ab_apply,
    slice2_apply, slice3_lead_apply, ld_row_apply _ x1, Nat.zero_add,
    chain, step, Fin.val_zero, Nat.zero_mul]
  rfl

end Cert.KG

end
-- ==== Proof.KGCh6.lean ====
/-
  Output channel 6 of the unrolled graph-convolution body, read at an entry: the chain of the body's payloads for this
  channel is the eight accumulation steps from the bias row, with the [512, 1024] product left as it is.
-/
import proofs.«177386_g2000605918393418_pallasbulk_489_2_alg».proof.Proof.Gen.KernelIdeal.Frame
import proofs.«177386_g2000605918393418_pallasbulk_489_2_alg».proof.Proof.KGSpec
import proofs.«177386_g2000605918393418_pallasbulk_489_2_alg».proof.Proof.KGLayout

set_option maxRecDepth 16384

noncomputable section

namespace Cert.KG

open Idealize.ShloMosaic Idealize.ShloMosaic.ValueIdx Cert.KernelIdeal Cert.KernelIdeal.Gen

set_option maxHeartbeats 400000 in
/-- Channel 6's stored slab at `(u, b, n)` is the closed chain at output channel 6. -/
theorem chan6 (x0 : Vec Ideal S512x1024 .f32) (x1 : Vec Ideal S200x512 .f32) (x2 : Vec Ideal S8x64x512 .f32)
    (u : Fin 1) (b : Fin 64) (n : Fin 512) :
    (k1_pay61 (k1_pay2 (View.ld x2 r1_0)) (k1_pay3 (View.ld x2 r1_0) (View.ld x0 r1_1)) (k1_pay60 (k1_pay2 (View.ld x2 r1_0)) (k1_pay3 (View.ld x2 r1_0) (View.ld x0 r1_1)) (k1_pay57 (k1_pay2 (View.ld x2 r1_0)) (k1_pay3 (View.ld x2 r1_0) (View.ld x0 r1_1)) (k1_pay55 (k1_pay2 (View.ld x2 r1_0)) (k1_pay3 (View.ld x2 r1_0) (View.ld x0 r1_1)) (View.ld x1 r1_158) (View.ld x1 r1_159) (View.ld x1 r1_160) (View.ld x1 r1_161)) (k1_pay56 (k1_pay2 (View.ld x2 r1_0))) (View.ld x1 r1_162) (View.ld x1 r1_163) (View.ld x1 r1_164) (View.ld x1 r1_165) (View.ld x1 r1_166) (View.ld x1 r1_167) (View.ld x1 r1_168)) (k1_pay58 (k1_pay3 (View.ld x2 r1_0) (View.ld x0 r1_1))) (k1_pay59 (View.ld x1 r1_169)) (View.ld x1 r1_170) (View.ld x1 r1_171) (View.ld x1 r1_172) (View.ld x1 r1_173) (View.ld x1 r1_174) (View.ld x1 r1_175) (View.ld x1 r1_176)) (View.ld x1 r1_177) (View.ld x1 r1_178) (View.ld x1 r1_179) (View.ld x1 r1_180) (View.ld x1 r1_181) (View.ld x1 r1_182)) (ix3 u b n)
      = chain (k1_pay3 x2 x0) x1 x2 6 b n := by
  rw [View.ld_unit_zero (S := S8x64x512) hz3, View.ld_unit_zero (S := S512x1024) hz2]
  generalize k1_pay3 x2 x0 = Z
  simp only [k1_pay61, k1_pay2, k1_pay60, k1_pay57, k1_pay55, k1_pay56, k1_pay58, k1_pay59, addf_apply, mulf_apply,
    shapeCast_self, broadcastTo_1b_ab_apply, shapeCast_1ab_ab_apply, shapeCast_ab_1ab_apply,
    slice2_apply, slice3_lead_apply, ld_row_apply _ x1, Nat.zero_add,
    chain, step, Fin.val_zero, Nat.zero_mul]
  rfl

end Cert.KG

end
-- ==== Proof.KGCh7.lean ====
/-
  Output channel 7 of the unrolled graph-convolution body, read at an entry: the chain of the body's payloads for this
  channel is the eight accumulation steps from the bias row, with the [512, 1024] product left as it is.
-/
import proofs.«177386_g2000605918393418_pallasbulk_489_2_alg».proof.Proof.Gen.KernelIdeal.Frame
import proofs.«177386_g2000605918393418_pallasbulk_489_2_alg».proof.Proof.KGSpec
import proofs.«177386_g2000605918393418_pallasbulk_489_2_alg».proof.Proof.KGLayout

set_option maxRecDepth 16384

noncomputable section

namespace Cert.KG

open Idealize.ShloMosaic Idealize.ShloMosaic.ValueIdx Cert.KernelIdeal Cert.KernelIdeal.Gen

set_option maxHeartbeats 400000 in
/-- Channel 7's stored slab at `(u, b, n)` is the closed chain at output channel 7. -/
theorem chan7 (x0 : Vec Ideal S512x1024 .f32) (x1 : Vec Ideal S200x512 .f32) (x2 : Vec Ideal S8x64x512 .f32)
    (u : Fin 1) (b : Fin 64) (n : Fin 512) :
    (k1_pay1 (k1_pay3 (View.ld x2 r1_0) (View.ld x0 r1_1)) (k1_pay66 (k1_pay2 (View.ld x2 r1_0)) (k1_pay3 (View.ld x2 r1_0) (View.ld x0 r1_1)) (k1_pay64 (k1_pay2 (View.ld x2 r1_0)) (k1_pay3 (View.ld x2 r1_0) (View.ld x0 r1_1)) (k1_pay62 (k1_pay2 (View.ld x2 r1_0)) (k1_pay3 (View.ld x2 r1_0) (View.ld x0 r1_1)) (View.ld x1 r1_184) (View.ld x1 r1_185) (View.ld x1 r1_186) (View.ld x1 r1_187) (View.ld x1 r1_188) (View.ld x1 r1_189) (View.ld x1 r1_190)) (k1_pay63 (k1_pay2 (View.ld x2 r1_0)) (View.ld x1 r1_191)) (View.ld x1 r1_192) (View.ld x1 r1_193) (View.ld x1 r1_194) (View.ld x1 r1_195) (View.ld x1 r1_196) (View.ld x1 r1_197) (View.ld x1 r1_198)) (k1_pay65 (k1_pay3 (View.ld x2 r1_0) (View.ld x0 r1_1))) (View.ld x1 r1_199) (View.ld x1 r1_200) (View.ld x1 r1_201) (View.ld x1 r1_202) (View.ld x1 r1_203) (View.ld x1 r1_204) (View.ld x1 r1_205)) (k1_pay67 (k1_pay2 (View.ld x2 r1_0))) (View.ld x1 r1_206) (View.ld x1 r1_207) (View.ld x1 r1_208)) (ix3 u b n)
      = chain (k1_pay3 x2 x0) x1 x2 7 b n := by
  rw [View.ld_unit_zero (S := S8x64x512) hz3, View.ld_unit_zero (S := S512x1024) hz2]
  generalize k1_pay3 x2 x0 = Z
  simp only [k1_pay1, k1_pay66, k1_pay2, k1_pay64, k1_pay62, k1_pay63, k1_pay65, k1_pay67, addf_apply, mulf_apply,
    shapeCast_self, broadcastTo_1b_ab_apply, shapeCast_1ab_ab_apply, shapeCast_ab_1ab_apply,
    slice2_apply, slice3_lead_apply, ld_row_apply _ x1, Nat.zero_add,
    chain, step, Fin.val_zero, Nat.zero_mul]
  rfl

end Cert.KG

end
-- ==== Proof.KGOut.lean ====
/-
  What the unrolled graph-convolution body leaves in its output block, entry by entry: the block is the overlay of
  eight stored slabs, one per output channel, each the closed accumulation chain of its channel; the [512, 1024]
  product the chain reads is the input block, its first two axes merged into rows `i * 64 + b`, times the Chebyshev
  matrices, a sum over the 512 nodes.
-/
import proofs.«177386_g2000605918393418_pallasbulk_489_2_alg».proof.Proof.Gen.KernelIdeal.Frame
import proofs.«177386_g2000605918393418_pallasbulk_489_2_alg».proof.Proof.KGSpec
import proofs.«177386_g2000605918393418_pallasbulk_489_2_alg».proof.Proof.KGLayout
import proofs.«177386_g2000605918393418_pallasbulk_489_2_alg».proof.Proof.LibDot
import proofs.«177386_g2000605918393418_pallasbulk_489_2_alg».proof.Proof.KGCh0
import proofs.«177386_g2000605918393418_pallasbulk_489_2_alg».proof.Proof.KGCh1
import proofs.«177386_g2000605918393418_pallasbulk_489_2_alg».proof.Proof.KGCh2
import proofs.«177386_g2000605918393418_pallasbulk_489_2_alg».proof.Proof.KGCh3
import proofs.«177386_g2000605918393418_pallasbulk_489_2_alg».proof.Proof.KGCh4
import proofs.«177386_g2000605918393418_pallasbulk_489_2_alg».proof.Proof.KGCh5
import proofs.«177386_g2000605918393418_pallasbulk_489_2_alg».proof.Proof.KGCh6
import proofs.«177386_g2000605918393418_pallasbulk_489_2_alg».proof.Proof.KGCh7

set_option maxRecDepth 16384

noncomputable section

namespace Cert.KG

open Idealize.ShloMosaic Idealize.ShloMosaic.ValueIdx Cert.KernelIdeal Cert.KernelIdeal.Gen

/-- The dimension numbers of the body's product are the plain rows-by-columns ones. -/
theorem plainZ : Cert.LibDot.Plain dot_S512x512_S512x1024_S512x1024_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-- Entry `(r, j)` of the product: row `r` of the merged input is feature `r / 64`, batch row `r % 64`. -/
def Zt (x0 : Vec Ideal S512x1024 .f32) (x2 : Vec Ideal S8x64x512 .f32) (r : Fin 512) (j : Fin 1024) : EReal :=
  ∑ m : Fin 512, x2 (ix3 (⟨r.val / 64, by omega⟩ : Fin 8) (⟨r.val % 64, by omega⟩ : Fin 64) m) * x0 (ix2 m j)

/-- The [512, 1024] product of the input block, its leading axes merged, with the Chebyshev matrices. -/
def Zm (x0 : Vec Ideal S512x1024 .f32) (x2 : Vec Ideal S8x64x512 .f32) : (⟨2, ![512, 1024]⟩ : Shape).Idx → EReal :=
  fun y => Zt x0 x2 (y 0) (y 1)

/-- At row `i * 64 + b` the product sums feature `i`, batch row `b` of the input against column `j`. -/
theorem Zm_apply (x0 : Vec Ideal S512x1024 .f32) (x2 : Vec Ideal S8x64x512 .f32) (i : Fin 8) (b : Fin 64) (j : Fin 1024) :
    Zm x0 x2 (ix2 (⟨i.val * 64 + b.val, by omega⟩ : Fin 512) j) = ∑ m : Fin 512, x2 (ix3 i b m) * x0 (ix2 m j) := by
  show Zt x0 x2 (⟨i.val * 64 + b.val, by omega⟩ : Fin 512) j = _
  unfold Zt
  refine Finset.sum_congr rfl fun m _ => ?_
  have e : ∀ (p : Fin 8) (q : Fin 64), p.val = i.val → q.val = b.val → x2 (ix3 p q m) = x2 (ix3 i b m) := by
    intro p q hp hq; rw [Fin.ext hp, Fin.ext hq]
  exact congrArg (· * x0 (ix2 m j)) (e _ _ (by show (i.val * 64 + b.val) / 64 = i.val; omega)
    (by show (i.val * 64 + b.val) % 64 = b.val; omega))

/-- The input block with its leading axes merged reads, at `(r, m)`, the block at `(r / 64, r % 64, m)`. -/
theorem merge_apply (X : Vec Ideal S8x64x512 .f32) (h : S8x64x512.ShapeCasts S512x512) (r : Fin 512) (m : Fin 512) :
    shapeCast S512x512 X h (ix2 r m) = X (ix3 (⟨r.val / 64, by omega⟩ : Fin 8) (⟨r.val % 64, by omega⟩ : Fin 64) m) :=
  shapeCast_apply X h _ _ (by
    rw [Shape.rowMajor_val_three, Shape.rowMajor_val_two]
    show (r.val / 64 * 64 + r.val % 64) * 512 + m.val = r.val * 512 + m.val
    have := Nat.div_add_mod r.val 64
    omega)

/-- The body's product payload is that product. -/
theorem pay3_eq (x0 : Vec Ideal S512x1024 .f32) (x2 : Vec Ideal S8x64x512 .f32) :
    k1_pay3 (F := Ideal) x2 x0 = Zm x0 x2 := by
  funext y
  obtain ⟨r, j, rfl⟩ : ∃ (r : Fin 512) (j : Fin 1024), y = ix2 r j := ⟨y 0, y 1, eq_ix2 y⟩
  show _ = Zt x0 x2 r j
  unfold k1_pay3 k1_pay2 Zt
  refine (Cert.LibDot.matmul_ix2 plainZ none _ _ r j).trans ?_
  refine Finset.sum_congr rfl fun m _ => ?_
  rw [shapeCast_self, shapeCast_self, merge_apply]

/-- The closed chain as one function of the block index. -/
def G (x0 : Vec Ideal S512x1024 .f32) (x1 : Vec Ideal S200x512 .f32) (x2 : Vec Ideal S8x64x512 .f32) :
    S8x64x512.Idx → EReal :=
  fun y => chain (k1_pay3 (F := Ideal) x2 x0) x1 x2 (y 0) (y 1) (y 2)

set_option maxHeartbeats 400000 in
/-- The output block, entry by entry, over the product payload. -/
theorem out_chain (x0 : Vec Ideal S512x1024 .f32) (x1 : Vec Ideal S200x512 .f32) (x2 : Vec Ideal S8x64x512 .f32)
    (o : Fin 8) (b : Fin 64) (n : Fin 512) :
    out1_3 (F := Ideal) x0 x1 x2 (ix3 o b n) = chain (k1_pay3 (F := Ideal) x2 x0) x1 x2 o b n := by
  unfold out1_3
  refine View.canon_apply_of_pieces (Val := Elt Ideal) (G x0 x1 x2) _ ?_ (ix3 o b n)
    (cover1_3 _ _ _ _ _ _ _ _ (ix3 o b n))
  intro p hp x
  rcases List.mem_cons.mp hp with rfl | hp
  ·
    obtain ⟨u, b', n', rfl⟩ : ∃ (u : Fin 1) (b' : Fin 64) (n' : Fin 512), x = ix3 u b' n' := ⟨x 0, x 1, x 2, eq_ix3 x⟩
    exact (chan7 x0 x1 x2 u b' n').trans (congrArg (G x0 x1 x2) (emb_slab_apply 7 inb_S8x64x512_S1x64x512_7_0_0 u b' n')).symm
  rcases List.mem_cons.mp hp with rfl | hp
  ·
    obtain ⟨u, b', n', rfl⟩ : ∃ (u : Fin 1) (b' : Fin 64) (n' : Fin 512), x = ix3 u b' n' := ⟨x 0, x 1, x 2, eq_ix3 x⟩
    exact (chan6 x0 x1 x2 u b' n').trans (congrArg (G x0 x1 x2) (emb_slab_apply 6 inb_S8x64x512_S1x64x512_6_0_0 u b' n')).symm
  rcases List.mem_cons.mp hp with rfl | hp
  ·
    obtain ⟨u, b', n', rfl⟩ : ∃ (u : Fin 1) (b' : Fin 64) (n' : Fin 512), x = ix3 u b' n' := ⟨x 0, x 1, x 2, eq_ix3 x⟩
    exact (chan5 x0 x1 x2 u b' n').trans (congrArg (G x0 x1 x2) (emb_slab_apply 5 inb_S8x64x512_S1x64x512_5_0_0 u b' n')).symm
  rcases List.mem_cons.mp hp with rfl | hp
  ·
    obtain ⟨u, b', n', rfl⟩ : ∃ (u : Fin 1) (b' : Fin 64) (n' : Fin 512), x = ix3 u b' n' := ⟨x 0, x 1, x 2, eq_ix3 x⟩
    exact (chan4 x0 x1 x2 u b' n').trans (congrArg (G x0 x1 x2) (emb_slab_apply 4 inb_S8x64x512_S1x64x512_4_0_0 u b' n')).symm
  rcases List.mem_cons.mp hp with rfl | hp
  ·
    obtain ⟨u, b', n', rfl⟩ : ∃ (u : Fin 1) (b' : Fin 64) (n' : Fin 512), x = ix3 u b' n' := ⟨x 0, x 1, x 2, eq_ix3 x⟩
    exact (chan3 x0 x1 x2 u b' n').trans (congrArg (G x0 x1 x2) (emb_slab_apply 3 inb_S8x64x512_S1x64x512_3_0_0 u b' n')).symm
  rcases List.mem_cons.mp hp with rfl | hp
  ·
    obtain ⟨u, b', n', rfl⟩ : ∃ (u : Fin 1) (b' : Fin 64) (n' : Fin 512), x = ix3 u b' n' := ⟨x 0, x 1, x 2, eq_ix3 x⟩
    exact (chan2 x0 x1 x2 u b' n').trans (congrArg (G x0 x1 x2) (emb_slab_apply 2 inb_S8x64x512_S1x64x512_2_0_0 u b' n')).symm
  rcases List.mem_cons.mp hp with rfl | hp
  ·
    obtain ⟨u, b', n', rfl⟩ : ∃ (u : Fin 1) (b' : Fin 64) (n' : Fin 512), x = ix3 u b' n' := ⟨x 0, x 1, x 2, eq_ix3 x⟩
    exact (chan1 x0 x1 x2 u b' n').trans (congrArg (G x0 x1 x2) (emb_slab_apply 1 inb_S8x64x512_S1x64x512_1_0_0 u b' n')).symm
  rcases List.mem_cons.mp hp with rfl | hp
  ·
    obtain ⟨u, b', n', rfl⟩ : ∃ (u : Fin 1) (b' : Fin 64) (n' : Fin 512), x = ix3 u b' n' := ⟨x 0, x 1, x 2, eq_ix3 x⟩
    exact (chan0 x0 x1 x2 u b' n').trans (congrArg (G x0 x1 x2) (emb_slab_apply 0 inb_S8x64x512_S1x64x512_0_0_0 u b' n')).symm
  exact absurd hp List.not_mem_nil

/-- What the graph-convolution body leaves in its output block, entry by entry. -/
theorem out_apply (x0 : Vec Ideal S512x1024 .f32) (x1 : Vec Ideal S200x512 .f32) (x2 : Vec Ideal S8x64x512 .f32)
    (o : Fin 8) (b : Fin 64) (n : Fin 512) :
    out1_3 (F := Ideal) x0 x1 x2 (ix3 o b n) = chain (Zm x0 x2) x1 x2 o b n := by
  rw [out_chain, pay3_eq]

end Cert.KG

end
-- ==== Proof.KGSum.lean ====
/-
  The closed accumulation chain of one output channel as the bias entry plus one sum over the eight input features:
  addition on the extended reals is associative, so the left-nested chain of eight steps is the bias plus the sum of
  the steps' three-product terms.
-/
import Mathlib.Algebra.BigOperators.Fin
import proofs.«177386_g2000605918393418_pallasbulk_489_2_alg».proof.Proof.KGSpec

noncomputable section

namespace Cert.KG

open Idealize.ShloMosaic Idealize.ShloMosaic.ValueIdx

/-- What step `i` adds: the input's entry times its weight row, plus the two higher-order products' entries times theirs. -/
def term (Z : (⟨2, ![512, 1024]⟩ : Shape).Idx → EReal) (W : (⟨2, ![200, 512]⟩ : Shape).Idx → EReal)
    (X : (⟨3, ![8, 64, 512]⟩ : Shape).Idx → EReal) (o : Fin 8) (b : Fin 64) (n : Fin 512) (i : Fin 8) : EReal :=
  (X (ix3 i b n) * W (ix2 (⟨i.val * 8 + o.val, by omega⟩ : Fin 200) n)
      + Z (ix2 (⟨i.val * 64 + b.val, by omega⟩ : Fin 512) (⟨n.val, by omega⟩ : Fin 1024))
        * W (ix2 (⟨64 + i.val * 8 + o.val, by omega⟩ : Fin 200) n))
    + Z (ix2 (⟨i.val * 64 + b.val, by omega⟩ : Fin 512) (⟨512 + n.val, by omega⟩ : Fin 1024))
      * W (ix2 (⟨128 + i.val * 8 + o.val, by omega⟩ : Fin 200) n)

theorem step_eq (Z : (⟨2, ![512, 1024]⟩ : Shape).Idx → EReal) (W : (⟨2, ![200, 512]⟩ : Shape).Idx → EReal)
    (X : (⟨3, ![8, 64, 512]⟩ : Shape).Idx → EReal) (o : Fin 8) (b : Fin 64) (n : Fin 512) (i : Fin 8) (a : EReal) :
    step Z W X o b n i a = a + term Z W X o b n i := by
  unfold step term
  simp only [add_assoc]

/-- The chain is the bias entry plus the sum of the eight steps' terms. -/
theorem chain_eq_sum (Z : (⟨2, ![512, 1024]⟩ : Shape).Idx → EReal) (W : (⟨2, ![200, 512]⟩ : Shape).Idx → EReal)
    (X : (⟨3, ![8, 64, 512]⟩ : Shape).Idx → EReal) (o : Fin 8) (b : Fin 64) (n : Fin 512) :
    chain Z W X o b n
      = W (ix2 (⟨192 + o.val, by omega⟩ : Fin 200) n) + ∑ i : Fin 8, term Z W X o b n i := by
  unfold chain
  simp only [step_eq, Fin.sum_univ_eight, add_assoc]

end Cert.KG

end
-- ==== Proof.KBlocks1.lean ====
/-
  The second region of the idealized kernel program runs the graph-convolution body at 32 grid points. Its two
  matrix windows hold their whole arrays at every point; the input window and the output window hold, at point `t`,
  the slab of 64 batch rows `t * 64 … t * 64 + 63` of their [8, 2048, 512] arrays. So the output array ends holding,
  at batch row `B`, the body's result at point `B / 64`, row `B % 64`.
-/
import proofs.«177386_g2000605918393418_pallasbulk_489_2_alg».proof.Proof.Gen.KernelIdeal.Frame
import Idealize.ShloMosaic.Lib.Pipeline.Value
import Idealize.ShloMosaic.Lib.ValueIdx

set_option maxRecDepth 16384

noncomputable section

namespace Cert.KBlocks1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The windows' block indices at each grid point: zero everywhere except the batch axis of the input and output
    windows, which is the point's number. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0
    ∧ win1_3.index t (0 : Fin 3) = 0 ∧ win1_3.index t (1 : Fin 3) = t.val ∧ win1_3.index t (2 : Fin 3) = 0 :=
  (by decide +kernel : ∀ t : Fin grid1.N, _)

/-- There are 32 grid points. -/
theorem lt32 (t : Fin cfg1.N) : t.val < 32 := by
  have h : t.val < grid1.N := t.isLt
  rw [N_1] at h
  exact h

/-- The grid point numbered `k`. -/
def pt (k : Nat) (h : k < 32) : Fin cfg1.N := ⟨k, by have e : grid1.N = 32 := N_1; exact lt_of_lt_of_eq h e.symm⟩

theorem iblk_0 (c : Dev nD) (t : Fin cfg1.N) : iblk1 V c 0 t = (V c main_v5_0 : S512x1024.Idx → Elt F .f32) := by
  obtain ⟨e0, e1, -⟩ := idx_facts t
  funext y
  show V c main_v5_0 (((cfg1.win 0).blk t).view.emb y) = V c main_v5_0 y
  refine congrArg _ (funext fun a => Fin.ext ?_)
  match a with
  | ⟨0, _⟩ => show win1_0.index t (0 : Fin 2) * 512 + 1 * (y 0).val = (y 0).val; omega
  | ⟨1, _⟩ => show win1_0.index t (1 : Fin 2) * 1024 + 1 * (y 1).val = (y 1).val; omega

theorem iblk_1 (c : Dev nD) (t : Fin cfg1.N) : iblk1 V c 1 t = (V c main_v5_1 : S200x512.Idx → Elt F .f32) := by
  obtain ⟨-, -, e0, e1, -⟩ := idx_facts t
  funext y
  show V c main_v5_1 (((cfg1.win 1).blk t).view.emb y) = V c main_v5_1 y
  refine congrArg _ (funext fun a => Fin.ext ?_)
  match a with
  | ⟨0, _⟩ => show win1_1.index t (0 : Fin 2) * 200 + 1 * (y 0).val = (y 0).val; omega
  | ⟨1, _⟩ => show win1_1.index t (1 : Fin 2) * 512 + 1 * (y 1).val = (y 1).val; omega

/-- The input window's block at point `t` reads batch rows `t * 64 + b` of its array. -/
theorem iblk_2 (c : Dev nD) (t : Fin cfg1.N) (i : Fin 8) (b : Fin 64) (m : Fin 512) :
    iblk1 V c 2 t (ix3 i b m)
      = V c main_v6 (ix3 i (⟨t.val * 64 + b.val, by have := lt32 t; omega⟩ : Fin 2048) m) := by
  obtain ⟨-, -, -, -, e0, e1, e2, -⟩ := idx_facts t
  show V c main_v6 (((cfg1.win 2).blk t).view.emb (ix3 i b m)) = _
  refine congrArg _ (funext fun a => Fin.ext ?_)
  match a with
  | ⟨0, _⟩ => show win1_2.index t (0 : Fin 3) * 8 + 1 * i.val = i.val; omega
  | ⟨1, _⟩ => show win1_2.index t (1 : Fin 3) * 64 + 1 * b.val = t.val * 64 + b.val; omega
  | ⟨2, _⟩ => show win1_2.index t (2 : Fin 3) * 512 + 1 * m.val = m.val; omega

/-- The whole-array function a family of per-point blocks tiles: batch row `B` is row `B % 64` of the block of
    point `B / 64`. -/
def Gof (H : Fin cfg1.N → (S8x64x512.Idx → Elt F .f32)) : S8x2048x512.Idx → Elt F .f32 :=
  fun i => H (pt ((i 1).val / 64) (by have h : (i 1).val < 2048 := (i 1).isLt; omega))
    (ix3 (i 0) (⟨(i 1).val % 64, by omega⟩ : Fin 64) (i 2))

theorem H_congr (H : Fin cfg1.N → (S8x64x512.Idx → Elt F .f32)) (t t' : Fin cfg1.N) (y y' : S8x64x512.Idx)
    (ht : t'.val = t.val) (hy : ∀ a, (y' a).val = (y a).val) : H t' y' = H t y := by
  obtain rfl : t' = t := Fin.ext ht
  obtain rfl : y' = y := funext fun a => Fin.ext (hy a)
  rfl

/-- The tiled function at an index whose batch coordinate is `t * 64 + b` is block `t` at row `b`. -/
theorem Gof_apply (H : Fin cfg1.N → (S8x64x512.Idx → Elt F .f32)) (t : Fin cfg1.N) (o : Fin 8) (b : Fin 64) (n : Fin 512)
    (i : S8x2048x512.Idx) (h0 : (i 0).val = o.val) (h1 : (i 1).val = t.val * 64 + b.val) (h2 : (i 2).val = n.val) :
    Gof H i = H t (ix3 o b n) := by
  unfold Gof
  refine H_congr H t _ (ix3 o b n) _ ?_ fun a => ?_
  · show (i 1).val / 64 = t.val
    omega
  · match a with
    | ⟨0, _⟩ => exact h0
    | ⟨1, _⟩ => show (i 1).val % 64 = b.val; omega
    | ⟨2, _⟩ => exact h2

/-- At point `t` the write-back of an output buffer holding block `t` is the tiled function read through the
    point's block of the array. -/
theorem cut_read3 (t : Fin cfg1.N) (H : Fin cfg1.N → (S8x64x512.Idx → Elt F .f32)) :
    (cfg1.win 3).cut (grid1.coords t) (H t) = ((cfg1.win 3).blk t).view.read (Elt F) (Gof H) := by
  obtain ⟨-, -, -, -, -, -, -, e0, e1, e2⟩ := idx_facts t
  funext y
  obtain ⟨o, b, n, rfl⟩ : ∃ (o : Fin 8) (b : Fin 64) (n : Fin 512), y = ix3 o b n := ⟨y 0, y 1, y 2, eq_ix3 y⟩
  show H t (ix3 o b n) = Gof H (((cfg1.win 3).blk t).view.emb (ix3 o b n))
  refine (Gof_apply H t o b n _ ?_ ?_ ?_).symm
  · show win1_3.index t (0 : Fin 3) * 8 + 1 * o.val = o.val; omega
  · show win1_3.index t (1 : Fin 3) * 64 + 1 * b.val = t.val * 64 + b.val; omega
  · show win1_3.index t (2 : Fin 3) * 512 + 1 * n.val = n.val; omega

/-- An index is in a point's block of the output array iff each coordinate is in the block's range. -/
theorem mem_blk3 (t : Fin cfg1.N) (i : S8x2048x512.Idx) :
    i ∈ ((cfg1.win 3).blk t).view.set ↔ ∀ a : Fin 3, win1_3.index t a * S8x64x512.size a ≤ (i a).val
      ∧ (i a).val < win1_3.index t a * S8x64x512.size a + S8x64x512.size a := by
  show i ∈ ((View.whole main_v7).slice (win1_3.rect t)).set ↔ _
  rw [View.set_slice_whole, Rect.mem_set_unit]
  exact Iff.rfl

/-- Batch row `B` is in the block of point `B / 64`: the 32 blocks tile the output array. -/
theorem cover3 (i : S8x2048x512.Idx) : ∃ t : Fin cfg1.N, (cfg1.win 3).flush t = true ∧ i ∈ ((cfg1.win 3).blk t).view.set := by
  have hB : (i 1).val < 2048 := (i 1).isLt
  refine ⟨pt ((i 1).val / 64) (by omega), flush1_3 _, ?_⟩
  obtain ⟨-, -, -, -, -, -, -, e0, e1, e2⟩ := idx_facts (pt ((i 1).val / 64) (by omega))
  have e1' : win1_3.index (pt ((i 1).val / 64) (by omega)) (1 : Fin 3) = (i 1).val / 64 := e1
  rw [mem_blk3]
  intro a
  match a with
  | ⟨0, _⟩ =>
    show win1_3.index (pt ((i 1).val / 64) (by omega)) (0 : Fin 3) * 8 ≤ (i 0).val
      ∧ (i 0).val < win1_3.index (pt ((i 1).val / 64) (by omega)) (0 : Fin 3) * 8 + 8
    have h : (i 0).val < 8 := (i 0).isLt
    omega
  | ⟨1, _⟩ =>
    show win1_3.index (pt ((i 1).val / 64) (by omega)) (1 : Fin 3) * 64 ≤ (i 1).val
      ∧ (i 1).val < win1_3.index (pt ((i 1).val / 64) (by omega)) (1 : Fin 3) * 64 + 64
    omega
  | ⟨2, _⟩ =>
    show win1_3.index (pt ((i 1).val / 64) (by omega)) (2 : Fin 3) * 512 ≤ (i 2).val
      ∧ (i 2).val < win1_3.index (pt ((i 1).val / 64) (by omega)) (2 : Fin 3) * 512 + 512
    have h : (i 2).val < 512 := (i 2).isLt
    omega

/-- The output array after the region, as the tiled function of the per-point results. -/
theorem out_tiled (c : Dev nD) :
    (dat1 V c).arrAt 3 cfg1.N
      = Gof (fun t => out1_3 (V c main_v5_0) (V c main_v5_1) (iblk1 V c 2 t)) := by
  refine (dat1 V c).arrAt_eq_of_cover 3 _ (fun t _ => ?_) cover3
  show (cfg1.win 3).cut (grid1.coords t) ((dat1 V c).after 3 t) = _
  rw [after1_3, iblk_0, iblk_1]
  exact cut_read3 t (fun t => out1_3 (V c main_v5_0) (V c main_v5_1) (iblk1 V c 2 t))

/-- The output array after the region at channel `o`, batch row `B`, node `n`: the body's result of the two matrices
    and the input block of point `B / 64`, at row `B % 64`. -/
theorem out_final (c : Dev nD) (o : Fin 8) (B : Fin 2048) (n : Fin 512) :
    (dat1 V c).arrAt 3 cfg1.N (ix3 o B n)
      = out1_3 (V c main_v5_0) (V c main_v5_1) (iblk1 V c 2 (pt (B.val / 64) (by have := B.isLt; omega)))
          (ix3 o (⟨B.val % 64, by omega⟩ : Fin 64) n) := by
  rw [out_tiled]
  exact Gof_apply (fun t => out1_3 (V c main_v5_0) (V c main_v5_1) (iblk1 V c 2 t))
    (pt (B.val / 64) (by have := B.isLt; omega)) o (⟨B.val % 64, by omega⟩ : Fin 64) n (ix3 o B n) rfl
    (by show B.val = B.val / 64 * 64 + B.val % 64; omega) rfl

end Cert.KBlocks1

end
-- ==== Proof.KGArr.lean ====
/-
  The output array of the graph-convolution region at the ideal values, entry by entry, in terms of the arrays the
  region finds: the bias entry plus, over the eight input features, the input's entry times its weight row and the
  two higher-order terms, each a sum over the 512 nodes of the input row against a column of the Chebyshev array,
  times its weight row.
-/
import proofs.«177386_g2000605918393418_pallasbulk_489_2_alg».proof.Proof.KGOut
import proofs.«177386_g2000605918393418_pallasbulk_489_2_alg».proof.Proof.KGSum
import proofs.«177386_g2000605918393418_pallasbulk_489_2_alg».proof.Proof.KBlocks1

set_option maxRecDepth 16384

noncomputable section

namespace Cert.KG

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

/-- What input feature `i` contributes to output channel `o` at batch row `B`, node `n`, from the whole arrays:
    `S` the [512, 1024] Chebyshev array, `W` the [200, 512] weight rows, `X` the [8, 2048, 512] input. -/
def arrTerm (S : S512x1024.Idx → EReal) (W : S200x512.Idx → EReal) (X : S8x2048x512.Idx → EReal)
    (o : Fin 8) (B : Fin 2048) (n : Fin 512) (i : Fin 8) : EReal :=
  (X (ix3 i B n) * W (ix2 (⟨i.val * 8 + o.val, by omega⟩ : Fin 200) n)
      + (∑ m : Fin 512, X (ix3 i B m) * S (ix2 m (⟨n.val, by omega⟩ : Fin 1024)))
        * W (ix2 (⟨64 + i.val * 8 + o.val, by omega⟩ : Fin 200) n))
    + (∑ m : Fin 512, X (ix3 i B m) * S (ix2 m (⟨512 + n.val, by omega⟩ : Fin 1024)))
      * W (ix2 (⟨128 + i.val * 8 + o.val, by omega⟩ : Fin 200) n)

/-- The input block of point `B / 64` at row `B % 64` is the input array at batch row `B`. -/
theorem blk_row (c : Dev nD) (B : Fin 2048) (i : Fin 8) (m : Fin 512) :
    iblk1 V c 2 (Cert.KBlocks1.pt (B.val / 64) (by have := B.isLt; omega)) (ix3 i (⟨B.val % 64, by omega⟩ : Fin 64) m)
      = V c main_v6 (ix3 i B m) := by
  rw [Cert.KBlocks1.iblk_2]
  refine congrArg (V c main_v6) ?_
  have e : (⟨(Cert.KBlocks1.pt (B.val / 64) (by have := B.isLt; omega)).val * 64 + (⟨B.val % 64, by omega⟩ : Fin 64).val,
      by have := B.isLt; show B.val / 64 * 64 + B.val % 64 < 2048; omega⟩ : Fin 2048) = B :=
    Fin.ext (by show B.val / 64 * 64 + B.val % 64 = B.val; omega)
  rw [e]

/-- The closed value of the output array at channel `o`, batch row `B`, node `n`: the bias entry plus the eight
    features' terms. -/
def arrVal (S : S512x1024.Idx → EReal) (W : S200x512.Idx → EReal) (X : S8x2048x512.Idx → EReal)
    (o : Fin 8) (B : Fin 2048) (n : Fin 512) : EReal :=
  W (ix2 (⟨192 + o.val, by omega⟩ : Fin 200) n) + ∑ i : Fin 8, arrTerm S W X o B n i

/-- The output array after the region, entry by entry, from the arrays the region finds. -/
theorem arr_apply (c : Dev nD) (o : Fin 8) (B : Fin 2048) (n : Fin 512) :
    (dat1 V c).arrAt 3 cfg1.N (ix3 o B n)
      = arrVal (V c main_v5_0) (V c main_v5_1) (V c main_v6) o B n := by
  rw [Cert.KBlocks1.out_final, out_apply, chain_eq_sum]
  have key : ∀ i : Fin 8,
      term (Zm (V c main_v5_0) (iblk1 V c 2 (Cert.KBlocks1.pt (B.val / 64) (by have := B.isLt; omega))))
        (V c main_v5_1) (iblk1 V c 2 (Cert.KBlocks1.pt (B.val / 64) (by have := B.isLt; omega))) o
        (⟨B.val % 64, by omega⟩ : Fin 64) n i
      = arrTerm (V c main_v5_0) (V c main_v5_1) (V c main_v6) o B n i := by
    intro i
    unfold term arrTerm
    rw [Zm_apply, Zm_apply]
    simp only [blk_row]
  simp only [key]
  rfl

end Cert.KG

end
-- ==== Proof.KValue1.lean ====
/-
  The idealized kernel program's result, entry by entry, as the closed graph-convolution form of the program's
  arguments: the last host stretch permutes the second region's output array; that array's entries are the bias
  entry plus the eight features' terms over the arrays the region finds; and those arrays are the per-node
  weights, the support with its second-order companion, and the permuted batch input.
-/
import proofs.«177386_g2000605918393418_pallasbulk_489_2_alg».proof.Proof.KValue0
import proofs.«177386_g2000605918393418_pallasbulk_489_2_alg».proof.Proof.KGArr

set_option maxRecDepth 16384

noncomputable section

namespace Cert.KValue

open Idealize.ShloMosaic Idealize.ShloMosaic.TcCoe Idealize.ShloMosaic.ValueIdx
open Idealize.SL.Sem
open Cert.KernelIdeal Cert.KernelIdeal.Gen Cert.SpecPro Cert.SpecOut

variable (m : (ℓ : Loc nD τ sig) → Buf (Elt Ideal) ℓ) (ρ : Dev nD → PrngReg)

/-- One input feature's term over the arrays the second region finds is the closed form's term. -/
theorem term_eq (c : Dev nD) (b : Fin 2048) (n : Fin 512) (o : Fin 8) (i : Fin 8) :
    Cert.KG.arrTerm (V3 m ρ c main_v5_0) (V3 m ρ c main_v5_1) (V3 m ρ c main_v6) o b n i
      = (Xof (A0 m c) b n i * WtOf (A1 m c) (A2 m c) (A3 m c) (PC m c) ⟨i.val * 8 + o.val, by omega⟩ n
          + (∑ k, Xof (A0 m c) b k i * Tof (A1 m c) (A2 m c) (A3 m c) k n)
            * WtOf (A1 m c) (A2 m c) (A3 m c) (PC m c) ⟨64 + i.val * 8 + o.val, by omega⟩ n)
        + (∑ k, Xof (A0 m c) b k i
              * (two * (∑ j, Tof (A1 m c) (A2 m c) (A3 m c) k j * Tof (A1 m c) (A2 m c) (A3 m c) j n) - delta k n))
          * WtOf (A1 m c) (A2 m c) (A3 m c) (PC m c) ⟨128 + i.val * 8 + o.val, by omega⟩ n := by
  unfold Cert.KG.arrTerm
  rw [wbt_at m ρ c ⟨i.val * 8 + o.val, by omega⟩ n, wbt_at m ρ c ⟨64 + i.val * 8 + o.val, by omega⟩ n,
    wbt_at m ρ c ⟨128 + i.val * 8 + o.val, by omega⟩ n]
  rw [KHost.xl_apply m ρ c i b n]
  have h1 : ∀ k : Fin 512, (V3 m ρ c main_v5_0 : S512x1024.Idx → EReal) (ix2 k ⟨n.val, by omega⟩)
      = Tof (A1 m c) (A2 m c) (A3 m c) k n := fun k => st_lo m ρ c k n
  have h2 : ∀ k : Fin 512, (V3 m ρ c main_v5_0 : S512x1024.Idx → EReal) (ix2 k ⟨512 + n.val, by omega⟩)
      = two * (∑ j, Tof (A1 m c) (A2 m c) (A3 m c) k j * Tof (A1 m c) (A2 m c) (A3 m c) j n) - delta k n :=
    fun k => st_hi m ρ c k n
  have h3 : ∀ k : Fin 512, (V3 m ρ c main_v6 : S8x2048x512.Idx → EReal) (ix3 i b k) = A0 m c (ix3 b k i) :=
    fun k => KHost.xl_apply m ρ c i b k
  simp only [h1, h2, h3, Xof]

/-- The program's result at batch entry `b`, node `n`, output channel `o`. -/
theorem value (c : Dev nD) (b : Fin 2048) (n : Fin 512) (o : Fin 8) :
    (W5 m ρ c (Proc.devRef .tc main_v8) : S2048x512x8.Idx → EReal) (ix3 b n o)
      = SpecOut.Final (A0 m c) (A1 m c) (A2 m c) (A3 m c) (PC m c) b n o := by
  rw [KHost.result_apply, KHost.out_eq, Cert.KG.arr_apply (V3 m ρ) c o b n]
  unfold SpecOut.Final Out Cert.KG.arrVal
  rw [wbt_at m ρ c ⟨192 + o.val, by omega⟩ n]
  rw [Finset.sum_congr rfl (fun i _ => term_eq m ρ c b n o i)]

end Cert.KValue

end
-- ==== Proof.RHInputs0.lean ====
/-
  The reference program's first region's operands, as the four host operations before it leave them: the embeddings
  argument itself, the scale and shift vectors recast to one row, and the two pools joined along the columns.
-/
import proofs.«177386_g2000605918393418_pallasbulk_489_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal

set_option maxRecDepth 16384

noncomputable section

namespace Cert.RH

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg) (c : Dev nD)

/-! Region 0's inputs as the first four host operations leave them. -/

/-- The embeddings operand is the launch argument itself. -/
theorem H0_w0 : V1 (F := Ideal) m ρ c main_arg1 = m ((c : Thread nD τ).loc main_arg1) := by
  show StableHlo.after hostOps0 (W0 (F := Ideal) m ρ c) (Proc.devRef .tc main_arg1) = _
  after_results <;> rfl

/-- The scale row is the scale vector recast to one row. -/
theorem H0_w1_term :
    (V1 (F := Ideal) m ρ c main_v2 : S1x128.Idx → EReal)
      = fun i => shapeCast S1x128 (m ((c : Thread nD τ).loc main_arg2) : S128.Idx → EReal) shapeCasts_S128_S1x128 i := by
  show StableHlo.after hostOps0 (W0 (F := Ideal) m ρ c) (Proc.devRef .tc main_v2) = _
  after_results <;> rfl

theorem H0_w1 (d : Fin 128) :
    (V1 (F := Ideal) m ρ c main_v2 : S1x128.Idx → EReal) (ix2 (0 : Fin 1) d)
      = (m ((c : Thread nD τ).loc main_arg2) : S128.Idx → EReal) (ix1 d) := by
  rw [H0_w1_term]
  exact shapeCast_apply _ shapeCasts_S128_S1x128 _ _ (by
    rw [Shape.rowMajor_val_two, Shape.rowMajor_val_one]
    show d.val = (0 : Fin 1).val * 128 + d.val
    simp)

/-- The shift row is the shift vector recast to one row. -/
theorem H0_w2_term :
    (V1 (F := Ideal) m ρ c main_v3 : S1x128.Idx → EReal)
      = fun i => shapeCast S1x128 (m ((c : Thread nD τ).loc main_arg3) : S128.Idx → EReal) shapeCasts_S128_S1x128 i := by
  show StableHlo.after hostOps0 (W0 (F := Ideal) m ρ c) (Proc.devRef .tc main_v3) = _
  after_results <;> rfl

theorem H0_w2 (d : Fin 128) :
    (V1 (F := Ideal) m ρ c main_v3 : S1x128.Idx → EReal) (ix2 (0 : Fin 1) d)
      = (m ((c : Thread nD τ).loc main_arg3) : S128.Idx → EReal) (ix1 d) := by
  rw [H0_w2_term]
  exact shapeCast_apply _ shapeCasts_S128_S1x128 _ _ (by
    rw [Shape.rowMajor_val_two, Shape.rowMajor_val_one]
    show d.val = (0 : Fin 1).val * 128 + d.val
    simp)

/-- The pooled weights operand: the weight pool recast to 192 columns, the bias pool's 8 columns appended. -/
theorem H0_w3_term :
    (V1 (F := Ideal) m ρ c main_v1 : S128x200.Idx → EReal)
      = concatenate S128x200 1
          [⟨S128x192, fun i => shapeCast S128x192 (m ((c : Thread nD τ).loc main_arg4) : S128x3x8x8.Idx → EReal) shapeCasts_S128x3x8x8_S128x192 i⟩,
           ⟨S128x8, (m ((c : Thread nD τ).loc main_arg5) : S128x8.Idx → EReal)⟩]
          concatenates_S128x192_S128x8_S128x200_d1 := by
  show StableHlo.after hostOps0 (W0 (F := Ideal) m ρ c) (Proc.devRef .tc main_v1) = _
  after_results <;> rfl

end Cert.RH
end
-- ==== Proof.RHTactic.lean ====
/-
  One proof step used throughout the reading of the host stretches: a buffer that no operation of a stretch writes
  holds after the stretch what it held before.
-/
import Idealize.ShloMosaic.Lib.StableHlo.Run

namespace Cert.RH

open Idealize.ShloMosaic Idealize.ShloMosaic.TcCoe

/-- A buffer no operation of a stretch writes holds after the stretch what it held before. -/
macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

end Cert.RH
-- ==== Proof.RHInputs1.lean ====
/-
  The reference program's second region's operands that the host stretches between the two regions do not compute
  from index arithmetic: the first region's two outputs (untouched), and the signal transposed to node-major with its
  trailing axes merged.
-/
import proofs.«177386_g2000605918393418_pallasbulk_489_2_alg».proof.Proof.Gen.ReferenceIdeal.Frame
import proofs.«177386_g2000605918393418_pallasbulk_489_2_alg».proof.Proof.RHTactic
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal

set_option maxRecDepth 16384

noncomputable section

namespace Cert.RH

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg) (c : Dev nD)

/-! Region 1's inputs as the host stretches between the two regions leave them. -/

/-- The first operand (region 0's first output) is untouched between the regions. -/
theorem H1_w0 : V23 (F := Ideal) m ρ c main_v4_0 = W2 (F := Ideal) m ρ c (Proc.devRef .tc main_v4_0) :=
  calc W23 (F := Ideal) m ρ c (Proc.devRef .tc main_v4_0)
    _ = W22 (F := Ideal) m ρ c (Proc.devRef .tc main_v4_0) := by unwritten hostOps1_20
    _ = W21 (F := Ideal) m ρ c (Proc.devRef .tc main_v4_0) := by unwritten hostOps1_19
    _ = W20 (F := Ideal) m ρ c (Proc.devRef .tc main_v4_0) := by unwritten hostOps1_18
    _ = W19 (F := Ideal) m ρ c (Proc.devRef .tc main_v4_0) := by unwritten hostOps1_17
    _ = W18 (F := Ideal) m ρ c (Proc.devRef .tc main_v4_0) := by unwritten hostOps1_16
    _ = W17 (F := Ideal) m ρ c (Proc.devRef .tc main_v4_0) := by unwritten hostOps1_15
    _ = W16 (F := Ideal) m ρ c (Proc.devRef .tc main_v4_0) := by unwritten hostOps1_14
    _ = W15 (F := Ideal) m ρ c (Proc.devRef .tc main_v4_0) := by unwritten hostOps1_13
    _ = W14 (F := Ideal) m ρ c (Proc.devRef .tc main_v4_0) := by unwritten hostOps1_12
    _ = W13 (F := Ideal) m ρ c (Proc.devRef .tc main_v4_0) := by unwritten hostOps1_11
    _ = W12 (F := Ideal) m ρ c (Proc.devRef .tc main_v4_0) := by unwritten hostOps1_10
    _ = W11 (F := Ideal) m ρ c (Proc.devRef .tc main_v4_0) := by unwritten hostOps1_9
    _ = W10 (F := Ideal) m ρ c (Proc.devRef .tc main_v4_0) := by unwritten hostOps1_8
    _ = W9 (F := Ideal) m ρ c (Proc.devRef .tc main_v4_0) := by unwritten hostOps1_7
    _ = W8 (F := Ideal) m ρ c (Proc.devRef .tc main_v4_0) := by unwritten hostOps1_6
    _ = W7 (F := Ideal) m ρ c (Proc.devRef .tc main_v4_0) := by unwritten hostOps1_5
    _ = W6 (F := Ideal) m ρ c (Proc.devRef .tc main_v4_0) := by unwritten hostOps1_4
    _ = W5 (F := Ideal) m ρ c (Proc.devRef .tc main_v4_0) := by unwritten hostOps1_3
    _ = W4 (F := Ideal) m ρ c (Proc.devRef .tc main_v4_0) := by unwritten hostOps1_2
    _ = W3 (F := Ideal) m ρ c (Proc.devRef .tc main_v4_0) := by unwritten hostOps1_1
    _ = W2 (F := Ideal) m ρ c (Proc.devRef .tc main_v4_0) := by unwritten hostOps1

/-- The second operand (region 0's second output) is untouched between the regions. -/
theorem H1_w1 : V23 (F := Ideal) m ρ c main_v4_1 = W2 (F := Ideal) m ρ c (Proc.devRef .tc main_v4_1) :=
  calc W23 (F := Ideal) m ρ c (Proc.devRef .tc main_v4_1)
    _ = W22 (F := Ideal) m ρ c (Proc.devRef .tc main_v4_1) := by unwritten hostOps1_20
    _ = W21 (F := Ideal) m ρ c (Proc.devRef .tc main_v4_1) := by unwritten hostOps1_19
    _ = W20 (F := Ideal) m ρ c (Proc.devRef .tc main_v4_1) := by unwritten hostOps1_18
    _ = W19 (F := Ideal) m ρ c (Proc.devRef .tc main_v4_1) := by unwritten hostOps1_17
    _ = W18 (F := Ideal) m ρ c (Proc.devRef .tc main_v4_1) := by unwritten hostOps1_16
    _ = W17 (F := Ideal) m ρ c (Proc.devRef .tc main_v4_1) := by unwritten hostOps1_15
    _ = W16 (F := Ideal) m ρ c (Proc.devRef .tc main_v4_1) := by unwritten hostOps1_14
    _ = W15 (F := Ideal) m ρ c (Proc.devRef .tc main_v4_1) := by unwritten hostOps1_13
    _ = W14 (F := Ideal) m ρ c (Proc.devRef .tc main_v4_1) := by unwritten hostOps1_12
    _ = W13 (F := Ideal) m ρ c (Proc.devRef .tc main_v4_1) := by unwritten hostOps1_11
    _ = W12 (F := Ideal) m ρ c (Proc.devRef .tc main_v4_1) := by unwritten hostOps1_10
    _ = W11 (F := Ideal) m ρ c (Proc.devRef .tc main_v4_1) := by unwritten hostOps1_9
    _ = W10 (F := Ideal) m ρ c (Proc.devRef .tc main_v4_1) := by unwritten hostOps1_8
    _ = W9 (F := Ideal) m ρ c (Proc.devRef .tc main_v4_1) := by unwritten hostOps1_7
    _ = W8 (F := Ideal) m ρ c (Proc.devRef .tc main_v4_1) := by unwritten hostOps1_6
    _ = W7 (F := Ideal) m ρ c (Proc.devRef .tc main_v4_1) := by unwritten hostOps1_5
    _ = W6 (F := Ideal) m ρ c (Proc.devRef .tc main_v4_1) := by unwritten hostOps1_4
    _ = W5 (F := Ideal) m ρ c (Proc.devRef .tc main_v4_1) := by unwritten hostOps1_3
    _ = W4 (F := Ideal) m ρ c (Proc.devRef .tc main_v4_1) := by unwritten hostOps1_2
    _ = W3 (F := Ideal) m ρ c (Proc.devRef .tc main_v4_1) := by unwritten hostOps1_1
    _ = W2 (F := Ideal) m ρ c (Proc.devRef .tc main_v4_1) := by unwritten hostOps1

/-- The signal operand as the first stretch leaves it: the signal transposed to node-major and its trailing axes merged. -/
theorem W3_v6 :
    (W3 (F := Ideal) m ρ c (Proc.devRef .tc main_v6) : S512x16384.Idx → EReal)
      = fun i => shapeCast S512x16384
          (transpose S512x2048x8 [1, 0, 2] (m ((c : Thread nD τ).loc main_arg0) : S2048x512x8.Idx → EReal)
            transposes_S2048x512x8_S512x2048x8_1_0_2)
          shapeCasts_S512x2048x8_S512x16384 i := by
  have e0 : W2 (F := Ideal) m ρ c (Proc.devRef .tc main_arg0) = m ((c : Thread nD τ).loc main_arg0) := by
    rw [W2_of_ne m ρ c main_arg0 (by decide)]
    show StableHlo.after hostOps0 (W0 (F := Ideal) m ρ c) (Proc.devRef .tc main_arg0) = _
    after_results <;> rfl
  show StableHlo.after hostOps1 (W2 (F := Ideal) m ρ c) (Proc.devRef .tc main_v6) = _
  after_results
  rw [e0]
  rfl

theorem H1_w4_W3 : V23 (F := Ideal) m ρ c main_v6 = W3 (F := Ideal) m ρ c (Proc.devRef .tc main_v6) :=
  calc W23 (F := Ideal) m ρ c (Proc.devRef .tc main_v6)
    _ = W22 (F := Ideal) m ρ c (Proc.devRef .tc main_v6) := by unwritten hostOps1_20
    _ = W21 (F := Ideal) m ρ c (Proc.devRef .tc main_v6) := by unwritten hostOps1_19
    _ = W20 (F := Ideal) m ρ c (Proc.devRef .tc main_v6) := by unwritten hostOps1_18
    _ = W19 (F := Ideal) m ρ c (Proc.devRef .tc main_v6) := by unwritten hostOps1_17
    _ = W18 (F := Ideal) m ρ c (Proc.devRef .tc main_v6) := by unwritten hostOps1_16
    _ = W17 (F := Ideal) m ρ c (Proc.devRef .tc main_v6) := by unwritten hostOps1_15
    _ = W16 (F := Ideal) m ρ c (Proc.devRef .tc main_v6) := by unwritten hostOps1_14
    _ = W15 (F := Ideal) m ρ c (Proc.devRef .tc main_v6) := by unwritten hostOps1_13
    _ = W14 (F := Ideal) m ρ c (Proc.devRef .tc main_v6) := by unwritten hostOps1_12
    _ = W13 (F := Ideal) m ρ c (Proc.devRef .tc main_v6) := by unwritten hostOps1_11
    _ = W12 (F := Ideal) m ρ c (Proc.devRef .tc main_v6) := by unwritten hostOps1_10
    _ = W11 (F := Ideal) m ρ c (Proc.devRef .tc main_v6) := by unwritten hostOps1_9
    _ = W10 (F := Ideal) m ρ c (Proc.devRef .tc main_v6) := by unwritten hostOps1_8
    _ = W9 (F := Ideal) m ρ c (Proc.devRef .tc main_v6) := by unwritten hostOps1_7
    _ = W8 (F := Ideal) m ρ c (Proc.devRef .tc main_v6) := by unwritten hostOps1_6
    _ = W7 (F := Ideal) m ρ c (Proc.devRef .tc main_v6) := by unwritten hostOps1_5
    _ = W6 (F := Ideal) m ρ c (Proc.devRef .tc main_v6) := by unwritten hostOps1_4
    _ = W5 (F := Ideal) m ρ c (Proc.devRef .tc main_v6) := by unwritten hostOps1_3
    _ = W4 (F := Ideal) m ρ c (Proc.devRef .tc main_v6) := by unwritten hostOps1_2
    _ = W3 (F := Ideal) m ρ c (Proc.devRef .tc main_v6) := by unwritten hostOps1_1

/-- The signal operand at `(n, J)` is the signal at `(J / 8, n, J % 8)`. -/
theorem H1_w4 (n : Fin 512) (J : Fin 16384) :
    (V23 (F := Ideal) m ρ c main_v6 : S512x16384.Idx → EReal) (ix2 n J)
      = (m ((c : Thread nD τ).loc main_arg0) : S2048x512x8.Idx → EReal)
          (ix3 (⟨J.val / 8, by have := J.isLt; omega⟩ : Fin 2048) n (⟨J.val % 8, by omega⟩ : Fin 8)) := by
  rw [H1_w4_W3, W3_v6]
  refine (shapeCast_apply _ shapeCasts_S512x2048x8_S512x16384 (ix2 n J)
    (ix3 n (⟨J.val / 8, by have := J.isLt; omega⟩ : Fin 2048) (⟨J.val % 8, by omega⟩ : Fin 8)) (by
      rw [Shape.rowMajor_val_two, Shape.rowMajor_val_three]
      show (n.val * 2048 + J.val / 8) * 8 + J.val % 8 = n.val * 16384 + J.val
      omega)).trans ?_
  exact transpose_apply [1, 0, 2] _ transposes_S2048x512x8_S512x2048x8_1_0_2 _ _
    (fun a => match a with | ⟨0, _⟩ => rfl | ⟨1, _⟩ => rfl | ⟨2, _⟩ => rfl)

end Cert.RH
end
-- ==== Proof.RBlocks0.lean ====
/-
  The first region of the idealized reference program has a single grid point and every window's block is
  its whole array, so each output array ends holding the body's result of the input arrays as the region
  finds them.
-/
import proofs.«177386_g2000605918393418_pallasbulk_489_2_alg».proof.Proof.Gen.ReferenceIdeal.Frame
import Idealize.ShloMosaic.Lib.Pipeline.Value

set_option maxRecDepth 16384

noncomputable section

namespace Cert.RBlocks0

open Idealize.ShloMosaic Idealize.ShloMosaic.TcCoe
open Idealize.SL.Sem
open Idealize.ShloMosaic.Pipeline (Dat Cfg Window)
open Cert.ReferenceIdeal Cert.ReferenceIdeal.Gen

variable {F : FTy → Type} [FloatOps F]
variable (V : (c : Dev nD) → (b : Ref sig .tc) → Buf (Elt F) ((c : Thread nD τ).loc b))

/-- Every window's block index is zero at the one grid point. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem iblk_0 (c : Dev nD) (t : Fin cfg0.N) : iblk0 V c 0 t = (V c main_arg1 : S512x128.Idx → Elt F .f32) := by
  obtain ⟨e0, e1, -⟩ := idx_zero t
  funext y
  show V c main_arg1 (((cfg0.win 0).blk t).view.emb y) = V c main_arg1 y
  refine congrArg _ (funext fun a => Fin.ext ?_)
  match a with
  | ⟨0, _⟩ => show win0_0.index t (0 : Fin 2) * 512 + 1 * (y 0).val = (y 0).val; omega
  | ⟨1, _⟩ => show win0_0.index t (1 : Fin 2) * 128 + 1 * (y 1).val = (y 1).val; omega

theorem iblk_1 (c : Dev nD) (t : Fin cfg0.N) : iblk0 V c 1 t = (V c main_v2 : S1x128.Idx → Elt F .f32) := by
  obtain ⟨-, -, e0, e1, -⟩ := idx_zero t
  funext y
  show V c main_v2 (((cfg0.win 1).blk t).view.emb y) = V c main_v2 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega

theorem iblk_2 (c : Dev nD) (t : Fin cfg0.N) : iblk0 V c 2 t = (V c main_v3 : S1x128.Idx → Elt F .f32) := by
  obtain ⟨-, -, -, -, e0, e1, -⟩ := idx_zero t
  funext y
  show V c main_v3 (((cfg0.win 2).blk t).view.emb y) = V c main_v3 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem iblk_3 (c : Dev nD) (t : Fin cfg0.N) : iblk0 V c 3 t = (V c main_v1 : S128x200.Idx → Elt F .f32) := by
  obtain ⟨-, -, -, -, -, -, e0, e1, -⟩ := idx_zero t
  funext y
  show V c main_v1 (((cfg0.win 3).blk t).view.emb y) = V c main_v1 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 200 + 1 * (y 1).val = (y 1).val; omega

/-- At the one grid point the write-back of an output buffer holding `G` is `G` read through the whole-array block. -/
theorem cut_read4 (t : Fin cfg0.N) (G : S512x512.Idx → Elt F .f32) :
    (cfg0.win 4).cut (grid0.coords t) G = ((cfg0.win 4).blk t).view.read (Elt F) G := by
  obtain ⟨-, -, -, -, -, -, -, -, e0, e1, -⟩ := idx_zero t
  funext y
  show G y = G (((cfg0.win 4).blk t).view.emb y)
  refine congrArg _ (funext fun a => Fin.ext ?_)
  match a with
  | ⟨0, _⟩ => show (y 0).val = win0_4.index t (0 : Fin 2) * 512 + 1 * (y 0).val; omega
  | ⟨1, _⟩ => show (y 1).val = win0_4.index t (1 : Fin 2) * 512 + 1 * (y 1).val; omega

theorem cut_read5 (t : Fin cfg0.N) (G : S512x200.Idx → Elt F .f32) :
    (cfg0.win 5).cut (grid0.coords t) G = ((cfg0.win 5).blk t).view.read (Elt F) G := by
  obtain ⟨-, -, -, -, -, -, -, -, -, -, e0, e1⟩ := idx_zero t
  funext y
  show G y = G (((cfg0.win 5).blk t).view.emb y)
  refine congrArg _ (funext fun a => Fin.ext ?_)
  match a with
  | ⟨0, _⟩ => show (y 0).val = win0_5.index t (0 : Fin 2) * 512 + 1 * (y 0).val; omega
  | ⟨1, _⟩ => show (y 1).val = win0_5.index t (1 : Fin 2) * 200 + 1 * (y 1).val; omega

/-- An index is in a point's block of an output array iff each coordinate is in the block's range. -/
theorem mem_blk4 (t : Fin cfg0.N) (i : S512x512.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v4_0).slice (win0_4.rect t)).set ↔ _
  rw [View.set_slice_whole, Rect.mem_set_unit]
  exact Iff.rfl

theorem mem_blk5 (t : Fin cfg0.N) (i : S512x200.Idx) :
    i ∈ ((cfg0.win 5).blk t).view.set ↔ ∀ a : Fin 2, win0_5.index t a * S512x200.size a ≤ (i a).val
      ∧ (i a).val < win0_5.index t a * S512x200.size a + S512x200.size a := by
  show i ∈ ((View.whole main_v4_1).slice (win0_5.rect t)).set ↔ _
  rw [View.set_slice_whole, Rect.mem_set_unit]
  exact Iff.rfl

/-- The one grid point's block of an output window is the whole array. -/
theorem cover4 (i : S512x512.Idx) : ∃ t : Fin cfg0.N, (cfg0.win 4).flush t = true ∧ i ∈ ((cfg0.win 4).blk t).view.set := by
  have hN : 0 < cfg0.N := by decide
  refine ⟨⟨0, hN⟩, flush0_4 _, ?_⟩
  obtain ⟨-, -, -, -, -, -, -, -, e0, e1, -⟩ := idx_zero ⟨0, hN⟩
  rw [mem_blk4]
  intro a
  match a with
  | ⟨0, _⟩ =>
    show win0_4.index ⟨0, hN⟩ (0 : Fin 2) * 512 ≤ (i 0).val ∧ (i 0).val < win0_4.index ⟨0, hN⟩ (0 : Fin 2) * 512 + 512
    have h : (i 0).val < 512 := (i 0).isLt
    omega
  | ⟨1, _⟩ =>
    show win0_4.index ⟨0, hN⟩ (1 : Fin 2) * 512 ≤ (i 1).val ∧ (i 1).val < win0_4.index ⟨0, hN⟩ (1 : Fin 2) * 512 + 512
    have h : (i 1).val < 512 := (i 1).isLt
    omega

theorem cover5 (i : S512x200.Idx) : ∃ t : Fin cfg0.N, (cfg0.win 5).flush t = true ∧ i ∈ ((cfg0.win 5).blk t).view.set := by
  have hN : 0 < cfg0.N := by decide
  refine ⟨⟨0, hN⟩, flush0_5 _, ?_⟩
  obtain ⟨-, -, -, -, -, -, -, -, -, -, e0, e1⟩ := idx_zero ⟨0, hN⟩
  rw [mem_blk5]
  intro a
  match a with
  | ⟨0, _⟩ =>
    show win0_5.index ⟨0, hN⟩ (0 : Fin 2) * 512 ≤ (i 0).val ∧ (i 0).val < win0_5.index ⟨0, hN⟩ (0 : Fin 2) * 512 + 512
    have h : (i 0).val < 512 := (i 0).isLt
    omega
  | ⟨1, _⟩ =>
    show win0_5.index ⟨0, hN⟩ (1 : Fin 2) * 200 ≤ (i 1).val ∧ (i 1).val < win0_5.index ⟨0, hN⟩ (1 : Fin 2) * 200 + 200
    have h : (i 1).val < 200 := (i 1).isLt
    omega

/-- The softmax array after the region: the body's result of the four input arrays. -/
theorem s1_final (c : Dev nD) :
    (dat0 V c).arrAt 4 cfg0.N
      = (out0_4 (V c main_arg1) (V c main_v2) (V c main_v3) (V c main_v1) : S512x512.Idx → Elt F .f32) := by
  refine (dat0 V c).arrAt_eq_of_cover 4 _ (fun t _ => ?_) cover4
  show (cfg0.win 4).cut (grid0.coords t) ((dat0 V c).after 4 t) = _
  rw [after0_4, iblk_0, iblk_1, iblk_2, iblk_3]
  exact cut_read4 t _

/-- The per-node weights array after the region. -/
theorem wb_final (c : Dev nD) :
    (dat0 V c).arrAt 5 cfg0.N
      = (out0_5 (V c main_arg1) (V c main_v2) (V c main_v3) (V c main_v1) : S512x200.Idx → Elt F .f32) := by
  refine (dat0 V c).arrAt_eq_of_cover 5 _ (fun t _ => ?_) cover5
  show (cfg0.win 5).cut (grid0.coords t) ((dat0 V c).after 5 t) = _
  rw [after0_5, iblk_0, iblk_1, iblk_2, iblk_3]
  exact cut_read5 t _

end Cert.RBlocks0

end
-- ==== Proof.RP2.lean ====
/-
  The second program's prologue payloads as the named vector chains, and what the prologue leaves in its two output
  blocks, entry by entry: the column softmax of the activated logits, and the normalized embeddings times the pool.
-/
import proofs.«177386_g2000605918393418_pallasbulk_489_2_alg».proof.Proof.KPVec
import proofs.«177386_g2000605918393418_pallasbulk_489_2_alg».proof.Proof.Gen.ReferenceIdeal.Frame

noncomputable section

namespace Cert.UC.R

open Idealize.ShloMosaic Idealize.ShloMosaic.ValueIdx Cert.SpecPro Cert.LogSoftmaxLaw Cert.LibRowSoftmax
open Cert.ReferenceIdeal Cert.ReferenceIdeal.Gen Cert.UC

theorem lnSide : LNSide :=
  ⟨reduces_S512x128_S512, shapeCasts_S512_S512x1, broadcasts_S512x1_S512x128, shapeCasts_S1x128_S1x128,
    broadcasts_S1x128_S512x128⟩

theorem cside : CSide 512 512 := ⟨reduces_S512x512_S512, shapeCasts_S512_S1x512, broadcasts_S1x512_S512x512⟩

theorem ntD : NTDims dot_S512x128_S512x128_S512x512_1_1_0_0_n_n := ⟨rfl, rfl, rfl, rfl, rfl, rfl, rfl, rfl⟩

/-- The dimension numbers of the plain rows-by-columns product. -/
theorem plainD : Cert.LibDot.Plain dot_S512x128_S128x200_S512x200_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

variable (x0 : Vec Ideal S512x128 .f32) (x1 x2 : Vec Ideal S1x128 .f32) (x3 : Vec Ideal S128x200 .f32)

/-- The layer normalization. -/
theorem pay3_eq : k0_pay3 (F := Ideal) x0 x1 x2 = lnVec lnSide x0 x1 x2 := rfl

/-- The activated logits of the layer normalization. -/
abbrev zR : FVec Ideal S512x512 .f32 := zVec dot_S512x128_S512x128_S512x512_1_1_0_0_n_n (lnVec lnSide x0 x1 x2)

/-- The column softmax. -/
theorem pay1_eq : k0_pay1 (F := Ideal) (k0_pay4 x0 x1 x2) (k0_pay5 x0 x1 x2) = softmaxVecC cside (zR x0 x1 x2) := rfl

/-- The normalized embeddings times the pool. -/
theorem pay2_apply (e : FVec Ideal S512x128 .f32) (n : Fin 512) (q : Fin 200) :
    k0_pay2 (F := Ideal) e x3 (ix2 n q) = ∑ d : Fin 128, e (ix2 n d) * x3 (ix2 d q) :=
  (Cert.LibDot.matmul_ix2 plainD none e (shapeCast S128x200 x3 shapeCasts_S128x200_S128x200) n q).trans
    (Finset.sum_congr rfl fun d _ =>
      congrArg (fun t : EReal => e (ix2 n d) * t) (congrFun (shapeCast_self x3 shapeCasts_S128x200_S128x200) _))

theorem hz2 : (![0, 0] : Fin 2 → Nat) = fun _ => 0 := funext fun a => by fin_cases a <;> rfl

theorem R1 (r c : Fin 512) :
    out0_4 (F := Ideal) x0 x1 x2 x3 (ix2 r c) = SCol (embK x0) (rowK x1) (rowK x2) r c := by
  unfold out0_4
  rw [View.canon_unit_zero hz2]
  simp only [View.ld_unit_zero (S := S512x128) hz2, View.ld_unit_zero (S := S1x128) hz2]
  rw [pay1_eq]
  exact (softmaxVecC_apply cside (zR x0 x1 x2) r c).trans
    (congrArg (fun f : Fin 512 → EReal => softmaxRow negInf f r)
      (funext fun k => zVec_ln_apply dot_S512x128_S512x128_S512x512_1_1_0_0_n_n ntD lnSide x0 x1 x2 k c))

theorem R2 (n : Fin 512) (q : Fin 200) :
    out0_5 (F := Ideal) x0 x1 x2 x3 (ix2 n q) = ∑ d : Fin 128, E (embK x0) (rowK x1) (rowK x2) n d * x3 (ix2 d q) := by
  unfold out0_5
  rw [View.canon_unit_zero hz2]
  simp only [View.ld_unit_zero (S := S512x128) hz2, View.ld_unit_zero (S := S1x128) hz2,
    View.ld_unit_zero (S := S128x200) hz2]
  rw [pay2_apply, pay3_eq]
  exact Finset.sum_congr rfl fun d _ => congrArg (fun t : EReal => t * x3 (ix2 d q)) (lnVec_apply lnSide x0 x1 x2 n d)

end Cert.UC.R

namespace Cert.UC
export Cert.UC.R (R1 R2)
end Cert.UC

end
-- ==== Proof.RValue0.lean ====
/-
  The second region's input arrays of the idealized reference program, entry by entry, as functions of the
  program's arguments: the support array holds the column softmax, which is the row-softmax support T transposed;
  the weights array holds the normalized embeddings contracted with the fused pool; the signal array holds the batch
  input with the node axis first and the batch and channel axes merged.
-/
import proofs.«177386_g2000605918393418_pallasbulk_489_2_alg».proof.Proof.RHInputs0
import proofs.«177386_g2000605918393418_pallasbulk_489_2_alg».proof.Proof.RHInputs1
import proofs.«177386_g2000605918393418_pallasbulk_489_2_alg».proof.Proof.RBlocks0
import proofs.«177386_g2000605918393418_pallasbulk_489_2_alg».proof.Proof.RP2
import proofs.«177386_g2000605918393418_pallasbulk_489_2_alg».proof.Proof.SpecOut

set_option maxRecDepth 16384

noncomputable section

namespace Cert.RValue

open Idealize.ShloMosaic Idealize.ShloMosaic.TcCoe Idealize.ShloMosaic.ValueIdx
open Idealize.SL.Sem
open Cert.ReferenceIdeal Cert.ReferenceIdeal.Gen Cert.SpecPro Cert.SpecOut

/-- The fused pool: the weights pool flattened to [128,192] with the bias pool appended along axis 1. -/
def poolCat {F : FTy → Type} [FloatOps F] (wp : S128x3x8x8.Idx → Elt F .f32) (bp : S128x8.Idx → Elt F .f32) :
    S128x200.Idx → Elt F .f32 :=
  concatenate S128x200 1 [⟨S128x192, shapeCast S128x192 wp shapeCasts_S128x3x8x8_S128x192⟩, ⟨S128x8, bp⟩]
    concatenates_S128x192_S128x8_S128x200_d1

variable (m : (ℓ : Loc nD τ sig) → Buf (Elt Ideal) ℓ) (ρ : Dev nD → PrngReg)

/-- The argument arrays the result depends on, on core c. -/
abbrev A0' (c : Dev nD) : S2048x512x8.Idx → EReal := m ((c : Thread nD τ).loc main_arg0)
abbrev A1' (c : Dev nD) : S512x128.Idx → EReal := m ((c : Thread nD τ).loc main_arg1)
abbrev A2' (c : Dev nD) : S128.Idx → EReal := m ((c : Thread nD τ).loc main_arg2)
abbrev A3' (c : Dev nD) : S128.Idx → EReal := m ((c : Thread nD τ).loc main_arg3)
abbrev PC' (c : Dev nD) : S128x200.Idx → EReal :=
  poolCat (F := Ideal) (m ((c : Thread nD τ).loc main_arg4)) (m ((c : Thread nD τ).loc main_arg5))

theorem embK_eq (c : Dev nD) : embK (V1 m ρ c main_arg1) = EmbOf (A1' m c) := by
  unfold EmbOf; rw [Cert.RH.H0_w0]

theorem rowK_w (c : Dev nD) : rowK (V1 m ρ c main_v2) = VecOf (A2' m c) := by
  funext d
  show (V1 m ρ c main_v2 : S1x128.Idx → EReal) (ix2 (0 : Fin 1) d) = _
  rw [Cert.RH.H0_w1]; rfl

theorem rowK_b (c : Dev nD) : rowK (V1 m ρ c main_v3) = VecOf (A3' m c) := by
  funext d
  show (V1 m ρ c main_v3 : S1x128.Idx → EReal) (ix2 (0 : Fin 1) d) = _
  rw [Cert.RH.H0_w2]; rfl

/-- The first region's fourth input is the fused pool. -/
theorem pool_eq (c : Dev nD) : (V1 m ρ c main_v1 : S128x200.Idx → EReal) = PC' m c :=
  Cert.RH.H0_w3_term m ρ c

/-- The second region finds the first region's two output arrays as the first region left them. -/
theorem s1_eq (c : Dev nD) :
    (V23 m ρ c main_v4_0 : S512x512.Idx → EReal) = (dat0 (V1 m ρ) c).arrAt 4 cfg0.N :=
  (Cert.RH.H1_w0 m ρ c).trans (W2_arr m ρ c 4)

theorem wb_eq (c : Dev nD) :
    (V23 m ρ c main_v4_1 : S512x200.Idx → EReal) = (dat0 (V1 m ρ) c).arrAt 5 cfg0.N :=
  (Cert.RH.H1_w1 m ρ c).trans (W2_arr m ρ c 5)

/-- The support array: the column softmax is the row softmax transposed. -/
theorem s1_at (c : Dev nD) (r n : Fin 512) :
    (V23 m ρ c main_v4_0 : S512x512.Idx → EReal) (ix2 r n) = Tof (A1' m c) (A2' m c) (A3' m c) n r := by
  rw [s1_eq, Cert.RBlocks0.s1_final, Cert.UC.R1, embK_eq, rowK_w, rowK_b, Cert.Law.SCol_eq_SRow]; rfl

/-- The per-node weights array. -/
theorem wb_at (c : Dev nD) (n : Fin 512) (q : Fin 200) :
    (V23 m ρ c main_v4_1 : S512x200.Idx → EReal) (ix2 n q) = WtOf (A1' m c) (A2' m c) (A3' m c) (PC' m c) q n := by
  have h := Cert.UC.R2 (V1 m ρ c main_arg1) (V1 m ρ c main_v2) (V1 m ρ c main_v3) (V1 m ρ c main_v1) n q
  rw [wb_eq, Cert.RBlocks0.wb_final]
  refine h.trans ?_
  unfold WtOf
  rw [embK_eq, rowK_w, rowK_b, pool_eq]
  exact Finset.sum_congr rfl fun d _ => mul_comm _ _

/-- The signal array at (n, J): the batch input at (J / 8, n, J mod 8). -/
theorem xt_at (c : Dev nD) (n : Fin 512) (J : Fin 16384) :
    (V23 m ρ c main_v6 : S512x16384.Idx → EReal) (ix2 n J)
      = Xof (A0' m c) (⟨J.val / 8, by have := J.isLt; omega⟩ : Fin 2048) n (⟨J.val % 8, by omega⟩ : Fin 8) :=
  Cert.RH.H1_w4 m ρ c n J

end Cert.RValue

end
-- ==== Proof.RHResult.lean ====
/-
  The reference program's returned array, read at an index: the two host operations after the second region
  (a reshape [512,16384] → [512,2048,8], then a transpose to [2048,512,8]) over that region's output array.
-/
import proofs.«177386_g2000605918393418_pallasbulk_489_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal

set_option maxRecDepth 16384

noncomputable section

namespace Cert.RH

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg) (c : Dev nD)

/-- The result: the last two host operations (reshape then transpose) over region 1's output. -/
theorem H2_term :
    W25 (F := Ideal) m ρ c (Proc.devRef .tc main_v49)
      = transpose S2048x512x8 [1, 0, 2]
          (fun i => shapeCast S512x2048x8 (W24 (F := Ideal) m ρ c (Proc.devRef .tc main_v47)) shapeCasts_S512x16384_S512x2048x8 i)
          transposes_S512x2048x8_S2048x512x8_1_0_2 := by
  show StableHlo.after hostOps2 (W24 (F := Ideal) m ρ c) (Proc.devRef .tc main_v49) = _
  after_results
  rfl

/-- The returned array at `(b, n, o)` is region 1's output array at `(n, 8 b + o)`. -/
theorem H2 (b : Fin 2048) (n : Fin 512) (o : Fin 8) :
    (W25 (F := Ideal) m ρ c (Proc.devRef .tc main_v49) : S2048x512x8.Idx → EReal) (ix3 b n o)
      = (W24 (F := Ideal) m ρ c (Proc.devRef .tc main_v47) : S512x16384.Idx → EReal)
          (ix2 n ⟨b.val * 8 + o.val, by have := b.isLt; have := o.isLt; omega⟩) := by
  rw [H2_term]
  rw [transpose_apply [1, 0, 2] _ transposes_S512x2048x8_S2048x512x8_1_0_2 (ix3 b n o) (ix3 n b o)
    (fun a => match a with | ⟨0, _⟩ => rfl | ⟨1, _⟩ => rfl | ⟨2, _⟩ => rfl)]
  exact shapeCast_apply _ shapeCasts_S512x16384_S512x2048x8 _ _ (by
    rw [Shape.rowMajor_val_two, Shape.rowMajor_val_three]
    show n.val * 16384 + (b.val * 8 + o.val) = (n.val * 2048 + b.val) * 8 + o.val
    omega)

end Cert.RH
end
-- ==== Proof.RBlocks1.lean ====
/-
  The second region of the idealized reference program runs over 128 grid points along the lane axis of its
  [512,16384] arrays.  Four input windows hold their whole arrays at every point; the fifth input window and the output
  window hold, at point t, the [512,128] block of columns 128·t … 128·t + 127.  So the input block at point t reads
  the input array at column 128·t + l, and the output array ends holding, at column J, what point J / 128 left at
  column J mod 128 of its block.
-/
import proofs.«177386_g2000605918393418_pallasbulk_489_2_alg».proof.Proof.Gen.ReferenceIdeal.Frame
import Idealize.ShloMosaic.Lib.Pipeline.Value
import Idealize.ShloMosaic.Lib.ValueIdx

set_option maxRecDepth 16384

noncomputable section

namespace Cert.RBlocks1

open Idealize.ShloMosaic Idealize.ShloMosaic.TcCoe Idealize.ShloMosaic.ValueIdx
open Idealize.SL.Sem
open Idealize.ShloMosaic.Pipeline (Dat Cfg Window)
open Cert.ReferenceIdeal Cert.ReferenceIdeal.Gen

variable {F : FTy → Type} [FloatOps F]
variable (V : (c : Dev nD) → (b : Ref sig .tc) → Buf (Elt F) ((c : Thread nD τ).loc b))

/-- The region has 128 grid points. -/
theorem N_eq : cfg1.N = 128 := N_1

/-- The windows' block indices at a grid point: zero, except along the lanes of the two blocked windows, where it is
    the point's number. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val :=
  (by decide +kernel : ∀ t : Fin grid1.N, _)

theorem iblk_0 (c : Dev nD) (t : Fin cfg1.N) : iblk1 V c 0 t = (V c main_v4_0 : S512x512.Idx → Elt F .f32) := by
  obtain ⟨e0, e1, -⟩ := idx_facts t
  funext y
  show V c main_v4_0 (((cfg1.win 0).blk t).view.emb y) = V c main_v4_0 y
  refine congrArg _ (funext fun a => Fin.ext ?_)
  match a with
  | ⟨0, _⟩ => show win1_0.index t (0 : Fin 2) * 512 + 1 * (y 0).val = (y 0).val; omega
  | ⟨1, _⟩ => show win1_0.index t (1 : Fin 2) * 512 + 1 * (y 1).val = (y 1).val; omega

theorem iblk_1 (c : Dev nD) (t : Fin cfg1.N) : iblk1 V c 1 t = (V c main_v4_1 : S512x200.Idx → Elt F .f32) := by
  obtain ⟨-, -, e0, e1, -⟩ := idx_facts t
  funext y
  show V c main_v4_1 (((cfg1.win 1).blk t).view.emb y) = V c main_v4_1 y
  refine congrArg _ (funext fun a => Fin.ext ?_)
  match a with
  | ⟨0, _⟩ => show win1_1.index t (0 : Fin 2) * 512 + 1 * (y 0).val = (y 0).val; omega
  | ⟨1, _⟩ => show win1_1.index t (1 : Fin 2) * 200 + 1 * (y 1).val = (y 1).val; omega

theorem iblk_2 (c : Dev nD) (t : Fin cfg1.N) : iblk1 V c 2 t = (V c main_v36 : S384x3072.Idx → Elt F .f32) := by
  obtain ⟨-, -, -, -, e0, e1, -⟩ := idx_facts t
  funext y
  show V c main_v36 (((cfg1.win 2).blk t).view.emb y) = V c main_v36 y
  refine congrArg _ (funext fun a => Fin.ext ?_)
  match a with
  | ⟨0, _⟩ => show win1_2.index t (0 : Fin 2) * 384 + 1 * (y 0).val = (y 0).val; omega
  | ⟨1, _⟩ => show win1_2.index t (1 : Fin 2) * 3072 + 1 * (y 1).val = (y 1).val; omega

theorem iblk_3 (c : Dev nD) (t : Fin cfg1.N) : iblk1 V c 3 t = (V c main_v46 : S3072x128.Idx → Elt F .f32) := by
  obtain ⟨-, -, -, -, -, -, e0, e1, -⟩ := idx_facts t
  funext y
  show V c main_v46 (((cfg1.win 3).blk t).view.emb y) = V c main_v46 y
  refine congrArg _ (funext fun a => Fin.ext ?_)
  match a with
  | ⟨0, _⟩ => show win1_3.index t (0 : Fin 2) * 3072 + 1 * (y 0).val = (y 0).val; omega
  | ⟨1, _⟩ => show win1_3.index t (1 : Fin 2) * 128 + 1 * (y 1).val = (y 1).val; omega

/-- The blocked input window at point t, entry (n, l): the input array at (n, 128·t + l). -/
theorem iblk_4 (c : Dev nD) (t : Fin cfg1.N) (n : Fin 512) (l : Fin 128) :
    (iblk1 V c 4 t : S512x128.Idx → Elt F .f32) (ix2 n l)
      = (V c main_v6 : S512x16384.Idx → Elt F .f32)
          (ix2 n (⟨t.val * 128 + l.val, by have := t.isLt; have := N_eq; omega⟩ : Fin 16384)) := by
  obtain ⟨-, -, -, -, -, -, -, -, e0, e1, -⟩ := idx_facts t
  show V c main_v6 (((cfg1.win 4).blk t).view.emb (ix2 n l)) = V c main_v6 _
  refine congrArg _ (funext fun a => Fin.ext ?_)
  match a with
  | ⟨0, _⟩ => show win1_4.index t (0 : Fin 2) * 512 + 1 * n.val = n.val; omega
  | ⟨1, _⟩ => show win1_4.index t (1 : Fin 2) * 128 + 1 * l.val = t.val * 128 + l.val; omega

/-! ## The output array from the points' blocks -/

/-- The [512,16384] array whose columns 128·t … 128·t + 127 are the block `H t`. -/
def assemble (H : Fin cfg1.N → (S512x128.Idx → Elt F .f32)) : S512x16384.Idx → Elt F .f32 :=
  fun i => H ⟨(i 1).val / 128, by have := idx2_lt1 i; have := N_eq; omega⟩
    (ix2 (⟨(i 0).val, idx2_lt0 i⟩ : Fin 512) (⟨(i 1).val % 128, Nat.mod_lt _ (by decide)⟩ : Fin 128))

/-- The assembled array at an index of block t. -/
theorem assemble_apply (H : Fin cfg1.N → (S512x128.Idx → Elt F .f32)) (i : S512x16384.Idx) (t : Fin cfg1.N)
    (y : S512x128.Idx) (h0 : (i 0).val = (y 0).val) (h1 : (i 1).val = t.val * 128 + (y 1).val) :
    assemble H i = H t y := by
  have hy1 : (y 1).val < 128 := idx2_lt1 y
  have ht : (⟨(i 1).val / 128, by have := idx2_lt1 i; have := N_eq; omega⟩ : Fin cfg1.N) = t :=
    Fin.ext (by show (i 1).val / 128 = t.val; omega)
  have hy : ix2 (⟨(i 0).val, idx2_lt0 i⟩ : Fin 512) (⟨(i 1).val % 128, Nat.mod_lt _ (by decide)⟩ : Fin 128) = y :=
    funext fun d => Fin.ext (by
      match d with
      | ⟨0, _⟩ => exact h0
      | ⟨1, _⟩ => show (i 1).val % 128 = (y 1).val; omega)
  unfold assemble
  rw [ht, hy]

/-- At point t the write-back of the output buffer holding `H t` is the assembled array read through block t. -/
theorem cut_read5 (H : Fin cfg1.N → (S512x128.Idx → Elt F .f32)) (t : Fin cfg1.N) :
    (cfg1.win 5).cut (grid1.coords t) (H t) = ((cfg1.win 5).blk t).view.read (Elt F) (assemble H) := by
  obtain ⟨-, -, -, -, -, -, -, -, -, -, e0, e1⟩ := idx_facts t
  funext y
  show H t y = assemble H (((cfg1.win 5).blk t).view.emb y)
  refine (assemble_apply H _ t y ?_ ?_).symm
  · show win1_5.index t (0 : Fin 2) * 512 + 1 * (y 0).val = (y 0).val; omega
  · show win1_5.index t (1 : Fin 2) * 128 + 1 * (y 1).val = t.val * 128 + (y 1).val; omega

/-- An index is in a point's block of the output array iff each coordinate is in the block's range. -/
theorem mem_blk5 (t : Fin cfg1.N) (i : S512x16384.Idx) :
    i ∈ ((cfg1.win 5).blk t).view.set ↔ ∀ a : Fin 2, win1_5.index t a * S512x128.size a ≤ (i a).val
      ∧ (i a).val < win1_5.index t a * S512x128.size a + S512x128.size a := by
  show i ∈ ((View.whole main_v47).slice (win1_5.rect t)).set ↔ _
  rw [View.set_slice_whole, Rect.mem_set_unit]
  exact Iff.rfl

/-- Column J of the output array lies in the block of point J / 128. -/
theorem cover5 (i : S512x16384.Idx) :
    ∃ t : Fin cfg1.N, (cfg1.win 5).flush t = true ∧ i ∈ ((cfg1.win 5).blk t).view.set := by
  have h1 : (i 1).val < 16384 := idx2_lt1 i
  have h0 : (i 0).val < 512 := idx2_lt0 i
  have hN : (i 1).val / 128 < cfg1.N := by have := N_eq; omega
  refine ⟨⟨(i 1).val / 128, hN⟩, flush1_5 _, ?_⟩
  obtain ⟨-, -, -, -, -, -, -, -, -, -, e0, e1⟩ := idx_facts ⟨(i 1).val / 128, hN⟩
  rw [mem_blk5]
  intro a
  match a with
  | ⟨0, _⟩ =>
    show win1_5.index ⟨(i 1).val / 128, hN⟩ (0 : Fin 2) * 512 ≤ (i 0).val
      ∧ (i 0).val < win1_5.index ⟨(i 1).val / 128, hN⟩ (0 : Fin 2) * 512 + 512
    omega
  | ⟨1, _⟩ =>
    show win1_5.index ⟨(i 1).val / 128, hN⟩ (1 : Fin 2) * 128 ≤ (i 1).val
      ∧ (i 1).val < win1_5.index ⟨(i 1).val / 128, hN⟩ (1 : Fin 2) * 128 + 128
    have e1' : win1_5.index ⟨(i 1).val / 128, hN⟩ (1 : Fin 2) = (i 1).val / 128 := e1
    omega

/-- The output array after the region: assembled from what each point leaves. -/
theorem out_arr (c : Dev nD) :
    (dat1 V c).arrAt 5 cfg1.N = (assemble (outsAt1 V c) : S512x16384.Idx → Elt F .f32) := by
  refine (dat1 V c).arrAt_eq_of_cover 5 _ (fun t _ => ?_) cover5
  show (cfg1.win 5).cut (grid1.coords t) ((dat1 V c).after 5 t) = _
  rw [after1_5]
  exact cut_read5 (outsAt1 V c) t

/-- The output array at (n, J): what point J / 128 left at (n, J mod 128) of its block. -/
theorem out_final (c : Dev nD) (n : Fin 512) (J : Fin 16384) :
    ((dat1 V c).arrAt 5 cfg1.N : S512x16384.Idx → Elt F .f32) (ix2 n J)
      = outsAt1 V c ⟨J.val / 128, by have := J.isLt; have := N_eq; omega⟩
          (ix2 n (⟨J.val % 128, Nat.mod_lt _ (by decide)⟩ : Fin 128)) := by
  rw [out_arr]
  rfl

end Cert.RBlocks1

end
-- ==== Proof.RG1.lean ====
/-
  What the second kernel body of the reference leaves in its output block, as ONE pure term of the five input
  blocks: the single covering store's payload, whose operands are the whole input blocks, two column windows of
  the [512,200] block, and the [512,384] scratch read back whole after its three column strips were stored.
-/
import proofs.«177386_g2000605918393418_pallasbulk_489_2_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.RG

open Cert.ReferenceIdeal Cert.ReferenceIdeal.Gen

variable {F : FTy → Type} [FloatOps F]

theorem hz2 : (![0, 0] : Fin 2 → Nat) = fun _ => 0 := funext fun a => by fin_cases a <;> rfl

/-- The three stores into the [512,384] scratch, last first: columns 256..383, 128..255, 0..127. -/
def xgPieces (x0 : Vec F S512x512 .f32) (x4 : Vec F S512x128 .f32) : List (View.Piece (Elt F) S512x384 .f32) :=
  [⟨Rect.unit ![0, 256] S512x128.size inb_S512x384_S512x128_0_256, k1_pay7 x0 x4⟩,
   ⟨Rect.unit ![0, 128] S512x128.size inb_S512x384_S512x128_0_128, k1_pay6 x0 x4⟩,
   ⟨Rect.unit ![0, 0] S512x128.size inb_S512x384_S512x128_0_0, k1_pay4 x4⟩]

/-- The scratch's contents when it is read back whole. -/
def xgv (x0 : Vec F S512x512 .f32) (x4 : Vec F S512x128 .f32) : Vec F S512x384 .f32 := View.canon (xgPieces x0 x4)

/-- Columns 0..191 of the [512,200] block. -/
def wflat (x1 : Vec F S512x200 .f32) : Vec F S512x192 .f32 :=
  View.ld x1 (Rect.unit ![0, 0] S512x192.size inb_S512x200_S512x192_0_0)

/-- Columns 192..199 of the [512,200] block. -/
def biasv (x1 : Vec F S512x200 .f32) : Vec F S512x8 .f32 :=
  View.ld x1 (Rect.unit ![0, 192] S512x8.size inb_S512x200_S512x8_0_192)

/-- The output block after the body: the one covering store's payload over the input blocks. -/
theorem out_pay (c : Dev nD) (i : grid1.Coords) (a1 : Memref sig .tc .vmem S512x512 .f32) (h1 : a1.IsWhole) (a2 : Memref sig .tc .vmem S512x200 .f32) (h2 : a2.IsWhole) (a3 : Memref sig .tc .vmem S384x3072 .f32) (h3 : a3.IsWhole) (a4 : Memref sig .tc .vmem S3072x128 .f32) (h4 : a4.IsWhole) (a5 : Memref sig .tc .vmem S512x128 .f32) (h5 : a5.IsWhole) (a6 : Memref sig .tc .vmem S512x128 .f32) (h6 : a6.IsWhole) (a7 : Memref sig .tc .vmem S512x384 .f32) (h7 : a7.IsWhole)
    (x0 : Vec F S512x512 .f32) (x1 : Vec F S512x200 .f32) (x2 : Vec F S384x3072 .f32) (x3 : Vec F S3072x128 .f32) (x4 : Vec F S512x128 .f32) :
    out1_A_5 c i a1 h1 a2 h2 a3 h3 a4 h4 a5 h5 a6 h6 a7 h7 x0 x1 x2 x3 x4
      = k1_pay1 (k1_pay8 (biasv x1)) (k1_pay9 (xgv x0 x4) (wflat x1) x2) (k1_pay10 x3) (constant S512x128 .f32 0x00000000#32) := by
  unfold out1_A_5
  rw [View.read_writes_eq_canon _ _ _ (cover1_A_5 c i a1 h1 a2 h2 a3 h3 a4 h4 a5 h5 a6 h6 a7 h7 x0 x1 x2 x3 x4)]
  unfold kernelRun1_A
  dsimp only
  sl_unfold_words
  rw [View.canon_unit_zero hz2]
  rw [View.readCov_eq_canon']
  simp only [View.readAt_eq_ld, h1.read_unread, h2.read_unread, h3.read_unread, h4.read_unread, h5.read_unread,
    View.ld_unit_zero (S := S512x512) hz2, View.ld_unit_zero (S := S512x128) hz2, View.ld_unit_zero (S := S384x3072) hz2,
    View.ld_unit_zero (S := S3072x128) hz2]
  exact congrArg (fun X => k1_pay1 (k1_pay8 (biasv x1)) (k1_pay9 X (wflat x1) x2) (k1_pay10 x3) (constant S512x128 .f32 0x00000000#32))
    (View.ld_unit_zero (S := S512x384) hz2 inb_S512x384_S512x384_0_0 (View.canon (xgPieces x0 x4)))

end Cert.RG

end
-- ==== Proof.RG2.lean ====
/-
  The reference's second kernel body, entry by entry, first part: the two Chebyshev terms as sums over the node
  index. Z1 = S·x, Z2 = 2·(S·Z1) − x for the [512,512] support block S and the [512,128] input block x; XG lays
  x, Z1, Z2 side by side along the columns.
-/
import proofs.«177386_g2000605918393418_pallasbulk_489_2_alg».proof.Proof.RG1
import proofs.«177386_g2000605918393418_pallasbulk_489_2_alg».proof.Proof.LibDot
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.RG

open Cert.ReferenceIdeal Cert.ReferenceIdeal.Gen

/-- The scalar 2 of the Chebyshev recurrence, as its printed word. -/
def two : EReal := Ideal.ofBits .f32 0x40000000#32

/-- First Chebyshev term: the support matrix times the input block. -/
def Z1 (x0 : FVec Ideal S512x512 .f32) (x4 : FVec Ideal S512x128 .f32) (n : Fin 512) (l : Fin 128) : EReal :=
  ∑ m : Fin 512, x0 (ix2 n m) * x4 (ix2 m l)

/-- Second Chebyshev term: twice the support matrix times the first term, minus the input block. -/
def Z2 (x0 : FVec Ideal S512x512 .f32) (x4 : FVec Ideal S512x128 .f32) (n : Fin 512) (l : Fin 128) : EReal :=
  two * (∑ m : Fin 512, x0 (ix2 n m) * Z1 x0 x4 m l) - x4 (ix2 n l)

/-- The three terms side by side along the columns: the [512,384] array the contraction reads. -/
def XG (x0 : FVec Ideal S512x512 .f32) (x4 : FVec Ideal S512x128 .f32) (n : Fin 512) (c : Fin 384) : EReal :=
  if h : c.val < 128 then x4 (ix2 n ⟨c.val, h⟩)
  else if h' : c.val < 256 then Z1 x0 x4 n ⟨c.val - 128, by omega⟩
  else Z2 x0 x4 n ⟨c.val - 256, by omega⟩

/-! ## The plain rows-by-columns product's dimension numbers -/

theorem plain_of {M K N : Nat} (w : DotDims.WF ⟨2, ![M, K]⟩ ⟨2, ![K, N]⟩ ⟨2, ![M, N]⟩ [1] [0] [0] [1] [] []) :
    Cert.LibDot.Plain (⟨[1], [0], [0], [1], [], [], w⟩ : DotDims ⟨2, ![M, K]⟩ ⟨2, ![K, N]⟩ ⟨2, ![M, N]⟩) where
  hrank := rfl
  hs := rfl
  hl0 := fun j k => by simp [DotDims.lhsIdx]; rfl
  hl1 := fun j k => DotDims.lhsIdx_val_of_single _ rfl j k
  hr0 := fun j k => DotDims.rhsIdx_val_of_single _ rfl j k
  hr1 := fun j k => by simp [DotDims.rhsIdx]; rfl

theorem plainA : Cert.LibDot.Plain dot_S512x512_S512x128_S512x128_1_0_0_1_n_n := plain_of _
theorem plainB : Cert.LibDot.Plain dot_S512x384_S384x3072_S512x3072_1_0_0_1_n_n := plain_of _
theorem plainC : Cert.LibDot.Plain dot_S512x3072_S3072x128_S512x128_1_0_0_1_n_n := plain_of _

/-! ## The identity reshapes -/

section AnyF
variable {F : FTy → Type} [FloatOps F]

theorem pay2_eq (x0 : Vec F S512x512 .f32) : k1_pay2 x0 = x0 := shapeCast_self _ _
theorem pay3_eq (x4 : Vec F S512x128 .f32) : k1_pay3 x4 = x4 := shapeCast_self _ _
theorem pay4_eq (x4 : Vec F S512x128 .f32) : k1_pay4 x4 = x4 := (shapeCast_self _ _).trans (pay3_eq x4)
theorem pay6_eq (x0 : Vec F S512x512 .f32) (x4 : Vec F S512x128 .f32) : k1_pay6 x0 x4 = k1_pay5 x0 x4 := shapeCast_self _ _
theorem pay10_eq (x3 : Vec F S3072x128 .f32) : k1_pay10 x3 = x3 := shapeCast_self _ _

end AnyF

/-! ## The two Chebyshev products at an entry -/

theorem pay5_apply (x0 : FVec Ideal S512x512 .f32) (x4 : FVec Ideal S512x128 .f32) (n : Fin 512) (l : Fin 128) :
    k1_pay5 (F := Ideal) x0 x4 (ix2 n l) = Z1 x0 x4 n l := by
  unfold k1_pay5
  refine (Cert.LibDot.matmul_ix2 plainA none _ _ n l).trans ?_
  rw [pay2_eq, pay3_eq]
  rfl

theorem pay7_apply (x0 : FVec Ideal S512x512 .f32) (x4 : FVec Ideal S512x128 .f32) (n : Fin 512) (l : Fin 128) :
    k1_pay7 (F := Ideal) x0 x4 (ix2 n l) = Z2 x0 x4 n l := by
  unfold k1_pay7
  refine (congrFun (shapeCast_self _ _) (ix2 n l)).trans ?_
  show two * matmul (F := Ideal) dot_S512x512_S512x128_S512x128_1_0_0_1_n_n none (k1_pay2 (F := Ideal) x0) (k1_pay5 (F := Ideal) x0 x4)
      (constant S512x128 .f32 0x00000000#32) (ix2 n l) - k1_pay3 (F := Ideal) x4 (ix2 n l) = _
  rw [Cert.LibDot.matmul_ix2 plainA none _ _ n l, pay2_eq, pay3_eq]
  unfold Z2
  simp only [pay5_apply]

end Cert.RG

end
-- ==== Proof.RG3.lean ====
/-
  The [512,384] scratch read back whole after its three column strips were stored: at column k of row n it holds
  the stored term of the strip k falls in, at column k − 0, k − 128 or k − 256 of that term.
-/
import proofs.«177386_g2000605918393418_pallasbulk_489_2_alg».proof.Proof.RG1
import Idealize.ShloMosaic.Lib.ValueIdx

noncomputable section

open Idealize.ShloMosaic Idealize.ShloMosaic.TcCoe Idealize.SL.Sem Idealize.ShloMosaic.ValueIdx

namespace Cert.RG

open Cert.ReferenceIdeal Cert.ReferenceIdeal.Gen

/-! ## A unit-stride rectangle of a matrix: where its entries sit, and which entries it misses -/

theorem emb_unit2 {d0 d1 : Nat} (o0 o1 s0 s1 : Nat) (inb : ∀ a, (![o0, o1] : Fin 2 → Nat) a + (![s0, s1] : Fin 2 → Nat) a ≤ (⟨2, ![d0, d1]⟩ : Shape).size a)
    (p : Fin s0) (q : Fin s1) (P : Fin d0) (Q : Fin d1) (hP : P.val = o0 + p.val) (hQ : Q.val = o1 + q.val) :
    (Rect.unit (s := ⟨2, ![d0, d1]⟩) ![o0, o1] ![s0, s1] inb).emb (ix2 p q) = ix2 P Q := by
  funext a; apply Fin.ext
  match a with
  | ⟨0, _⟩ => show o0 + 1 * p.val = P.val; omega
  | ⟨1, _⟩ => show o1 + 1 * q.val = Q.val; omega

theorem not_mem_unit2 {d0 d1 : Nat} (o0 o1 s0 s1 : Nat) (inb : ∀ a, (![o0, o1] : Fin 2 → Nat) a + (![s0, s1] : Fin 2 → Nat) a ≤ (⟨2, ![d0, d1]⟩ : Shape).size a)
    (P : Fin d0) (Q : Fin d1) (h : Q.val < o1 ∨ o1 + s1 ≤ Q.val) :
    ix2 P Q ∉ (Rect.unit (s := ⟨2, ![d0, d1]⟩) ![o0, o1] ![s0, s1] inb).set := by
  rw [Rect.mem_set_unit]
  intro hm
  have h1 : o1 ≤ Q.val ∧ Q.val < o1 + s1 := hm 1
  omega

/-! ## The scratch read back whole: each column strip holds the term stored there -/

section AnyF
variable {F : FTy → Type} [FloatOps F]

/-- Off the last store's rectangle, the contents are what the earlier stores left. -/
theorem canon_skip {S : Shape} {e : EltTy} (r : Rect S) (w : r.shape.Idx → Elt F e) (L : List (View.Piece (Elt F) S e)) {y : S.Idx}
    (h : y ∉ r.set) : View.canon (⟨r, w⟩ :: L) y = View.canon L y :=
  View.canon_cons_of_not_mem ⟨r, w⟩ L h

theorem xgv_hi (x0 : Vec F S512x512 .f32) (x4 : Vec F S512x128 .f32) (n : Fin 512) (l : Fin 128) (k : Fin 384)
    (hk : k.val = 256 + l.val) : xgv x0 x4 (ix2 n k) = k1_pay7 x0 x4 (ix2 n l) := by
  unfold xgv xgPieces
  rw [← emb_unit2 0 256 512 128 inb_S512x384_S512x128_0_256 n l n k (by omega) hk]
  exact View.canon_cons_emb _ _ _ _

theorem xgv_mid (x0 : Vec F S512x512 .f32) (x4 : Vec F S512x128 .f32) (n : Fin 512) (l : Fin 128) (k : Fin 384)
    (hk : k.val = 128 + l.val) : xgv x0 x4 (ix2 n k) = k1_pay6 x0 x4 (ix2 n l) := by
  unfold xgv xgPieces
  refine (canon_skip (Rect.unit (s := S512x384) ![0, 256] S512x128.size inb_S512x384_S512x128_0_256) _ _
    (not_mem_unit2 0 256 512 128 inb_S512x384_S512x128_0_256 n k (by omega))).trans ?_
  rw [← emb_unit2 0 128 512 128 inb_S512x384_S512x128_0_128 n l n k (by omega) hk]
  exact View.canon_cons_emb _ _ _ _

theorem xgv_lo (x0 : Vec F S512x512 .f32) (x4 : Vec F S512x128 .f32) (n : Fin 512) (l : Fin 128) (k : Fin 384)
    (hk : k.val = l.val) : xgv x0 x4 (ix2 n k) = k1_pay4 x4 (ix2 n l) := by
  unfold xgv xgPieces
  refine (canon_skip (Rect.unit (s := S512x384) ![0, 256] S512x128.size inb_S512x384_S512x128_0_256) _ _
    (not_mem_unit2 0 256 512 128 inb_S512x384_S512x128_0_256 n k (by omega))).trans ?_
  refine (canon_skip (Rect.unit (s := S512x384) ![0, 128] S512x128.size inb_S512x384_S512x128_0_128) _ _
    (not_mem_unit2 0 128 512 128 inb_S512x384_S512x128_0_128 n k (by omega))).trans ?_
  rw [← emb_unit2 0 0 512 128 inb_S512x384_S512x128_0_0 n l n k (by omega) (by omega)]
  exact View.canon_cons_emb _ _ _ _

end AnyF

end Cert.RG

end
-- ==== Proof.RG4.lean ====
/-
  The reference's second kernel body, entry by entry, second part. The output block at row n, column j is
      Σ_q ((Σ_k XG(n,k) · E(k,q)) · W(n, q mod 192)) · R(q,j)  +  W(n, 192 + j mod 8)
  for the [384,3072] and [3072,128] blocks E and R and the [512,200] block W, whose first 192 columns and last 8
  columns the body tiles sixteen times along the columns; XG is the three Chebyshev terms side by side. Nothing
  is assumed about the contents of any block.
-/
import proofs.«177386_g2000605918393418_pallasbulk_489_2_alg».proof.Proof.RG2
import proofs.«177386_g2000605918393418_pallasbulk_489_2_alg».proof.Proof.RG3
import Idealize.ShloMosaic.Lib.Pipeline.Value

noncomputable section

open Idealize.ShloMosaic Idealize.ShloMosaic.TcCoe Idealize.SL.Sem Idealize.ShloMosaic.ValueIdx

namespace Cert.RG

open Cert.ReferenceIdeal Cert.ReferenceIdeal.Gen

/-! ## A block of columns tiled sixteen times along the columns -/

theorem tile192_apply {α : Type} (w : S512x192.Idx → α)
    (h : Shape.Concatenates ((List.replicate 16 (⟨S512x192, w⟩ : (s : Shape) × (s.Idx → α))).map (·.1)) S512x3072 1)
    (n : Fin 512) (q : Fin 3072) :
    concatenate S512x3072 1 (List.replicate 16 (⟨S512x192, w⟩ : (s : Shape) × (s.Idx → α))) h (ix2 n q)
      = w (ix2 n ⟨q.val % 192, Nat.mod_lt _ (by omega)⟩) :=
  concatenate_replicate_apply (t := S512x3072) (s₁ := S512x192) 1 16 w h rfl (ix2 n q)
    (ix2 n ⟨q.val % 192, Nat.mod_lt _ (by omega)⟩) rfl
    (fun b hb => by match b with | ⟨0, _⟩ => rfl | ⟨1, _⟩ => exact absurd rfl hb)

theorem tile8_apply {α : Type} (w : S512x8.Idx → α)
    (h : Shape.Concatenates ((List.replicate 16 (⟨S512x8, w⟩ : (s : Shape) × (s.Idx → α))).map (·.1)) S512x128 1)
    (n : Fin 512) (j : Fin 128) :
    concatenate S512x128 1 (List.replicate 16 (⟨S512x8, w⟩ : (s : Shape) × (s.Idx → α))) h (ix2 n j)
      = w (ix2 n ⟨j.val % 8, Nat.mod_lt _ (by omega)⟩) :=
  concatenate_replicate_apply (t := S512x128) (s₁ := S512x8) 1 16 w h rfl (ix2 n j)
    (ix2 n ⟨j.val % 8, Nat.mod_lt _ (by omega)⟩) rfl
    (fun b hb => by match b with | ⟨0, _⟩ => rfl | ⟨1, _⟩ => exact absurd rfl hb)

/-! ## The two column windows of the [512,200] block -/

section AnyF
variable {F : FTy → Type} [FloatOps F]

theorem wflat_apply (x1 : Vec F S512x200 .f32) (n : Fin 512) (r : Fin 192) :
    wflat x1 (ix2 n r) = x1 (ix2 n ⟨r.val, by omega⟩) :=
  congrArg x1 (emb_unit2 0 0 512 192 inb_S512x200_S512x192_0_0 n r n ⟨r.val, by omega⟩ (by omega) (by simp))

theorem biasv_apply (x1 : Vec F S512x200 .f32) (n : Fin 512) (r : Fin 8) :
    biasv x1 (ix2 n r) = x1 (ix2 n ⟨192 + r.val, by omega⟩) :=
  congrArg x1 (emb_unit2 0 192 512 8 inb_S512x200_S512x8_0_192 n r n ⟨192 + r.val, by omega⟩ (by omega) rfl)

/-- The bias columns tiled sixteen times. -/
theorem pay8_apply (b : Vec F S512x8 .f32) (n : Fin 512) (j : Fin 128) :
    k1_pay8 b (ix2 n j) = b (ix2 n ⟨j.val % 8, Nat.mod_lt _ (by omega)⟩) := by
  unfold k1_pay8
  refine (tile8_apply (shapeCast S512x8 b shapeCasts_S512x8_S512x8) concatenates_S512x8_S512x8_S512x8_S512x8_S512x8_S512x8_S512x8_S512x8_S512x8_S512x8_S512x8_S512x8_S512x8_S512x8_S512x8_S512x8_S512x128_d1 n j).trans ?_
  rw [shapeCast_self]

end AnyF

/-! ## The contraction through the two constant matrices -/

theorem pay9_apply (xg : FVec Ideal S512x384 .f32) (w : FVec Ideal S512x192 .f32) (x2 : FVec Ideal S384x3072 .f32)
    (n : Fin 512) (q : Fin 3072) :
    k1_pay9 (F := Ideal) xg w x2 (ix2 n q)
      = (∑ k : Fin 384, xg (ix2 n k) * x2 (ix2 k q)) * w (ix2 n ⟨q.val % 192, Nat.mod_lt _ (by omega)⟩) := by
  unfold k1_pay9
  show matmul (F := Ideal) dot_S512x384_S384x3072_S512x3072_1_0_0_1_n_n none xg (shapeCast S384x3072 x2 shapeCasts_S384x3072_S384x3072)
        (constant S512x3072 .f32 0x00000000#32) (ix2 n q)
      * concatenate S512x3072 1 (List.replicate 16 (⟨S512x192, shapeCast S512x192 w shapeCasts_S512x192_S512x192⟩ : (s : Shape) × (s.Idx → EReal)))
          concatenates_S512x192_S512x192_S512x192_S512x192_S512x192_S512x192_S512x192_S512x192_S512x192_S512x192_S512x192_S512x192_S512x192_S512x192_S512x192_S512x192_S512x3072_d1 (ix2 n q) = _
  rw [Cert.LibDot.matmul_ix2 plainB none _ _ n q, tile192_apply, shapeCast_self, shapeCast_self]

theorem pay1_apply (v24 : FVec Ideal S512x128 .f32) (v28 : FVec Ideal S512x3072 .f32) (v30 : FVec Ideal S3072x128 .f32)
    (n : Fin 512) (j : Fin 128) :
    k1_pay1 (F := Ideal) v24 v28 v30 (constant S512x128 .f32 0x00000000#32) (ix2 n j)
      = (∑ q : Fin 3072, v28 (ix2 n q) * v30 (ix2 q j)) + v24 (ix2 n j) := by
  unfold k1_pay1
  show matmul (F := Ideal) dot_S512x3072_S3072x128_S512x128_1_0_0_1_n_n none v28 v30 (constant S512x128 .f32 0x00000000#32) (ix2 n j)
      + v24 (ix2 n j) = _
  rw [Cert.LibDot.matmul_ix2 plainC none _ _ n j]

/-! ## The scratch, entry by entry -/

theorem xgv_apply (x0 : FVec Ideal S512x512 .f32) (x4 : FVec Ideal S512x128 .f32) (n : Fin 512) (k : Fin 384) :
    xgv (F := Ideal) x0 x4 (ix2 n k) = XG x0 x4 n k := by
  unfold XG
  split
  · next h => rw [xgv_lo (F := Ideal) x0 x4 n ⟨k.val, h⟩ k rfl, pay4_eq (F := Ideal)]
  · split
    · next h h' =>
      rw [xgv_mid (F := Ideal) x0 x4 n ⟨k.val - 128, by omega⟩ k (by show k.val = 128 + (k.val - 128); omega), pay6_eq (F := Ideal), pay5_apply]
    · next h h' =>
      rw [xgv_hi (F := Ideal) x0 x4 n ⟨k.val - 256, by omega⟩ k (by show k.val = 256 + (k.val - 256); omega), pay7_apply]

/-! ## The output block, entry by entry -/

/-- The output block of the second kernel body, entry by entry. -/
theorem out_apply (c : Dev nD) (i : grid1.Coords) (a1 : Memref sig .tc .vmem S512x512 .f32) (h1 : a1.IsWhole) (a2 : Memref sig .tc .vmem S512x200 .f32) (h2 : a2.IsWhole) (a3 : Memref sig .tc .vmem S384x3072 .f32) (h3 : a3.IsWhole) (a4 : Memref sig .tc .vmem S3072x128 .f32) (h4 : a4.IsWhole) (a5 : Memref sig .tc .vmem S512x128 .f32) (h5 : a5.IsWhole) (a6 : Memref sig .tc .vmem S512x128 .f32) (h6 : a6.IsWhole) (a7 : Memref sig .tc .vmem S512x384 .f32) (h7 : a7.IsWhole)
    (x0 : FVec Ideal S512x512 .f32) (x1 : FVec Ideal S512x200 .f32) (x2 : FVec Ideal S384x3072 .f32) (x3 : FVec Ideal S3072x128 .f32) (x4 : FVec Ideal S512x128 .f32) (n : Fin 512) (j : Fin 128) :
    out1_A_5 (F := Ideal) c i a1 h1 a2 h2 a3 h3 a4 h4 a5 h5 a6 h6 a7 h7 x0 x1 x2 x3 x4 (ix2 n j)
      = (∑ q : Fin 3072, ((∑ k : Fin 384, XG x0 x4 n k * x2 (ix2 k q))
            * x1 (ix2 n ⟨q.val % 192, by omega⟩)) * x3 (ix2 q j))
        + x1 (ix2 n ⟨192 + j.val % 8, by omega⟩) := by
  rw [out_pay (F := Ideal), pay1_apply, pay8_apply (F := Ideal), pay10_eq (F := Ideal), biasv_apply (F := Ideal)]
  simp only [pay9_apply, xgv_apply, wflat_apply (F := Ideal)]

end Cert.RG

end
-- ==== Proof.RG5.lean ====
/-
  What the output's staging buffer holds after the second kernel body at any grid point, entry by entry: the
  entry formula of the body's output block, at the five input windows' blocks of that point.
-/
import proofs.«177386_g2000605918393418_pallasbulk_489_2_alg».proof.Proof.RG4

noncomputable section

open Idealize.ShloMosaic Idealize.ShloMosaic.TcCoe Idealize.SL.Sem Idealize.ShloMosaic.ValueIdx

namespace Cert.RG

open Cert.ReferenceIdeal Cert.ReferenceIdeal.Gen

theorem outsAt1_apply (V : (c : Dev nD) → (b : Ref sig .tc) → Buf (Elt Ideal) ((c : Thread nD τ).loc b)) (c : Dev nD) (t : Fin cfg1.N)
    (n : Fin 512) (j : Fin 128) :
    outsAt1 (F := Ideal) V c t (ix2 n j)
      = (∑ q : Fin 3072, ((∑ k : Fin 384, XG (iblk1 V c 0 t) (iblk1 V c 4 t) n k * (iblk1 V c 2 t) (ix2 k q))
            * (iblk1 V c 1 t) (ix2 n ⟨q.val % 192, by omega⟩)) * (iblk1 V c 3 t) (ix2 q j))
        + (iblk1 V c 1 t) (ix2 n ⟨192 + j.val % 8, by omega⟩) := by
  unfold outsAt1
  exact out_apply c (grid1.coords t) (ms1_0 t) (hs1_0 t) (ms1_1 t) (hs1_1 t) (ms1_2 t) (hs1_2 t) (ms1_3 t) (hs1_3 t)
    (ms1_4 t) (hs1_4 t) (ms1_5 t) (hs1_5 t) scM1_0 (Memref.isWhole_whole _)
    (iblk1 V c 0 t) (iblk1 V c 1 t) (iblk1 V c 2 t) (iblk1 V c 3 t) (iblk1 V c 4 t) n j

end Cert.RG

end
-- ==== Proof.Contract.lean ====
/-
  The reference's contraction through two constant 0/1 matrices, on the extended reals.  Column q of the
  expand matrix has a single 1, in row c(q); so the product with it picks entry c(q).  Column j of the
  reduce matrix has a 1 exactly in the rows q = (j/8)·192 + k·64 + i·8 + j%8 (k < 3, i < 8); so the
  product with it is the sum of those 24 entries.  Only a·1 = a, a·0 = 0 and the commutative monoid of
  sums are used: no finiteness.
-/
import Mathlib

noncomputable section

namespace Cert.Contract

/-- The row of the expand matrix that column q selects. -/
def cq (q : Fin 3072) : Fin 384 :=
  ⟨((q.val % 192) / 64) * 128 + (q.val / 192) * 8 + (q.val % 64) / 8, by have := q.isLt; omega⟩

/-- The row of the reduce matrix for output lane j, Chebyshev order k and input channel i. -/
def qOf (j : Fin 128) (p : Fin 3 × Fin 8) : Fin 3072 :=
  ⟨(j.val / 8) * 192 + p.1.val * 64 + p.2.val * 8 + j.val % 8, by
    have := j.isLt; have := p.1.isLt; have := p.2.isLt; omega⟩

theorem contract (XG : Fin 384 → EReal) (WB : Fin 200 → EReal) (Ex : Fin 384 → Fin 3072 → EReal)
    (Rd : Fin 3072 → Fin 128 → EReal)
    (hEx : ∀ c q, Ex c q = if (c.val / 128 = (q.val % 192) / 64 ∧ (c.val % 128) / 8 = q.val / 192
        ∧ c.val % 8 = (q.val % 64) / 8) then 1 else 0)
    (hRd : ∀ q j, Rd q j = if (q.val / 192) * 8 + q.val % 8 = j.val then 1 else 0) (j : Fin 128) :
    (∑ q : Fin 3072, ((∑ c : Fin 384, XG c * Ex c q) * WB ⟨q.val % 192, by omega⟩) * Rd q j)
      = ∑ k : Fin 3, ∑ i : Fin 8,
          XG ⟨k.val * 128 + (j.val / 8) * 8 + i.val, by have := j.isLt; have := k.isLt; have := i.isLt; omega⟩
            * WB ⟨k.val * 64 + i.val * 8 + j.val % 8, by have := k.isLt; have := i.isLt; omega⟩ := by
  have hA : ∀ q, (∑ c : Fin 384, XG c * Ex c q) = XG (cq q) := fun q => by
    have hq := q.isLt
    rw [Finset.sum_eq_single (cq q)]
    · rw [hEx, if_pos (by simp only [cq]; omega), mul_one]
    · intro c _ hc
      have hcl := c.isLt
      rw [hEx, if_neg, mul_zero]
      intro h
      exact hc (Fin.ext (by simp only [cq]; omega))
    · intro h; exact absurd (Finset.mem_univ _) h
  simp only [hA, hRd]
  rw [← Fintype.sum_prod_type (f := fun p : Fin 3 × Fin 8 =>
    XG ⟨p.1.val * 128 + (j.val / 8) * 8 + p.2.val, by have := j.isLt; have := p.1.isLt; have := p.2.isLt; omega⟩
      * WB ⟨p.1.val * 64 + p.2.val * 8 + j.val % 8, by have := p.1.isLt; have := p.2.isLt; omega⟩)]
  symm
  refine Finset.sum_of_injOn (qOf j) ?_ (fun _ _ => Finset.mem_univ _) ?_ ?_
  · intro p _ p' _ h
    have h' : (qOf j p).val = (qOf j p').val := congrArg Fin.val h
    simp only [qOf] at h'
    have := p.1.isLt; have := p.2.isLt; have := p'.1.isLt; have := p'.2.isLt
    exact Prod.ext (Fin.ext (by omega)) (Fin.ext (by omega))
  · intro q _ hq
    have hql := q.isLt
    have hjl := j.isLt
    rw [if_neg, mul_zero]
    intro h
    refine hq ⟨(⟨(q.val % 192) / 64, by omega⟩, ⟨(q.val % 64) / 8, by omega⟩), Finset.mem_coe.mpr (Finset.mem_univ _), ?_⟩
    exact Fin.ext (by simp only [qOf]; omega)
  · intro p _
    have := p.1.isLt; have := p.2.isLt; have hjl := j.isLt
    rw [if_pos (by simp only [qOf]; omega), mul_one]
    congr 1
    · exact congrArg XG (Fin.ext (by simp only [cq, qOf]; omega))
    · exact congrArg WB (Fin.ext (by simp only [qOf]; omega))

end Cert.Contract

end
-- ==== Proof.RValue1.lean ====
/-
  The result of the idealized reference program, entry by entry.  Its second region's output lane
  J = b·8 + o of node n is, for the tile t = J/128 and lane j = J%128, the two 0/1 contractions of the
  Chebyshev terms of the x tile against the per-node weights plus the bias; the 0/1 matrices select the
  24 products of lane j (Contract.contract), the tile's lanes are the batch entry b (16 per tile, 8 input
  channels each), and the three Chebyshev terms are the reference's form G of SpecOut.
-/
import proofs.«177386_g2000605918393418_pallasbulk_489_2_alg».proof.Proof.RHResult
import proofs.«177386_g2000605918393418_pallasbulk_489_2_alg».proof.Proof.RBlocks1
import proofs.«177386_g2000605918393418_pallasbulk_489_2_alg».proof.Proof.RG5
import proofs.«177386_g2000605918393418_pallasbulk_489_2_alg».proof.Proof.Contract
import proofs.«177386_g2000605918393418_pallasbulk_489_2_alg».proof.Proof.SpecOut

set_option maxRecDepth 16384

noncomputable section

namespace Cert.RValue

open Idealize.ShloMosaic Idealize.ShloMosaic.TcCoe Idealize.ShloMosaic.ValueIdx
open Idealize.SL.Sem
open Cert.ReferenceIdeal Cert.ReferenceIdeal.Gen Cert.SpecPro Cert.SpecOut Cert.LibReal

theorem G_zero (X : Fin 2048 → Fin 512 → Fin 8 → EReal) (T : Fin 512 → Fin 512 → EReal) (b : Fin 2048) (n : Fin 512)
    (i : Fin 8) (h : 0 < 3) : G X T b n ⟨0, h⟩ i = X b n i := by unfold G; simp

theorem G_one (X : Fin 2048 → Fin 512 → Fin 8 → EReal) (T : Fin 512 → Fin 512 → EReal) (b : Fin 2048) (n : Fin 512)
    (i : Fin 8) (h : 1 < 3) : G X T b n ⟨1, h⟩ i = ∑ mm, T mm n * X b mm i := by unfold G; simp

theorem G_two (X : Fin 2048 → Fin 512 → Fin 8 → EReal) (T : Fin 512 → Fin 512 → EReal) (b : Fin 2048) (n : Fin 512)
    (i : Fin 8) (h : 2 < 3) :
    G X T b n ⟨2, h⟩ i = two * (∑ mm, T mm n * (∑ m', T m' mm * X b m' i)) - X b n i := by unfold G; simp

variable (m : (ℓ : Loc nD τ sig) → Buf (Elt Ideal) ℓ) (ρ : Dev nD → PrngReg)

section
variable (c : Dev nD)
  (a0 : (⟨3, ![2048, 512, 8]⟩ : Shape).Idx → EReal) (a1 : (⟨2, ![512, 128]⟩ : Shape).Idx → EReal)
  (a2 a3 : (⟨1, ![128]⟩ : Shape).Idx → EReal) (P : (⟨2, ![128, 200]⟩ : Shape).Idx → EReal)
  (hs1 : ∀ r n : Fin 512, (V23 m ρ c main_v4_0 : S512x512.Idx → EReal) (ix2 r n) = Tof a1 a2 a3 n r)
  (hwb : ∀ (n : Fin 512) (q : Fin 200), (V23 m ρ c main_v4_1 : S512x200.Idx → EReal) (ix2 n q) = WtOf a1 a2 a3 P q n)
  (hxt : ∀ (n : Fin 512) (J : Fin 16384), (V23 m ρ c main_v6 : S512x16384.Idx → EReal) (ix2 n J)
      = Xof a0 ⟨J.val / 8, by have := J.isLt; omega⟩ n ⟨J.val % 8, by omega⟩)
  (hex : ∀ (r : Fin 384) (q : Fin 3072), (V23 m ρ c main_v36 : S384x3072.Idx → EReal) (ix2 r q)
      = if (r.val / 128 = q.val % 192 / 64 ∧ r.val % 128 / 8 = q.val / 192 ∧ r.val % 8 = q.val % 64 / 8) then (1 : EReal) else 0)
  (hrd : ∀ (q : Fin 3072) (j : Fin 128), (V23 m ρ c main_v46 : S3072x128.Idx → EReal) (ix2 q j)
      = if q.val / 192 * 8 + q.val % 8 = j.val then (1 : EReal) else 0)
include hs1 hxt

/-- A lane of the x tile is an input channel of a batch entry. -/
theorem tile_at (t : Fin cfg1.N) (b : Fin 2048) (i : Fin 8) (mm : Fin 512) (l : Fin 128)
    (hl : t.val * 128 + l.val = b.val * 8 + i.val) :
    (iblk1 (V23 m ρ) c 4 t : S512x128.Idx → EReal) (ix2 mm l) = Xof a0 b mm i := by
  rw [Cert.RBlocks1.iblk_4, hxt]
  have hb : b.val < 2048 := b.isLt
  have hi : i.val < 8 := i.isLt
  congr 1
  · exact Fin.ext (by show (t.val * 128 + l.val) / 8 = b.val; omega)
  · exact Fin.ext (by show (t.val * 128 + l.val) % 8 = i.val; omega)

/-- The first Chebyshev term of the tile. -/
theorem z1_at (t : Fin cfg1.N) (b : Fin 2048) (i : Fin 8) (n : Fin 512) (l : Fin 128)
    (hl : t.val * 128 + l.val = b.val * 8 + i.val) :
    Cert.RG.Z1 (iblk1 (V23 m ρ) c 0 t) (iblk1 (V23 m ρ) c 4 t) n l
      = ∑ mm : Fin 512, Tof a1 a2 a3 mm n * Xof a0 b mm i := by
  unfold Cert.RG.Z1
  refine Finset.sum_congr rfl fun mm _ => ?_
  rw [Cert.RBlocks1.iblk_0, hs1, tile_at m ρ c a0 a1 a2 a3 hs1 hxt t b i mm l hl]

/-- The second Chebyshev term of the tile. -/
theorem z2_at (t : Fin cfg1.N) (b : Fin 2048) (i : Fin 8) (n : Fin 512) (l : Fin 128)
    (hl : t.val * 128 + l.val = b.val * 8 + i.val) :
    Cert.RG.Z2 (iblk1 (V23 m ρ) c 0 t) (iblk1 (V23 m ρ) c 4 t) n l
      = two * (∑ mm : Fin 512, Tof a1 a2 a3 mm n * (∑ m' : Fin 512, Tof a1 a2 a3 m' mm * Xof a0 b m' i))
          - Xof a0 b n i := by
  unfold Cert.RG.Z2
  rw [tile_at m ρ c a0 a1 a2 a3 hs1 hxt t b i n l hl]
  refine congrArg (fun s => two * s - Xof a0 b n i) ?_
  refine Finset.sum_congr rfl fun mm _ => ?_
  rw [z1_at m ρ c a0 a1 a2 a3 hs1 hxt t b i mm l hl, Cert.RBlocks1.iblk_0, hs1]

/-- The three Chebyshev terms the contraction reads are the reference's form of SpecOut. -/
theorem xg_at (t : Fin cfg1.N) (b : Fin 2048) (i : Fin 8) (n : Fin 512) (k : Fin 3) (l : Fin 128) (cc : Fin 384)
    (hcc : cc.val = k.val * 128 + l.val) (hl : t.val * 128 + l.val = b.val * 8 + i.val) :
    Cert.RG.XG (iblk1 (V23 m ρ) c 0 t) (iblk1 (V23 m ρ) c 4 t) n cc = G (Xof a0) (Tof a1 a2 a3) b n k i := by
  have hll := l.isLt
  unfold Cert.RG.XG
  match k, hcc with
  | ⟨0, _⟩, hcc =>
    have h0 : cc.val < 128 := by simp at hcc; omega
    rw [dif_pos h0, G_zero]
    exact tile_at m ρ c a0 a1 a2 a3 hs1 hxt t b i n ⟨cc.val, h0⟩ (by simp at hcc; show t.val * 128 + cc.val = _; omega)
  | ⟨1, _⟩, hcc =>
    have h0 : ¬ cc.val < 128 := by simp at hcc; omega
    have h1 : cc.val < 256 := by simp at hcc; omega
    rw [dif_neg h0, dif_pos h1, G_one]
    exact z1_at m ρ c a0 a1 a2 a3 hs1 hxt t b i n ⟨cc.val - 128, by omega⟩
      (by simp at hcc; show t.val * 128 + (cc.val - 128) = _; omega)
  | ⟨2, _⟩, hcc =>
    have h0 : ¬ cc.val < 128 := by simp at hcc; omega
    have h1 : ¬ cc.val < 256 := by simp at hcc; omega
    rw [dif_neg h0, dif_neg h1, G_two]
    exact z2_at m ρ c a0 a1 a2 a3 hs1 hxt t b i n ⟨cc.val - 256, by have := cc.isLt; omega⟩
      (by simp at hcc; show t.val * 128 + (cc.val - 256) = _; omega)

include hwb hex hrd

/-- Entry (b, n, o) of the reference's result is the closed form of SpecOut. -/
theorem value (hT : ∀ a c', IsReal (Tof a1 a2 a3 a c')) (hX : ∀ b mm i, IsReal (Xof a0 b mm i))
    (b : Fin 2048) (n : Fin 512) (o : Fin 8) :
    (W25 m ρ c (Proc.devRef .tc main_v49) : S2048x512x8.Idx → EReal) (ix3 b n o) = Cert.SpecOut.Final a0 a1 a2 a3 P b n o := by
  have hb := b.isLt
  have ho := o.isLt
  have hN : cfg1.N = 128 := Cert.RBlocks1.N_eq
  refine (Cert.RH.H2 m ρ c b n o).trans ?_
  refine (congrFun (W24_arr m ρ c 5) _).trans ?_
  refine (Cert.RBlocks1.out_final (V23 m ρ) c n ⟨b.val * 8 + o.val, by omega⟩).trans ?_
  refine (Cert.RG.outsAt1_apply (V23 m ρ) c ⟨(b.val * 8 + o.val) / 128, by rw [hN]; omega⟩ n
    ⟨(b.val * 8 + o.val) % 128, by omega⟩).trans ?_
  rw [Cert.RBlocks1.iblk_1, Cert.RBlocks1.iblk_2, Cert.RBlocks1.iblk_3]
  have hC := Cert.Contract.contract
    (fun k => Cert.RG.XG (iblk1 (V23 m ρ) c 0 ⟨(b.val * 8 + o.val) / 128, by rw [hN]; omega⟩)
      (iblk1 (V23 m ρ) c 4 ⟨(b.val * 8 + o.val) / 128, by rw [hN]; omega⟩) n k)
    (fun q => (V23 m ρ c main_v4_1 : S512x200.Idx → EReal) (ix2 n q))
    (fun r q => (V23 m ρ c main_v36 : S384x3072.Idx → EReal) (ix2 r q))
    (fun q j => (V23 m ρ c main_v46 : S3072x128.Idx → EReal) (ix2 q j))
    (fun r q => hex r q) (fun q j => hrd q j) ⟨(b.val * 8 + o.val) % 128, by omega⟩
  refine (congrArg (fun s => s + (V23 m ρ c main_v4_1 : S512x200.Idx → EReal)
    (ix2 n ⟨192 + (b.val * 8 + o.val) % 128 % 8, by omega⟩)) hC).trans ?_
  unfold Cert.SpecOut.Final
  rw [← ref_eq_out (Xof a0) (Tof a1 a2 a3) (WtOf a1 a2 a3 P) hT hX b n o]
  refine congrArg₂ (· + ·) ?_ ?_
  · refine Finset.sum_congr rfl fun k _ => Finset.sum_congr rfl fun i _ => ?_
    have hk := k.isLt
    have hi := i.isLt
    refine congrArg₂ (· * ·) ?_ ?_
    · exact xg_at m ρ c a0 a1 a2 a3 hs1 hxt _ b i n k ⟨(b.val * 8 + o.val) % 128 / 8 * 8 + i.val, by omega⟩ _
        (by show k.val * 128 + (b.val * 8 + o.val) % 128 / 8 * 8 + i.val = k.val * 128 + ((b.val * 8 + o.val) % 128 / 8 * 8 + i.val); omega)
        (by show (b.val * 8 + o.val) / 128 * 128 + ((b.val * 8 + o.val) % 128 / 8 * 8 + i.val) = b.val * 8 + i.val; omega)
    · rw [hwb]
      exact congrArg (fun q => WtOf a1 a2 a3 P q n) (Fin.ext (by show k.val * 64 + i.val * 8 + (b.val * 8 + o.val) % 128 % 8 = k.val * 64 + i.val * 8 + o.val; omega))
  · rw [hwb]
    exact congrArg (fun q => WtOf a1 a2 a3 P q n) (Fin.ext (by show 192 + (b.val * 8 + o.val) % 128 % 8 = 192 + o.val; omega))

end

end Cert.RValue

end
-- ==== Proof.RHWords.lean ====
/-
  Index arithmetic on 32-bit words as the host computes it: the signed quotient and remainder of small natural numbers,
  and the host's `floor_divide` and `remainder` of an index array by a positive scalar read at an index.
-/
import Idealize.ShloMosaic.Lib.Affine
import Idealize.ShloMosaic.Lib.IdealHost
import Idealize.ShloMosaic.Lib.ValueIdx
import Idealize.ShloMosaic.PureOps.Ideal

noncomputable section

namespace Cert.RH

open Idealize.ShloMosaic Idealize.ShloMosaic.ValueIdx

/-! ## 32-bit words that are small natural numbers -/

theorem toNat_ofNat32 (a : ℕ) (ha : 2 * a < 2 ^ 32) : (BitVec.ofNat 32 a).toNat = a := by
  rw [BitVec.toNat_ofNat]; omega

theorem msb_ofNat32 (a : ℕ) (ha : 2 * a < 2 ^ 32) : (BitVec.ofNat 32 a).msb = false := by
  rw [BitVec.msb_eq_false_iff_two_mul_lt, toNat_ofNat32 a ha]; exact ha

/-- Two words of naturals below 2^31 are equal exactly when the naturals are. -/
theorem ofNat32_inj (a b : ℕ) (ha : 2 * a < 2 ^ 32) (hb : 2 * b < 2 ^ 32) :
    BitVec.ofNat 32 a = BitVec.ofNat 32 b ↔ a = b := by
  constructor
  · intro h
    have := congrArg BitVec.toNat h
    rwa [toNat_ofNat32 a ha, toNat_ofNat32 b hb] at this
  · rintro rfl; rfl

/-- The signed quotient of a nonnegative word by a positive word is the quotient of the naturals. -/
theorem divsi_ofNat (u : ArithUnit) (a d : ℕ) (ha : 2 * a < 2 ^ 32) (hd : 0 < d) (hd' : 2 * d < 2 ^ 32) :
    IntOp.divsi u (BitVec.ofNat 32 a) (BitVec.ofNat 32 d) = BitVec.ofNat 32 (a / d) := by
  have hdN := toNat_ofNat32 d hd'
  have haN := toNat_ofNat32 a ha
  have hpos : 0 < (BitVec.ofNat 32 d).toInt := by
    rw [BitVec.toInt_eq_toNat_of_lt (by rw [hdN]; omega), hdN]; omega
  rw [IntOp.divsi, if_neg (IntOp.not_corner_of_pos hpos), BitVec.sdiv_eq, msb_ofNat32 a ha, msb_ofNat32 d hd']
  apply BitVec.eq_of_toNat_eq
  show (BitVec.ofNat 32 a / BitVec.ofNat 32 d).toNat = _
  have hq : a / d ≤ a := Nat.div_le_self a d
  rw [BitVec.toNat_udiv, haN, hdN, toNat_ofNat32 (a / d) (by omega)]

/-- The signed remainder of a nonnegative word by a positive word is the remainder of the naturals. -/
theorem remsi_ofNat (u : ArithUnit) (a d : ℕ) (ha : 2 * a < 2 ^ 32) (hd : 0 < d) (hd' : 2 * d < 2 ^ 32) :
    IntOp.remsi u (BitVec.ofNat 32 a) (BitVec.ofNat 32 d) = BitVec.ofNat 32 (a % d) := by
  apply BitVec.eq_of_toNat_eq
  have hr : a % d < d := Nat.mod_lt a hd
  rw [IntOp.toNat_remsi u (by rw [toNat_ofNat32 a ha]; exact ha) d hd hd', toNat_ofNat32 a ha,
    toNat_ofNat32 (a % d) (by omega)]

/-- The sign of a word, as the host's `sign` computes it. -/
def sgn (x : BitVec 32) : BitVec 32 := if x = 0 then 0 else if x.msb then -1 else 1

theorem sgn_ofNat_pos (a : ℕ) (ha : 2 * a < 2 ^ 32) (h0 : 0 < a) : sgn (BitVec.ofNat 32 a) = 1 := by
  have hne : BitVec.ofNat 32 a ≠ 0 := by
    intro h
    have := (ofNat32_inj a 0 ha (by omega)).1 h
    omega
  rw [sgn, if_neg hne, msb_ofNat32 a ha]; rfl

/-- Floor division as the host spells it (truncated quotient, lowered by one where the signs differ and the remainder
    is not zero) of a nonnegative word by a positive word: the quotient of the naturals. -/
theorem floorDiv_word (a d : ℕ) (ha : 2 * a < 2 ^ 32) (hd : 0 < d) (hd' : 2 * d < 2 ^ 32) :
    Scalar.select
        (IntOp.andi (IntOp.cmpi .ne (sgn (BitVec.ofNat 32 a)) (sgn (BitVec.ofNat 32 d)))
          (IntOp.cmpi .ne (IntOp.remsi .host (BitVec.ofNat 32 a) (BitVec.ofNat 32 d)) 0#32))
        (IntOp.subi (IntOp.divsi .host (BitVec.ofNat 32 a) (BitVec.ofNat 32 d)) 1#32)
        (IntOp.divsi .host (BitVec.ofNat 32 a) (BitVec.ofNat 32 d))
      = BitVec.ofNat 32 (a / d) := by
  rw [divsi_ofNat .host a d ha hd hd', remsi_ofNat .host a d ha hd hd']
  have hz : IntOp.andi (IntOp.cmpi .ne (sgn (BitVec.ofNat 32 a)) (sgn (BitVec.ofNat 32 d)))
      (IntOp.cmpi .ne (BitVec.ofNat 32 (a % d)) 0#32) = 0#1 := by
    rcases Nat.eq_zero_or_pos a with rfl | h0
    · rw [Nat.zero_mod]
      have : IntOp.cmpi .ne (BitVec.ofNat 32 0) 0#32 = 0#1 := by decide
      rw [this]
      generalize IntOp.cmpi .ne (sgn (BitVec.ofNat 32 0)) (sgn (BitVec.ofNat 32 d)) = b
      revert b; decide
    · rw [sgn_ofNat_pos a ha h0, sgn_ofNat_pos d hd' hd]
      have : IntOp.cmpi .ne (1 : BitVec 32) 1 = 0#1 := by decide
      rw [this]
      generalize IntOp.cmpi .ne (BitVec.ofNat 32 (a % d)) 0#32 = b
      revert b; decide
  rw [hz]
  rfl

/-- The remainder as the host spells it (truncated remainder, raised by the divisor where it is not zero and its sign
    differs from the divisor's) of a nonnegative word by a positive word: the remainder of the naturals. -/
theorem remainder_word (a d : ℕ) (ha : 2 * a < 2 ^ 32) (hd : 0 < d) (hd' : 2 * d < 2 ^ 32) :
    Scalar.select
        (IntOp.andi
          (IntOp.cmpi .ne (IntOp.cmpi .slt (IntOp.remsi .host (BitVec.ofNat 32 a) (BitVec.ofNat 32 d)) 0#32)
            (IntOp.cmpi .slt (BitVec.ofNat 32 d) 0#32))
          (IntOp.cmpi .ne (IntOp.remsi .host (BitVec.ofNat 32 a) (BitVec.ofNat 32 d)) 0#32))
        (IntOp.addi (IntOp.remsi .host (BitVec.ofNat 32 a) (BitVec.ofNat 32 d)) (BitVec.ofNat 32 d))
        (IntOp.remsi .host (BitVec.ofNat 32 a) (BitVec.ofNat 32 d))
      = BitVec.ofNat 32 (a % d) := by
  rw [remsi_ofNat .host a d ha hd hd']
  have hr : a % d < d := Nat.mod_lt a hd
  have slt0 : ∀ n : ℕ, 2 * n < 2 ^ 32 → IntOp.cmpi .slt (BitVec.ofNat 32 n) 0#32 = 0#1 := by
    intro n hn
    show BitVec.ofBool ((BitVec.ofNat 32 n).slt 0#32) = 0#1
    have : (BitVec.ofNat 32 n).slt 0#32 = false := by
      rw [BitVec.slt_eq_decide, BitVec.toInt_eq_toNat_of_msb (msb_ofNat32 n hn)]
      simp <;> omega
    rw [this]; rfl
  rw [slt0 (a % d) (by omega), slt0 d hd']
  have : IntOp.cmpi .ne (0#1) (0#1) = 0#1 := by decide
  rw [this]
  generalize IntOp.cmpi .ne (BitVec.ofNat 32 (a % d)) 0#32 = b
  have : IntOp.andi 0#1 b = 0#1 := by revert b; decide
  rw [this]
  rfl

/-! ## The host's floor division and remainder of an index array by a scalar, as the printed operations compose them -/

/-- The host's `floor_divide` of an `i32` array `x` by a scalar `cc`: the truncated quotient, lowered by one where
    the signs differ and the truncated remainder is not zero. -/
def fdTerm {T : Shape} (h : (⟨0, ![]⟩ : Shape).BroadcastsInDim T ![]) (x : IVec T 32) (cc : IVec ⟨0, ![]⟩ 32) : IVec T 32 :=
  select
    (andi (cmpi .ne (signi x) (broadcastInDim T ![] h (signi cc)))
      (cmpi .ne (Host.remsi x (broadcastInDim T ![] h cc)) (broadcastInDim T ![] h (constantI ⟨0, ![]⟩ 32 0#32))))
    (subi (Host.divsi x (broadcastInDim T ![] h cc)) (broadcastInDim T ![] h (constantI ⟨0, ![]⟩ 32 1#32)))
    (Host.divsi x (broadcastInDim T ![] h cc))

/-- The divisor the host's `remainder` uses: one in place of zero. -/
def safeDiv (cc : IVec ⟨0, ![]⟩ 32) : IVec ⟨0, ![]⟩ 32 :=
  select (cmpi .eq cc (constantI ⟨0, ![]⟩ 32 0#32)) (constantI ⟨0, ![]⟩ 32 1#32) cc

/-- The host's `remainder` of an `i32` array `x` by a scalar `cc`: the truncated remainder, raised by the divisor
    where it is not zero and its sign differs from the divisor's. -/
def remTerm {T : Shape} (h : (⟨0, ![]⟩ : Shape).BroadcastsInDim T ![]) (x : IVec T 32) (cc : IVec ⟨0, ![]⟩ 32) : IVec T 32 :=
  select
    (andi
      (cmpi .ne
        (cmpi .slt (Host.remsi x (broadcastInDim T ![] h (safeDiv cc))) (broadcastInDim T ![] h (constantI ⟨0, ![]⟩ 32 0#32)))
        (broadcastInDim T ![] h (cmpi .slt (safeDiv cc) (constantI ⟨0, ![]⟩ 32 0#32))))
      (cmpi .ne (Host.remsi x (broadcastInDim T ![] h (safeDiv cc))) (broadcastInDim T ![] h (constantI ⟨0, ![]⟩ 32 0#32))))
    (addi (Host.remsi x (broadcastInDim T ![] h (safeDiv cc))) (broadcastInDim T ![] h (safeDiv cc)))
    (Host.remsi x (broadcastInDim T ![] h (safeDiv cc)))

variable {T : Shape} (h : (⟨0, ![]⟩ : Shape).BroadcastsInDim T ![])

/-- Floor division of a nonnegative entry by a positive scalar: the quotient of the naturals. -/
theorem fdTerm_apply (x : IVec T 32) (cc : IVec ⟨0, ![]⟩ 32) (j : T.Idx) (a d : ℕ)
    (hx : x j = BitVec.ofNat 32 a) (hc : cc ix0 = BitVec.ofNat 32 d)
    (ha : 2 * a < 2 ^ 32) (hd : 0 < d) (hd' : 2 * d < 2 ^ 32) :
    fdTerm h x cc j = BitVec.ofNat 32 (a / d) := by
  have e := floorDiv_word a d ha hd hd'
  rw [← hx, ← hc] at e
  rw [← e]
  show Scalar.select
      (IntOp.andi (IntOp.cmpi .ne (sgn (x j)) (broadcastInDim T ![] h (signi cc) j))
        (IntOp.cmpi .ne (IntOp.remsi .host (x j) (broadcastInDim T ![] h cc j))
          (broadcastInDim T ![] h (constantI ⟨0, ![]⟩ 32 0#32) j)))
      (IntOp.subi (IntOp.divsi .host (x j) (broadcastInDim T ![] h cc j))
        (broadcastInDim T ![] h (constantI ⟨0, ![]⟩ 32 1#32) j))
      (IntOp.divsi .host (x j) (broadcastInDim T ![] h cc j)) = _
  simp only [broadcastInDim_scalar_apply]
  rfl

theorem safeDiv_apply (cc : IVec ⟨0, ![]⟩ 32) (d : ℕ) (hc : cc ix0 = BitVec.ofNat 32 d) (hd : 0 < d) (hd' : 2 * d < 2 ^ 32) :
    safeDiv cc ix0 = BitVec.ofNat 32 d := by
  show Scalar.select (IntOp.cmpi .eq (cc ix0) 0#32) 1#32 (cc ix0) = _
  rw [hc]
  have hne : BitVec.ofNat 32 d ≠ 0#32 := by
    intro h0
    have := (ofNat32_inj d 0 hd' (by omega)).1 h0
    omega
  have : IntOp.cmpi .eq (BitVec.ofNat 32 d) 0#32 = 0#1 := by
    show BitVec.ofBool (BitVec.ofNat 32 d == 0#32) = 0#1
    rw [beq_eq_false_iff_ne.2 hne]; rfl
  rw [this]; rfl

/-- The remainder of a nonnegative entry by a positive scalar: the remainder of the naturals. -/
theorem remTerm_apply (x : IVec T 32) (cc : IVec ⟨0, ![]⟩ 32) (j : T.Idx) (a d : ℕ)
    (hx : x j = BitVec.ofNat 32 a) (hc : cc ix0 = BitVec.ofNat 32 d)
    (ha : 2 * a < 2 ^ 32) (hd : 0 < d) (hd' : 2 * d < 2 ^ 32) :
    remTerm h x cc j = BitVec.ofNat 32 (a % d) := by
  have e := remainder_word a d ha hd hd'
  rw [← hx, ← safeDiv_apply cc d hc hd hd'] at e
  rw [← e]
  show Scalar.select
      (IntOp.andi
        (IntOp.cmpi .ne
          (IntOp.cmpi .slt (IntOp.remsi .host (x j) (broadcastInDim T ![] h (safeDiv cc) j))
            (broadcastInDim T ![] h (constantI ⟨0, ![]⟩ 32 0#32) j))
          (broadcastInDim T ![] h (cmpi .slt (safeDiv cc) (constantI ⟨0, ![]⟩ 32 0#32)) j))
        (IntOp.cmpi .ne (IntOp.remsi .host (x j) (broadcastInDim T ![] h (safeDiv cc) j))
          (broadcastInDim T ![] h (constantI ⟨0, ![]⟩ 32 0#32) j)))
      (IntOp.addi (IntOp.remsi .host (x j) (broadcastInDim T ![] h (safeDiv cc) j))
        (broadcastInDim T ![] h (safeDiv cc) j))
      (IntOp.remsi .host (x j) (broadcastInDim T ![] h (safeDiv cc) j)) = _
  simp only [broadcastInDim_scalar_apply]
  rfl

/-! ## Comparisons of small words, and a truth bit as a number -/

theorem cmpi_eq_ofNat (a b : ℕ) (ha : 2 * a < 2 ^ 32) (hb : 2 * b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  by_cases h : a = b
  · subst h; simp
  · have hne : BitVec.ofNat 32 a ≠ BitVec.ofNat 32 b := fun e => h ((ofNat32_inj a b ha hb).1 e)
    rw [beq_eq_false_iff_ne.2 hne, decide_eq_false h]

theorem andi_ofBool (p q : Bool) : IntOp.andi (BitVec.ofBool p) (BitVec.ofBool q) = BitVec.ofBool (p && q) := by
  cases p <;> cases q <;> rfl

/-- A truth bit read as an unsigned number is one or zero. -/
theorem toNat_ofBool_ereal (p : Prop) [Decidable p] :
    (((BitVec.ofBool (decide p)).toNat : ℝ) : EReal) = if p then (1 : EReal) else 0 := by
  by_cases h : p
  · rw [decide_eq_true h, if_pos h]; simp
  · rw [decide_eq_false h, if_neg h]; simp

/-- The conjunction of three equalities of small words, converted to a number. -/
theorem bit3_ereal (a1 b1 a2 b2 a3 b3 : ℕ) (h1 : 2 * a1 < 2 ^ 32) (h1' : 2 * b1 < 2 ^ 32) (h2 : 2 * a2 < 2 ^ 32)
    (h2' : 2 * b2 < 2 ^ 32) (h3 : 2 * a3 < 2 ^ 32) (h3' : 2 * b3 < 2 ^ 32) :
    (((IntOp.andi
        (IntOp.andi (IntOp.cmpi .eq (BitVec.ofNat 32 a1) (BitVec.ofNat 32 b1))
          (IntOp.cmpi .eq (BitVec.ofNat 32 a2) (BitVec.ofNat 32 b2)))
        (IntOp.cmpi .eq (BitVec.ofNat 32 a3) (BitVec.ofNat 32 b3))).toNat : ℝ) : EReal)
      = if (a1 = b1 ∧ a2 = b2 ∧ a3 = b3) then (1 : EReal) else 0 := by
  rw [cmpi_eq_ofNat a1 b1 h1 h1', cmpi_eq_ofNat a2 b2 h2 h2', cmpi_eq_ofNat a3 b3 h3 h3', andi_ofBool, andi_ofBool]
  have : (decide (a1 = b1) && decide (a2 = b2) && decide (a3 = b3)) = decide (a1 = b1 ∧ a2 = b2 ∧ a3 = b3) := by
    simp [Bool.and_assoc]
  rw [this]
  exact toNat_ofBool_ereal _

/-- One equality of small words, converted to a number. -/
theorem bit1_ereal (a b : ℕ) (ha : 2 * a < 2 ^ 32) (hb : 2 * b < 2 ^ 32) :
    (((IntOp.cmpi .eq (BitVec.ofNat 32 a) (BitVec.ofNat 32 b)).toNat : ℝ) : EReal) = if a = b then (1 : EReal) else 0 := by
  rw [cmpi_eq_ofNat a b ha hb]
  exact toNat_ofBool_ereal _

/-- A small multiple plus a small offset, computed on words. -/
theorem muladd_ofNat (a k b : ℕ) :
    IntOp.addi (IntOp.muli (BitVec.ofNat 32 a) (BitVec.ofNat 32 k)) (BitVec.ofNat 32 b) = BitVec.ofNat 32 (a * k + b) := by
  show BitVec.ofNat 32 a * BitVec.ofNat 32 k + BitVec.ofNat 32 b = _
  rw [BitVec.ofNat_add, BitVec.ofNat_mul]

end Cert.RH
end
-- ==== Proof.RHIndexA.lean ====
/-
  The reference program's host index arithmetic on the 384 rows of its selection matrix: each of the arrays
  r / 128, r % 128, (r % 128) / 8, r % 8 read at an index, through the stretches of host operations that compute them.
-/
import proofs.«177386_g2000605918393418_pallasbulk_489_2_alg».proof.Proof.Gen.ReferenceIdeal.Frame
import proofs.«177386_g2000605918393418_pallasbulk_489_2_alg».proof.Proof.RHWords
import proofs.«177386_g2000605918393418_pallasbulk_489_2_alg».proof.Proof.RHTactic
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal

set_option maxRecDepth 16384

noncomputable section

namespace Cert.RH

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg) (c : Dev nD)

/-! The row-side index arrays (length 384) of the selection matrix, read at an index. -/

theorem val_main_v7 (i : Fin 384) :
    (W3 (F := Ideal) m ρ c (Proc.devRef .tc main_v7) : S384.Idx → BitVec 32) (ix1 i) = BitVec.ofNat 32 i.val := by
  show (StableHlo.after hostOps1 (W2 (F := Ideal) m ρ c) (Proc.devRef .tc main_v7) : S384.Idx → BitVec 32) (ix1 i) = _
  generalize W2 (F := Ideal) m ρ c = V
  after_results <;> rfl

theorem cst_main_c : (W3 (F := Ideal) m ρ c (Proc.devRef .tc main_c) : S_.Idx → BitVec 32) = constantI S_ 32 128#32 := by
  show StableHlo.after hostOps1 (W2 (F := Ideal) m ρ c) (Proc.devRef .tc main_c) = _
  generalize W2 (F := Ideal) m ρ c = V
  after_results <;> rfl

/-- The stretch that computes `main_v8`, over any contents at its entry. -/
theorem st_main_v8 (V : Valuation τ sig (Elt Ideal)) :
    (StableHlo.after hostOps1_1 V (Proc.devRef .tc main_v8) : S384.Idx → BitVec 32)
      = fdTerm bcast_S_S384 (V (Proc.devRef .tc main_v7)) (V (Proc.devRef .tc main_c)) := by
  after_results_simp
  simp only [StableHlo.TRef.ofBuf, StableHlo.TRef.toBuf, cast_eq, id]
  rfl

/-- `main_v8` at `i` is the word of `i / 128`. -/
theorem val_main_v8 (i : Fin 384) :
    (W4 (F := Ideal) m ρ c (Proc.devRef .tc main_v8) : S384.Idx → BitVec 32) (ix1 i) = BitVec.ofNat 32 (i.val / 128) := by
  have ex : W3 (F := Ideal) m ρ c (Proc.devRef .tc main_v7) = W3 (F := Ideal) m ρ c (Proc.devRef .tc main_v7) := rfl
  have hx : (W3 (F := Ideal) m ρ c (Proc.devRef .tc main_v7) : S384.Idx → BitVec 32) (ix1 i) = BitVec.ofNat 32 (i.val) := by
    rw [ex]; exact val_main_v7 m ρ c i
  have hc : (W3 (F := Ideal) m ρ c (Proc.devRef .tc main_c) : S_.Idx → BitVec 32) ix0 = BitVec.ofNat 32 128 :=
    congrFun (cst_main_c m ρ c) ix0
  have hi := i.isLt
  refine (congrFun (st_main_v8 (W3 (F := Ideal) m ρ c)) (ix1 i)).trans ?_
  exact fdTerm_apply bcast_S_S384 _ _ (ix1 i) (i.val) 128 hx hc (by omega) (by omega) (by omega)

/-- The stretch that computes `main_v9`, over any contents at its entry. -/
theorem st_main_v9 (V : Valuation τ sig (Elt Ideal)) :
    (StableHlo.after hostOps1_3 V (Proc.devRef .tc main_v9) : S384.Idx → BitVec 32)
      = remTerm bcast_S_S384 (V (Proc.devRef .tc main_v7)) (V (Proc.devRef .tc main_c_0)) := by
  after_results_simp
  simp only [StableHlo.TRef.ofBuf, StableHlo.TRef.toBuf, cast_eq, id]
  rfl

theorem cst_main_c_0 : (W5 (F := Ideal) m ρ c (Proc.devRef .tc main_c_0) : S_.Idx → BitVec 32) = constantI S_ 32 128#32 := by
  show StableHlo.after hostOps1_2 (W4 (F := Ideal) m ρ c) (Proc.devRef .tc main_c_0) = _
  generalize W4 (F := Ideal) m ρ c = V
  after_results <;> rfl

/-- `main_v9` at `i` is the word of `i % 128`. -/
theorem val_main_v9 (i : Fin 384) :
    (W6 (F := Ideal) m ρ c (Proc.devRef .tc main_v9) : S384.Idx → BitVec 32) (ix1 i) = BitVec.ofNat 32 (i.val % 128) := by
  have ex : W5 (F := Ideal) m ρ c (Proc.devRef .tc main_v7) = W3 (F := Ideal) m ρ c (Proc.devRef .tc main_v7) :=
      calc W5 (F := Ideal) m ρ c (Proc.devRef .tc main_v7)
        _ = W4 (F := Ideal) m ρ c (Proc.devRef .tc main_v7) := by unwritten hostOps1_2
        _ = W3 (F := Ideal) m ρ c (Proc.devRef .tc main_v7) := by unwritten hostOps1_1

  have hx : (W5 (F := Ideal) m ρ c (Proc.devRef .tc main_v7) : S384.Idx → BitVec 32) (ix1 i) = BitVec.ofNat 32 (i.val) := by
    rw [ex]; exact val_main_v7 m ρ c i
  have hc : (W5 (F := Ideal) m ρ c (Proc.devRef .tc main_c_0) : S_.Idx → BitVec 32) ix0 = BitVec.ofNat 32 128 :=
    congrFun (cst_main_c_0 m ρ c) ix0
  have hi := i.isLt
  refine (congrFun (st_main_v9 (W5 (F := Ideal) m ρ c)) (ix1 i)).trans ?_
  exact remTerm_apply bcast_S_S384 _ _ (ix1 i) (i.val) 128 hx hc (by omega) (by omega) (by omega)

/-- The stretch that computes `main_v10`, over any contents at its entry. -/
theorem st_main_v10 (V : Valuation τ sig (Elt Ideal)) :
    (StableHlo.after hostOps1_5 V (Proc.devRef .tc main_v10) : S384.Idx → BitVec 32)
      = fdTerm bcast_S_S384 (V (Proc.devRef .tc main_v9)) (V (Proc.devRef .tc main_c_1)) := by
  after_results_simp
  simp only [StableHlo.TRef.ofBuf, StableHlo.TRef.toBuf, cast_eq, id]
  rfl

theorem cst_main_c_1 : (W7 (F := Ideal) m ρ c (Proc.devRef .tc main_c_1) : S_.Idx → BitVec 32) = constantI S_ 32 8#32 := by
  show StableHlo.after hostOps1_4 (W6 (F := Ideal) m ρ c) (Proc.devRef .tc main_c_1) = _
  generalize W6 (F := Ideal) m ρ c = V
  after_results <;> rfl

/-- `main_v10` at `i` is the word of `i % 128 / 8`. -/
theorem val_main_v10 (i : Fin 384) :
    (W8 (F := Ideal) m ρ c (Proc.devRef .tc main_v10) : S384.Idx → BitVec 32) (ix1 i) = BitVec.ofNat 32 (i.val % 128 / 8) := by
  have ex : W7 (F := Ideal) m ρ c (Proc.devRef .tc main_v9) = W6 (F := Ideal) m ρ c (Proc.devRef .tc main_v9) :=
      calc W7 (F := Ideal) m ρ c (Proc.devRef .tc main_v9)
        _ = W6 (F := Ideal) m ρ c (Proc.devRef .tc main_v9) := by unwritten hostOps1_4

  have hx : (W7 (F := Ideal) m ρ c (Proc.devRef .tc main_v9) : S384.Idx → BitVec 32) (ix1 i) = BitVec.ofNat 32 (i.val % 128) := by
    rw [ex]; exact val_main_v9 m ρ c i
  have hc : (W7 (F := Ideal) m ρ c (Proc.devRef .tc main_c_1) : S_.Idx → BitVec 32) ix0 = BitVec.ofNat 32 8 :=
    congrFun (cst_main_c_1 m ρ c) ix0
  have hi := i.isLt
  refine (congrFun (st_main_v10 (W7 (F := Ideal) m ρ c)) (ix1 i)).trans ?_
  exact fdTerm_apply bcast_S_S384 _ _ (ix1 i) (i.val % 128) 8 hx hc (by omega) (by omega) (by omega)

/-- The stretch that computes `main_v11`, over any contents at its entry. -/
theorem st_main_v11 (V : Valuation τ sig (Elt Ideal)) :
    (StableHlo.after hostOps1_7 V (Proc.devRef .tc main_v11) : S384.Idx → BitVec 32)
      = remTerm bcast_S_S384 (V (Proc.devRef .tc main_v7)) (V (Proc.devRef .tc main_c_2)) := by
  after_results_simp
  simp only [StableHlo.TRef.ofBuf, StableHlo.TRef.toBuf, cast_eq, id]
  rfl

theorem cst_main_c_2 : (W9 (F := Ideal) m ρ c (Proc.devRef .tc main_c_2) : S_.Idx → BitVec 32) = constantI S_ 32 8#32 := by
  show StableHlo.after hostOps1_6 (W8 (F := Ideal) m ρ c) (Proc.devRef .tc main_c_2) = _
  generalize W8 (F := Ideal) m ρ c = V
  after_results <;> rfl

/-- `main_v11` at `i` is the word of `i % 8`. -/
theorem val_main_v11 (i : Fin 384) :
    (W10 (F := Ideal) m ρ c (Proc.devRef .tc main_v11) : S384.Idx → BitVec 32) (ix1 i) = BitVec.ofNat 32 (i.val % 8) := by
  have ex : W9 (F := Ideal) m ρ c (Proc.devRef .tc main_v7) = W3 (F := Ideal) m ρ c (Proc.devRef .tc main_v7) :=
      calc W9 (F := Ideal) m ρ c (Proc.devRef .tc main_v7)
        _ = W8 (F := Ideal) m ρ c (Proc.devRef .tc main_v7) := by unwritten hostOps1_6
        _ = W7 (F := Ideal) m ρ c (Proc.devRef .tc main_v7) := by unwritten hostOps1_5
        _ = W6 (F := Ideal) m ρ c (Proc.devRef .tc main_v7) := by unwritten hostOps1_4
        _ = W5 (F := Ideal) m ρ c (Proc.devRef .tc main_v7) := by unwritten hostOps1_3
        _ = W4 (F := Ideal) m ρ c (Proc.devRef .tc main_v7) := by unwritten hostOps1_2
        _ = W3 (F := Ideal) m ρ c (Proc.devRef .tc main_v7) := by unwritten hostOps1_1

  have hx : (W9 (F := Ideal) m ρ c (Proc.devRef .tc main_v7) : S384.Idx → BitVec 32) (ix1 i) = BitVec.ofNat 32 (i.val) := by
    rw [ex]; exact val_main_v7 m ρ c i
  have hc : (W9 (F := Ideal) m ρ c (Proc.devRef .tc main_c_2) : S_.Idx → BitVec 32) ix0 = BitVec.ofNat 32 8 :=
    congrFun (cst_main_c_2 m ρ c) ix0
  have hi := i.isLt
  refine (congrFun (st_main_v11 (W9 (F := Ideal) m ρ c)) (ix1 i)).trans ?_
  exact remTerm_apply bcast_S_S384 _ _ (ix1 i) (i.val) 8 hx hc (by omega) (by omega) (by omega)

end Cert.RH
end
-- ==== Proof.RHIndexB.lean ====
/-
  The reference program's host index arithmetic on the 3072 columns of its selection matrix: each of the arrays
  q / 192, q % 192, (q % 192) / 64, q % 64, (q % 64) / 8, q % 8 read at an index, through the stretches of host
  operations that compute them.
-/
import proofs.«177386_g2000605918393418_pallasbulk_489_2_alg».proof.Proof.Gen.ReferenceIdeal.Frame
import proofs.«177386_g2000605918393418_pallasbulk_489_2_alg».proof.Proof.RHWords
import proofs.«177386_g2000605918393418_pallasbulk_489_2_alg».proof.Proof.RHTactic
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal

set_option maxRecDepth 16384

noncomputable section

namespace Cert.RH

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg) (c : Dev nD)

/-! The column-side index arrays (length 3072) of the two constant matrices, read at an index. -/

theorem val_main_v12 (i : Fin 3072) :
    (W11 (F := Ideal) m ρ c (Proc.devRef .tc main_v12) : S3072.Idx → BitVec 32) (ix1 i) = BitVec.ofNat 32 i.val := by
  show (StableHlo.after hostOps1_8 (W10 (F := Ideal) m ρ c) (Proc.devRef .tc main_v12) : S3072.Idx → BitVec 32) (ix1 i) = _
  generalize W10 (F := Ideal) m ρ c = V
  after_results <;> rfl

theorem cst_main_c_3 : (W11 (F := Ideal) m ρ c (Proc.devRef .tc main_c_3) : S_.Idx → BitVec 32) = constantI S_ 32 192#32 := by
  show StableHlo.after hostOps1_8 (W10 (F := Ideal) m ρ c) (Proc.devRef .tc main_c_3) = _
  generalize W10 (F := Ideal) m ρ c = V
  after_results <;> rfl

/-- The stretch that computes `main_v13`, over any contents at its entry. -/
theorem st_main_v13 (V : Valuation τ sig (Elt Ideal)) :
    (StableHlo.after hostOps1_9 V (Proc.devRef .tc main_v13) : S3072.Idx → BitVec 32)
      = fdTerm bcast_S_S3072 (V (Proc.devRef .tc main_v12)) (V (Proc.devRef .tc main_c_3)) := by
  after_results_simp
  simp only [StableHlo.TRef.ofBuf, StableHlo.TRef.toBuf, cast_eq, id]
  rfl

/-- `main_v13` at `i` is the word of `i / 192`. -/
theorem val_main_v13 (i : Fin 3072) :
    (W12 (F := Ideal) m ρ c (Proc.devRef .tc main_v13) : S3072.Idx → BitVec 32) (ix1 i) = BitVec.ofNat 32 (i.val / 192) := by
  have ex : W11 (F := Ideal) m ρ c (Proc.devRef .tc main_v12) = W11 (F := Ideal) m ρ c (Proc.devRef .tc main_v12) := rfl
  have hx : (W11 (F := Ideal) m ρ c (Proc.devRef .tc main_v12) : S3072.Idx → BitVec 32) (ix1 i) = BitVec.ofNat 32 (i.val) := by
    rw [ex]; exact val_main_v12 m ρ c i
  have hc : (W11 (F := Ideal) m ρ c (Proc.devRef .tc main_c_3) : S_.Idx → BitVec 32) ix0 = BitVec.ofNat 32 192 :=
    congrFun (cst_main_c_3 m ρ c) ix0
  have hi := i.isLt
  refine (congrFun (st_main_v13 (W11 (F := Ideal) m ρ c)) (ix1 i)).trans ?_
  exact fdTerm_apply bcast_S_S3072 _ _ (ix1 i) (i.val) 192 hx hc (by omega) (by omega) (by omega)

/-- The stretch that computes `main_v14`, over any contents at its entry. -/
theorem st_main_v14 (V : Valuation τ sig (Elt Ideal)) :
    (StableHlo.after hostOps1_11 V (Proc.devRef .tc main_v14) : S3072.Idx → BitVec 32)
      = remTerm bcast_S_S3072 (V (Proc.devRef .tc main_v12)) (V (Proc.devRef .tc main_c_4)) := by
  after_results_simp
  simp only [StableHlo.TRef.ofBuf, StableHlo.TRef.toBuf, cast_eq, id]
  rfl

theorem cst_main_c_4 : (W13 (F := Ideal) m ρ c (Proc.devRef .tc main_c_4) : S_.Idx → BitVec 32) = constantI S_ 32 192#32 := by
  show StableHlo.after hostOps1_10 (W12 (F := Ideal) m ρ c) (Proc.devRef .tc main_c_4) = _
  generalize W12 (F := Ideal) m ρ c = V
  after_results <;> rfl

/-- `main_v14` at `i` is the word of `i % 192`. -/
theorem val_main_v14 (i : Fin 3072) :
    (W14 (F := Ideal) m ρ c (Proc.devRef .tc main_v14) : S3072.Idx → BitVec 32) (ix1 i) = BitVec.ofNat 32 (i.val % 192) := by
  have ex : W13 (F := Ideal) m ρ c (Proc.devRef .tc main_v12) = W11 (F := Ideal) m ρ c (Proc.devRef .tc main_v12) :=
      calc W13 (F := Ideal) m ρ c (Proc.devRef .tc main_v12)
        _ = W12 (F := Ideal) m ρ c (Proc.devRef .tc main_v12) := by unwritten hostOps1_10
        _ = W11 (F := Ideal) m ρ c (Proc.devRef .tc main_v12) := by unwritten hostOps1_9

  have hx : (W13 (F := Ideal) m ρ c (Proc.devRef .tc main_v12) : S3072.Idx → BitVec 32) (ix1 i) = BitVec.ofNat 32 (i.val) := by
    rw [ex]; exact val_main_v12 m ρ c i
  have hc : (W13 (F := Ideal) m ρ c (Proc.devRef .tc main_c_4) : S_.Idx → BitVec 32) ix0 = BitVec.ofNat 32 192 :=
    congrFun (cst_main_c_4 m ρ c) ix0
  have hi := i.isLt
  refine (congrFun (st_main_v14 (W13 (F := Ideal) m ρ c)) (ix1 i)).trans ?_
  exact remTerm_apply bcast_S_S3072 _ _ (ix1 i) (i.val) 192 hx hc (by omega) (by omega) (by omega)

/-- The stretch that computes `main_v15`, over any contents at its entry. -/
theorem st_main_v15 (V : Valuation τ sig (Elt Ideal)) :
    (StableHlo.after hostOps1_13 V (Proc.devRef .tc main_v15) : S3072.Idx → BitVec 32)
      = fdTerm bcast_S_S3072 (V (Proc.devRef .tc main_v14)) (V (Proc.devRef .tc main_c_5)) := by
  after_results_simp
  simp only [StableHlo.TRef.ofBuf, StableHlo.TRef.toBuf, cast_eq, id]
  rfl

theorem cst_main_c_5 : (W15 (F := Ideal) m ρ c (Proc.devRef .tc main_c_5) : S_.Idx → BitVec 32) = constantI S_ 32 64#32 := by
  show StableHlo.after hostOps1_12 (W14 (F := Ideal) m ρ c) (Proc.devRef .tc main_c_5) = _
  generalize W14 (F := Ideal) m ρ c = V
  after_results <;> rfl

/-- `main_v15` at `i` is the word of `i % 192 / 64`. -/
theorem val_main_v15 (i : Fin 3072) :
    (W16 (F := Ideal) m ρ c (Proc.devRef .tc main_v15) : S3072.Idx → BitVec 32) (ix1 i) = BitVec.ofNat 32 (i.val % 192 / 64) := by
  have ex : W15 (F := Ideal) m ρ c (Proc.devRef .tc main_v14) = W14 (F := Ideal) m ρ c (Proc.devRef .tc main_v14) :=
      calc W15 (F := Ideal) m ρ c (Proc.devRef .tc main_v14)
        _ = W14 (F := Ideal) m ρ c (Proc.devRef .tc main_v14) := by unwritten hostOps1_12

  have hx : (W15 (F := Ideal) m ρ c (Proc.devRef .tc main_v14) : S3072.Idx → BitVec 32) (ix1 i) = BitVec.ofNat 32 (i.val % 192) := by
    rw [ex]; exact val_main_v14 m ρ c i
  have hc : (W15 (F := Ideal) m ρ c (Proc.devRef .tc main_c_5) : S_.Idx → BitVec 32) ix0 = BitVec.ofNat 32 64 :=
    congrFun (cst_main_c_5 m ρ c) ix0
  have hi := i.isLt
  refine (congrFun (st_main_v15 (W15 (F := Ideal) m ρ c)) (ix1 i)).trans ?_
  exact fdTerm_apply bcast_S_S3072 _ _ (ix1 i) (i.val % 192) 64 hx hc (by omega) (by omega) (by omega)

/-- The stretch that computes `main_v16`, over any contents at its entry. -/
theorem st_main_v16 (V : Valuation τ sig (Elt Ideal)) :
    (StableHlo.after hostOps1_15 V (Proc.devRef .tc main_v16) : S3072.Idx → BitVec 32)
      = remTerm bcast_S_S3072 (V (Proc.devRef .tc main_v12)) (V (Proc.devRef .tc main_c_6)) := by
  after_results_simp
  simp only [StableHlo.TRef.ofBuf, StableHlo.TRef.toBuf, cast_eq, id]
  rfl

theorem cst_main_c_6 : (W17 (F := Ideal) m ρ c (Proc.devRef .tc main_c_6) : S_.Idx → BitVec 32) = constantI S_ 32 64#32 := by
  show StableHlo.after hostOps1_14 (W16 (F := Ideal) m ρ c) (Proc.devRef .tc main_c_6) = _
  generalize W16 (F := Ideal) m ρ c = V
  after_results <;> rfl

/-- `main_v16` at `i` is the word of `i % 64`. -/
theorem val_main_v16 (i : Fin 3072) :
    (W18 (F := Ideal) m ρ c (Proc.devRef .tc main_v16) : S3072.Idx → BitVec 32) (ix1 i) = BitVec.ofNat 32 (i.val % 64) := by
  have ex : W17 (F := Ideal) m ρ c (Proc.devRef .tc main_v12) = W11 (F := Ideal) m ρ c (Proc.devRef .tc main_v12) :=
      calc W17 (F := Ideal) m ρ c (Proc.devRef .tc main_v12)
        _ = W16 (F := Ideal) m ρ c (Proc.devRef .tc main_v12) := by unwritten hostOps1_14
        _ = W15 (F := Ideal) m ρ c (Proc.devRef .tc main_v12) := by unwritten hostOps1_13
        _ = W14 (F := Ideal) m ρ c (Proc.devRef .tc main_v12) := by unwritten hostOps1_12
        _ = W13 (F := Ideal) m ρ c (Proc.devRef .tc main_v12) := by unwritten hostOps1_11
        _ = W12 (F := Ideal) m ρ c (Proc.devRef .tc main_v12) := by unwritten hostOps1_10
        _ = W11 (F := Ideal) m ρ c (Proc.devRef .tc main_v12) := by unwritten hostOps1_9

  have hx : (W17 (F := Ideal) m ρ c (Proc.devRef .tc main_v12) : S3072.Idx → BitVec 32) (ix1 i) = BitVec.ofNat 32 (i.val) := by
    rw [ex]; exact val_main_v12 m ρ c i
  have hc : (W17 (F := Ideal) m ρ c (Proc.devRef .tc main_c_6) : S_.Idx → BitVec 32) ix0 = BitVec.ofNat 32 64 :=
    congrFun (cst_main_c_6 m ρ c) ix0
  have hi := i.isLt
  refine (congrFun (st_main_v16 (W17 (F := Ideal) m ρ c)) (ix1 i)).trans ?_
  exact remTerm_apply bcast_S_S3072 _ _ (ix1 i) (i.val) 64 hx hc (by omega) (by omega) (by omega)

/-- The stretch that computes `main_v17`, over any contents at its entry. -/
theorem st_main_v17 (V : Valuation τ sig (Elt Ideal)) :
    (StableHlo.after hostOps1_17 V (Proc.devRef .tc main_v17) : S3072.Idx → BitVec 32)
      = fdTerm bcast_S_S3072 (V (Proc.devRef .tc main_v16)) (V (Proc.devRef .tc main_c_7)) := by
  after_results_simp
  simp only [StableHlo.TRef.ofBuf, StableHlo.TRef.toBuf, cast_eq, id]
  rfl

theorem cst_main_c_7 : (W19 (F := Ideal) m ρ c (Proc.devRef .tc main_c_7) : S_.Idx → BitVec 32) = constantI S_ 32 8#32 := by
  show StableHlo.after hostOps1_16 (W18 (F := Ideal) m ρ c) (Proc.devRef .tc main_c_7) = _
  generalize W18 (F := Ideal) m ρ c = V
  after_results <;> rfl

/-- `main_v17` at `i` is the word of `i % 64 / 8`. -/
theorem val_main_v17 (i : Fin 3072) :
    (W20 (F := Ideal) m ρ c (Proc.devRef .tc main_v17) : S3072.Idx → BitVec 32) (ix1 i) = BitVec.ofNat 32 (i.val % 64 / 8) := by
  have ex : W19 (F := Ideal) m ρ c (Proc.devRef .tc main_v16) = W18 (F := Ideal) m ρ c (Proc.devRef .tc main_v16) :=
      calc W19 (F := Ideal) m ρ c (Proc.devRef .tc main_v16)
        _ = W18 (F := Ideal) m ρ c (Proc.devRef .tc main_v16) := by unwritten hostOps1_16

  have hx : (W19 (F := Ideal) m ρ c (Proc.devRef .tc main_v16) : S3072.Idx → BitVec 32) (ix1 i) = BitVec.ofNat 32 (i.val % 64) := by
    rw [ex]; exact val_main_v16 m ρ c i
  have hc : (W19 (F := Ideal) m ρ c (Proc.devRef .tc main_c_7) : S_.Idx → BitVec 32) ix0 = BitVec.ofNat 32 8 :=
    congrFun (cst_main_c_7 m ρ c) ix0
  have hi := i.isLt
  refine (congrFun (st_main_v17 (W19 (F := Ideal) m ρ c)) (ix1 i)).trans ?_
  exact fdTerm_apply bcast_S_S3072 _ _ (ix1 i) (i.val % 64) 8 hx hc (by omega) (by omega) (by omega)

/-- The stretch that computes `main_v18`, over any contents at its entry. -/
theorem st_main_v18 (V : Valuation τ sig (Elt Ideal)) :
    (StableHlo.after hostOps1_19 V (Proc.devRef .tc main_v18) : S3072.Idx → BitVec 32)
      = remTerm bcast_S_S3072 (V (Proc.devRef .tc main_v12)) (V (Proc.devRef .tc main_c_8)) := by
  after_results_simp
  simp only [StableHlo.TRef.ofBuf, StableHlo.TRef.toBuf, cast_eq, id]
  rfl

theorem cst_main_c_8 : (W21 (F := Ideal) m ρ c (Proc.devRef .tc main_c_8) : S_.Idx → BitVec 32) = constantI S_ 32 8#32 := by
  show StableHlo.after hostOps1_18 (W20 (F := Ideal) m ρ c) (Proc.devRef .tc main_c_8) = _
  generalize W20 (F := Ideal) m ρ c = V
  after_results <;> rfl

/-- `main_v18` at `i` is the word of `i % 8`. -/
theorem val_main_v18 (i : Fin 3072) :
    (W22 (F := Ideal) m ρ c (Proc.devRef .tc main_v18) : S3072.Idx → BitVec 32) (ix1 i) = BitVec.ofNat 32 (i.val % 8) := by
  have ex : W21 (F := Ideal) m ρ c (Proc.devRef .tc main_v12) = W11 (F := Ideal) m ρ c (Proc.devRef .tc main_v12) :=
      calc W21 (F := Ideal) m ρ c (Proc.devRef .tc main_v12)
        _ = W20 (F := Ideal) m ρ c (Proc.devRef .tc main_v12) := by unwritten hostOps1_18
        _ = W19 (F := Ideal) m ρ c (Proc.devRef .tc main_v12) := by unwritten hostOps1_17
        _ = W18 (F := Ideal) m ρ c (Proc.devRef .tc main_v12) := by unwritten hostOps1_16
        _ = W17 (F := Ideal) m ρ c (Proc.devRef .tc main_v12) := by unwritten hostOps1_15
        _ = W16 (F := Ideal) m ρ c (Proc.devRef .tc main_v12) := by unwritten hostOps1_14
        _ = W15 (F := Ideal) m ρ c (Proc.devRef .tc main_v12) := by unwritten hostOps1_13
        _ = W14 (F := Ideal) m ρ c (Proc.devRef .tc main_v12) := by unwritten hostOps1_12
        _ = W13 (F := Ideal) m ρ c (Proc.devRef .tc main_v12) := by unwritten hostOps1_11
        _ = W12 (F := Ideal) m ρ c (Proc.devRef .tc main_v12) := by unwritten hostOps1_10
        _ = W11 (F := Ideal) m ρ c (Proc.devRef .tc main_v12) := by unwritten hostOps1_9

  have hx : (W21 (F := Ideal) m ρ c (Proc.devRef .tc main_v12) : S3072.Idx → BitVec 32) (ix1 i) = BitVec.ofNat 32 (i.val) := by
    rw [ex]; exact val_main_v12 m ρ c i
  have hc : (W21 (F := Ideal) m ρ c (Proc.devRef .tc main_c_8) : S_.Idx → BitVec 32) ix0 = BitVec.ofNat 32 8 :=
    congrFun (cst_main_c_8 m ρ c) ix0
  have hi := i.isLt
  refine (congrFun (st_main_v18 (W21 (F := Ideal) m ρ c)) (ix1 i)).trans ?_
  exact remTerm_apply bcast_S_S3072 _ _ (ix1 i) (i.val) 8 hx hc (by omega) (by omega) (by omega)

end Cert.RH
end
-- ==== Proof.RHExpand.lean ====
/-
  The two constant 0/1 matrices the reference program builds on the host for its second region, read at an index:
  the selection matrix [384, 3072] and the summation matrix [3072, 128], each the conversion to a number of a
  comparison of index arrays.
-/
import proofs.«177386_g2000605918393418_pallasbulk_489_2_alg».proof.Proof.Gen.ReferenceIdeal.Frame
import proofs.«177386_g2000605918393418_pallasbulk_489_2_alg».proof.Proof.RHWords
import proofs.«177386_g2000605918393418_pallasbulk_489_2_alg».proof.Proof.RHIndexA
import proofs.«177386_g2000605918393418_pallasbulk_489_2_alg».proof.Proof.RHIndexB
import proofs.«177386_g2000605918393418_pallasbulk_489_2_alg».proof.Proof.RHTactic
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal

set_option maxRecDepth 16384

noncomputable section

namespace Cert.RH

open Idealize.ShloMosaic Idealize.ShloMosaic.TcCoe Idealize.ShloMosaic.ValueIdx
open Cert.ReferenceIdeal Cert.ReferenceIdeal.Gen

variable (m : (ℓ : Loc nD τ sig) → Buf (Elt Ideal) ℓ) (ρ : Dev nD → PrngReg) (c : Dev nD)

theorem rowB_384_3072 (h1 : (⟨1, ![384]⟩ : Shape).BroadcastsInDim ⟨2, ![384, 1]⟩ ![0])
    (h2 : (⟨2, ![384, 1]⟩ : Shape).BroadcastsInDim ⟨2, ![384, 3072]⟩ ![0, 1]) (x : IVec ⟨1, ![384]⟩ 32)
    (r : Fin 384) (q : Fin 3072) :
    broadcastInDim ⟨2, ![384, 3072]⟩ ![0, 1] h2 (broadcastInDim ⟨2, ![384, 1]⟩ ![0] h1 x) (ix2 r q) = x (ix1 r) := by
  rw [broadcastInDim_apply ![0, 1] h2 _ (ix2 r q) (ix2 r (0 : Fin 1))
    (fun a => match a with | ⟨0, _⟩ => rfl | ⟨1, _⟩ => rfl)]
  exact broadcastInDim_apply ![0] h1 x (ix2 r (0 : Fin 1)) (ix1 r) (fun a => match a with | ⟨0, _⟩ => rfl)

theorem colB_384_3072 (h1 : (⟨1, ![3072]⟩ : Shape).BroadcastsInDim ⟨2, ![1, 3072]⟩ ![1])
    (h2 : (⟨2, ![1, 3072]⟩ : Shape).BroadcastsInDim ⟨2, ![384, 3072]⟩ ![0, 1]) (y : IVec ⟨1, ![3072]⟩ 32)
    (r : Fin 384) (q : Fin 3072) :
    broadcastInDim ⟨2, ![384, 3072]⟩ ![0, 1] h2 (broadcastInDim ⟨2, ![1, 3072]⟩ ![1] h1 y) (ix2 r q) = y (ix1 q) := by
  rw [broadcastInDim_apply ![0, 1] h2 _ (ix2 r q) (ix2 (0 : Fin 1) q)
    (fun a => match a with | ⟨0, _⟩ => rfl | ⟨1, _⟩ => rfl)]
  exact broadcastInDim_apply ![1] h1 y (ix2 (0 : Fin 1) q) (ix1 q) (fun a => match a with | ⟨0, _⟩ => rfl)

theorem rowB_3072_128 (h1 : (⟨1, ![3072]⟩ : Shape).BroadcastsInDim ⟨2, ![3072, 1]⟩ ![0])
    (h2 : (⟨2, ![3072, 1]⟩ : Shape).BroadcastsInDim ⟨2, ![3072, 128]⟩ ![0, 1]) (x : IVec ⟨1, ![3072]⟩ 32)
    (r : Fin 3072) (q : Fin 128) :
    broadcastInDim ⟨2, ![3072, 128]⟩ ![0, 1] h2 (broadcastInDim ⟨2, ![3072, 1]⟩ ![0] h1 x) (ix2 r q) = x (ix1 r) := by
  rw [broadcastInDim_apply ![0, 1] h2 _ (ix2 r q) (ix2 r (0 : Fin 1))
    (fun a => match a with | ⟨0, _⟩ => rfl | ⟨1, _⟩ => rfl)]
  exact broadcastInDim_apply ![0] h1 x (ix2 r (0 : Fin 1)) (ix1 r) (fun a => match a with | ⟨0, _⟩ => rfl)

theorem colB_3072_128 (h1 : (⟨1, ![128]⟩ : Shape).BroadcastsInDim ⟨2, ![1, 128]⟩ ![1])
    (h2 : (⟨2, ![1, 128]⟩ : Shape).BroadcastsInDim ⟨2, ![3072, 128]⟩ ![0, 1]) (y : IVec ⟨1, ![128]⟩ 32)
    (r : Fin 3072) (q : Fin 128) :
    broadcastInDim ⟨2, ![3072, 128]⟩ ![0, 1] h2 (broadcastInDim ⟨2, ![1, 128]⟩ ![1] h1 y) (ix2 r q) = y (ix1 q) := by
  rw [broadcastInDim_apply ![0, 1] h2 _ (ix2 r q) (ix2 (0 : Fin 1) q)
    (fun a => match a with | ⟨0, _⟩ => rfl | ⟨1, _⟩ => rfl)]
  exact broadcastInDim_apply ![1] h1 y (ix2 (0 : Fin 1) q) (ix1 q) (fun a => match a with | ⟨0, _⟩ => rfl)

/-! ## A comparison of index arrays converted to a number, at an index -/

theorem uitofp_cmpi_eq_apply {s : Shape} (X Y : IVec s 32) (i : s.Idx) (a b : ℕ)
    (hX : X i = BitVec.ofNat 32 a) (hY : Y i = BitVec.ofNat 32 b) (ha : 2 * a < 2 ^ 32) (hb : 2 * b < 2 ^ 32) :
    (uitofp (F := Ideal) .f32 (cmpi .eq X Y) : s.Idx → EReal) i = if a = b then (1 : EReal) else 0 := by
  show (((IntOp.cmpi .eq (X i) (Y i)).toNat : ℝ) : EReal) = _
  rw [hX, hY]
  exact bit1_ereal a b ha hb

theorem uitofp_and3_apply {s : Shape} (X1 Y1 X2 Y2 X3 Y3 : IVec s 32) (i : s.Idx) (a1 b1 a2 b2 a3 b3 : ℕ)
    (hX1 : X1 i = BitVec.ofNat 32 a1) (hY1 : Y1 i = BitVec.ofNat 32 b1)
    (hX2 : X2 i = BitVec.ofNat 32 a2) (hY2 : Y2 i = BitVec.ofNat 32 b2)
    (hX3 : X3 i = BitVec.ofNat 32 a3) (hY3 : Y3 i = BitVec.ofNat 32 b3)
    (h1 : 2 * a1 < 2 ^ 32) (h1' : 2 * b1 < 2 ^ 32) (h2 : 2 * a2 < 2 ^ 32) (h2' : 2 * b2 < 2 ^ 32)
    (h3 : 2 * a3 < 2 ^ 32) (h3' : 2 * b3 < 2 ^ 32) :
    (uitofp (F := Ideal) .f32 (andi (andi (cmpi .eq X1 Y1) (cmpi .eq X2 Y2)) (cmpi .eq X3 Y3)) : s.Idx → EReal) i
      = if (a1 = b1 ∧ a2 = b2 ∧ a3 = b3) then (1 : EReal) else 0 := by
  show (((IntOp.andi (IntOp.andi (IntOp.cmpi .eq (X1 i) (Y1 i)) (IntOp.cmpi .eq (X2 i) (Y2 i)))
    (IntOp.cmpi .eq (X3 i) (Y3 i))).toNat : ℝ) : EReal) = _
  rw [hX1, hY1, hX2, hY2, hX3, hY3]
  exact bit3_ereal a1 b1 a2 b2 a3 b3 h1 h1' h2 h2' h3 h3'

/-! ## The last stretch, over any contents at its entry -/

/-- The selection matrix as the last stretch computes it from the six index arrays. -/
theorem st_main_v36 (V : Valuation τ sig (Elt Ideal)) :
    (StableHlo.after hostOps1_20 V (Proc.devRef .tc main_v36) : S384x3072.Idx → EReal)
      = uitofp (F := Ideal) .f32
          (andi
            (andi
              (cmpi .eq
                (broadcastInDim S384x3072 ![0, 1] bcast_S384x1_S384x3072_0_1
                  (broadcastInDim S384x1 ![0] bcast_S384_S384x1_0 (V (Proc.devRef .tc main_v8))))
                (broadcastInDim S384x3072 ![0, 1] bcast_S1x3072_S384x3072_0_1
                  (broadcastInDim S1x3072 ![1] bcast_S3072_S1x3072_1 (V (Proc.devRef .tc main_v15)))))
              (cmpi .eq
                (broadcastInDim S384x3072 ![0, 1] bcast_S384x1_S384x3072_0_1
                  (broadcastInDim S384x1 ![0] bcast_S384_S384x1_0 (V (Proc.devRef .tc main_v10))))
                (broadcastInDim S384x3072 ![0, 1] bcast_S1x3072_S384x3072_0_1
                  (broadcastInDim S1x3072 ![1] bcast_S3072_S1x3072_1 (V (Proc.devRef .tc main_v13))))))
            (cmpi .eq
              (broadcastInDim S384x3072 ![0, 1] bcast_S384x1_S384x3072_0_1
                (broadcastInDim S384x1 ![0] bcast_S384_S384x1_0 (V (Proc.devRef .tc main_v11))))
              (broadcastInDim S384x3072 ![0, 1] bcast_S1x3072_S384x3072_0_1
                (broadcastInDim S1x3072 ![1] bcast_S3072_S1x3072_1 (V (Proc.devRef .tc main_v17)))))) := by
  after_results_simp

/-- The summation matrix as the last stretch computes it from two index arrays and a column iota. -/
theorem st_main_v46 (V : Valuation τ sig (Elt Ideal)) :
    (StableHlo.after hostOps1_20 V (Proc.devRef .tc main_v46) : S3072x128.Idx → EReal)
      = uitofp (F := Ideal) .f32
          (cmpi .eq
            (broadcastInDim S3072x128 ![0, 1] bcast_S3072x1_S3072x128_0_1
              (broadcastInDim S3072x1 ![0] bcast_S3072_S3072x1_0
                (addi (muli (V (Proc.devRef .tc main_v13)) (broadcastInDim S3072 ![] bcast_S_S3072 (constantI S_ 32 8#32)))
                  (V (Proc.devRef .tc main_v18)))))
            (broadcastInDim S3072x128 ![0, 1] bcast_S1x128_S3072x128_0_1
              (broadcastInDim S1x128 ![1] bcast_S128_S1x128_1 (iotaInDim S128 32 0)))) := by
  after_results_simp

/-! ## The two matrices at an index -/

/-- The selection matrix: entry `(r, q)` is one exactly when row `r = 128 k + 8 t + i` and column
    `q = 192 t + 64 k + 8 i + o` name the same `(k, t, i)`. -/
theorem expand_apply (r : Fin 384) (q : Fin 3072) :
    (V23 (F := Ideal) m ρ c main_v36 : S384x3072.Idx → EReal) (ix2 r q)
      = if (r.val / 128 = q.val % 192 / 64 ∧ r.val % 128 / 8 = q.val / 192 ∧ r.val % 8 = q.val % 64 / 8)
          then (1 : EReal) else 0 := by
  have e8 : W22 (F := Ideal) m ρ c (Proc.devRef .tc main_v8) = W4 (F := Ideal) m ρ c (Proc.devRef .tc main_v8) :=
      calc W22 (F := Ideal) m ρ c (Proc.devRef .tc main_v8)
        _ = W21 (F := Ideal) m ρ c (Proc.devRef .tc main_v8) := by unwritten hostOps1_19
        _ = W20 (F := Ideal) m ρ c (Proc.devRef .tc main_v8) := by unwritten hostOps1_18
        _ = W19 (F := Ideal) m ρ c (Proc.devRef .tc main_v8) := by unwritten hostOps1_17
        _ = W18 (F := Ideal) m ρ c (Proc.devRef .tc main_v8) := by unwritten hostOps1_16
        _ = W17 (F := Ideal) m ρ c (Proc.devRef .tc main_v8) := by unwritten hostOps1_15
        _ = W16 (F := Ideal) m ρ c (Proc.devRef .tc main_v8) := by unwritten hostOps1_14
        _ = W15 (F := Ideal) m ρ c (Proc.devRef .tc main_v8) := by unwritten hostOps1_13
        _ = W14 (F := Ideal) m ρ c (Proc.devRef .tc main_v8) := by unwritten hostOps1_12
        _ = W13 (F := Ideal) m ρ c (Proc.devRef .tc main_v8) := by unwritten hostOps1_11
        _ = W12 (F := Ideal) m ρ c (Proc.devRef .tc main_v8) := by unwritten hostOps1_10
        _ = W11 (F := Ideal) m ρ c (Proc.devRef .tc main_v8) := by unwritten hostOps1_9
        _ = W10 (F := Ideal) m ρ c (Proc.devRef .tc main_v8) := by unwritten hostOps1_8
        _ = W9 (F := Ideal) m ρ c (Proc.devRef .tc main_v8) := by unwritten hostOps1_7
        _ = W8 (F := Ideal) m ρ c (Proc.devRef .tc main_v8) := by unwritten hostOps1_6
        _ = W7 (F := Ideal) m ρ c (Proc.devRef .tc main_v8) := by unwritten hostOps1_5
        _ = W6 (F := Ideal) m ρ c (Proc.devRef .tc main_v8) := by unwritten hostOps1_4
        _ = W5 (F := Ideal) m ρ c (Proc.devRef .tc main_v8) := by unwritten hostOps1_3
        _ = W4 (F := Ideal) m ρ c (Proc.devRef .tc main_v8) := by unwritten hostOps1_2

  have e15 : W22 (F := Ideal) m ρ c (Proc.devRef .tc main_v15) = W16 (F := Ideal) m ρ c (Proc.devRef .tc main_v15) :=
      calc W22 (F := Ideal) m ρ c (Proc.devRef .tc main_v15)
        _ = W21 (F := Ideal) m ρ c (Proc.devRef .tc main_v15) := by unwritten hostOps1_19
        _ = W20 (F := Ideal) m ρ c (Proc.devRef .tc main_v15) := by unwritten hostOps1_18
        _ = W19 (F := Ideal) m ρ c (Proc.devRef .tc main_v15) := by unwritten hostOps1_17
        _ = W18 (F := Ideal) m ρ c (Proc.devRef .tc main_v15) := by unwritten hostOps1_16
        _ = W17 (F := Ideal) m ρ c (Proc.devRef .tc main_v15) := by unwritten hostOps1_15
        _ = W16 (F := Ideal) m ρ c (Proc.devRef .tc main_v15) := by unwritten hostOps1_14

  have e10 : W22 (F := Ideal) m ρ c (Proc.devRef .tc main_v10) = W8 (F := Ideal) m ρ c (Proc.devRef .tc main_v10) :=
      calc W22 (F := Ideal) m ρ c (Proc.devRef .tc main_v10)
        _ = W21 (F := Ideal) m ρ c (Proc.devRef .tc main_v10) := by unwritten hostOps1_19
        _ = W20 (F := Ideal) m ρ c (Proc.devRef .tc main_v10) := by unwritten hostOps1_18
        _ = W19 (F := Ideal) m ρ c (Proc.devRef .tc main_v10) := by unwritten hostOps1_17
        _ = W18 (F := Ideal) m ρ c (Proc.devRef .tc main_v10) := by unwritten hostOps1_16
        _ = W17 (F := Ideal) m ρ c (Proc.devRef .tc main_v10) := by unwritten hostOps1_15
        _ = W16 (F := Ideal) m ρ c (Proc.devRef .tc main_v10) := by unwritten hostOps1_14
        _ = W15 (F := Ideal) m ρ c (Proc.devRef .tc main_v10) := by unwritten hostOps1_13
        _ = W14 (F := Ideal) m ρ c (Proc.devRef .tc main_v10) := by unwritten hostOps1_12
        _ = W13 (F := Ideal) m ρ c (Proc.devRef .tc main_v10) := by unwritten hostOps1_11
        _ = W12 (F := Ideal) m ρ c (Proc.devRef .tc main_v10) := by unwritten hostOps1_10
        _ = W11 (F := Ideal) m ρ c (Proc.devRef .tc main_v10) := by unwritten hostOps1_9
        _ = W10 (F := Ideal) m ρ c (Proc.devRef .tc main_v10) := by unwritten hostOps1_8
        _ = W9 (F := Ideal) m ρ c (Proc.devRef .tc main_v10) := by unwritten hostOps1_7
        _ = W8 (F := Ideal) m ρ c (Proc.devRef .tc main_v10) := by unwritten hostOps1_6

  have e13 : W22 (F := Ideal) m ρ c (Proc.devRef .tc main_v13) = W12 (F := Ideal) m ρ c (Proc.devRef .tc main_v13) :=
      calc W22 (F := Ideal) m ρ c (Proc.devRef .tc main_v13)
        _ = W21 (F := Ideal) m ρ c (Proc.devRef .tc main_v13) := by unwritten hostOps1_19
        _ = W20 (F := Ideal) m ρ c (Proc.devRef .tc main_v13) := by unwritten hostOps1_18
        _ = W19 (F := Ideal) m ρ c (Proc.devRef .tc main_v13) := by unwritten hostOps1_17
        _ = W18 (F := Ideal) m ρ c (Proc.devRef .tc main_v13) := by unwritten hostOps1_16
        _ = W17 (F := Ideal) m ρ c (Proc.devRef .tc main_v13) := by unwritten hostOps1_15
        _ = W16 (F := Ideal) m ρ c (Proc.devRef .tc main_v13) := by unwritten hostOps1_14
        _ = W15 (F := Ideal) m ρ c (Proc.devRef .tc main_v13) := by unwritten hostOps1_13
        _ = W14 (F := Ideal) m ρ c (Proc.devRef .tc main_v13) := by unwritten hostOps1_12
        _ = W13 (F := Ideal) m ρ c (Proc.devRef .tc main_v13) := by unwritten hostOps1_11
        _ = W12 (F := Ideal) m ρ c (Proc.devRef .tc main_v13) := by unwritten hostOps1_10

  have e11 : W22 (F := Ideal) m ρ c (Proc.devRef .tc main_v11) = W10 (F := Ideal) m ρ c (Proc.devRef .tc main_v11) :=
      calc W22 (F := Ideal) m ρ c (Proc.devRef .tc main_v11)
        _ = W21 (F := Ideal) m ρ c (Proc.devRef .tc main_v11) := by unwritten hostOps1_19
        _ = W20 (F := Ideal) m ρ c (Proc.devRef .tc main_v11) := by unwritten hostOps1_18
        _ = W19 (F := Ideal) m ρ c (Proc.devRef .tc main_v11) := by unwritten hostOps1_17
        _ = W18 (F := Ideal) m ρ c (Proc.devRef .tc main_v11) := by unwritten hostOps1_16
        _ = W17 (F := Ideal) m ρ c (Proc.devRef .tc main_v11) := by unwritten hostOps1_15
        _ = W16 (F := Ideal) m ρ c (Proc.devRef .tc main_v11) := by unwritten hostOps1_14
        _ = W15 (F := Ideal) m ρ c (Proc.devRef .tc main_v11) := by unwritten hostOps1_13
        _ = W14 (F := Ideal) m ρ c (Proc.devRef .tc main_v11) := by unwritten hostOps1_12
        _ = W13 (F := Ideal) m ρ c (Proc.devRef .tc main_v11) := by unwritten hostOps1_11
        _ = W12 (F := Ideal) m ρ c (Proc.devRef .tc main_v11) := by unwritten hostOps1_10
        _ = W11 (F := Ideal) m ρ c (Proc.devRef .tc main_v11) := by unwritten hostOps1_9
        _ = W10 (F := Ideal) m ρ c (Proc.devRef .tc main_v11) := by unwritten hostOps1_8

  have e17 : W22 (F := Ideal) m ρ c (Proc.devRef .tc main_v17) = W20 (F := Ideal) m ρ c (Proc.devRef .tc main_v17) :=
      calc W22 (F := Ideal) m ρ c (Proc.devRef .tc main_v17)
        _ = W21 (F := Ideal) m ρ c (Proc.devRef .tc main_v17) := by unwritten hostOps1_19
        _ = W20 (F := Ideal) m ρ c (Proc.devRef .tc main_v17) := by unwritten hostOps1_18

  have h8 : (W22 (F := Ideal) m ρ c (Proc.devRef .tc main_v8) : S384.Idx → BitVec 32) (ix1 r) = BitVec.ofNat 32 (r.val / 128) := by
    rw [e8]; exact val_main_v8 m ρ c r
  have h10 : (W22 (F := Ideal) m ρ c (Proc.devRef .tc main_v10) : S384.Idx → BitVec 32) (ix1 r) = BitVec.ofNat 32 (r.val % 128 / 8) := by
    rw [e10]; exact val_main_v10 m ρ c r
  have h11 : (W22 (F := Ideal) m ρ c (Proc.devRef .tc main_v11) : S384.Idx → BitVec 32) (ix1 r) = BitVec.ofNat 32 (r.val % 8) := by
    rw [e11]; exact val_main_v11 m ρ c r
  have h15 : (W22 (F := Ideal) m ρ c (Proc.devRef .tc main_v15) : S3072.Idx → BitVec 32) (ix1 q) = BitVec.ofNat 32 (q.val % 192 / 64) := by
    rw [e15]; exact val_main_v15 m ρ c q
  have h13 : (W22 (F := Ideal) m ρ c (Proc.devRef .tc main_v13) : S3072.Idx → BitVec 32) (ix1 q) = BitVec.ofNat 32 (q.val / 192) := by
    rw [e13]; exact val_main_v13 m ρ c q
  have h17 : (W22 (F := Ideal) m ρ c (Proc.devRef .tc main_v17) : S3072.Idx → BitVec 32) (ix1 q) = BitVec.ofNat 32 (q.val % 64 / 8) := by
    rw [e17]; exact val_main_v17 m ρ c q
  have hr := r.isLt
  have hq := q.isLt
  refine (congrFun (st_main_v36 (W22 (F := Ideal) m ρ c)) (ix2 r q)).trans ?_
  refine uitofp_and3_apply _ _ _ _ _ _ (ix2 r q) (r.val / 128) (q.val % 192 / 64) (r.val % 128 / 8) (q.val / 192)
    (r.val % 8) (q.val % 64 / 8) ?_ ?_ ?_ ?_ ?_ ?_ (by omega) (by omega) (by omega) (by omega) (by omega) (by omega)
  · rw [rowB_384_3072]; exact h8
  · rw [colB_384_3072]; exact h15
  · rw [rowB_384_3072]; exact h10
  · rw [colB_384_3072]; exact h13
  · rw [rowB_384_3072]; exact h11
  · rw [colB_384_3072]; exact h17

/-- The summation matrix: entry `(q, j)` is one exactly when column `q = 192 t + 64 k + 8 i + o` of the products
    belongs to output column `j = 8 t + o`. -/
theorem reduce_apply (q : Fin 3072) (j : Fin 128) :
    (V23 (F := Ideal) m ρ c main_v46 : S3072x128.Idx → EReal) (ix2 q j)
      = if q.val / 192 * 8 + q.val % 8 = j.val then (1 : EReal) else 0 := by
  have e13 : W22 (F := Ideal) m ρ c (Proc.devRef .tc main_v13) = W12 (F := Ideal) m ρ c (Proc.devRef .tc main_v13) :=
      calc W22 (F := Ideal) m ρ c (Proc.devRef .tc main_v13)
        _ = W21 (F := Ideal) m ρ c (Proc.devRef .tc main_v13) := by unwritten hostOps1_19
        _ = W20 (F := Ideal) m ρ c (Proc.devRef .tc main_v13) := by unwritten hostOps1_18
        _ = W19 (F := Ideal) m ρ c (Proc.devRef .tc main_v13) := by unwritten hostOps1_17
        _ = W18 (F := Ideal) m ρ c (Proc.devRef .tc main_v13) := by unwritten hostOps1_16
        _ = W17 (F := Ideal) m ρ c (Proc.devRef .tc main_v13) := by unwritten hostOps1_15
        _ = W16 (F := Ideal) m ρ c (Proc.devRef .tc main_v13) := by unwritten hostOps1_14
        _ = W15 (F := Ideal) m ρ c (Proc.devRef .tc main_v13) := by unwritten hostOps1_13
        _ = W14 (F := Ideal) m ρ c (Proc.devRef .tc main_v13) := by unwritten hostOps1_12
        _ = W13 (F := Ideal) m ρ c (Proc.devRef .tc main_v13) := by unwritten hostOps1_11
        _ = W12 (F := Ideal) m ρ c (Proc.devRef .tc main_v13) := by unwritten hostOps1_10

  have h13 : (W22 (F := Ideal) m ρ c (Proc.devRef .tc main_v13) : S3072.Idx → BitVec 32) (ix1 q) = BitVec.ofNat 32 (q.val / 192) := by
    rw [e13]; exact val_main_v13 m ρ c q
  have h18 : (W22 (F := Ideal) m ρ c (Proc.devRef .tc main_v18) : S3072.Idx → BitVec 32) (ix1 q) = BitVec.ofNat 32 (q.val % 8) :=
    val_main_v18 m ρ c q
  have hq := q.isLt
  have hj := j.isLt
  refine (congrFun (st_main_v46 (W22 (F := Ideal) m ρ c)) (ix2 q j)).trans ?_
  refine uitofp_cmpi_eq_apply _ _ (ix2 q j) (q.val / 192 * 8 + q.val % 8) j.val ?_ ?_ (by omega) (by omega)
  · rw [rowB_3072_128]
    show IntOp.addi (IntOp.muli ((W22 (F := Ideal) m ρ c (Proc.devRef .tc main_v13) : S3072.Idx → BitVec 32) (ix1 q))
        (broadcastInDim S3072 ![] bcast_S_S3072 (constantI S_ 32 8#32) (ix1 q)))
      ((W22 (F := Ideal) m ρ c (Proc.devRef .tc main_v18) : S3072.Idx → BitVec 32) (ix1 q)) = _
    rw [broadcastInDim_scalar_apply, h13, h18]
    exact muladd_ofNat (q.val / 192) 8 (q.val % 8)
  · rw [colB_3072_128]
    rfl

end Cert.RH
end
-- ==== Proof.Finite.lean ====
/-
  Finiteness out of the precondition. The precondition compares, for each of the six arguments, the absolute
  value of every entry with +∞ (the word 0x7F800000), takes the conjunction over all entries, and conjoins the
  six results. Where it answers 1, every entry x of an argument has max x (−x) < +∞ in the extended reals, so x
  is neither infinity: it is a real number. Stated for the first four arguments.
-/
import proofs.«177386_g2000605918393418_pallasbulk_489_2_alg».proof.Pre_finite_inputs
import proofs.«177386_g2000605918393418_pallasbulk_489_2_alg».proof.Proof.Gen.Pre_finite_inputs
import proofs.«177386_g2000605918393418_pallasbulk_489_2_alg».proof.Proof.LibReal
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value max x (−x) compares below +∞ is a real number. -/
theorem isReal_of_abs_lt (x : EReal)
    (h : Ideal.cmp .olt (max x (-x)) (Ideal.ofBits .f32 0x7F800000#32) = 1#1) : Cert.LibReal.IsReal x := by
  rw [inf_word] at h
  have h' : max x (-x) < ⊤ := by
    by_contra hn
    simp [Ideal.cmp, hn] at h
  rw [Cert.LibReal.isReal_iff]
  constructor
  · rintro rfl; simp at h'
  · rintro rfl; simp at h'

/-- One comparison array of the precondition: |a| < +∞ entry by entry, whose every entry is 1 exactly when a is real. -/
theorem isReal_of_cmp {s : Shape} (a : FVec Ideal s .f32) (hb : S_.BroadcastsInDim s (![] : Fin 0 → Fin s.rank)) (i : s.Idx)
    (h : cmpf (F := Ideal) .olt (Host.absf a) (broadcastInDim s ![] hb (constant S_ .f32 0x7F800000#32)) i = 1#1) :
    Cert.LibReal.IsReal (a i) :=
  isReal_of_abs_lt (a i) h

/-- The precondition (every entry of every argument has absolute value below +∞) makes the first four arguments real. -/
theorem real_of_pre [Cert.Pre_finite_inputs.Facts] (a0 : FVec Ideal S2048x512x8 .f32) (a1 : FVec Ideal S512x128 .f32)
    (a2 a3 : FVec Ideal S128 .f32) (a4 : FVec Ideal S128x3x8x8 .f32) (a5 : FVec Ideal S128x8 .f32)
    (h : Cert.Pre_finite_inputs.fn (F := Ideal) a0 a1 a2 a3 a4 a5 = fun _ => 1#1) :
    (∀ i, Cert.LibReal.IsReal (a0 i)) ∧ (∀ i, Cert.LibReal.IsReal (a1 i)) ∧ (∀ i, Cert.LibReal.IsReal (a2 i))
      ∧ (∀ i, Cert.LibReal.IsReal (a3 i)) := by
  have e := congrFun h ValueIdx.ix0
  unfold fn fn_part1 at e
  simp only [andi, IntOp.andi_eq_one] at e
  obtain ⟨⟨⟨⟨⟨e0, e1⟩, e2⟩, e3⟩, -⟩, -⟩ := e
  exact ⟨fun i => isReal_of_cmp a0 _ i (Host.reduce_andi_all _ _ _ _ _ e0 i),
    fun i => isReal_of_cmp a1 _ i (Host.reduce_andi_all _ _ _ _ _ e1 i),
    fun i => isReal_of_cmp a2 _ i (Host.reduce_andi_all _ _ _ _ _ e2 i),
    fun i => isReal_of_cmp a3 _ i (Host.reduce_andi_all _ _ _ _ _ e3 i)⟩

end Cert.Finite

end
-- ==== Proof.lean ====
/-
  Two Pallas implementations of one adaptive graph convolution compute the same array over the extended
  reals when their float inputs are finite.

  Both normalize the node embeddings (LayerNorm, the same epsilon), form the symmetric logits e·eᵀ, apply
  the exponential linear unit and a softmax — one side along rows, the other along columns, which by the
  symmetry are transposes of each other — and contract the per-node weights e·pool with three Chebyshev
  terms of the input.  One side forms the Chebyshev matrices first (support, 2·T·T − identity) and applies
  them to the input; the other applies the support to the input twice.  For a real support and a real
  input these agree by distributivity (Law.cheb_law): the one step that uses finiteness, which the
  precondition provides (Finite.real_of_pre) and the LayerNorm and softmax preserve (Law).  One side
  contracts (k, i) by explicit products, the other through two constant 0/1 matrices (Contract.contract).
  Both results are the closed form SpecOut.Final of the arguments (KValue.value, RValue.value).

  The three frames are the generated frame certificates; the idealization rewrote nothing.
-/
import proofs.«177386_g2000605918393418_pallasbulk_489_2_alg».proof.Defs
import proofs.«177386_g2000605918393418_pallasbulk_489_2_alg».proof.Proof.Gen.Kernel
import proofs.«177386_g2000605918393418_pallasbulk_489_2_alg».proof.Proof.Gen.Kernel.Skeleton
import proofs.«177386_g2000605918393418_pallasbulk_489_2_alg».proof.Proof.Gen.Kernel.Launch
import proofs.«177386_g2000605918393418_pallasbulk_489_2_alg».proof.Proof.Gen.Kernel.Points
import proofs.«177386_g2000605918393418_pallasbulk_489_2_alg».proof.Proof.Gen.Kernel.Frame
import proofs.«177386_g2000605918393418_pallasbulk_489_2_alg».proof.Proof.Gen.KernelIdeal
import proofs.«177386_g2000605918393418_pallasbulk_489_2_alg».proof.Proof.Gen.KernelIdeal.Skeleton
import proofs.«177386_g2000605918393418_pallasbulk_489_2_alg».proof.Proof.Gen.KernelIdeal.Launch
import proofs.«177386_g2000605918393418_pallasbulk_489_2_alg».proof.Proof.Gen.KernelIdeal.Points
import proofs.«177386_g2000605918393418_pallasbulk_489_2_alg».proof.Proof.Gen.KernelIdeal.Frame
import proofs.«177386_g2000605918393418_pallasbulk_489_2_alg».proof.Proof.Gen.ReferenceIdeal
import proofs.«177386_g2000605918393418_pallasbulk_489_2_alg».proof.Proof.Gen.ReferenceIdeal.Skeleton
import proofs.«177386_g2000605918393418_pallasbulk_489_2_alg».proof.Proof.Gen.ReferenceIdeal.Launch
import proofs.«177386_g2000605918393418_pallasbulk_489_2_alg».proof.Proof.Gen.ReferenceIdeal.Points
import proofs.«177386_g2000605918393418_pallasbulk_489_2_alg».proof.Proof.Gen.ReferenceIdeal.Frame
import proofs.«177386_g2000605918393418_pallasbulk_489_2_alg».proof.Proof.Gen.Pre_finite_inputs
import proofs.«177386_g2000605918393418_pallasbulk_489_2_alg».proof.Proof.KRun
import proofs.«177386_g2000605918393418_pallasbulk_489_2_alg».proof.Proof.RRun
import proofs.«177386_g2000605918393418_pallasbulk_489_2_alg».proof.Proof.KValue1
import proofs.«177386_g2000605918393418_pallasbulk_489_2_alg».proof.Proof.RValue0
import proofs.«177386_g2000605918393418_pallasbulk_489_2_alg».proof.Proof.RValue1
import proofs.«177386_g2000605918393418_pallasbulk_489_2_alg».proof.Proof.RHExpand
import proofs.«177386_g2000605918393418_pallasbulk_489_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.SpecOut Cert.LibReal

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- The fused pool is one array of the two pool arguments on both sides. -/
theorem pool_same (wp : (⟨4, ![128, 3, 8, 8]⟩ : Shape).Idx → EReal) (bp : (⟨2, ![128, 8]⟩ : Shape).Idx → EReal) :
    Cert.RValue.poolCat (F := Ideal) wp bp = Cert.KHost.poolCat (F := Ideal) wp bp := rfl

/-- From memories that agree on the arguments both idealized programs end with the same result array:
    each entry is the closed form of the arguments. -/
theorem algebraic : Cert.algebraic_KernelIdeal_ReferenceIdeal := by
  intro m ρ m' ρ' hpre hagree
  refine ⟨fun c => Cert.KernelIdeal.Gen.W5 (F := Ideal) m ρ c (Proc.devRef .tc Cert.KernelIdeal.main_v8),
    Cert.KRun.run (F := Ideal) m ρ, ?_⟩
  refine (θ_run Cert.ReferenceIdeal.defs _ _).mono (fun r h c => ⟨(h c).1.trans ?_, (h c).2⟩)
    (Cert.RRun.run (F := Ideal) m' ρ')
  obtain ⟨e0, e1, e2, e3, e4, e5⟩ := hagree c
  obtain ⟨h0, h1, h2, h3⟩ := Cert.Finite.real_of_pre _ _ _ _ _ _ (hpre c)
  have hA0 : Cert.RValue.A0' m' c = Cert.KValue.A0 m c := e0
  have hA1 : Cert.RValue.A1' m' c = Cert.KValue.A1 m c := e1
  have hA2 : Cert.RValue.A2' m' c = Cert.KValue.A2 m c := e2
  have hA3 : Cert.RValue.A3' m' c = Cert.KValue.A3 m c := e3
  have hPC : Cert.RValue.PC' m' c = Cert.KValue.PC m c := by
    show Cert.RValue.poolCat (F := Ideal) _ _ = Cert.KHost.poolCat (F := Ideal) _ _
    rw [e4, e5]; exact pool_same _ _
  have hT : ∀ a c', IsReal (Tof (Cert.KValue.A1 m c) (Cert.KValue.A2 m c) (Cert.KValue.A3 m c) a c') :=
    fun a c' => Cert.Law.isReal_SRow (fun n d => h1 (ix2 n d)) (fun d => h2 (ix1 d)) (fun d => h3 (ix1 d)) a c'
  have hX : ∀ b mm i, IsReal (Xof (Cert.KValue.A0 m c) b mm i) := fun b mm i => h0 (ix3 b mm i)
  funext idx
  obtain ⟨b, n, o, rfl⟩ : ∃ b n o, idx = ix3 b n o := ⟨idx 0, idx 1, idx 2, eq_ix3 idx⟩
  refine Eq.trans ?_ (Cert.KValue.value m ρ c b n o).symm
  exact Cert.RValue.value m' ρ' c (Cert.KValue.A0 m c) (Cert.KValue.A1 m c) (Cert.KValue.A2 m c) (Cert.KValue.A3 m c)
    (Cert.KValue.PC m c)
    (fun r n => by rw [Cert.RValue.s1_at, hA1, hA2, hA3])
    (fun n q => by rw [Cert.RValue.wb_at, hA1, hA2, hA3, hPC])
    (fun n J => by rw [Cert.RValue.xt_at, hA0])
    (Cert.RH.expand_apply m' ρ' c) (Cert.RH.reduce_apply m' ρ' c) hT hX b n o

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
